-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S512x128 : Shape := ⟨2, ![512, 128]⟩
abbrev S128 : Shape := ⟨1, ![128]⟩
abbrev S256x128 : Shape := ⟨2, ![256, 128]⟩
abbrev S256x64 : Shape := ⟨2, ![256, 64]⟩
abbrev S64 : Shape := ⟨1, ![64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128 .f32) (main_arg8 : FVec F S256x64 .f32) (main_arg9 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S256x128 .f32) (main_arg5 : FVec F S128 .f32) (main_arg6 : FVec F S256x128 .f32) (main_arg7 : FVec F S128 .f32) (main_arg8 : FVec F S256x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x256 .f32) (main_arg1 : FVec F S8192x8192 .f32) (main_arg2 : FVec F S512x128 .f32) (main_arg3 : FVec F S128 .f32) (main_arg4 : FVec F S256x128 .f32) (main_arg5 : FVec F S128 .f32) (main_arg6 : FVec F S256x128 .f32) (main_arg7 : FVec F S128 .f32) (main_arg8 : FVec F S256x64 .f32) (main_arg9 : FVec F S64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S8192x256 : Shape := ⟨2, ![8192, 256]⟩
abbrev S8192x8192 : Shape := ⟨2, ![8192, 8192]⟩
abbrev S512x128 : Shape := ⟨2, ![512, 128]⟩
abbrev S128 : Shape := ⟨1, ![128]⟩
abbrev S256x128 : Shape := ⟨2, ![256, 128]⟩
abbrev S256x64 : Shape := ⟨2, ![256, 64]⟩
abbrev S64 : Shape := ⟨1, ![64]⟩
abbrev S1x128 : Shape := ⟨2, ![1, 128]⟩
abbrev S8192x128 : Shape := ⟨2, ![8192, 128]⟩
abbrev S1024x1024 : Shape := ⟨2, ![1024, 1024]⟩
abbrev S1024x256 : Shape := ⟨2, ![1024, 256]⟩
abbrev S1024x128 : Shape := ⟨2, ![1024, 128]⟩
abbrev S128x128 : Shape := ⟨2, ![128, 128]⟩
abbrev S1x64 : Shape := ⟨2, ![1, 64]⟩
abbrev S8192x64 : Shape := ⟨2, ![8192, 64]⟩
abbrev S1024x64 : Shape := ⟨2, ![1024, 64]⟩
abbrev S128x64 : Shape := ⟨2, ![128, 64]⟩

abbrev nBuf : Space → Nat
  | .hbm => 18
  | .vmem => 44
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S512x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x64, .f32⟩
  | .hbm, ⟨9, _⟩ => ⟨S64, .f32⟩
  | .hbm, ⟨10, _⟩ => ⟨S1x128, .f32⟩
  | .hbm, ⟨11, _⟩ => ⟨S8192x128, .f32⟩
  | .hbm, ⟨12, _⟩ => ⟨S1x128, .f32⟩
  | .hbm, ⟨13, _⟩ => ⟨S8192x128, .f32⟩
  | .hbm, ⟨14, _⟩ => ⟨S1x128, .f32⟩
  | .hbm, ⟨15, _⟩ => ⟨S8192x128, .f32⟩
  | .hbm, ⟨16, _⟩ => ⟨S1x64, .f32⟩
  | .hbm, ⟨17, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S512x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x256, .f32⟩
  | .local _ .vmem, ⟨11, _⟩ => ⟨S1024x1024, .f32⟩
  | .local _ .vmem, ⟨12, _⟩ => ⟨S1024x1024, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S256x128, .f32⟩
  | .local _ .vmem, ⟨18, _⟩ => ⟨S1x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x1024, .f32⟩
  | .local _ .vmem, ⟨23, _⟩ => ⟨S1024x1024, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S256x128, .f32⟩
  | .local _ .vmem, ⟨29, _⟩ => ⟨S1x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x1024, .f32⟩
  | .local _ .vmem, ⟨34, _⟩ => ⟨S1024x1024, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S256x64, .f32⟩
  | .local _ .vmem, ⟨40, _⟩ => ⟨S1x64, .f32⟩
  | .local _ .vmem, ⟨41, _⟩ => ⟨S1024x64, .f32⟩
  | .local _ .vmem, ⟨42, _⟩ => ⟨S1024x64, .f32⟩
  | .local _ .vmem, ⟨43, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg5_1 : Ref sig .tc := ⟨.vmem, 42, rfl⟩
abbrev cc3_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1024x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  slices_S512x128_o0_0_S256x128 : S512x128.Slices ![0, 0] S256x128
  slices_S512x128_o256_0_S256x128 : S512x128.Slices ![256, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  shapeCasts_S64_S1x64 : S64.ShapeCasts S1x64
  inb_S256x64_S256x64_0_0 : ∀ a, (![0, 0] : Fin 2 → Nat) a + S256x64.size a ≤ S256x64.size a
  h_S256x64 : 0 < S256x64.numel
  slices_S256x64_o0_0_S128x64 : S256x64.Slices ![0, 0] S128x64
  slices_S256x64_o128_0_S128x64 : S256x64.Slices ![128, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .f32 = 32 ∨ (Rect.block (s := S8192x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S8192x128.size a
  hwx2_5 : ∀ i : grid2.Coords, EltTy.bits .f32 = 32 ∨ (Rect.block (s := S8192x128) S1024x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S8192x128.size a
  hwx3_2 : ∀ i : grid3.Coords, EltTy.bits .f32 = 32 ∨ (Rect.block (s := S8192x128) S1024x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .f32 = 32 ∨ (Rect.block (s := S256x64) S256x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x64.size a ≤ S8192x64.size a
  hwx3_5 : ∀ i : grid3.Coords, EltTy.bits .f32 = 32 ∨ (Rect.block (s := S8192x64) S1024x64.size (cc3_transform_5 i) (hinb3_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1024x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_arg1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S256x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1024x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S512x128 : Shape := ⟨2, ![512, 128]⟩
abbrev S128 : Shape := ⟨1, ![128]⟩
abbrev S256x128 : Shape := ⟨2, ![256, 128]⟩
abbrev S256x64 : Shape := ⟨2, ![256, 64]⟩
abbrev S64 : Shape := ⟨1, ![64]⟩
abbrev S8192x512 : Shape := ⟨2, ![8192, 512]⟩
abbrev S8192x128 : Shape := ⟨2, ![8192, 128]⟩
abbrev S1x128 : Shape := ⟨2, ![1, 128]⟩
abbrev S_ : Shape := ⟨0, ![]⟩
abbrev S8192x64 : Shape := ⟨2, ![8192, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S512x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x64, .f32⟩
  | .hbm, ⟨9, _⟩ => ⟨S64, .f32⟩
  | .hbm, ⟨10, _⟩ => ⟨S8192x256, .f32⟩
  | .hbm, ⟨11, _⟩ => ⟨S8192x512, .f32⟩
  | .hbm, ⟨12, _⟩ => ⟨S8192x128, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S_, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x256, .f32⟩
  | .hbm, ⟨21, _⟩ => ⟨S8192x128, .f32⟩
  | .hbm, ⟨22, _⟩ => ⟨S1x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x256, .f32⟩
  | .hbm, ⟨30, _⟩ => ⟨S8192x128, .f32⟩
  | .hbm, ⟨31, _⟩ => ⟨S1x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x256, .f32⟩
  | .hbm, ⟨39, _⟩ => ⟨S8192x64, .f32⟩
  | .hbm, ⟨40, _⟩ => ⟨S1x64, .f32⟩
  | .hbm, ⟨41, _⟩ => ⟨S8192x64, .f32⟩
  | .hbm, ⟨42, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call2_cst : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  concatenates_S8192x256_S8192x256_S8192x512_d1 : Shape.Concatenates [S8192x256, S8192x256] S8192x512 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  concatenates_S8192x128_S8192x128_S8192x256_d1 : Shape.Concatenates [S8192x128, S8192x128] S8192x256 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x8192_S8192x256_S8192x256_1_0_0_1_n_n_wf : DotDims.WF S8192x8192 S8192x256 S8192x256 [1] [0] [0] [1] [] []
  dot_S8192x512_S512x128_S8192x128_1_0_0_1_n_n_wf : DotDims.WF S8192x512 S512x128 S8192x128 [1] [0] [0] [1] [] []
  dot_S8192x8192_S8192x128_S8192x128_1_0_0_1_n_n_wf : DotDims.WF S8192x8192 S8192x128 S8192x128 [1] [0] [0] [1] [] []
  dot_S8192x256_S256x128_S8192x128_1_0_0_1_n_n_wf : DotDims.WF S8192x256 S256x128 S8192x128 [1] [0] [0] [1] [] []
  dot_S8192x256_S256x64_S8192x64_1_0_0_1_n_n_wf : DotDims.WF S8192x256 S256x64 S8192x64 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

class Facts : Prop extends Facts₀ where

variable [Facts]
-- ==== Proof.KB.Dat0.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0: what each staging buffer and the accumulator hold, point by point

The grid is 8 × 8, point `t` = (row tile `t / 8`, reduction step `t % 8`). The accumulator is reset at reduction
step 0, gains one tile product per step, and the output tile is computed from it at step 7. Everything is stated
over `V`, the contents of the unscoped buffers when the call is entered. -/

section Call0

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: at a reduction step 0 the tile product added to zeros, otherwise
    added to what the position before left. -/
def accAt0 (c : Dev nD) : (n : ℕ) → n < cfg0.N → Vec F S1024x256 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (accAt0 c n (Nat.lt_of_succ_lt hn))

/-- The output tile the body computes at point `t` from the accumulator it has just updated. -/
def outAt0 (c : Dev nD) (t : Fin cfg0.N) : Vec F S1024x128 .f32 :=
  k0_pay3 (accAt0 V c t.val t.isLt) (iblk0 V c 2 t) (iblk0 V c 3 t) (iblk0 V c 4 t)

theorem accAt0_first (c : Dev nD) (t : Fin cfg0.N) (h : t.val % 8 = 0) :
    accAt0 V c t.val t.isLt = k0_pay2 (iblk0 V c 0 t) (iblk0 V c 1 t) (k0_pay1 (F := F)) := by
  obtain ⟨n, hn⟩ := t
  cases n with
  | zero => rfl
  | succ n => exact (if_pos h)

theorem accAt0_next (c : Dev nD) (t : Fin cfg0.N) (h : ¬ t.val % 8 = 0) :
    accAt0 V c t.val t.isLt = k0_pay2 (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h
  | succ n => exact (if_neg h)

/-- The scratch operand: a whole scoped buffer of the call's own, passed beside the windows. -/
abbrev scM0 : Memref sig .tc .vmem S1024x256 .f32 := Memref.whole cc0_scratch0

/-- The scoped buffers that are neither a staging buffer of the call nor its scratch, each at anything. -/
abbrev restBut0 (c : Dev nD) : sProp 𝕄 :=
  Pipeline.scopedRestBut (Ix := Unit) (Name := ℕ) (U := UR sig nD τ) (Lvl := ℕ) (Val := Elt F) spec0 c [cc0_scratch0]

/-- The call's invariant before position `n`: before the first point every scoped buffer the call does not stage at
    anything, and the generator register at some state; afterwards the same with the accumulator at what position
    `n - 1` left in it. -/
def Phi0 (c : Dev nD) : (n : ℕ) → n ≤ cfg0.N → sProp 𝕄
  | 0, _ => Pipeline.ΦA spec0 c
  | n + 1, hn => iprop(owns (c : Thread nD τ) scM0 fullShare (accAt0 V c n hn) ∗ restBut0 (F := F) c ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (accAt0 V c n hn) ∗ restBut0 (F := F) c ∗ (∃ r, prngReg c r)) := rfl

theorem Phi0_pos (c : Dev nD) (n : ℕ) (h : n ≤ cfg0.N) (hz : n ≠ 0) :
    Phi0 V c n h = iprop(owns (c : Thread nD τ) scM0 fullShare (accAt0 V c (n - 1) (by omega)) ∗ restBut0 (F := F) c ∗ (∃ r, prngReg c r)) := by
  cases n with
  | zero => exact absurd rfl hz
  | succ n => rfl

/-- Before the first point: the scratch at anything, the other scoped buffers, the generator register. -/
theorem PhiA0_eq (c : Dev nD) :
    (Pipeline.ΦA spec0 c : sProp 𝕄)
      = iprop(iprop((∃ d, owns (c : Thread nD τ) scM0 fullShare d) ∗ restBut0 (F := F) c) ∗ (∃ r, prngReg c r)) := by
  unfold Pipeline.ΦA; rw [scopedRest0_split]; simp only [scM0, owns_whole]; rfl

/-- The proof data of call 0 on core `c`. The arrays are the entry contents; after the body each input's buffer
    holds its block and the output's holds the tile computed at that point (read only where the point stores it);
    the array read through windows 1 and 2 is held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt0 V c t
  Φ t := Phi0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt0 V c t := by dsimp only [dat0]

/-- Each input's current staging buffer holds its block at every point, fetched there or not: where it is not
    fetched its block index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

end Call0

end Cert.Kernel.Hand

end
-- ==== Proof.LibWholeAccess.lean ====
/-
  Whole-buffer accesses, over any shape. A kernel body that loads a buffer through the rectangle "offsets zero, extent
  the whole shape" reads the buffer's contents, and one that stores through it leaves exactly what it stored. Stated
  once for an abstract shape, so that no proof about a particular (large) buffer ever unfolds its extents.
-/
import Idealize.ShloMosaic.Lib.Pipeline.FrameBody
import Idealize.ShloMosaic.Lib.Pipeline.Value

namespace Idealize.ShloMosaic.View

variable {Val : EltTy → Type} {sig : RefSig} {κ : Kind} {sp : Space} {S : Shape} {e : EltTy}

/-- A load through the whole-shape rectangle at zero offsets (however the zeros are spelt) reads the buffer. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

/-- After ONE store through that rectangle the buffer reads as the stored value, whatever it held before. -/
theorem read_writes_whole_unit [∀ e, Nonempty (Val e)] (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb]

/-! ### Matrices: the zero offsets spelt `![0, 0]`, as a printed kernel spells them -/

/-- The offsets of a whole-buffer access of a matrix are zero. -/
theorem zeros2 : (![0, 0] : Fin 2 → ℕ) = fun _ => 0 := by
  funext a; fin_cases a <;> rfl

theorem readAt_whole2 {n m : ℕ} (v : View sig κ sp ⟨2, ![n, m]⟩ e) (f : v.ty.Contents Val)
    (inb : ∀ a, (![0, 0] : Fin 2 → ℕ) a + (⟨2, ![n, m]⟩ : Shape).size a ≤ (⟨2, ![n, m]⟩ : Shape).size a) :
    v.readAt Val (Rect.unit (s := ⟨2, ![n, m]⟩) ![0, 0] (⟨2, ![n, m]⟩ : Shape).size inb).toLoadRect f = v.read Val f :=
  readAt_whole v f zeros2 inb

theorem read_writes_whole2 [∀ e, Nonempty (Val e)] {n m : ℕ} (v : View sig κ sp ⟨2, ![n, m]⟩ e) (f : v.ty.Contents Val)
    (inb : ∀ a, (![0, 0] : Fin 2 → ℕ) a + (⟨2, ![n, m]⟩ : Shape).size a ≤ (⟨2, ![n, m]⟩ : Shape).size a)
    (w : (⟨2, ![n, m]⟩ : Shape).Idx → Val e) :
    v.read Val (v.writes Val f [(⟨Rect.unit (s := ⟨2, ![n, m]⟩) ![0, 0] (⟨2, ![n, m]⟩ : Shape).size inb, w⟩ : View.Piece Val ⟨2, ![n, m]⟩ e)]) = w :=
  read_writes_whole_unit v f zeros2 inb w

end Idealize.ShloMosaic.View
-- ==== Proof.KB.BodyK0.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import Idealize.ShloMosaic.Lib.Pipeline.FrameBody
import Idealize.ShloMosaic.Lib.Pipeline.FrameSuffix
import Idealize.ShloMosaic.Lib.Tactic
import proofs.«100139_j56126632624275_1_alg».proof.Proof.LibWholeAccess

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The body of kernel call 0, one grid point at a time

The body runs at a point `(i, k)` of an 8 × 8 grid; `k` is the reduction coordinate. It keeps a running sum in a
scratch buffer: at `k = 0` the sum is first set to zero; at every `k` the product of the adjacency tile with the
feature rows of the step is added to it; at `k = 7` the output tile is computed from the finished sum, the
feature rows of the output tile, the weights and the bias. Every access reads or writes a whole buffer. The three
theorems below give, for the three kinds of point (`k = 0`, `0 < k < 7`, `k = 7`), what each buffer holds after the
body in terms of what it held before, the arithmetic staying behind the payload names. -/

/-- The first guard of the body, as a function of the reduction coordinate alone: it holds exactly at coordinate 0. -/
private theorem guard_first_iff : ∀ j : Fin 8,
    Scalar.cmpi .ne (Scalar.extui (Scalar.cmpi .eq (BitVec.ofNat 32 j.val) 0#32)) 0#32 = 1#1 ↔ j.val = 0 := by decide

/-- The second guard, likewise: it holds exactly at coordinate 7. -/
private theorem guard_last_iff : ∀ j : Fin 8,
    Scalar.cmpi .ne (Scalar.extui (Scalar.cmpi .eq (BitVec.ofNat 32 j.val) 7#32)) 0#32 = 1#1 ↔ j.val = 7 := by decide

/-- The second guard as the program names it, at a grid point. -/
private theorem cond2_iff (i : grid0.Coords) : k0_cond2 i = 1#1 ↔ (i 1).val = 7 := by
  unfold k0_cond2; exact guard_last_iff (i 1)

/-- A store through the whole-shape rectangle at zero offsets, made LAST, leaves its payload, whatever was stored before it. -/
private theorem read_writes_cons_whole_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb]

/-- The same for a matrix, the same for a matrix, the two zero offsets written out. -/
private theorem read_writes_cons_whole2 {Val : EltTy → Type} [∀ e, Nonempty (Val e)] {sg : RefSig} {κ : Kind} {sp : Space} {e : EltTy} {n m : ℕ}
    (v : View sg κ sp ⟨2, ![n, m]⟩ e) (f : v.ty.Contents Val)
    (inb : ∀ a, (![0, 0] : Fin 2 → ℕ) a + (⟨2, ![n, m]⟩ : Shape).size a ≤ (⟨2, ![n, m]⟩ : Shape).size a)
    (w : (⟨2, ![n, m]⟩ : Shape).Idx → Val e) (L : List (View.Piece Val ⟨2, ![n, m]⟩ e)) :
    v.read Val (v.writes Val f ((⟨Rect.unit (s := ⟨2, ![n, m]⟩) ![0, 0] (⟨2, ![n, m]⟩ : Shape).size inb, w⟩ : View.Piece Val ⟨2, ![n, m]⟩ e) :: L)) = w :=
  read_writes_cons_whole_unit v f View.zeros2 inb w L

/-- A load through that rectangle of what ONE store through it left reads the stored payload. -/
private theorem readCov_whole2 {Val : EltTy → Type} [∀ e, Nonempty (Val e)] {sg : RefSig} {κ : Kind} {sp : Space} {e : EltTy} {n m : ℕ}
    (v : View sg κ sp ⟨2, ![n, m]⟩ e)
    (inb : ∀ a, (![0, 0] : Fin 2 → ℕ) a + (⟨2, ![n, m]⟩ : Shape).size a ≤ (⟨2, ![n, m]⟩ : Shape).size a)
    (w : (⟨2, ![n, m]⟩ : Shape).Idx → Val e) :
    v.readCov [(⟨Rect.unit (s := ⟨2, ![n, m]⟩) ![0, 0] (⟨2, ![n, m]⟩ : Shape).size inb, w⟩ : View.Piece Val ⟨2, ![n, m]⟩ e)]
      (Rect.unit (s := ⟨2, ![n, m]⟩) ![0, 0] (⟨2, ![n, m]⟩ : Shape).size inb).toLoadRect = w :=
  View.readCov_unit_zero v View.zeros2 inb w

set_option maxHeartbeats 1000000 in
/-- At reduction coordinate 0. Before: the adjacency tile's buffer holds `a`, the step's feature rows' buffer `xk`, the
    running sum's buffer anything. After: the first two are unchanged and the running sum holds the accumulate payload
    of `a`, `xk` and the zero payload — the sum was zeroed, read back, and the step's product added. The other
    buffers are not touched. -/
theorem run0_first (c : Dev nD) (E : Set ℕ) (i : grid0.Coords) (hk : (i 1).val = 0)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x256 .f32) (harg8 : arg8.IsWhole)
    (a : Vec F S1024x1024 .f32) (xk : Vec F S1024x256 .f32) (K : PUnit → sProp 𝕄) :
    iprop(owns (c : Thread nD τ) arg2 fullShare a ∗ owns (c : Thread nD τ) arg3 fullShare xk ∗ (∃ d, owns (c : Thread nD τ) arg8 fullShare d)
        ∗ (iprop(owns (c : Thread nD τ) arg2 fullShare a ∗ owns (c : Thread nD τ) arg3 fullShare xk
            ∗ owns (c : Thread nD τ) arg8 fullShare (k0_pay2 a xk (k0_pay1 (F := F)))) -∗ K ⟨⟩))
      ⊢ wp frame (wpE (defs₀ (F := F)) Variants.none c none) E
          (cc0_kernel i arg2 harg2 arg3 harg3 arg4 harg4 arg5 harg5 arg6 harg6 arg7 harg7 arg8 harg8) K := by
  have hc1 : Scalar.cmpi .ne (Scalar.extui (Scalar.cmpi .eq (BitVec.ofNat 32 (i 1).val) 0#32)) 0#32 = 1#1 :=
    (guard_first_iff (i 1)).2 hk
  have hc2 : ¬ (k0_cond2 i = 1#1) := fun h => by have h7 := (cond2_iff i).1 h; omega
  simp only [cc0_kernel_eq_skeleton]; unfold cc0_kernel_skel
  unfold owns
  iintro ⟨⟨%f2, %hf2, H2⟩, ⟨%f3, %hf3, H3⟩, ⟨%d8, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_run_names
  rw [read_writes_cons_whole2, readCov_whole2, View.readAt_whole2, View.readAt_whole2]

set_option maxHeartbeats 1000000 in
/-- At a reduction coordinate strictly between 0 and 7. Before: the adjacency tile's buffer holds `a`, the step's
    feature rows' buffer `xk`, the running sum's buffer `acc`. After: the first two are unchanged and the running sum
    holds the accumulate payload of `a`, `xk` and `acc`. The other buffers are not touched. -/
theorem run0_mid (c : Dev nD) (E : Set ℕ) (i : grid0.Coords) (hk0 : (i 1).val ≠ 0) (hk7 : (i 1).val ≠ 7)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x256 .f32) (harg8 : arg8.IsWhole)
    (a : Vec F S1024x1024 .f32) (xk : Vec F S1024x256 .f32) (acc : Vec F S1024x256 .f32) (K : PUnit → sProp 𝕄) :
    iprop(owns (c : Thread nD τ) arg2 fullShare a ∗ owns (c : Thread nD τ) arg3 fullShare xk ∗ owns (c : Thread nD τ) arg8 fullShare acc
        ∗ (iprop(owns (c : Thread nD τ) arg2 fullShare a ∗ owns (c : Thread nD τ) arg3 fullShare xk
            ∗ owns (c : Thread nD τ) arg8 fullShare (k0_pay2 a xk acc)) -∗ K ⟨⟩))
      ⊢ wp frame (wpE (defs₀ (F := F)) Variants.none c none) E
          (cc0_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => hk0 ((guard_first_iff (i 1)).1 h)
  have hc2 : ¬ (k0_cond2 i = 1#1) := fun h => hk7 ((cond2_iff i).1 h)
  simp only [cc0_kernel_eq_skeleton]; unfold cc0_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  rw [View.read_writes_whole2, View.readAt_whole2, View.readAt_whole2, View.readAt_whole2]

set_option maxHeartbeats 1000000 in
/-- At reduction coordinate 7. Before: the adjacency tile's buffer holds `a`, the step's feature rows' buffer `xk`, the
    running sum's buffer `acc`, the output tile's feature rows' buffer `xi`, the weights' buffer `w`, the bias's buffer `b`,
    the output tile's buffer anything. After: the inputs are unchanged, the running sum holds the accumulate payload
    `s` of `a`, `xk` and `acc`, and the output tile holds the output payload of `s`, `xi`, `w` and `b`. -/
theorem run0_last (c : Dev nD) (E : Set ℕ) (i : grid0.Coords) (hk : (i 1).val = 7)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x256 .f32) (harg8 : arg8.IsWhole)
    (a : Vec F S1024x1024 .f32) (xk : Vec F S1024x256 .f32) (acc : Vec F S1024x256 .f32)
    (xi : Vec F S1024x256 .f32) (w : Vec F S512x128 .f32) (b : Vec F S1x128 .f32) (K : PUnit → sProp 𝕄) :
    iprop(owns (c : Thread nD τ) arg2 fullShare a ∗ owns (c : Thread nD τ) arg3 fullShare xk ∗ owns (c : Thread nD τ) arg8 fullShare acc
        ∗ owns (c : Thread nD τ) arg4 fullShare xi ∗ owns (c : Thread nD τ) arg5 fullShare w ∗ owns (c : Thread nD τ) arg6 fullShare b
        ∗ (∃ d, owns (c : Thread nD τ) arg7 fullShare d)
        ∗ (iprop(owns (c : Thread nD τ) arg2 fullShare a ∗ owns (c : Thread nD τ) arg3 fullShare xk
            ∗ owns (c : Thread nD τ) arg8 fullShare (k0_pay2 a xk acc)
            ∗ owns (c : Thread nD τ) arg4 fullShare xi ∗ owns (c : Thread nD τ) arg5 fullShare w ∗ owns (c : Thread nD τ) arg6 fullShare b
            ∗ owns (c : Thread nD τ) arg7 fullShare (k0_pay3 (k0_pay2 a xk acc) xi w b)) -∗ K ⟨⟩))
      ⊢ wp frame (wpE (defs₀ (F := F)) Variants.none c none) E
          (cc0_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => by have h0 := (guard_first_iff (i 1)).1 h; omega
  have hc2 : k0_cond2 i = 1#1 := (cond2_iff i).2 hk
  simp only [cc0_kernel_eq_skeleton]; unfold cc0_kernel_skel
  unfold owns
  iintro ⟨⟨%f2, %hf2, H2⟩, ⟨%f3, %hf3, H3⟩, ⟨%f8, %hf8, H8⟩, ⟨%f4, %hf4, H4⟩, ⟨%f5, %hf5, H5⟩, ⟨%f6, %hf6, H6⟩, ⟨%d7, %f7, -, H7⟩, Hk⟩
  subst hf2; subst hf3; subst hf8; subst hf4; subst hf5; subst hf6
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H8]
  · iexists _; isplitr
    swap; · iexact H8
    ipureintro
    sl_unfold_run_names
    rw [View.read_writes_whole2, View.readAt_whole2, View.readAt_whole2, View.readAt_whole2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_whole2, readCov_whole2, View.readAt_whole2, View.readAt_whole2, View.readAt_whole2, View.readAt_whole2,
    View.readAt_whole2, View.readAt_whole2]

end Cert.Kernel.Body

end
-- ==== Proof.KB.Body0.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Dat0
import proofs.«100139_j56126632624275_1_alg».proof.Proof.KB.BodyK0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body

/-! # Call 0: the body at a point keeps the proof data

Three kinds of point, by the reduction step `t % 8`: at step 0 the accumulator is reset and gains the first tile
product; at steps 1–6 it gains one more; at step 7 it gains the last and the output tile is computed from it and
stored. The output window is idle (its buffer untouched, not written back) at every step but 7. -/

section Call0

variable (V : (c : Dev nD) → (b : Ref sig .tc) → Buf (Elt F) ((c : Thread nD τ).loc b))

/-- The reduction step of point `t` is `t % 8`. -/
theorem step0 : ∀ t : Fin cfg0.N, ((grid0.coords t) 1).val = t.val % 8 :=
  (by decide +kernel : ∀ t : Fin grid0.N, ((grid0.coords t) 1).val = t.val % 8)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- The output window is idle away from the last reduction step, live at it. -/
theorem idle0_5 : ∀ t : Fin cfg0.N, ¬ t.val % 8 = 7 → cfg0.idle 5 (grid0.coords t) = true := by decide +kernel
theorem live0_5 : ∀ t : Fin cfg0.N, t.val % 8 = 7 → cfg0.idle 5 (grid0.coords t) = false := by decide +kernel
theorem noFlush0_5 (t : Fin cfg0.N) (h : ¬ t.val % 8 = 7) : (cfg0.win 5).flush t = false := by
  cases hf : (cfg0.win 5).flush t with
  | false => rfl
  | true => exact absurd ((flush0_5 t).mp hf) h

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  have hN : t.val < 64 := lt_of_lt_of_eq t.isLt (show cfg0.N = 64 from N_0)
  have hstep := step0 t
  rw [Phi0_castSucc V c t]
  by_cases h0 : t.val % 8 = 0
  · -- reduction step 0: reset, first tile product
    have h7 : ¬ t.val % 8 = 7 := by omega
    rw [Dat.leavesExact_idle (dat0 V c) 5 t (idle0_5 t h7) (noFlush0_5 t h7)]
    rw [accAt0_first V c t h0]
    by_cases hz : t.val = 0
    · rw [Phi0_zero V c _ _ hz, PhiA0_eq]
      iintro ⟨⟨⟨HS, Hrest⟩, Hg⟩, Ho, ⟨%d0, H0⟩, ⟨%d1, H1⟩, ⟨%d2, H2⟩, ⟨%d3, H3⟩, ⟨%d4, H4⟩, H5⟩
      iapply (run0_first c Set.univ (grid0.coords t) (by rw [hstep]; exact h0) _ _ _ _ _ _ _ _ _ _ _ _ _ _ (iblk0 V c 0 t) (iblk0 V c 1 t) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi0_pos V c _ _ hz]
      iintro ⟨⟨HS, Hrest, Hg⟩, Ho, ⟨%d0, H0⟩, ⟨%d1, H1⟩, ⟨%d2, H2⟩, ⟨%d3, H3⟩, ⟨%d4, H4⟩, H5⟩
      iapply (run0_first c Set.univ (grid0.coords t) (by rw [hstep]; exact h0) _ _ _ _ _ _ _ _ _ _ _ _ _ _ (iblk0 V c 0 t) (iblk0 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [Phi0_pos V c _ _ hz]
    by_cases h7 : t.val % 8 = 7
    · -- reduction step 7: last tile product, then the output tile
      rw [show (dat0 V c).leavesExact 5 t = owns (c : Thread nD τ) (ms0_5 t) fullShare ((dat0 V c).after 5 t) from by
        unfold Dat.leavesExact; rw [live0_5 t h7], after0_5]
      unfold outAt0
      rw [accAt0_next V c t h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run0_last c Set.univ (grid0.coords t) (by rw [hstep]; exact h7) _ _ _ _ _ _ _ _ _ _ _ _ _ _ (iblk0 V c 0 t) (iblk0 V c 1 t)
        (accAt0 V c (t.val - 1) (Nat.lt_of_le_of_lt (Nat.sub_le _ _) t.isLt)) (iblk0 V c 2 t) (iblk0 V c 3 t) (iblk0 V c 4 t) _)
      isplitl [H0]; · iexact H0
      isplitl [H1]; · iexact H1
      isplitl [HS]; · iexact HS
      isplitl [H2]; · iexact H2
      isplitl [H3]; · iexact H3
      isplitl [H4]; · iexact H4
      isplitl [H5]; · iexists _; iexact H5
      iintro ⟨H0, H1, HS, H2, H3, H4, H5⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- reduction steps 1 to 6: one more tile product
      rw [Dat.leavesExact_idle (dat0 V c) 5 t (idle0_5 t h7) (noFlush0_5 t h7)]
      rw [accAt0_next V c t h0]
      iintro ⟨⟨HS, Hrest, Hg⟩, Ho, ⟨%d0, H0⟩, ⟨%d1, H1⟩, ⟨%d2, H2⟩, ⟨%d3, H3⟩, ⟨%d4, H4⟩, H5⟩
      iapply (run0_mid c Set.univ (grid0.coords t) (by rw [hstep]; exact h0) (by rw [hstep]; exact h7) _ _ _ _ _ _ _ _ _ _ _ _ _ _ (iblk0 V c 0 t) (iblk0 V c 1 t)
        (accAt0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Call0

end Cert.Kernel.Hand

end
-- ==== Proof.KB.Seg0.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Dat0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)
open PCS

/-! # Call 0 among the core's unscoped buffers

The call's six windows stand on FIVE distinct buffers: windows 1 and 2 both read the feature matrix. Entering the call,
that buffer's full share is dealt half to each of the two windows; leaving it, the halves (which still hold the same
contents: inputs are never written) are put back together. The output array comes back at what the write-backs left. -/

section Call0

variable (W : Dev nD → Valuation τ sig (Elt F))

/-- The valuation read at the TensorCore's references. -/
abbrev VW (c : Dev nD) (b : Ref sig .tc) : Buf (Elt F) ((c : Thread nD τ).loc b) := W c b

/-- The buffers behind the call's arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg0) ↦{fullShare} V main_arg0)
          ∗ (((c : Thread nD τ).loc main_arg2) ↦{fullShare} V main_arg2) ∗ (((c : Thread nD τ).loc main_v0) ↦{fullShare} V main_v0)
          ∗ (((c : Thread nD τ).loc main_v1) ↦{fullShare} V main_v1)) := by
  unfold Pipeline.arrBufs
  exact bigSep_eq_bigSepL_of_eq [main_arg1, main_arg0, main_arg2, main_v0, main_v1] (by decide) (by decide) _

/-- The two halves of the full share make it. -/
theorem halves : fullShare ∈ (fullShare.left ·? fullShare.right) :=
  PosShare.mem_left_op_right fullShare

/-- What the call leaves in the core's unscoped buffers: the entry contents, the output array at what the
    write-backs left. -/
def exitW0 (c : Dev nD) : Valuation τ sig (Elt F) :=
  Function.update (W c) main_v1 ((dat0 (VW W) c).arrAt 5 cfg0.N)

theorem entry0 (c : Dev nD) :
    (StableHlo.held (c : Thread nD τ) (Pipeline.ucRefs τ sig) (W c) : sProp 𝕄)
      ⊢ iprop((dat0 (VW W) c).arrays ((dat0 (VW W) c).arrAt · 0)
          ∗ Pipeline.unscopedRest (Ix := Unit) (Name := ℕ) (U := UR sig nD τ) (Lvl := ℕ) spec0 c (VW W c)) := by
  rw [← Pipeline.unscopedBufs_held (Ix := Unit) (Name := ℕ) (U := UR sig nD τ) (Lvl := ℕ) c (W c)]
  rw [Pipeline.unscopedBufs_split₀ cfgs (0 : Fin 4) winFacts₀0.arr_unscoped c]
  refine sep_mono ?_ .rfl
  refine (Entails.of_eq (arrBufs0_eq c (VW W c))).trans ?_
  unfold Dat.arrays; rw [bigSep_W0]
  have e0 : (dat0 (VW W) c).share 0 = fullShare := rfl
  have e1 : (dat0 (VW W) c).share 1 = fullShare.left := rfl
  have e2 : (dat0 (VW W) c).share 2 = fullShare.right := rfl
  have e3 : (dat0 (VW W) c).share 3 = fullShare := rfl
  have e4 : (dat0 (VW W) c).share 4 = fullShare := rfl
  have e5 : (dat0 (VW W) c).share 5 = fullShare := rfl
  rw [e0, e1, e2, e3, e4, e5]
  simp only [View.set_whole]
  iintro ⟨H1, H0, H2, Hv0, Hv1⟩
  ihave Hs := (pointsTo_share halves).1 $$ H0
  icases Hs with ⟨H0l, H0r⟩
  isplitl [H1]; · iexact H1
  isplitl [H0l]; · iexact H0l
  isplitl [H0r]; · iexact H0r
  isplitl [H2]; · iexact H2
  isplitl [Hv0]; · iexact Hv0
  iexact Hv1

/-- The updated valuation agrees with the entry contents off the output array. -/
theorem exitW0_of_ne (c : Dev nD) (b : Ref sig .tc) (h : b ≠ main_v1) : exitW0 W c b = W c b := by
  unfold exitW0
  exact Function.update_of_ne (StableHlo.devRef_ne_of_ne h : (Proc.devRef .tc b : DevRef τ sig) ≠ Proc.devRef .tc main_v1) _ _

/-- and holds the output array at what the write-backs left. -/
theorem exitW0_out (c : Dev nD) : exitW0 W c main_v1 = (dat0 (VW W) c).arrAt 5 cfg0.N := by
  unfold exitW0; exact Function.update_self _ _ _

set_option maxHeartbeats 2000000 in
theorem exit0 (c : Dev nD) :
    iprop((dat0 (VW W) c).arrays ((dat0 (VW W) c).arrAt · cfg0.N)
        ∗ Pipeline.unscopedRest (Ix := Unit) (Name := ℕ) (U := UR sig nD τ) (Lvl := ℕ) spec0 c (VW W c))
      ⊢ (StableHlo.held (c : Thread nD τ) (Pipeline.ucRefs τ sig) (exitW0 W c) : sProp 𝕄) := by
  rw [← Pipeline.unscopedBufs_held (Ix := Unit) (Name := ℕ) (U := UR sig nD τ) (Lvl := ℕ) c (exitW0 W c)]
  rw [Pipeline.unscopedBufs_split₀ cfgs (0 : Fin 4) winFacts₀0.arr_unscoped c]
  refine sep_mono ?_ (Entails.of_eq ?_)
  · refine .trans ?_ (Entails.of_eq (arrBufs0_eq c (VW (exitW0 W) c)).symm)
    unfold Dat.arrays; rw [bigSep_W0]
    have e0 : (dat0 (VW W) c).share 0 = fullShare := rfl
    have e1 : (dat0 (VW W) c).share 1 = fullShare.left := rfl
    have e2 : (dat0 (VW W) c).share 2 = fullShare.right := rfl
    have e3 : (dat0 (VW W) c).share 3 = fullShare := rfl
    have e4 : (dat0 (VW W) c).share 4 = fullShare := rfl
    have e5 : (dat0 (VW W) c).share 5 = fullShare := rfl
    rw [e0, e1, e2, e3, e4, e5]
    simp only [View.set_whole]
    rw [(dat0 (VW W) c).arrAt_in 0 rfl, (dat0 (VW W) c).arrAt_in 1 rfl, (dat0 (VW W) c).arrAt_in 2 rfl,
      (dat0 (VW W) c).arrAt_in 3 rfl, (dat0 (VW W) c).arrAt_in 4 rfl]
    simp only [A_eq0]
    rw [show VW (exitW0 W) c main_arg1 = VW W c main_arg1 from exitW0_of_ne W c main_arg1 (by decide),
      show VW (exitW0 W) c main_arg0 = VW W c main_arg0 from exitW0_of_ne W c main_arg0 (by decide),
      show VW (exitW0 W) c main_arg2 = VW W c main_arg2 from exitW0_of_ne W c main_arg2 (by decide),
      show VW (exitW0 W) c main_v0 = VW W c main_v0 from exitW0_of_ne W c main_v0 (by decide),
      show VW (exitW0 W) c main_v1 = (dat0 (VW W) c).arrAt 5 cfg0.N from exitW0_out W c]
    iintro ⟨H1, H0l, H0r, H2, Hv0, Hv1⟩
    ihave H0 := (pointsTo_share halves).2 $$ [H0l H0r]
    · isplitl [H0l]; · iexact H0l
      iexact H0r
    isplitl [H1]; · iexact H1
    isplitl [H0]; · iexact H0
    isplitl [H2]; · iexact H2
    isplitl [Hv0]; · iexact Hv0
    iexact Hv1
  · unfold Pipeline.unscopedRest
    exact (bigSep_congr fun b hb => by
      have e : exitW0 W c b = W c b := exitW0_of_ne W c b
        (fun e => (Finset.mem_sdiff.mp hb).2 (e ▸ Finset.mem_image.mpr ⟨(5 : Fin 6), Finset.mem_univ _, rfl⟩))
      dsimp only [VW]; rw [e]).symm

end Call0

end Cert.Kernel.Hand

end
-- ==== Proof.KB.Dat1.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1: what each staging buffer and the accumulator hold, point by point

The grid is 8 × 8, point `t` = (row tile `t / 8`, reduction step `t % 8`). The accumulator is reset at reduction
step 0, gains one tile product per step, and the output tile is computed from it at step 7. Everything is stated
over `V`, the contents of the unscoped buffers when the call is entered. -/

section Call1

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: at a reduction step 0 the tile product added to zeros, otherwise
    added to what the position before left. -/
def accAt1 (c : Dev nD) : (n : ℕ) → n < cfg1.N → Vec F S1024x128 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- The output tile the body computes at point `t` from the accumulator it has just updated. -/
def outAt1 (c : Dev nD) (t : Fin cfg1.N) : Vec F S1024x128 .f32 :=
  k1_pay3 (accAt1 V c t.val t.isLt) (iblk1 V c 2 t) (iblk1 V c 3 t) (iblk1 V c 4 t)

theorem accAt1_first (c : Dev nD) (t : Fin cfg1.N) (h : t.val % 8 = 0) :
    accAt1 V c t.val t.isLt = k1_pay2 (iblk1 V c 0 t) (iblk1 V c 1 t) (k1_pay1 (F := F)) := by
  obtain ⟨n, hn⟩ := t
  cases n with
  | zero => rfl
  | succ n => exact (if_pos h)

theorem accAt1_next (c : Dev nD) (t : Fin cfg1.N) (h : ¬ t.val % 8 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact (if_neg h)

/-- The scratch operand: a whole scoped buffer of the call's own, passed beside the windows. -/
abbrev scM1 : Memref sig .tc .vmem S1024x128 .f32 := Memref.whole cc1_scratch0

/-- The scoped buffers that are neither a staging buffer of the call nor its scratch, each at anything. -/
abbrev restBut1 (c : Dev nD) : sProp 𝕄 :=
  Pipeline.scopedRestBut (Ix := Unit) (Name := ℕ) (U := UR sig nD τ) (Lvl := ℕ) (Val := Elt F) spec1 c [cc1_scratch0]

/-- The call's invariant before position `n`: before the first point every scoped buffer the call does not stage at
    anything, and the generator register at some state; afterwards the same with the accumulator at what position
    `n - 1` left in it. -/
def Phi1 (c : Dev nD) : (n : ℕ) → n ≤ cfg1.N → sProp 𝕄
  | 0, _ => Pipeline.ΦA spec1 c
  | n + 1, hn => iprop(owns (c : Thread nD τ) scM1 fullShare (accAt1 V c n hn) ∗ restBut1 (F := F) c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (accAt1 V c n hn) ∗ restBut1 (F := F) c ∗ (∃ r, prngReg c r)) := rfl

theorem Phi1_pos (c : Dev nD) (n : ℕ) (h : n ≤ cfg1.N) (hz : n ≠ 0) :
    Phi1 V c n h = iprop(owns (c : Thread nD τ) scM1 fullShare (accAt1 V c (n - 1) (by omega)) ∗ restBut1 (F := F) c ∗ (∃ r, prngReg c r)) := by
  cases n with
  | zero => exact absurd rfl hz
  | succ n => rfl

/-- Before the first point: the scratch at anything, the other scoped buffers, the generator register. -/
theorem PhiA1_eq (c : Dev nD) :
    (Pipeline.ΦA spec1 c : sProp 𝕄)
      = iprop(iprop((∃ d, owns (c : Thread nD τ) scM1 fullShare d) ∗ restBut1 (F := F) c) ∗ (∃ r, prngReg c r)) := by
  unfold Pipeline.ΦA; rw [scopedRest1_split]; simp only [scM1, owns_whole]; rfl

/-- The proof data of call 1 on core `c`. The arrays are the entry contents; after the body each input's buffer
    holds its block and the output's holds the tile computed at that point (read only where the point stores it);
    the array read through windows 1 and 2 is held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := Phi1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

/-- Each input's current staging buffer holds its block at every point, fetched there or not: where it is not
    fetched its block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

end Call1

end Cert.Kernel.Hand

end
-- ==== Proof.KB.BodyK1.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import Idealize.ShloMosaic.Lib.Pipeline.FrameBody
import Idealize.ShloMosaic.Lib.Pipeline.FrameSuffix
import Idealize.ShloMosaic.Lib.Tactic
import proofs.«100139_j56126632624275_1_alg».proof.Proof.LibWholeAccess

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The body of kernel call 1, one grid point at a time

The body runs at a point `(i, k)` of an 8 × 8 grid; `k` is the reduction coordinate. It keeps a running sum in a
scratch buffer: at `k = 0` the sum is first set to zero; at every `k` the product of the adjacency tile with the
feature rows of the step is added to it; at `k = 7` the output tile is computed from the finished sum, the
feature rows of the output tile, the weights and the bias. Every access reads or writes a whole buffer. The three
theorems below give, for the three kinds of point (`k = 0`, `0 < k < 7`, `k = 7`), what each buffer holds after the
body in terms of what it held before, the arithmetic staying behind the payload names. -/

/-- The first guard of the body, as a function of the reduction coordinate alone: it holds exactly at coordinate 0. -/
private theorem guard_first_iff : ∀ j : Fin 8,
    Scalar.cmpi .ne (Scalar.extui (Scalar.cmpi .eq (BitVec.ofNat 32 j.val) 0#32)) 0#32 = 1#1 ↔ j.val = 0 := by decide

/-- The second guard, likewise: it holds exactly at coordinate 7. -/
private theorem guard_last_iff : ∀ j : Fin 8,
    Scalar.cmpi .ne (Scalar.extui (Scalar.cmpi .eq (BitVec.ofNat 32 j.val) 7#32)) 0#32 = 1#1 ↔ j.val = 7 := by decide

/-- The second guard as the program names it, at a grid point. -/
private theorem cond2_iff (i : grid1.Coords) : k1_cond2 i = 1#1 ↔ (i 1).val = 7 := by
  unfold k1_cond2; exact guard_last_iff (i 1)

/-- A store through the whole-shape rectangle at zero offsets, made LAST, leaves its payload, whatever was stored before it. -/
private theorem read_writes_cons_whole_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb]

/-- The same for a matrix, the same for a matrix, the two zero offsets written out. -/
private theorem read_writes_cons_whole2 {Val : EltTy → Type} [∀ e, Nonempty (Val e)] {sg : RefSig} {κ : Kind} {sp : Space} {e : EltTy} {n m : ℕ}
    (v : View sg κ sp ⟨2, ![n, m]⟩ e) (f : v.ty.Contents Val)
    (inb : ∀ a, (![0, 0] : Fin 2 → ℕ) a + (⟨2, ![n, m]⟩ : Shape).size a ≤ (⟨2, ![n, m]⟩ : Shape).size a)
    (w : (⟨2, ![n, m]⟩ : Shape).Idx → Val e) (L : List (View.Piece Val ⟨2, ![n, m]⟩ e)) :
    v.read Val (v.writes Val f ((⟨Rect.unit (s := ⟨2, ![n, m]⟩) ![0, 0] (⟨2, ![n, m]⟩ : Shape).size inb, w⟩ : View.Piece Val ⟨2, ![n, m]⟩ e) :: L)) = w :=
  read_writes_cons_whole_unit v f View.zeros2 inb w L

/-- A load through that rectangle of what ONE store through it left reads the stored payload. -/
private theorem readCov_whole2 {Val : EltTy → Type} [∀ e, Nonempty (Val e)] {sg : RefSig} {κ : Kind} {sp : Space} {e : EltTy} {n m : ℕ}
    (v : View sg κ sp ⟨2, ![n, m]⟩ e)
    (inb : ∀ a, (![0, 0] : Fin 2 → ℕ) a + (⟨2, ![n, m]⟩ : Shape).size a ≤ (⟨2, ![n, m]⟩ : Shape).size a)
    (w : (⟨2, ![n, m]⟩ : Shape).Idx → Val e) :
    v.readCov [(⟨Rect.unit (s := ⟨2, ![n, m]⟩) ![0, 0] (⟨2, ![n, m]⟩ : Shape).size inb, w⟩ : View.Piece Val ⟨2, ![n, m]⟩ e)]
      (Rect.unit (s := ⟨2, ![n, m]⟩) ![0, 0] (⟨2, ![n, m]⟩ : Shape).size inb).toLoadRect = w :=
  View.readCov_unit_zero v View.zeros2 inb w

set_option maxHeartbeats 1000000 in
/-- At reduction coordinate 0. Before: the adjacency tile's buffer holds `a`, the step's feature rows' buffer `xk`, the
    running sum's buffer anything. After: the first two are unchanged and the running sum holds the accumulate payload
    of `a`, `xk` and the zero payload — the sum was zeroed, read back, and the step's product added. The other
    buffers are not touched. -/
theorem run1_first (c : Dev nD) (E : Set ℕ) (i : grid1.Coords) (hk : (i 1).val = 0)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (K : PUnit → sProp 𝕄) :
    iprop(owns (c : Thread nD τ) arg2 fullShare a ∗ owns (c : Thread nD τ) arg3 fullShare xk ∗ (∃ d, owns (c : Thread nD τ) arg8 fullShare d)
        ∗ (iprop(owns (c : Thread nD τ) arg2 fullShare a ∗ owns (c : Thread nD τ) arg3 fullShare xk
            ∗ owns (c : Thread nD τ) arg8 fullShare (k1_pay2 a xk (k1_pay1 (F := F)))) -∗ K ⟨⟩))
      ⊢ wp frame (wpE (defs₀ (F := F)) Variants.none c none) E
          (cc1_kernel i arg2 harg2 arg3 harg3 arg4 harg4 arg5 harg5 arg6 harg6 arg7 harg7 arg8 harg8) K := by
  have hc1 : Scalar.cmpi .ne (Scalar.extui (Scalar.cmpi .eq (BitVec.ofNat 32 (i 1).val) 0#32)) 0#32 = 1#1 :=
    (guard_first_iff (i 1)).2 hk
  have hc2 : ¬ (k1_cond2 i = 1#1) := fun h => by have h7 := (cond2_iff i).1 h; omega
  simp only [cc1_kernel_eq_skeleton]; unfold cc1_kernel_skel
  unfold owns
  iintro ⟨⟨%f2, %hf2, H2⟩, ⟨%f3, %hf3, H3⟩, ⟨%d8, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_run_names
  rw [read_writes_cons_whole2, readCov_whole2, View.readAt_whole2, View.readAt_whole2]

set_option maxHeartbeats 1000000 in
/-- At a reduction coordinate strictly between 0 and 7. Before: the adjacency tile's buffer holds `a`, the step's
    feature rows' buffer `xk`, the running sum's buffer `acc`. After: the first two are unchanged and the running sum
    holds the accumulate payload of `a`, `xk` and `acc`. The other buffers are not touched. -/
theorem run1_mid (c : Dev nD) (E : Set ℕ) (i : grid1.Coords) (hk0 : (i 1).val ≠ 0) (hk7 : (i 1).val ≠ 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (acc : Vec F S1024x128 .f32) (K : PUnit → sProp 𝕄) :
    iprop(owns (c : Thread nD τ) arg2 fullShare a ∗ owns (c : Thread nD τ) arg3 fullShare xk ∗ owns (c : Thread nD τ) arg8 fullShare acc
        ∗ (iprop(owns (c : Thread nD τ) arg2 fullShare a ∗ owns (c : Thread nD τ) arg3 fullShare xk
            ∗ owns (c : Thread nD τ) arg8 fullShare (k1_pay2 a xk acc)) -∗ K ⟨⟩))
      ⊢ wp frame (wpE (defs₀ (F := F)) Variants.none c none) E
          (cc1_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => hk0 ((guard_first_iff (i 1)).1 h)
  have hc2 : ¬ (k1_cond2 i = 1#1) := fun h => hk7 ((cond2_iff i).1 h)
  simp only [cc1_kernel_eq_skeleton]; unfold cc1_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  rw [View.read_writes_whole2, View.readAt_whole2, View.readAt_whole2, View.readAt_whole2]

set_option maxHeartbeats 1000000 in
/-- At reduction coordinate 7. Before: the adjacency tile's buffer holds `a`, the step's feature rows' buffer `xk`, the
    running sum's buffer `acc`, the output tile's feature rows' buffer `xi`, the weights' buffer `w`, the bias's buffer `b`,
    the output tile's buffer anything. After: the inputs are unchanged, the running sum holds the accumulate payload
    `s` of `a`, `xk` and `acc`, and the output tile holds the output payload of `s`, `xi`, `w` and `b`. -/
theorem run1_last (c : Dev nD) (E : Set ℕ) (i : grid1.Coords) (hk : (i 1).val = 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (acc : Vec F S1024x128 .f32)
    (xi : Vec F S1024x128 .f32) (w : Vec F S256x128 .f32) (b : Vec F S1x128 .f32) (K : PUnit → sProp 𝕄) :
    iprop(owns (c : Thread nD τ) arg2 fullShare a ∗ owns (c : Thread nD τ) arg3 fullShare xk ∗ owns (c : Thread nD τ) arg8 fullShare acc
        ∗ owns (c : Thread nD τ) arg4 fullShare xi ∗ owns (c : Thread nD τ) arg5 fullShare w ∗ owns (c : Thread nD τ) arg6 fullShare b
        ∗ (∃ d, owns (c : Thread nD τ) arg7 fullShare d)
        ∗ (iprop(owns (c : Thread nD τ) arg2 fullShare a ∗ owns (c : Thread nD τ) arg3 fullShare xk
            ∗ owns (c : Thread nD τ) arg8 fullShare (k1_pay2 a xk acc)
            ∗ owns (c : Thread nD τ) arg4 fullShare xi ∗ owns (c : Thread nD τ) arg5 fullShare w ∗ owns (c : Thread nD τ) arg6 fullShare b
            ∗ owns (c : Thread nD τ) arg7 fullShare (k1_pay3 (k1_pay2 a xk acc) xi w b)) -∗ K ⟨⟩))
      ⊢ wp frame (wpE (defs₀ (F := F)) Variants.none c none) E
          (cc1_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => by have h0 := (guard_first_iff (i 1)).1 h; omega
  have hc2 : k1_cond2 i = 1#1 := (cond2_iff i).2 hk
  simp only [cc1_kernel_eq_skeleton]; unfold cc1_kernel_skel
  unfold owns
  iintro ⟨⟨%f2, %hf2, H2⟩, ⟨%f3, %hf3, H3⟩, ⟨%f8, %hf8, H8⟩, ⟨%f4, %hf4, H4⟩, ⟨%f5, %hf5, H5⟩, ⟨%f6, %hf6, H6⟩, ⟨%d7, %f7, -, H7⟩, Hk⟩
  subst hf2; subst hf3; subst hf8; subst hf4; subst hf5; subst hf6
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H8]
  · iexists _; isplitr
    swap; · iexact H8
    ipureintro
    sl_unfold_run_names
    rw [View.read_writes_whole2, View.readAt_whole2, View.readAt_whole2, View.readAt_whole2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_whole2, readCov_whole2, View.readAt_whole2, View.readAt_whole2, View.readAt_whole2, View.readAt_whole2,
    View.readAt_whole2, View.readAt_whole2]

end Cert.Kernel.Body

end
-- ==== Proof.KB.Body1.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Dat1
import proofs.«100139_j56126632624275_1_alg».proof.Proof.KB.BodyK1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body

/-! # Call 1: the body at a point keeps the proof data

Three kinds of point, by the reduction step `t % 8`: at step 0 the accumulator is reset and gains the first tile
product; at steps 1–6 it gains one more; at step 7 it gains the last and the output tile is computed from it and
stored. The output window is idle (its buffer untouched, not written back) at every step but 7. -/

section Call1

variable (V : (c : Dev nD) → (b : Ref sig .tc) → Buf (Elt F) ((c : Thread nD τ).loc b))

/-- The reduction step of point `t` is `t % 8`. -/
theorem step1 : ∀ t : Fin cfg1.N, ((grid1.coords t) 1).val = t.val % 8 :=
  (by decide +kernel : ∀ t : Fin grid1.N, ((grid1.coords t) 1).val = t.val % 8)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- The output window is idle away from the last reduction step, live at it. -/
theorem idle1_5 : ∀ t : Fin cfg1.N, ¬ t.val % 8 = 7 → cfg1.idle 5 (grid1.coords t) = true := by decide +kernel
theorem live1_5 : ∀ t : Fin cfg1.N, t.val % 8 = 7 → cfg1.idle 5 (grid1.coords t) = false := by decide +kernel
theorem noFlush1_5 (t : Fin cfg1.N) (h : ¬ t.val % 8 = 7) : (cfg1.win 5).flush t = false := by
  cases hf : (cfg1.win 5).flush t with
  | false => rfl
  | true => exact absurd ((flush1_5 t).mp hf) h

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  have hN : t.val < 64 := lt_of_lt_of_eq t.isLt (show cfg1.N = 64 from N_1)
  have hstep := step1 t
  rw [Phi1_castSucc V c t]
  by_cases h0 : t.val % 8 = 0
  · -- reduction step 0: reset, first tile product
    have h7 : ¬ t.val % 8 = 7 := by omega
    rw [Dat.leavesExact_idle (dat1 V c) 5 t (idle1_5 t h7) (noFlush1_5 t h7)]
    rw [accAt1_first V c t h0]
    by_cases hz : t.val = 0
    · rw [Phi1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, H5⟩
      iapply (run1_first c Set.univ (grid1.coords t) (by rw [hstep]; exact h0) _ _ _ _ _ _ _ _ _ _ _ _ _ _ (iblk1 V c 0 t) (iblk1 V c 1 t) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi1_pos V c _ _ hz]
      iintro ⟨⟨HS, Hrest, Hg⟩, Ho, ⟨%d0, H0⟩, ⟨%d1, H1⟩, ⟨%d2, H2⟩, ⟨%d3, H3⟩, ⟨%d4, H4⟩, H5⟩
      iapply (run1_first c Set.univ (grid1.coords t) (by rw [hstep]; exact h0) _ _ _ _ _ _ _ _ _ _ _ _ _ _ (iblk1 V c 0 t) (iblk1 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [Phi1_pos V c _ _ hz]
    by_cases h7 : t.val % 8 = 7
    · -- reduction step 7: last tile product, then the output tile
      rw [show (dat1 V c).leavesExact 5 t = owns (c : Thread nD τ) (ms1_5 t) fullShare ((dat1 V c).after 5 t) from by
        unfold Dat.leavesExact; rw [live1_5 t h7], after1_5]
      unfold outAt1
      rw [accAt1_next V c t h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run1_last c Set.univ (grid1.coords t) (by rw [hstep]; exact h7) _ _ _ _ _ _ _ _ _ _ _ _ _ _ (iblk1 V c 0 t) (iblk1 V c 1 t)
        (accAt1 V c (t.val - 1) (Nat.lt_of_le_of_lt (Nat.sub_le _ _) t.isLt)) (iblk1 V c 2 t) (iblk1 V c 3 t) (iblk1 V c 4 t) _)
      isplitl [H0]; · iexact H0
      isplitl [H1]; · iexact H1
      isplitl [HS]; · iexact HS
      isplitl [H2]; · iexact H2
      isplitl [H3]; · iexact H3
      isplitl [H4]; · iexact H4
      isplitl [H5]; · iexists _; iexact H5
      iintro ⟨H0, H1, HS, H2, H3, H4, H5⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- reduction steps 1 to 6: one more tile product
      rw [Dat.leavesExact_idle (dat1 V c) 5 t (idle1_5 t h7) (noFlush1_5 t h7)]
      rw [accAt1_next V c t h0]
      iintro ⟨⟨HS, Hrest, Hg⟩, Ho, ⟨%d0, H0⟩, ⟨%d1, H1⟩, ⟨%d2, H2⟩, ⟨%d3, H3⟩, ⟨%d4, H4⟩, H5⟩
      iapply (run1_mid c Set.univ (grid1.coords t) (by rw [hstep]; exact h0) (by rw [hstep]; exact h7) _ _ _ _ _ _ _ _ _ _ _ _ _ _ (iblk1 V c 0 t) (iblk1 V c 1 t)
        (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Call1

end Cert.Kernel.Hand

end
-- ==== Proof.KB.Seg1.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Dat1
import proofs.«100139_j56126632624275_1_alg».proof.Proof.KB.Seg0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)
open PCS

/-! # Call 1 among the core's unscoped buffers

The call's six windows stand on FIVE distinct buffers: windows 1 and 2 both read the feature matrix. Entering the call,
that buffer's full share is dealt half to each of the two windows; leaving it, the halves (which still hold the same
contents: inputs are never written) are put back together. The output array comes back at what the write-backs left. -/

section Call1

variable (W : Dev nD → Valuation τ sig (Elt F))

/-- The buffers behind the call's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v1) ↦{fullShare} V main_v1)
          ∗ (((c : Thread nD τ).loc main_arg4) ↦{fullShare} V main_arg4) ∗ (((c : Thread nD τ).loc main_v2) ↦{fullShare} V main_v2)
          ∗ (((c : Thread nD τ).loc main_v3) ↦{fullShare} V main_v3)) := by
  unfold Pipeline.arrBufs
  exact bigSep_eq_bigSepL_of_eq [main_arg1, main_v1, main_arg4, main_v2, main_v3] (by decide) (by decide) _

/-- What the call leaves in the core's unscoped buffers: the entry contents, the output array at what the
    write-backs left. -/
def exitW1 (c : Dev nD) : Valuation τ sig (Elt F) :=
  Function.update (W c) main_v3 ((dat1 (VW W) c).arrAt 5 cfg1.N)

theorem entry1 (c : Dev nD) :
    (StableHlo.held (c : Thread nD τ) (Pipeline.ucRefs τ sig) (W c) : sProp 𝕄)
      ⊢ iprop((dat1 (VW W) c).arrays ((dat1 (VW W) c).arrAt · 0)
          ∗ Pipeline.unscopedRest (Ix := Unit) (Name := ℕ) (U := UR sig nD τ) (Lvl := ℕ) spec1 c (VW W c)) := by
  rw [← Pipeline.unscopedBufs_held (Ix := Unit) (Name := ℕ) (U := UR sig nD τ) (Lvl := ℕ) c (W c)]
  rw [Pipeline.unscopedBufs_split₀ cfgs (1 : Fin 4) winFacts₀1.arr_unscoped c]
  refine sep_mono ?_ .rfl
  refine (Entails.of_eq (arrBufs1_eq c (VW W c))).trans ?_
  unfold Dat.arrays; rw [bigSep_W1]
  have e0 : (dat1 (VW W) c).share 0 = fullShare := rfl
  have e1 : (dat1 (VW W) c).share 1 = fullShare.left := rfl
  have e2 : (dat1 (VW W) c).share 2 = fullShare.right := rfl
  have e3 : (dat1 (VW W) c).share 3 = fullShare := rfl
  have e4 : (dat1 (VW W) c).share 4 = fullShare := rfl
  have e5 : (dat1 (VW W) c).share 5 = fullShare := rfl
  rw [e0, e1, e2, e3, e4, e5]
  simp only [View.set_whole]
  iintro ⟨H1, H0, H2, Hv0, Hv1⟩
  ihave Hs := (pointsTo_share halves).1 $$ H0
  icases Hs with ⟨H0l, H0r⟩
  isplitl [H1]; · iexact H1
  isplitl [H0l]; · iexact H0l
  isplitl [H0r]; · iexact H0r
  isplitl [H2]; · iexact H2
  isplitl [Hv0]; · iexact Hv0
  iexact Hv1

/-- The updated valuation agrees with the entry contents off the output array. -/
theorem exitW1_of_ne (c : Dev nD) (b : Ref sig .tc) (h : b ≠ main_v3) : exitW1 W c b = W c b := by
  unfold exitW1
  exact Function.update_of_ne (StableHlo.devRef_ne_of_ne h : (Proc.devRef .tc b : DevRef τ sig) ≠ Proc.devRef .tc main_v3) _ _

/-- and holds the output array at what the write-backs left. -/
theorem exitW1_out (c : Dev nD) : exitW1 W c main_v3 = (dat1 (VW W) c).arrAt 5 cfg1.N := by
  unfold exitW1; exact Function.update_self _ _ _

set_option maxHeartbeats 2000000 in
theorem exit1 (c : Dev nD) :
    iprop((dat1 (VW W) c).arrays ((dat1 (VW W) c).arrAt · cfg1.N)
        ∗ Pipeline.unscopedRest (Ix := Unit) (Name := ℕ) (U := UR sig nD τ) (Lvl := ℕ) spec1 c (VW W c))
      ⊢ (StableHlo.held (c : Thread nD τ) (Pipeline.ucRefs τ sig) (exitW1 W c) : sProp 𝕄) := by
  rw [← Pipeline.unscopedBufs_held (Ix := Unit) (Name := ℕ) (U := UR sig nD τ) (Lvl := ℕ) c (exitW1 W c)]
  rw [Pipeline.unscopedBufs_split₀ cfgs (1 : Fin 4) winFacts₀1.arr_unscoped c]
  refine sep_mono ?_ (Entails.of_eq ?_)
  · refine .trans ?_ (Entails.of_eq (arrBufs1_eq c (VW (exitW1 W) c)).symm)
    unfold Dat.arrays; rw [bigSep_W1]
    have e0 : (dat1 (VW W) c).share 0 = fullShare := rfl
    have e1 : (dat1 (VW W) c).share 1 = fullShare.left := rfl
    have e2 : (dat1 (VW W) c).share 2 = fullShare.right := rfl
    have e3 : (dat1 (VW W) c).share 3 = fullShare := rfl
    have e4 : (dat1 (VW W) c).share 4 = fullShare := rfl
    have e5 : (dat1 (VW W) c).share 5 = fullShare := rfl
    rw [e0, e1, e2, e3, e4, e5]
    simp only [View.set_whole]
    rw [(dat1 (VW W) c).arrAt_in 0 rfl, (dat1 (VW W) c).arrAt_in 1 rfl, (dat1 (VW W) c).arrAt_in 2 rfl,
      (dat1 (VW W) c).arrAt_in 3 rfl, (dat1 (VW W) c).arrAt_in 4 rfl]
    simp only [A_eq1]
    rw [show VW (exitW1 W) c main_arg1 = VW W c main_arg1 from exitW1_of_ne W c main_arg1 (by decide),
      show VW (exitW1 W) c main_v1 = VW W c main_v1 from exitW1_of_ne W c main_v1 (by decide),
      show VW (exitW1 W) c main_arg4 = VW W c main_arg4 from exitW1_of_ne W c main_arg4 (by decide),
      show VW (exitW1 W) c main_v2 = VW W c main_v2 from exitW1_of_ne W c main_v2 (by decide),
      show VW (exitW1 W) c main_v3 = (dat1 (VW W) c).arrAt 5 cfg1.N from exitW1_out W c]
    iintro ⟨H1, H0l, H0r, H2, Hv0, Hv1⟩
    ihave H0 := (pointsTo_share halves).2 $$ [H0l H0r]
    · isplitl [H0l]; · iexact H0l
      iexact H0r
    isplitl [H1]; · iexact H1
    isplitl [H0]; · iexact H0
    isplitl [H2]; · iexact H2
    isplitl [Hv0]; · iexact Hv0
    iexact Hv1
  · unfold Pipeline.unscopedRest
    exact (bigSep_congr fun b hb => by
      have e : exitW1 W c b = W c b := exitW1_of_ne W c b
        (fun e => (Finset.mem_sdiff.mp hb).2 (e ▸ Finset.mem_image.mpr ⟨(5 : Fin 6), Finset.mem_univ _, rfl⟩))
      dsimp only [VW]; rw [e]).symm

end Call1

end Cert.Kernel.Hand

end
-- ==== Proof.KB.Dat2.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2: what each staging buffer and the accumulator hold, point by point

The grid is 8 × 8, point `t` = (row tile `t / 8`, reduction step `t % 8`). The accumulator is reset at reduction
step 0, gains one tile product per step, and the output tile is computed from it at step 7. Everything is stated
over `V`, the contents of the unscoped buffers when the call is entered. -/

section Call2

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at position `n`: at a reduction step 0 the tile product added to zeros, otherwise
    added to what the position before left. -/
def accAt2 (c : Dev nD) : (n : ℕ) → n < cfg2.N → Vec F S1024x128 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (accAt2 c n (Nat.lt_of_succ_lt hn))

/-- The output tile the body computes at point `t` from the accumulator it has just updated. -/
def outAt2 (c : Dev nD) (t : Fin cfg2.N) : Vec F S1024x128 .f32 :=
  k2_pay3 (accAt2 V c t.val t.isLt) (iblk2 V c 2 t) (iblk2 V c 3 t) (iblk2 V c 4 t)

theorem accAt2_first (c : Dev nD) (t : Fin cfg2.N) (h : t.val % 8 = 0) :
    accAt2 V c t.val t.isLt = k2_pay2 (iblk2 V c 0 t) (iblk2 V c 1 t) (k2_pay1 (F := F)) := by
  obtain ⟨n, hn⟩ := t
  cases n with
  | zero => rfl
  | succ n => exact (if_pos h)

theorem accAt2_next (c : Dev nD) (t : Fin cfg2.N) (h : ¬ t.val % 8 = 0) :
    accAt2 V c t.val t.isLt = k2_pay2 (iblk2 V c 0 t) (iblk2 V c 1 t)
      (accAt2 V c (t.val - 1) (Nat.lt_of_le_of_lt (Nat.sub_le _ _) t.isLt)) := by
  obtain ⟨n, hn⟩ := t
  cases n with
  | zero => exact absurd (Nat.zero_mod _) h
  | succ n => exact (if_neg h)

/-- The scratch operand: a whole scoped buffer of the call's own, passed beside the windows. -/
abbrev scM2 : Memref sig .tc .vmem S1024x128 .f32 := Memref.whole cc2_scratch0

/-- The scoped buffers that are neither a staging buffer of the call nor its scratch, each at anything. -/
abbrev restBut2 (c : Dev nD) : sProp 𝕄 :=
  Pipeline.scopedRestBut (Ix := Unit) (Name := ℕ) (U := UR sig nD τ) (Lvl := ℕ) (Val := Elt F) spec2 c [cc2_scratch0]

/-- The call's invariant before position `n`: before the first point every scoped buffer the call does not stage at
    anything, and the generator register at some state; afterwards the same with the accumulator at what position
    `n - 1` left in it. -/
def Phi2 (c : Dev nD) : (n : ℕ) → n ≤ cfg2.N → sProp 𝕄
  | 0, _ => Pipeline.ΦA spec2 c
  | n + 1, hn => iprop(owns (c : Thread nD τ) scM2 fullShare (accAt2 V c n hn) ∗ restBut2 (F := F) c ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) scM2 fullShare (accAt2 V c n hn) ∗ restBut2 (F := F) c ∗ (∃ r, prngReg c r)) := rfl

theorem Phi2_pos (c : Dev nD) (n : ℕ) (h : n ≤ cfg2.N) (hz : n ≠ 0) :
    Phi2 V c n h = iprop(owns (c : Thread nD τ) scM2 fullShare (accAt2 V c (n - 1) (by omega)) ∗ restBut2 (F := F) c ∗ (∃ r, prngReg c r)) := by
  cases n with
  | zero => exact absurd rfl hz
  | succ n => rfl

/-- Before the first point: the scratch at anything, the other scoped buffers, the generator register. -/
theorem PhiA2_eq (c : Dev nD) :
    (Pipeline.ΦA spec2 c : sProp 𝕄)
      = iprop(iprop((∃ d, owns (c : Thread nD τ) scM2 fullShare d) ∗ restBut2 (F := F) c) ∗ (∃ r, prngReg c r)) := by
  unfold Pipeline.ΦA; rw [scopedRest2_split]; simp only [scM2, owns_whole]; rfl

/-- The proof data of call 2 on core `c`. The arrays are the entry contents; after the body each input's buffer
    holds its block and the output's holds the tile computed at that point (read only where the point stores it);
    the array read through windows 1 and 2 is held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := Phi2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outAt2 V c t := by dsimp only [dat2]

/-- Each input's current staging buffer holds its block at every point, fetched there or not: where it is not
    fetched its block index has not moved since the point before. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

end Call2

end Cert.Kernel.Hand

end
-- ==== Proof.KB.BodyK2.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import Idealize.ShloMosaic.Lib.Pipeline.FrameBody
import Idealize.ShloMosaic.Lib.Pipeline.FrameSuffix
import Idealize.ShloMosaic.Lib.Tactic
import proofs.«100139_j56126632624275_1_alg».proof.Proof.LibWholeAccess

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The body of kernel call 2, one grid point at a time

The body runs at a point `(i, k)` of an 8 × 8 grid; `k` is the reduction coordinate. It keeps a running sum in a
scratch buffer: at `k = 0` the sum is first set to zero; at every `k` the product of the adjacency tile with the
feature rows of the step is added to it; at `k = 7` the output tile is computed from the finished sum, the
feature rows of the output tile, the weights and the bias. Every access reads or writes a whole buffer. The three
theorems below give, for the three kinds of point (`k = 0`, `0 < k < 7`, `k = 7`), what each buffer holds after the
body in terms of what it held before, the arithmetic staying behind the payload names. -/

/-- The first guard of the body, as a function of the reduction coordinate alone: it holds exactly at coordinate 0. -/
private theorem guard_first_iff : ∀ j : Fin 8,
    Scalar.cmpi .ne (Scalar.extui (Scalar.cmpi .eq (BitVec.ofNat 32 j.val) 0#32)) 0#32 = 1#1 ↔ j.val = 0 := by decide

/-- The second guard, likewise: it holds exactly at coordinate 7. -/
private theorem guard_last_iff : ∀ j : Fin 8,
    Scalar.cmpi .ne (Scalar.extui (Scalar.cmpi .eq (BitVec.ofNat 32 j.val) 7#32)) 0#32 = 1#1 ↔ j.val = 7 := by decide

/-- The second guard as the program names it, at a grid point. -/
private theorem cond2_iff (i : grid2.Coords) : k2_cond2 i = 1#1 ↔ (i 1).val = 7 := by
  unfold k2_cond2; exact guard_last_iff (i 1)

/-- A store through the whole-shape rectangle at zero offsets, made LAST, leaves its payload, whatever was stored before it. -/
private theorem read_writes_cons_whole_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb]

/-- The same for a matrix, the same for a matrix, the two zero offsets written out. -/
private theorem read_writes_cons_whole2 {Val : EltTy → Type} [∀ e, Nonempty (Val e)] {sg : RefSig} {κ : Kind} {sp : Space} {e : EltTy} {n m : ℕ}
    (v : View sg κ sp ⟨2, ![n, m]⟩ e) (f : v.ty.Contents Val)
    (inb : ∀ a, (![0, 0] : Fin 2 → ℕ) a + (⟨2, ![n, m]⟩ : Shape).size a ≤ (⟨2, ![n, m]⟩ : Shape).size a)
    (w : (⟨2, ![n, m]⟩ : Shape).Idx → Val e) (L : List (View.Piece Val ⟨2, ![n, m]⟩ e)) :
    v.read Val (v.writes Val f ((⟨Rect.unit (s := ⟨2, ![n, m]⟩) ![0, 0] (⟨2, ![n, m]⟩ : Shape).size inb, w⟩ : View.Piece Val ⟨2, ![n, m]⟩ e) :: L)) = w :=
  read_writes_cons_whole_unit v f View.zeros2 inb w L

/-- A load through that rectangle of what ONE store through it left reads the stored payload. -/
private theorem readCov_whole2 {Val : EltTy → Type} [∀ e, Nonempty (Val e)] {sg : RefSig} {κ : Kind} {sp : Space} {e : EltTy} {n m : ℕ}
    (v : View sg κ sp ⟨2, ![n, m]⟩ e)
    (inb : ∀ a, (![0, 0] : Fin 2 → ℕ) a + (⟨2, ![n, m]⟩ : Shape).size a ≤ (⟨2, ![n, m]⟩ : Shape).size a)
    (w : (⟨2, ![n, m]⟩ : Shape).Idx → Val e) :
    v.readCov [(⟨Rect.unit (s := ⟨2, ![n, m]⟩) ![0, 0] (⟨2, ![n, m]⟩ : Shape).size inb, w⟩ : View.Piece Val ⟨2, ![n, m]⟩ e)]
      (Rect.unit (s := ⟨2, ![n, m]⟩) ![0, 0] (⟨2, ![n, m]⟩ : Shape).size inb).toLoadRect = w :=
  View.readCov_unit_zero v View.zeros2 inb w

set_option maxHeartbeats 1000000 in
/-- At reduction coordinate 0. Before: the adjacency tile's buffer holds `a`, the step's feature rows' buffer `xk`, the
    running sum's buffer anything. After: the first two are unchanged and the running sum holds the accumulate payload
    of `a`, `xk` and the zero payload — the sum was zeroed, read back, and the step's product added. The other
    buffers are not touched. -/
theorem run2_first (c : Dev nD) (E : Set ℕ) (i : grid2.Coords) (hk : (i 1).val = 0)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (K : PUnit → sProp 𝕄) :
    iprop(owns (c : Thread nD τ) arg2 fullShare a ∗ owns (c : Thread nD τ) arg3 fullShare xk ∗ (∃ d, owns (c : Thread nD τ) arg8 fullShare d)
        ∗ (iprop(owns (c : Thread nD τ) arg2 fullShare a ∗ owns (c : Thread nD τ) arg3 fullShare xk
            ∗ owns (c : Thread nD τ) arg8 fullShare (k2_pay2 a xk (k2_pay1 (F := F)))) -∗ K ⟨⟩))
      ⊢ wp frame (wpE (defs₀ (F := F)) Variants.none c none) E
          (cc2_kernel i arg2 harg2 arg3 harg3 arg4 harg4 arg5 harg5 arg6 harg6 arg7 harg7 arg8 harg8) K := by
  have hc1 : Scalar.cmpi .ne (Scalar.extui (Scalar.cmpi .eq (BitVec.ofNat 32 (i 1).val) 0#32)) 0#32 = 1#1 :=
    (guard_first_iff (i 1)).2 hk
  have hc2 : ¬ (k2_cond2 i = 1#1) := fun h => by have h7 := (cond2_iff i).1 h; omega
  simp only [cc2_kernel_eq_skeleton]; unfold cc2_kernel_skel
  unfold owns
  iintro ⟨⟨%f2, %hf2, H2⟩, ⟨%f3, %hf3, H3⟩, ⟨%d8, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_run_names
  rw [read_writes_cons_whole2, readCov_whole2, View.readAt_whole2, View.readAt_whole2]

set_option maxHeartbeats 1000000 in
/-- At a reduction coordinate strictly between 0 and 7. Before: the adjacency tile's buffer holds `a`, the step's
    feature rows' buffer `xk`, the running sum's buffer `acc`. After: the first two are unchanged and the running sum
    holds the accumulate payload of `a`, `xk` and `acc`. The other buffers are not touched. -/
theorem run2_mid (c : Dev nD) (E : Set ℕ) (i : grid2.Coords) (hk0 : (i 1).val ≠ 0) (hk7 : (i 1).val ≠ 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (acc : Vec F S1024x128 .f32) (K : PUnit → sProp 𝕄) :
    iprop(owns (c : Thread nD τ) arg2 fullShare a ∗ owns (c : Thread nD τ) arg3 fullShare xk ∗ owns (c : Thread nD τ) arg8 fullShare acc
        ∗ (iprop(owns (c : Thread nD τ) arg2 fullShare a ∗ owns (c : Thread nD τ) arg3 fullShare xk
            ∗ owns (c : Thread nD τ) arg8 fullShare (k2_pay2 a xk acc)) -∗ K ⟨⟩))
      ⊢ wp frame (wpE (defs₀ (F := F)) Variants.none c none) E
          (cc2_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => hk0 ((guard_first_iff (i 1)).1 h)
  have hc2 : ¬ (k2_cond2 i = 1#1) := fun h => hk7 ((cond2_iff i).1 h)
  simp only [cc2_kernel_eq_skeleton]; unfold cc2_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  rw [View.read_writes_whole2, View.readAt_whole2, View.readAt_whole2, View.readAt_whole2]

set_option maxHeartbeats 1000000 in
/-- At reduction coordinate 7. Before: the adjacency tile's buffer holds `a`, the step's feature rows' buffer `xk`, the
    running sum's buffer `acc`, the output tile's feature rows' buffer `xi`, the weights' buffer `w`, the bias's buffer `b`,
    the output tile's buffer anything. After: the inputs are unchanged, the running sum holds the accumulate payload
    `s` of `a`, `xk` and `acc`, and the output tile holds the output payload of `s`, `xi`, `w` and `b`. -/
theorem run2_last (c : Dev nD) (E : Set ℕ) (i : grid2.Coords) (hk : (i 1).val = 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (acc : Vec F S1024x128 .f32)
    (xi : Vec F S1024x128 .f32) (w : Vec F S256x128 .f32) (b : Vec F S1x128 .f32) (K : PUnit → sProp 𝕄) :
    iprop(owns (c : Thread nD τ) arg2 fullShare a ∗ owns (c : Thread nD τ) arg3 fullShare xk ∗ owns (c : Thread nD τ) arg8 fullShare acc
        ∗ owns (c : Thread nD τ) arg4 fullShare xi ∗ owns (c : Thread nD τ) arg5 fullShare w ∗ owns (c : Thread nD τ) arg6 fullShare b
        ∗ (∃ d, owns (c : Thread nD τ) arg7 fullShare d)
        ∗ (iprop(owns (c : Thread nD τ) arg2 fullShare a ∗ owns (c : Thread nD τ) arg3 fullShare xk
            ∗ owns (c : Thread nD τ) arg8 fullShare (k2_pay2 a xk acc)
            ∗ owns (c : Thread nD τ) arg4 fullShare xi ∗ owns (c : Thread nD τ) arg5 fullShare w ∗ owns (c : Thread nD τ) arg6 fullShare b
            ∗ owns (c : Thread nD τ) arg7 fullShare (k2_pay3 (k2_pay2 a xk acc) xi w b)) -∗ K ⟨⟩))
      ⊢ wp frame (wpE (defs₀ (F := F)) Variants.none c none) E
          (cc2_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => by have h0 := (guard_first_iff (i 1)).1 h; omega
  have hc2 : k2_cond2 i = 1#1 := (cond2_iff i).2 hk
  simp only [cc2_kernel_eq_skeleton]; unfold cc2_kernel_skel
  unfold owns
  iintro ⟨⟨%f2, %hf2, H2⟩, ⟨%f3, %hf3, H3⟩, ⟨%f8, %hf8, H8⟩, ⟨%f4, %hf4, H4⟩, ⟨%f5, %hf5, H5⟩, ⟨%f6, %hf6, H6⟩, ⟨%d7, %f7, -, H7⟩, Hk⟩
  subst hf2; subst hf3; subst hf8; subst hf4; subst hf5; subst hf6
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H8]
  · iexists _; isplitr
    swap; · iexact H8
    ipureintro
    sl_unfold_run_names
    rw [View.read_writes_whole2, View.readAt_whole2, View.readAt_whole2, View.readAt_whole2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_whole2, readCov_whole2, View.readAt_whole2, View.readAt_whole2, View.readAt_whole2, View.readAt_whole2,
    View.readAt_whole2, View.readAt_whole2]

end Cert.Kernel.Body

end
-- ==== Proof.KB.Body2.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Dat2
import proofs.«100139_j56126632624275_1_alg».proof.Proof.KB.BodyK2
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body

/-! # Call 2: the body at a point keeps the proof data

Three kinds of point, by the reduction step `t % 8`: at step 0 the accumulator is reset and gains the first tile
product; at steps 1–6 it gains one more; at step 7 it gains the last and the output tile is computed from it and
stored. The output window is idle (its buffer untouched, not written back) at every step but 7. -/

section Call2

variable (V : (c : Dev nD) → (b : Ref sig .tc) → Buf (Elt F) ((c : Thread nD τ).loc b))

/-- The reduction step of point `t` is `t % 8`. -/
theorem step2 : ∀ t : Fin cfg2.N, ((grid2.coords t) 1).val = t.val % 8 :=
  (by decide +kernel : ∀ t : Fin grid2.N, ((grid2.coords t) 1).val = t.val % 8)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
/-- The output window is idle away from the last reduction step, live at it. -/
theorem idle2_5 : ∀ t : Fin cfg2.N, ¬ t.val % 8 = 7 → cfg2.idle 5 (grid2.coords t) = true := by decide +kernel
theorem live2_5 : ∀ t : Fin cfg2.N, t.val % 8 = 7 → cfg2.idle 5 (grid2.coords t) = false := by decide +kernel
theorem noFlush2_5 (t : Fin cfg2.N) (h : ¬ t.val % 8 = 7) : (cfg2.win 5).flush t = false := by
  cases hf : (cfg2.win 5).flush t with
  | false => rfl
  | true => exact absurd ((flush2_5 t).mp hf) h

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x128 .f32 := win2_5.stage (cfg2.slots t 5)
abbrev hs2_5 (t : Fin cfg2.N) : (ms2_5 t).IsWhole := hstage2_5 ((cfg2.slots t 5).cast nbuf2_5)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  rw [show (dat2 V c).leavesExact 4 t = owns (c : Thread nD τ) (ms2_4 t) fullShare ((dat2 V c).after 4 t) from by
    unfold Dat.leavesExact; rw [live2_4 t], after2_4]
  have hN : t.val < 64 := lt_of_lt_of_eq t.isLt (show cfg2.N = 64 from N_2)
  have hstep := step2 t
  rw [Phi2_castSucc V c t]
  by_cases h0 : t.val % 8 = 0
  · -- reduction step 0: reset, first tile product
    have h7 : ¬ t.val % 8 = 7 := by omega
    rw [Dat.leavesExact_idle (dat2 V c) 5 t (idle2_5 t h7) (noFlush2_5 t h7)]
    rw [accAt2_first V c t h0]
    by_cases hz : t.val = 0
    · rw [Phi2_zero V c _ _ hz, PhiA2_eq]
      iintro ⟨⟨⟨HS, Hrest⟩, Hg⟩, Ho, ⟨%d0, H0⟩, ⟨%d1, H1⟩, ⟨%d2, H2⟩, ⟨%d3, H3⟩, ⟨%d4, H4⟩, H5⟩
      iapply (run2_first c Set.univ (grid2.coords t) (by rw [hstep]; exact h0) _ _ _ _ _ _ _ _ _ _ _ _ _ _ (iblk2 V c 0 t) (iblk2 V c 1 t) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi2_pos V c _ _ hz]
      iintro ⟨⟨HS, Hrest, Hg⟩, Ho, ⟨%d0, H0⟩, ⟨%d1, H1⟩, ⟨%d2, H2⟩, ⟨%d3, H3⟩, ⟨%d4, H4⟩, H5⟩
      iapply (run2_first c Set.univ (grid2.coords t) (by rw [hstep]; exact h0) _ _ _ _ _ _ _ _ _ _ _ _ _ _ (iblk2 V c 0 t) (iblk2 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [Phi2_pos V c _ _ hz]
    by_cases h7 : t.val % 8 = 7
    · -- reduction step 7: last tile product, then the output tile
      rw [show (dat2 V c).leavesExact 5 t = owns (c : Thread nD τ) (ms2_5 t) fullShare ((dat2 V c).after 5 t) from by
        unfold Dat.leavesExact; rw [live2_5 t h7], after2_5]
      unfold outAt2
      rw [accAt2_next V c t h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run2_last c Set.univ (grid2.coords t) (by rw [hstep]; exact h7) _ _ _ _ _ _ _ _ _ _ _ _ _ _ (iblk2 V c 0 t) (iblk2 V c 1 t)
        (accAt2 V c (t.val - 1) (Nat.lt_of_le_of_lt (Nat.sub_le _ _) t.isLt)) (iblk2 V c 2 t) (iblk2 V c 3 t) (iblk2 V c 4 t) _)
      isplitl [H0]; · iexact H0
      isplitl [H1]; · iexact H1
      isplitl [HS]; · iexact HS
      isplitl [H2]; · iexact H2
      isplitl [H3]; · iexact H3
      isplitl [H4]; · iexact H4
      isplitl [H5]; · iexists _; iexact H5
      iintro ⟨H0, H1, HS, H2, H3, H4, H5⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- reduction steps 1 to 6: one more tile product
      rw [Dat.leavesExact_idle (dat2 V c) 5 t (idle2_5 t h7) (noFlush2_5 t h7)]
      rw [accAt2_next V c t h0]
      iintro ⟨⟨HS, Hrest, Hg⟩, Ho, ⟨%d0, H0⟩, ⟨%d1, H1⟩, ⟨%d2, H2⟩, ⟨%d3, H3⟩, ⟨%d4, H4⟩, H5⟩
      iapply (run2_mid c Set.univ (grid2.coords t) (by rw [hstep]; exact h0) (by rw [hstep]; exact h7) _ _ _ _ _ _ _ _ _ _ _ _ _ _ (iblk2 V c 0 t) (iblk2 V c 1 t)
        (accAt2 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Call2

end Cert.Kernel.Hand

end
-- ==== Proof.KB.Seg2.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Dat2
import proofs.«100139_j56126632624275_1_alg».proof.Proof.KB.Seg0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)
open PCS

/-! # Call 2 among the core's unscoped buffers

The call's six windows stand on FIVE distinct buffers: windows 1 and 2 both read the feature matrix. Entering the call,
that buffer's full share is dealt half to each of the two windows; leaving it, the halves (which still hold the same
contents: inputs are never written) are put back together. The output array comes back at what the write-backs left. -/

section Call2

variable (W : Dev nD → Valuation τ sig (Elt F))

/-- The buffers behind the call's arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v3) ↦{fullShare} V main_v3)
          ∗ (((c : Thread nD τ).loc main_arg6) ↦{fullShare} V main_arg6) ∗ (((c : Thread nD τ).loc main_v4) ↦{fullShare} V main_v4)
          ∗ (((c : Thread nD τ).loc main_v5) ↦{fullShare} V main_v5)) := by
  unfold Pipeline.arrBufs
  exact bigSep_eq_bigSepL_of_eq [main_arg1, main_v3, main_arg6, main_v4, main_v5] (by decide) (by decide) _

/-- What the call leaves in the core's unscoped buffers: the entry contents, the output array at what the
    write-backs left. -/
def exitW2 (c : Dev nD) : Valuation τ sig (Elt F) :=
  Function.update (W c) main_v5 ((dat2 (VW W) c).arrAt 5 cfg2.N)

theorem entry2 (c : Dev nD) :
    (StableHlo.held (c : Thread nD τ) (Pipeline.ucRefs τ sig) (W c) : sProp 𝕄)
      ⊢ iprop((dat2 (VW W) c).arrays ((dat2 (VW W) c).arrAt · 0)
          ∗ Pipeline.unscopedRest (Ix := Unit) (Name := ℕ) (U := UR sig nD τ) (Lvl := ℕ) spec2 c (VW W c)) := by
  rw [← Pipeline.unscopedBufs_held (Ix := Unit) (Name := ℕ) (U := UR sig nD τ) (Lvl := ℕ) c (W c)]
  rw [Pipeline.unscopedBufs_split₀ cfgs (2 : Fin 4) winFacts₀2.arr_unscoped c]
  refine sep_mono ?_ .rfl
  refine (Entails.of_eq (arrBufs2_eq c (VW W c))).trans ?_
  unfold Dat.arrays; rw [bigSep_W2]
  have e0 : (dat2 (VW W) c).share 0 = fullShare := rfl
  have e1 : (dat2 (VW W) c).share 1 = fullShare.left := rfl
  have e2 : (dat2 (VW W) c).share 2 = fullShare.right := rfl
  have e3 : (dat2 (VW W) c).share 3 = fullShare := rfl
  have e4 : (dat2 (VW W) c).share 4 = fullShare := rfl
  have e5 : (dat2 (VW W) c).share 5 = fullShare := rfl
  rw [e0, e1, e2, e3, e4, e5]
  simp only [View.set_whole]
  iintro ⟨H1, H0, H2, Hv0, Hv1⟩
  ihave Hs := (pointsTo_share halves).1 $$ H0
  icases Hs with ⟨H0l, H0r⟩
  isplitl [H1]; · iexact H1
  isplitl [H0l]; · iexact H0l
  isplitl [H0r]; · iexact H0r
  isplitl [H2]; · iexact H2
  isplitl [Hv0]; · iexact Hv0
  iexact Hv1

/-- The updated valuation agrees with the entry contents off the output array. -/
theorem exitW2_of_ne (c : Dev nD) (b : Ref sig .tc) (h : b ≠ main_v5) : exitW2 W c b = W c b := by
  unfold exitW2
  exact Function.update_of_ne (StableHlo.devRef_ne_of_ne h : (Proc.devRef .tc b : DevRef τ sig) ≠ Proc.devRef .tc main_v5) _ _

/-- and holds the output array at what the write-backs left. -/
theorem exitW2_out (c : Dev nD) : exitW2 W c main_v5 = (dat2 (VW W) c).arrAt 5 cfg2.N := by
  unfold exitW2; exact Function.update_self _ _ _

set_option maxHeartbeats 2000000 in
theorem exit2 (c : Dev nD) :
    iprop((dat2 (VW W) c).arrays ((dat2 (VW W) c).arrAt · cfg2.N)
        ∗ Pipeline.unscopedRest (Ix := Unit) (Name := ℕ) (U := UR sig nD τ) (Lvl := ℕ) spec2 c (VW W c))
      ⊢ (StableHlo.held (c : Thread nD τ) (Pipeline.ucRefs τ sig) (exitW2 W c) : sProp 𝕄) := by
  rw [← Pipeline.unscopedBufs_held (Ix := Unit) (Name := ℕ) (U := UR sig nD τ) (Lvl := ℕ) c (exitW2 W c)]
  rw [Pipeline.unscopedBufs_split₀ cfgs (2 : Fin 4) winFacts₀2.arr_unscoped c]
  refine sep_mono ?_ (Entails.of_eq ?_)
  · refine .trans ?_ (Entails.of_eq (arrBufs2_eq c (VW (exitW2 W) c)).symm)
    unfold Dat.arrays; rw [bigSep_W2]
    have e0 : (dat2 (VW W) c).share 0 = fullShare := rfl
    have e1 : (dat2 (VW W) c).share 1 = fullShare.left := rfl
    have e2 : (dat2 (VW W) c).share 2 = fullShare.right := rfl
    have e3 : (dat2 (VW W) c).share 3 = fullShare := rfl
    have e4 : (dat2 (VW W) c).share 4 = fullShare := rfl
    have e5 : (dat2 (VW W) c).share 5 = fullShare := rfl
    rw [e0, e1, e2, e3, e4, e5]
    simp only [View.set_whole]
    rw [(dat2 (VW W) c).arrAt_in 0 rfl, (dat2 (VW W) c).arrAt_in 1 rfl, (dat2 (VW W) c).arrAt_in 2 rfl,
      (dat2 (VW W) c).arrAt_in 3 rfl, (dat2 (VW W) c).arrAt_in 4 rfl]
    simp only [A_eq2]
    rw [show VW (exitW2 W) c main_arg1 = VW W c main_arg1 from exitW2_of_ne W c main_arg1 (by decide),
      show VW (exitW2 W) c main_v3 = VW W c main_v3 from exitW2_of_ne W c main_v3 (by decide),
      show VW (exitW2 W) c main_arg6 = VW W c main_arg6 from exitW2_of_ne W c main_arg6 (by decide),
      show VW (exitW2 W) c main_v4 = VW W c main_v4 from exitW2_of_ne W c main_v4 (by decide),
      show VW (exitW2 W) c main_v5 = (dat2 (VW W) c).arrAt 5 cfg2.N from exitW2_out W c]
    iintro ⟨H1, H0l, H0r, H2, Hv0, Hv1⟩
    ihave H0 := (pointsTo_share halves).2 $$ [H0l H0r]
    · isplitl [H0l]; · iexact H0l
      iexact H0r
    isplitl [H1]; · iexact H1
    isplitl [H0]; · iexact H0
    isplitl [H2]; · iexact H2
    isplitl [Hv0]; · iexact Hv0
    iexact Hv1
  · unfold Pipeline.unscopedRest
    exact (bigSep_congr fun b hb => by
      have e : exitW2 W c b = W c b := exitW2_of_ne W c b
        (fun e => (Finset.mem_sdiff.mp hb).2 (e ▸ Finset.mem_image.mpr ⟨(5 : Fin 6), Finset.mem_univ _, rfl⟩))
      dsimp only [VW]; rw [e]).symm

end Call2

end Cert.Kernel.Hand

end
-- ==== Proof.KB.Dat3.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3: what each staging buffer and the accumulator hold, point by point

The grid is 8 × 8, point `t` = (row tile `t / 8`, reduction step `t % 8`). The accumulator is reset at reduction
step 0, gains one tile product per step, and the output tile is computed from it at step 7. Everything is stated
over `V`, the contents of the unscoped buffers when the call is entered. -/

section Call3

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after the body at position `n`: at a reduction step 0 the tile product added to zeros, otherwise
    added to what the position before left. -/
def accAt3 (c : Dev nD) : (n : ℕ) → n < cfg3.N → Vec F S1024x128 .f32
  | 0, hn => k3_pay2 (iblk3 V c 0 ⟨0, hn⟩) (iblk3 V c 1 ⟨0, hn⟩) (k3_pay1 (F := F))
  | n + 1, hn =>
    if (n + 1) % 8 = 0 then k3_pay2 (iblk3 V c 0 ⟨n + 1, hn⟩) (iblk3 V c 1 ⟨n + 1, hn⟩) (k3_pay1 (F := F))
    else k3_pay2 (iblk3 V c 0 ⟨n + 1, hn⟩) (iblk3 V c 1 ⟨n + 1, hn⟩) (accAt3 c n (Nat.lt_of_succ_lt hn))

/-- The output tile the body computes at point `t` from the accumulator it has just updated. -/
def outAt3 (c : Dev nD) (t : Fin cfg3.N) : Vec F S1024x64 .f32 :=
  k3_pay3 (accAt3 V c t.val t.isLt) (iblk3 V c 2 t) (iblk3 V c 3 t) (iblk3 V c 4 t)

theorem accAt3_first (c : Dev nD) (t : Fin cfg3.N) (h : t.val % 8 = 0) :
    accAt3 V c t.val t.isLt = k3_pay2 (iblk3 V c 0 t) (iblk3 V c 1 t) (k3_pay1 (F := F)) := by
  obtain ⟨n, hn⟩ := t
  cases n with
  | zero => rfl
  | succ n => exact (if_pos h)

theorem accAt3_next (c : Dev nD) (t : Fin cfg3.N) (h : ¬ t.val % 8 = 0) :
    accAt3 V c t.val t.isLt = k3_pay2 (iblk3 V c 0 t) (iblk3 V c 1 t)
      (accAt3 V c (t.val - 1) (Nat.lt_of_le_of_lt (Nat.sub_le _ _) t.isLt)) := by
  obtain ⟨n, hn⟩ := t
  cases n with
  | zero => exact absurd (Nat.zero_mod _) h
  | succ n => exact (if_neg h)

/-- The scratch operand: a whole scoped buffer of the call's own, passed beside the windows. -/
abbrev scM3 : Memref sig .tc .vmem S1024x128 .f32 := Memref.whole cc3_scratch0

/-- The scoped buffers that are neither a staging buffer of the call nor its scratch, each at anything. -/
abbrev restBut3 (c : Dev nD) : sProp 𝕄 :=
  Pipeline.scopedRestBut (Ix := Unit) (Name := ℕ) (U := UR sig nD τ) (Lvl := ℕ) (Val := Elt F) spec3 c [cc3_scratch0]

/-- The call's invariant before position `n`: before the first point every scoped buffer the call does not stage at
    anything, and the generator register at some state; afterwards the same with the accumulator at what position
    `n - 1` left in it. -/
def Phi3 (c : Dev nD) : (n : ℕ) → n ≤ cfg3.N → sProp 𝕄
  | 0, _ => Pipeline.ΦA spec3 c
  | n + 1, hn => iprop(owns (c : Thread nD τ) scM3 fullShare (accAt3 V c n hn) ∗ restBut3 (F := F) c ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(owns (c : Thread nD τ) scM3 fullShare (accAt3 V c n hn) ∗ restBut3 (F := F) c ∗ (∃ r, prngReg c r)) := rfl

theorem Phi3_pos (c : Dev nD) (n : ℕ) (h : n ≤ cfg3.N) (hz : n ≠ 0) :
    Phi3 V c n h = iprop(owns (c : Thread nD τ) scM3 fullShare (accAt3 V c (n - 1) (by omega)) ∗ restBut3 (F := F) c ∗ (∃ r, prngReg c r)) := by
  cases n with
  | zero => exact absurd rfl hz
  | succ n => rfl

/-- Before the first point: the scratch at anything, the other scoped buffers, the generator register. -/
theorem PhiA3_eq (c : Dev nD) :
    (Pipeline.ΦA spec3 c : sProp 𝕄)
      = iprop(iprop((∃ d, owns (c : Thread nD τ) scM3 fullShare d) ∗ restBut3 (F := F) c) ∗ (∃ r, prngReg c r)) := by
  unfold Pipeline.ΦA; rw [scopedRest3_split]; simp only [scM3, owns_whole]; rfl

/-- The proof data of call 3 on core `c`. The arrays are the entry contents; after the body each input's buffer
    holds its block and the output's holds the tile computed at that point (read only where the point stores it);
    the array read through windows 1 and 2 is held half and half. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3 V c t
  Φ t := Phi3 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3 V c t := by dsimp only [dat3]

/-- Each input's current staging buffer holds its block at every point, fetched there or not: where it is not
    fetched its block index has not moved since the point before. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

end Call3

end Cert.Kernel.Hand

end
-- ==== Proof.KB.BodyK3.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import Idealize.ShloMosaic.Lib.Pipeline.FrameBody
import Idealize.ShloMosaic.Lib.Pipeline.FrameSuffix
import Idealize.ShloMosaic.Lib.Tactic
import proofs.«100139_j56126632624275_1_alg».proof.Proof.LibWholeAccess

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The body of kernel call 3, one grid point at a time

The body runs at a point `(i, k)` of an 8 × 8 grid; `k` is the reduction coordinate. It keeps a running sum in a
scratch buffer: at `k = 0` the sum is first set to zero; at every `k` the product of the adjacency tile with the
feature rows of the step is added to it; at `k = 7` the output tile is computed from the finished sum, the
feature rows of the output tile, the weights and the bias. Every access reads or writes a whole buffer. The three
theorems below give, for the three kinds of point (`k = 0`, `0 < k < 7`, `k = 7`), what each buffer holds after the
body in terms of what it held before, the arithmetic staying behind the payload names. -/

/-- The first guard of the body, as a function of the reduction coordinate alone: it holds exactly at coordinate 0. -/
private theorem guard_first_iff : ∀ j : Fin 8,
    Scalar.cmpi .ne (Scalar.extui (Scalar.cmpi .eq (BitVec.ofNat 32 j.val) 0#32)) 0#32 = 1#1 ↔ j.val = 0 := by decide

/-- The second guard, likewise: it holds exactly at coordinate 7. -/
private theorem guard_last_iff : ∀ j : Fin 8,
    Scalar.cmpi .ne (Scalar.extui (Scalar.cmpi .eq (BitVec.ofNat 32 j.val) 7#32)) 0#32 = 1#1 ↔ j.val = 7 := by decide

/-- The second guard as the program names it, at a grid point. -/
private theorem cond2_iff (i : grid3.Coords) : k3_cond2 i = 1#1 ↔ (i 1).val = 7 := by
  unfold k3_cond2; exact guard_last_iff (i 1)

/-- A store through the whole-shape rectangle at zero offsets, made LAST, leaves its payload, whatever was stored before it. -/
private theorem read_writes_cons_whole_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb]

/-- The same for a matrix, the same for a matrix, the two zero offsets written out. -/
private theorem read_writes_cons_whole2 {Val : EltTy → Type} [∀ e, Nonempty (Val e)] {sg : RefSig} {κ : Kind} {sp : Space} {e : EltTy} {n m : ℕ}
    (v : View sg κ sp ⟨2, ![n, m]⟩ e) (f : v.ty.Contents Val)
    (inb : ∀ a, (![0, 0] : Fin 2 → ℕ) a + (⟨2, ![n, m]⟩ : Shape).size a ≤ (⟨2, ![n, m]⟩ : Shape).size a)
    (w : (⟨2, ![n, m]⟩ : Shape).Idx → Val e) (L : List (View.Piece Val ⟨2, ![n, m]⟩ e)) :
    v.read Val (v.writes Val f ((⟨Rect.unit (s := ⟨2, ![n, m]⟩) ![0, 0] (⟨2, ![n, m]⟩ : Shape).size inb, w⟩ : View.Piece Val ⟨2, ![n, m]⟩ e) :: L)) = w :=
  read_writes_cons_whole_unit v f View.zeros2 inb w L

/-- A load through that rectangle of what ONE store through it left reads the stored payload. -/
private theorem readCov_whole2 {Val : EltTy → Type} [∀ e, Nonempty (Val e)] {sg : RefSig} {κ : Kind} {sp : Space} {e : EltTy} {n m : ℕ}
    (v : View sg κ sp ⟨2, ![n, m]⟩ e)
    (inb : ∀ a, (![0, 0] : Fin 2 → ℕ) a + (⟨2, ![n, m]⟩ : Shape).size a ≤ (⟨2, ![n, m]⟩ : Shape).size a)
    (w : (⟨2, ![n, m]⟩ : Shape).Idx → Val e) :
    v.readCov [(⟨Rect.unit (s := ⟨2, ![n, m]⟩) ![0, 0] (⟨2, ![n, m]⟩ : Shape).size inb, w⟩ : View.Piece Val ⟨2, ![n, m]⟩ e)]
      (Rect.unit (s := ⟨2, ![n, m]⟩) ![0, 0] (⟨2, ![n, m]⟩ : Shape).size inb).toLoadRect = w :=
  View.readCov_unit_zero v View.zeros2 inb w

set_option maxHeartbeats 1000000 in
/-- At reduction coordinate 0. Before: the adjacency tile's buffer holds `a`, the step's feature rows' buffer `xk`, the
    running sum's buffer anything. After: the first two are unchanged and the running sum holds the accumulate payload
    of `a`, `xk` and the zero payload — the sum was zeroed, read back, and the step's product added. The other
    buffers are not touched. -/
theorem run3_first (c : Dev nD) (E : Set ℕ) (i : grid3.Coords) (hk : (i 1).val = 0)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x64 .f32) (harg5 : arg5.IsWhole)
    (arg6 : Memref sig .tc .vmem S1x64 .f32) (harg6 : arg6.IsWhole) (arg7 : Memref sig .tc .vmem S1024x64 .f32) (harg7 : arg7.IsWhole)
    (arg8 : Memref sig .tc .vmem S1024x128 .f32) (harg8 : arg8.IsWhole)
    (a : Vec F S1024x1024 .f32) (xk : Vec F S1024x128 .f32) (K : PUnit → sProp 𝕄) :
    iprop(owns (c : Thread nD τ) arg2 fullShare a ∗ owns (c : Thread nD τ) arg3 fullShare xk ∗ (∃ d, owns (c : Thread nD τ) arg8 fullShare d)
        ∗ (iprop(owns (c : Thread nD τ) arg2 fullShare a ∗ owns (c : Thread nD τ) arg3 fullShare xk
            ∗ owns (c : Thread nD τ) arg8 fullShare (k3_pay2 a xk (k3_pay1 (F := F)))) -∗ K ⟨⟩))
      ⊢ wp frame (wpE (defs₀ (F := F)) Variants.none c none) E
          (cc3_kernel i arg2 harg2 arg3 harg3 arg4 harg4 arg5 harg5 arg6 harg6 arg7 harg7 arg8 harg8) K := by
  have hc1 : Scalar.cmpi .ne (Scalar.extui (Scalar.cmpi .eq (BitVec.ofNat 32 (i 1).val) 0#32)) 0#32 = 1#1 :=
    (guard_first_iff (i 1)).2 hk
  have hc2 : ¬ (k3_cond2 i = 1#1) := fun h => by have h7 := (cond2_iff i).1 h; omega
  simp only [cc3_kernel_eq_skeleton]; unfold cc3_kernel_skel
  unfold owns
  iintro ⟨⟨%f2, %hf2, H2⟩, ⟨%f3, %hf3, H3⟩, ⟨%d8, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_run_names
  rw [read_writes_cons_whole2, readCov_whole2, View.readAt_whole2, View.readAt_whole2]

set_option maxHeartbeats 1000000 in
/-- At a reduction coordinate strictly between 0 and 7. Before: the adjacency tile's buffer holds `a`, the step's
    feature rows' buffer `xk`, the running sum's buffer `acc`. After: the first two are unchanged and the running sum
    holds the accumulate payload of `a`, `xk` and `acc`. The other buffers are not touched. -/
theorem run3_mid (c : Dev nD) (E : Set ℕ) (i : grid3.Coords) (hk0 : (i 1).val ≠ 0) (hk7 : (i 1).val ≠ 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x64 .f32) (harg5 : arg5.IsWhole)
    (arg6 : Memref sig .tc .vmem S1x64 .f32) (harg6 : arg6.IsWhole) (arg7 : Memref sig .tc .vmem S1024x64 .f32) (harg7 : arg7.IsWhole)
    (arg8 : Memref sig .tc .vmem S1024x128 .f32) (harg8 : arg8.IsWhole)
    (a : Vec F S1024x1024 .f32) (xk : Vec F S1024x128 .f32) (acc : Vec F S1024x128 .f32) (K : PUnit → sProp 𝕄) :
    iprop(owns (c : Thread nD τ) arg2 fullShare a ∗ owns (c : Thread nD τ) arg3 fullShare xk ∗ owns (c : Thread nD τ) arg8 fullShare acc
        ∗ (iprop(owns (c : Thread nD τ) arg2 fullShare a ∗ owns (c : Thread nD τ) arg3 fullShare xk
            ∗ owns (c : Thread nD τ) arg8 fullShare (k3_pay2 a xk acc)) -∗ K ⟨⟩))
      ⊢ wp frame (wpE (defs₀ (F := F)) Variants.none c none) E
          (cc3_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => hk0 ((guard_first_iff (i 1)).1 h)
  have hc2 : ¬ (k3_cond2 i = 1#1) := fun h => hk7 ((cond2_iff i).1 h)
  simp only [cc3_kernel_eq_skeleton]; unfold cc3_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  rw [View.read_writes_whole2, View.readAt_whole2, View.readAt_whole2, View.readAt_whole2]

set_option maxHeartbeats 1000000 in
/-- At reduction coordinate 7. Before: the adjacency tile's buffer holds `a`, the step's feature rows' buffer `xk`, the
    running sum's buffer `acc`, the output tile's feature rows' buffer `xi`, the weights' buffer `w`, the bias's buffer `b`,
    the output tile's buffer anything. After: the inputs are unchanged, the running sum holds the accumulate payload
    `s` of `a`, `xk` and `acc`, and the output tile holds the output payload of `s`, `xi`, `w` and `b`. -/
theorem run3_last (c : Dev nD) (E : Set ℕ) (i : grid3.Coords) (hk : (i 1).val = 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x64 .f32) (harg5 : arg5.IsWhole)
    (arg6 : Memref sig .tc .vmem S1x64 .f32) (harg6 : arg6.IsWhole) (arg7 : Memref sig .tc .vmem S1024x64 .f32) (harg7 : arg7.IsWhole)
    (arg8 : Memref sig .tc .vmem S1024x128 .f32) (harg8 : arg8.IsWhole)
    (a : Vec F S1024x1024 .f32) (xk : Vec F S1024x128 .f32) (acc : Vec F S1024x128 .f32)
    (xi : Vec F S1024x128 .f32) (w : Vec F S256x64 .f32) (b : Vec F S1x64 .f32) (K : PUnit → sProp 𝕄) :
    iprop(owns (c : Thread nD τ) arg2 fullShare a ∗ owns (c : Thread nD τ) arg3 fullShare xk ∗ owns (c : Thread nD τ) arg8 fullShare acc
        ∗ owns (c : Thread nD τ) arg4 fullShare xi ∗ owns (c : Thread nD τ) arg5 fullShare w ∗ owns (c : Thread nD τ) arg6 fullShare b
        ∗ (∃ d, owns (c : Thread nD τ) arg7 fullShare d)
        ∗ (iprop(owns (c : Thread nD τ) arg2 fullShare a ∗ owns (c : Thread nD τ) arg3 fullShare xk
            ∗ owns (c : Thread nD τ) arg8 fullShare (k3_pay2 a xk acc)
            ∗ owns (c : Thread nD τ) arg4 fullShare xi ∗ owns (c : Thread nD τ) arg5 fullShare w ∗ owns (c : Thread nD τ) arg6 fullShare b
            ∗ owns (c : Thread nD τ) arg7 fullShare (k3_pay3 (k3_pay2 a xk acc) xi w b)) -∗ K ⟨⟩))
      ⊢ wp frame (wpE (defs₀ (F := F)) Variants.none c none) E
          (cc3_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => by have h0 := (guard_first_iff (i 1)).1 h; omega
  have hc2 : k3_cond2 i = 1#1 := (cond2_iff i).2 hk
  simp only [cc3_kernel_eq_skeleton]; unfold cc3_kernel_skel
  unfold owns
  iintro ⟨⟨%f2, %hf2, H2⟩, ⟨%f3, %hf3, H3⟩, ⟨%f8, %hf8, H8⟩, ⟨%f4, %hf4, H4⟩, ⟨%f5, %hf5, H5⟩, ⟨%f6, %hf6, H6⟩, ⟨%d7, %f7, -, H7⟩, Hk⟩
  subst hf2; subst hf3; subst hf8; subst hf4; subst hf5; subst hf6
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H8]
  · iexists _; isplitr
    swap; · iexact H8
    ipureintro
    sl_unfold_run_names
    rw [View.read_writes_whole2, View.readAt_whole2, View.readAt_whole2, View.readAt_whole2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_whole2, readCov_whole2, View.readAt_whole2, View.readAt_whole2, View.readAt_whole2, View.readAt_whole2,
    View.readAt_whole2, View.readAt_whole2]

end Cert.Kernel.Body

end
-- ==== Proof.KB.Body3.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Dat3
import proofs.«100139_j56126632624275_1_alg».proof.Proof.KB.BodyK3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body

/-! # Call 3: the body at a point keeps the proof data

Three kinds of point, by the reduction step `t % 8`: at step 0 the accumulator is reset and gains the first tile
product; at steps 1–6 it gains one more; at step 7 it gains the last and the output tile is computed from it and
stored. The output window is idle (its buffer untouched, not written back) at every step but 7. -/

section Call3

variable (V : (c : Dev nD) → (b : Ref sig .tc) → Buf (Elt F) ((c : Thread nD τ).loc b))

/-- The reduction step of point `t` is `t % 8`. -/
theorem step3 : ∀ t : Fin cfg3.N, ((grid3.coords t) 1).val = t.val % 8 :=
  (by decide +kernel : ∀ t : Fin grid3.N, ((grid3.coords t) 1).val = t.val % 8)

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem live3_4 : ∀ t : Fin cfg3.N, cfg3.idle 4 (grid3.coords t) = false := by decide +kernel
/-- The output window is idle away from the last reduction step, live at it. -/
theorem idle3_5 : ∀ t : Fin cfg3.N, ¬ t.val % 8 = 7 → cfg3.idle 5 (grid3.coords t) = true := by decide +kernel
theorem live3_5 : ∀ t : Fin cfg3.N, t.val % 8 = 7 → cfg3.idle 5 (grid3.coords t) = false := by decide +kernel
theorem noFlush3_5 (t : Fin cfg3.N) (h : ¬ t.val % 8 = 7) : (cfg3.win 5).flush t = false := by
  cases hf : (cfg3.win 5).flush t with
  | false => rfl
  | true => exact absurd ((flush3_5 t).mp hf) h

abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x64 .f32 := win3_5.stage (cfg3.slots t 5)
abbrev hs3_5 (t : Fin cfg3.N) : (ms3_5 t).IsWhole := hstage3_5 ((cfg3.slots t 5).cast nbuf3_5)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t ∗ (dat3 V c).leavesExact 5 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  rw [show (dat3 V c).leavesExact 2 t = owns (c : Thread nD τ) (ms3_2 t) fullShare ((dat3 V c).after 2 t) from by
    unfold Dat.leavesExact; rw [live3_2 t], after3_2]
  rw [show (dat3 V c).leavesExact 3 t = owns (c : Thread nD τ) (ms3_3 t) fullShare ((dat3 V c).after 3 t) from by
    unfold Dat.leavesExact; rw [live3_3 t], after3_3]
  rw [show (dat3 V c).leavesExact 4 t = owns (c : Thread nD τ) (ms3_4 t) fullShare ((dat3 V c).after 4 t) from by
    unfold Dat.leavesExact; rw [live3_4 t], after3_4]
  have hN : t.val < 64 := lt_of_lt_of_eq t.isLt (show cfg3.N = 64 from N_3)
  have hstep := step3 t
  rw [Phi3_castSucc V c t]
  by_cases h0 : t.val % 8 = 0
  · -- reduction step 0: reset, first tile product
    have h7 : ¬ t.val % 8 = 7 := by omega
    rw [Dat.leavesExact_idle (dat3 V c) 5 t (idle3_5 t h7) (noFlush3_5 t h7)]
    rw [accAt3_first V c t h0]
    by_cases hz : t.val = 0
    · rw [Phi3_zero V c _ _ hz, PhiA3_eq]
      iintro ⟨⟨⟨HS, Hrest⟩, Hg⟩, Ho, ⟨%d0, H0⟩, ⟨%d1, H1⟩, ⟨%d2, H2⟩, ⟨%d3, H3⟩, ⟨%d4, H4⟩, H5⟩
      iapply (run3_first c Set.univ (grid3.coords t) (by rw [hstep]; exact h0) _ _ _ _ _ _ _ _ _ _ _ _ _ _ (iblk3 V c 0 t) (iblk3 V c 1 t) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi3_pos V c _ _ hz]
      iintro ⟨⟨HS, Hrest, Hg⟩, Ho, ⟨%d0, H0⟩, ⟨%d1, H1⟩, ⟨%d2, H2⟩, ⟨%d3, H3⟩, ⟨%d4, H4⟩, H5⟩
      iapply (run3_first c Set.univ (grid3.coords t) (by rw [hstep]; exact h0) _ _ _ _ _ _ _ _ _ _ _ _ _ _ (iblk3 V c 0 t) (iblk3 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [Phi3_pos V c _ _ hz]
    by_cases h7 : t.val % 8 = 7
    · -- reduction step 7: last tile product, then the output tile
      rw [show (dat3 V c).leavesExact 5 t = owns (c : Thread nD τ) (ms3_5 t) fullShare ((dat3 V c).after 5 t) from by
        unfold Dat.leavesExact; rw [live3_5 t h7], after3_5]
      unfold outAt3
      rw [accAt3_next V c t h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run3_last c Set.univ (grid3.coords t) (by rw [hstep]; exact h7) _ _ _ _ _ _ _ _ _ _ _ _ _ _ (iblk3 V c 0 t) (iblk3 V c 1 t)
        (accAt3 V c (t.val - 1) (Nat.lt_of_le_of_lt (Nat.sub_le _ _) t.isLt)) (iblk3 V c 2 t) (iblk3 V c 3 t) (iblk3 V c 4 t) _)
      isplitl [H0]; · iexact H0
      isplitl [H1]; · iexact H1
      isplitl [HS]; · iexact HS
      isplitl [H2]; · iexact H2
      isplitl [H3]; · iexact H3
      isplitl [H4]; · iexact H4
      isplitl [H5]; · iexists _; iexact H5
      iintro ⟨H0, H1, HS, H2, H3, H4, H5⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- reduction steps 1 to 6: one more tile product
      rw [Dat.leavesExact_idle (dat3 V c) 5 t (idle3_5 t h7) (noFlush3_5 t h7)]
      rw [accAt3_next V c t h0]
      iintro ⟨⟨HS, Hrest, Hg⟩, Ho, ⟨%d0, H0⟩, ⟨%d1, H1⟩, ⟨%d2, H2⟩, ⟨%d3, H3⟩, ⟨%d4, H4⟩, H5⟩
      iapply (run3_mid c Set.univ (grid3.coords t) (by rw [hstep]; exact h0) (by rw [hstep]; exact h7) _ _ _ _ _ _ _ _ _ _ _ _ _ _ (iblk3 V c 0 t) (iblk3 V c 1 t)
        (accAt3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Call3

end Cert.Kernel.Hand

end
-- ==== Proof.KB.Seg3.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Dat3
import proofs.«100139_j56126632624275_1_alg».proof.Proof.KB.Seg0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)
open PCS

/-! # Call 3 among the core's unscoped buffers

The call's six windows stand on FIVE distinct buffers: windows 1 and 2 both read the feature matrix. Entering the call,
that buffer's full share is dealt half to each of the two windows; leaving it, the halves (which still hold the same
contents: inputs are never written) are put back together. The output array comes back at what the write-backs left. -/

section Call3

variable (W : Dev nD → Valuation τ sig (Elt F))

/-- The buffers behind the call's arrays, one by one. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_arg1) ↦{fullShare} V main_arg1) ∗ (((c : Thread nD τ).loc main_v5) ↦{fullShare} V main_v5)
          ∗ (((c : Thread nD τ).loc main_arg8) ↦{fullShare} V main_arg8) ∗ (((c : Thread nD τ).loc main_v6) ↦{fullShare} V main_v6)
          ∗ (((c : Thread nD τ).loc main_v7) ↦{fullShare} V main_v7)) := by
  unfold Pipeline.arrBufs
  exact bigSep_eq_bigSepL_of_eq [main_arg1, main_v5, main_arg8, main_v6, main_v7] (by decide) (by decide) _

/-- What the call leaves in the core's unscoped buffers: the entry contents, the output array at what the
    write-backs left. -/
def exitW3 (c : Dev nD) : Valuation τ sig (Elt F) :=
  Function.update (W c) main_v7 ((dat3 (VW W) c).arrAt 5 cfg3.N)

theorem entry3 (c : Dev nD) :
    (StableHlo.held (c : Thread nD τ) (Pipeline.ucRefs τ sig) (W c) : sProp 𝕄)
      ⊢ iprop((dat3 (VW W) c).arrays ((dat3 (VW W) c).arrAt · 0)
          ∗ Pipeline.unscopedRest (Ix := Unit) (Name := ℕ) (U := UR sig nD τ) (Lvl := ℕ) spec3 c (VW W c)) := by
  rw [← Pipeline.unscopedBufs_held (Ix := Unit) (Name := ℕ) (U := UR sig nD τ) (Lvl := ℕ) c (W c)]
  rw [Pipeline.unscopedBufs_split₀ cfgs (3 : Fin 4) winFacts₀3.arr_unscoped c]
  refine sep_mono ?_ .rfl
  refine (Entails.of_eq (arrBufs3_eq c (VW W c))).trans ?_
  unfold Dat.arrays; rw [bigSep_W3]
  have e0 : (dat3 (VW W) c).share 0 = fullShare := rfl
  have e1 : (dat3 (VW W) c).share 1 = fullShare.left := rfl
  have e2 : (dat3 (VW W) c).share 2 = fullShare.right := rfl
  have e3 : (dat3 (VW W) c).share 3 = fullShare := rfl
  have e4 : (dat3 (VW W) c).share 4 = fullShare := rfl
  have e5 : (dat3 (VW W) c).share 5 = fullShare := rfl
  rw [e0, e1, e2, e3, e4, e5]
  simp only [View.set_whole]
  iintro ⟨H1, H0, H2, Hv0, Hv1⟩
  ihave Hs := (pointsTo_share halves).1 $$ H0
  icases Hs with ⟨H0l, H0r⟩
  isplitl [H1]; · iexact H1
  isplitl [H0l]; · iexact H0l
  isplitl [H0r]; · iexact H0r
  isplitl [H2]; · iexact H2
  isplitl [Hv0]; · iexact Hv0
  iexact Hv1

/-- The updated valuation agrees with the entry contents off the output array. -/
theorem exitW3_of_ne (c : Dev nD) (b : Ref sig .tc) (h : b ≠ main_v7) : exitW3 W c b = W c b := by
  unfold exitW3
  exact Function.update_of_ne (StableHlo.devRef_ne_of_ne h : (Proc.devRef .tc b : DevRef τ sig) ≠ Proc.devRef .tc main_v7) _ _

/-- and holds the output array at what the write-backs left. -/
theorem exitW3_out (c : Dev nD) : exitW3 W c main_v7 = (dat3 (VW W) c).arrAt 5 cfg3.N := by
  unfold exitW3; exact Function.update_self _ _ _

set_option maxHeartbeats 2000000 in
theorem exit3 (c : Dev nD) :
    iprop((dat3 (VW W) c).arrays ((dat3 (VW W) c).arrAt · cfg3.N)
        ∗ Pipeline.unscopedRest (Ix := Unit) (Name := ℕ) (U := UR sig nD τ) (Lvl := ℕ) spec3 c (VW W c))
      ⊢ (StableHlo.held (c : Thread nD τ) (Pipeline.ucRefs τ sig) (exitW3 W c) : sProp 𝕄) := by
  rw [← Pipeline.unscopedBufs_held (Ix := Unit) (Name := ℕ) (U := UR sig nD τ) (Lvl := ℕ) c (exitW3 W c)]
  rw [Pipeline.unscopedBufs_split₀ cfgs (3 : Fin 4) winFacts₀3.arr_unscoped c]
  refine sep_mono ?_ (Entails.of_eq ?_)
  · refine .trans ?_ (Entails.of_eq (arrBufs3_eq c (VW (exitW3 W) c)).symm)
    unfold Dat.arrays; rw [bigSep_W3]
    have e0 : (dat3 (VW W) c).share 0 = fullShare := rfl
    have e1 : (dat3 (VW W) c).share 1 = fullShare.left := rfl
    have e2 : (dat3 (VW W) c).share 2 = fullShare.right := rfl
    have e3 : (dat3 (VW W) c).share 3 = fullShare := rfl
    have e4 : (dat3 (VW W) c).share 4 = fullShare := rfl
    have e5 : (dat3 (VW W) c).share 5 = fullShare := rfl
    rw [e0, e1, e2, e3, e4, e5]
    simp only [View.set_whole]
    rw [(dat3 (VW W) c).arrAt_in 0 rfl, (dat3 (VW W) c).arrAt_in 1 rfl, (dat3 (VW W) c).arrAt_in 2 rfl,
      (dat3 (VW W) c).arrAt_in 3 rfl, (dat3 (VW W) c).arrAt_in 4 rfl]
    simp only [A_eq3]
    rw [show VW (exitW3 W) c main_arg1 = VW W c main_arg1 from exitW3_of_ne W c main_arg1 (by decide),
      show VW (exitW3 W) c main_v5 = VW W c main_v5 from exitW3_of_ne W c main_v5 (by decide),
      show VW (exitW3 W) c main_arg8 = VW W c main_arg8 from exitW3_of_ne W c main_arg8 (by decide),
      show VW (exitW3 W) c main_v6 = VW W c main_v6 from exitW3_of_ne W c main_v6 (by decide),
      show VW (exitW3 W) c main_v7 = (dat3 (VW W) c).arrAt 5 cfg3.N from exitW3_out W c]
    iintro ⟨H1, H0l, H0r, H2, Hv0, Hv1⟩
    ihave H0 := (pointsTo_share halves).2 $$ [H0l H0r]
    · isplitl [H0l]; · iexact H0l
      iexact H0r
    isplitl [H1]; · iexact H1
    isplitl [H0]; · iexact H0
    isplitl [H2]; · iexact H2
    isplitl [Hv0]; · iexact Hv0
    iexact Hv1
  · unfold Pipeline.unscopedRest
    exact (bigSep_congr fun b hb => by
      have e : exitW3 W c b = W c b := exitW3_of_ne W c b
        (fun e => (Finset.mem_sdiff.mp hb).2 (e ▸ Finset.mem_image.mpr ⟨(5 : Fin 6), Finset.mem_univ _, rfl⟩))
      dsimp only [VW]; rw [e]).symm

end Call3

end Cert.Kernel.Hand

end
-- ==== Proof.KB.Run.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Body0
import proofs.«100139_j56126632624275_1_alg».proof.Proof.KB.Seg0
import proofs.«100139_j56126632624275_1_alg».proof.Proof.KB.Body1
import proofs.«100139_j56126632624275_1_alg».proof.Proof.KB.Seg1
import proofs.«100139_j56126632624275_1_alg».proof.Proof.KB.Body2
import proofs.«100139_j56126632624275_1_alg».proof.Proof.KB.Seg2
import proofs.«100139_j56126632624275_1_alg».proof.Proof.KB.Body3
import proofs.«100139_j56126632624275_1_alg».proof.Proof.KB.Seg3
import proofs.«100139_j56126632624275_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's eight items from the launch to the return

Four host stretches (each reshapes a bias vector to a row) alternate with the four calls. The contents of the core's
unscoped buffers are followed item by item: a host stretch applies its operations, a call replaces its output array by
what its write-backs leave. At the end every unscoped buffer is read against the last of these. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (call 0's entry). -/
abbrev W1 : Dev nD → Valuation τ sig (Elt F) := fun c => StableHlo.after hostOps0 (W0 m ρ c)
/-- After call 0. -/
def W2 (c : Dev nD) : Valuation τ sig (Elt F) := exitW0 (W1 m ρ) c
abbrev W3 : Dev nD → Valuation τ sig (Elt F) := fun c => StableHlo.after hostOps1 (W2 m ρ c)
/-- After call 1. -/
def W4 (c : Dev nD) : Valuation τ sig (Elt F) := exitW1 (W3 m ρ) c
abbrev W5 : Dev nD → Valuation τ sig (Elt F) := fun c => StableHlo.after hostOps2 (W4 m ρ c)
/-- After call 2. -/
def W6 (c : Dev nD) : Valuation τ sig (Elt F) := exitW2 (W5 m ρ) c
abbrev W7 : Dev nD → Valuation τ sig (Elt F) := fun c => StableHlo.after hostOps3 (W6 m ρ c)
/-- After call 3: the end. -/
def W8 (c : Dev nD) : Valuation τ sig (Elt F) := exitW3 (W7 m ρ) c

/-- Every call's proof data, each at its entry contents, given call by call. -/
def pdats : (p : Fin 4) → (c : Dev nD) → Dat τ (Elt F) Unit ℕ (UR sig nD τ) ℕ (Pipeline.pin (pcfgs (F := F)) adm p) c
  | ⟨0, _⟩ => fun c => dat0 (VW (W1 m ρ)) c
  | ⟨1, _⟩ => fun c => dat1 (VW (W3 m ρ)) c
  | ⟨2, _⟩ => fun c => dat2 (VW (W5 m ρ)) c
  | ⟨3, _⟩ => fun c => dat3 (VW (W7 m ρ)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ Wd, owes (c : Thread nD τ) (0 : CellTallies nD τ sig Unit) Wd)
/-- A host stretch as a segment over the unscoped references from the contents `Wv`, `R` riding along. -/
abbrev hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv R

/-- The last thread state without the `owes`: every unscoped buffer at the last contents, the generator register. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Call 0 over the thread state: entered from every unscoped buffer at `W1`, left at `W2`. Its arrays are split
    out of the unscoped buffers (the array two windows read dealt half and half) and put back at the exit contents; the
    generator register and the scratch go into the call's invariant and come out; nothing owed; no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (VW (W1 m ρ)) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VW (W1 m ρ) c)
  hentry c := by
    rw [Pipeline.ownSems0_none]
    have hsplit := entry0 (W1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Phi0 (VW (W1 m ρ)) c (63 + 1) (le_of_eq (show 63 + 1 = cfg0.N from N_0.symm)) from rfl, Phi0_succ]
    show _ ⊢ iprop((∃ r, prngReg c r) ∗ BI.emp ∗ Pipeline.scopedRest (Ix := Unit) (Name := ℕ) (U := UR sig nD τ) (Lvl := ℕ) (Val := Elt F) spec0 c)
    rw [scopedRest0_split]
    simp only [scM0, owns_whole]
    iintro ⟨HS, Hrest, Hp⟩
    isplitl [Hp]; · iexact Hp
    isplitr; · iempintro
    isplitl [HS]; · iexists _; iexact HS
    iexact Hrest
  hexit c := by
    have hjoin := exit0 (W1 m ρ) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%Wd, -, HO⟩; iexists Wd; iexact HO

set_option backward.isDefEq.respectTransparency.types false in
/-- Call 1 over the thread state: entered from every unscoped buffer at `W3`, left at `W4`. Its arrays are split
    out of the unscoped buffers (the array two windows read dealt half and half) and put back at the exit contents; the
    generator register and the scratch go into the call's invariant and come out; nothing owed; no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (VW (W3 m ρ)) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (VW (W3 m ρ) c)
  hentry c := by
    rw [Pipeline.ownSems0_none]
    have hsplit := entry1 (W3 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Phi1 (VW (W3 m ρ)) c (63 + 1) (le_of_eq (show 63 + 1 = cfg1.N from N_1.symm)) from rfl, Phi1_succ]
    show _ ⊢ iprop((∃ r, prngReg c r) ∗ BI.emp ∗ Pipeline.scopedRest (Ix := Unit) (Name := ℕ) (U := UR sig nD τ) (Lvl := ℕ) (Val := Elt F) spec1 c)
    rw [scopedRest1_split]
    simp only [scM1, owns_whole]
    iintro ⟨HS, Hrest, Hp⟩
    isplitl [Hp]; · iexact Hp
    isplitr; · iempintro
    isplitl [HS]; · iexists _; iexact HS
    iexact Hrest
  hexit c := by
    have hjoin := exit1 (W3 m ρ) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%Wd, -, HO⟩; iexists Wd; iexact HO

set_option backward.isDefEq.respectTransparency.types false in
/-- Call 2 over the thread state: entered from every unscoped buffer at `W5`, left at `W6`. Its arrays are split
    out of the unscoped buffers (the array two windows read dealt half and half) and put back at the exit contents; the
    generator register and the scratch go into the call's invariant and come out; nothing owed; no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (VW (W5 m ρ)) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (VW (W5 m ρ) c)
  hentry c := by
    rw [Pipeline.ownSems0_none]
    have hsplit := entry2 (W5 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Phi2 (VW (W5 m ρ)) c (63 + 1) (le_of_eq (show 63 + 1 = cfg2.N from N_2.symm)) from rfl, Phi2_succ]
    show _ ⊢ iprop((∃ r, prngReg c r) ∗ BI.emp ∗ Pipeline.scopedRest (Ix := Unit) (Name := ℕ) (U := UR sig nD τ) (Lvl := ℕ) (Val := Elt F) spec2 c)
    rw [scopedRest2_split]
    simp only [scM2, owns_whole]
    iintro ⟨HS, Hrest, Hp⟩
    isplitl [Hp]; · iexact Hp
    isplitr; · iempintro
    isplitl [HS]; · iexists _; iexact HS
    iexact Hrest
  hexit c := by
    have hjoin := exit2 (W5 m ρ) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%Wd, -, HO⟩; iexists Wd; iexact HO

set_option backward.isDefEq.respectTransparency.types false in
/-- Call 3 over the thread state: entered from every unscoped buffer at `W7`, left at `W8`. Its arrays are split
    out of the unscoped buffers (the array two windows read dealt half and half) and put back at the exit contents; the
    generator register and the scratch go into the call's invariant and come out; nothing owed; no semaphore of its own. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (VW (W7 m ρ)) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ Wd, owes (c : Thread nD τ) (0 : CellTallies nD τ sig Unit) Wd)
  X c := iprop(∃ r, prngReg c r)
  Y c := iprop(∃ r, prngReg c r)
  Z c := Pipeline.unscopedRest (Ix := Unit) (Name := ℕ) (U := UR sig nD τ) (Lvl := ℕ) spec3 c (VW (W7 m ρ) c)
  hentry c := by
    rw [Pipeline.ownSems0_none]
    have hsplit := entry3 (W7 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Phi3 (VW (W7 m ρ)) c (63 + 1) (le_of_eq (show 63 + 1 = cfg3.N from N_3.symm)) from rfl, Phi3_succ]
    show _ ⊢ iprop((∃ r, prngReg c r) ∗ BI.emp ∗ Pipeline.scopedRest (Ix := Unit) (Name := ℕ) (U := UR sig nD τ) (Lvl := ℕ) (Val := Elt F) spec3 c)
    rw [scopedRest3_split]
    simp only [scM3, owns_whole]
    iintro ⟨HS, Hrest, Hp⟩
    isplitl [Hp]; · iexact Hp
    isplitr; · iempintro
    isplitl [HS]; · iexists _; iexact HS
    iexact Hrest
  hexit c := by
    have hjoin := exit3 (W7 m ρ) c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%Wd, -, HO⟩; iexists Wd; iexact HO

/-- @main's eight items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run (c : Dev nD) : main (F := F) c = Pipeline.Seg.run (segs m ρ) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    final state holds each unscoped buffer at the last contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.KB.Frame.lean ====
import proofs.«100139_j56126632624275_1_alg».proof.Proof.Gen.Kernel.Launch
import proofs.«100139_j56126632624275_1_alg».proof.Proof.Gen.Kernel.Skeleton
import proofs.«100139_j56126632624275_1_alg».proof.Proof.Gen.Kernel.Points
import proofs.«100139_j56126632624275_1_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the last contents hold at a buffer no item writes

Each host stretch writes one bias row (`main_v0`, `main_v2`, `main_v4`, `main_v6`) and each call changes only its
output array (`main_v1`, `main_v3`, `main_v5`, `main_v7`); every other unscoped buffer ends as launched. -/

variable (m : (ℓ : Loc nD τ sig) → Buf (Elt F) ℓ) (ρ : Dev nD → PrngReg)

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ≠ main_v1) : W2 m ρ c r = W1 m ρ c r := exitW0_of_ne (W1 m ρ) c r h
theorem W3_of (c : Dev nD) (r : Ref sig .tc) (h : r ∉ hostOps1_W) : W3 m ρ c r = W2 m ρ c r :=
  StableHlo.after_of_writes_sub hostOps1 _ hostOps1_writes h
theorem W4_of (c : Dev nD) (r : Ref sig .tc) (h : r ≠ main_v3) : W4 m ρ c r = W3 m ρ c r := exitW1_of_ne (W3 m ρ) c r h
theorem W5_of (c : Dev nD) (r : Ref sig .tc) (h : r ∉ hostOps2_W) : W5 m ρ c r = W4 m ρ c r :=
  StableHlo.after_of_writes_sub hostOps2 _ hostOps2_writes h
theorem W6_of (c : Dev nD) (r : Ref sig .tc) (h : r ≠ main_v5) : W6 m ρ c r = W5 m ρ c r := exitW2_of_ne (W5 m ρ) c r h
theorem W7_of (c : Dev nD) (r : Ref sig .tc) (h : r ∉ hostOps3_W) : W7 m ρ c r = W6 m ρ c r :=
  StableHlo.after_of_writes_sub hostOps3 _ hostOps3_writes h
theorem W8_of (c : Dev nD) (r : Ref sig .tc) (h : r ≠ main_v7) : W8 m ρ c r = W7 m ρ c r := exitW3_of_ne (W7 m ρ) c r h

/-- `main_arg0` ends as launched. -/
theorem W8_main_arg0 (c : Dev nD) : W8 m ρ c main_arg0 = m ((c : Thread nD τ).loc main_arg0) :=
  (W8_of m ρ c main_arg0 (by decide)).trans <| (W7_of m ρ c main_arg0 (by decide)).trans <| (W6_of m ρ c main_arg0 (by decide)).trans <|
    (W5_of m ρ c main_arg0 (by decide)).trans <| (W4_of m ρ c main_arg0 (by decide)).trans <| (W3_of m ρ c main_arg0 (by decide)).trans <|
    (W2_of m ρ c main_arg0 (by decide)).trans <| (W1_of m ρ c main_arg0 (by decide)).trans rfl
/-- `main_arg1` ends as launched. -/
theorem W8_main_arg1 (c : Dev nD) : W8 m ρ c main_arg1 = m ((c : Thread nD τ).loc main_arg1) :=
  (W8_of m ρ c main_arg1 (by decide)).trans <| (W7_of m ρ c main_arg1 (by decide)).trans <| (W6_of m ρ c main_arg1 (by decide)).trans <|
    (W5_of m ρ c main_arg1 (by decide)).trans <| (W4_of m ρ c main_arg1 (by decide)).trans <| (W3_of m ρ c main_arg1 (by decide)).trans <|
    (W2_of m ρ c main_arg1 (by decide)).trans <| (W1_of m ρ c main_arg1 (by decide)).trans rfl
/-- `main_arg2` ends as launched. -/
theorem W8_main_arg2 (c : Dev nD) : W8 m ρ c main_arg2 = m ((c : Thread nD τ).loc main_arg2) :=
  (W8_of m ρ c main_arg2 (by decide)).trans <| (W7_of m ρ c main_arg2 (by decide)).trans <| (W6_of m ρ c main_arg2 (by decide)).trans <|
    (W5_of m ρ c main_arg2 (by decide)).trans <| (W4_of m ρ c main_arg2 (by decide)).trans <| (W3_of m ρ c main_arg2 (by decide)).trans <|
    (W2_of m ρ c main_arg2 (by decide)).trans <| (W1_of m ρ c main_arg2 (by decide)).trans rfl
/-- `main_arg3` ends as launched. -/
theorem W8_main_arg3 (c : Dev nD) : W8 m ρ c main_arg3 = m ((c : Thread nD τ).loc main_arg3) :=
  (W8_of m ρ c main_arg3 (by decide)).trans <| (W7_of m ρ c main_arg3 (by decide)).trans <| (W6_of m ρ c main_arg3 (by decide)).trans <|
    (W5_of m ρ c main_arg3 (by decide)).trans <| (W4_of m ρ c main_arg3 (by decide)).trans <| (W3_of m ρ c main_arg3 (by decide)).trans <|
    (W2_of m ρ c main_arg3 (by decide)).trans <| (W1_of m ρ c main_arg3 (by decide)).trans rfl
/-- `main_arg4` ends as launched. -/
theorem W8_main_arg4 (c : Dev nD) : W8 m ρ c main_arg4 = m ((c : Thread nD τ).loc main_arg4) :=
  (W8_of m ρ c main_arg4 (by decide)).trans <| (W7_of m ρ c main_arg4 (by decide)).trans <| (W6_of m ρ c main_arg4 (by decide)).trans <|
    (W5_of m ρ c main_arg4 (by decide)).trans <| (W4_of m ρ c main_arg4 (by decide)).trans <| (W3_of m ρ c main_arg4 (by decide)).trans <|
    (W2_of m ρ c main_arg4 (by decide)).trans <| (W1_of m ρ c main_arg4 (by decide)).trans rfl
/-- `main_arg5` ends as launched. -/
theorem W8_main_arg5 (c : Dev nD) : W8 m ρ c main_arg5 = m ((c : Thread nD τ).loc main_arg5) :=
  (W8_of m ρ c main_arg5 (by decide)).trans <| (W7_of m ρ c main_arg5 (by decide)).trans <| (W6_of m ρ c main_arg5 (by decide)).trans <|
    (W5_of m ρ c main_arg5 (by decide)).trans <| (W4_of m ρ c main_arg5 (by decide)).trans <| (W3_of m ρ c main_arg5 (by decide)).trans <|
    (W2_of m ρ c main_arg5 (by decide)).trans <| (W1_of m ρ c main_arg5 (by decide)).trans rfl
/-- `main_arg6` ends as launched. -/
theorem W8_main_arg6 (c : Dev nD) : W8 m ρ c main_arg6 = m ((c : Thread nD τ).loc main_arg6) :=
  (W8_of m ρ c main_arg6 (by decide)).trans <| (W7_of m ρ c main_arg6 (by decide)).trans <| (W6_of m ρ c main_arg6 (by decide)).trans <|
    (W5_of m ρ c main_arg6 (by decide)).trans <| (W4_of m ρ c main_arg6 (by decide)).trans <| (W3_of m ρ c main_arg6 (by decide)).trans <|
    (W2_of m ρ c main_arg6 (by decide)).trans <| (W1_of m ρ c main_arg6 (by decide)).trans rfl
/-- `main_arg7` ends as launched. -/
theorem W8_main_arg7 (c : Dev nD) : W8 m ρ c main_arg7 = m ((c : Thread nD τ).loc main_arg7) :=
  (W8_of m ρ c main_arg7 (by decide)).trans <| (W7_of m ρ c main_arg7 (by decide)).trans <| (W6_of m ρ c main_arg7 (by decide)).trans <|
    (W5_of m ρ c main_arg7 (by decide)).trans <| (W4_of m ρ c main_arg7 (by decide)).trans <| (W3_of m ρ c main_arg7 (by decide)).trans <|
    (W2_of m ρ c main_arg7 (by decide)).trans <| (W1_of m ρ c main_arg7 (by decide)).trans rfl
/-- `main_arg8` ends as launched. -/
theorem W8_main_arg8 (c : Dev nD) : W8 m ρ c main_arg8 = m ((c : Thread nD τ).loc main_arg8) :=
  (W8_of m ρ c main_arg8 (by decide)).trans <| (W7_of m ρ c main_arg8 (by decide)).trans <| (W6_of m ρ c main_arg8 (by decide)).trans <|
    (W5_of m ρ c main_arg8 (by decide)).trans <| (W4_of m ρ c main_arg8 (by decide)).trans <| (W3_of m ρ c main_arg8 (by decide)).trans <|
    (W2_of m ρ c main_arg8 (by decide)).trans <| (W1_of m ρ c main_arg8 (by decide)).trans rfl
/-- `main_arg9` ends as launched. -/
theorem W8_main_arg9 (c : Dev nD) : W8 m ρ c main_arg9 = m ((c : Thread nD τ).loc main_arg9) :=
  (W8_of m ρ c main_arg9 (by decide)).trans <| (W7_of m ρ c main_arg9 (by decide)).trans <| (W6_of m ρ c main_arg9 (by decide)).trans <|
    (W5_of m ρ c main_arg9 (by decide)).trans <| (W4_of m ρ c main_arg9 (by decide)).trans <| (W3_of m ρ c main_arg9 (by decide)).trans <|
    (W2_of m ρ c main_arg9 (by decide)).trans <| (W1_of m ρ c main_arg9 (by decide)).trans rfl

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩)
    (run_all m ρ)

end Cert.Kernel.Hand

end
-- ==== Proof.KI.Dat0.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0: what each staging buffer and the accumulator hold, point by point

The grid is 8 × 8, point `t` = (row tile `t / 8`, reduction step `t % 8`). The accumulator is reset at reduction
step 0, gains one tile product per step, and the output tile is computed from it at step 7. Everything is stated
over `V`, the contents of the unscoped buffers when the call is entered. -/

section Call0

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: at a reduction step 0 the tile product added to zeros, otherwise
    added to what the position before left. -/
def accAt0 (c : Dev nD) : (n : ℕ) → n < cfg0.N → Vec F S1024x256 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (accAt0 c n (Nat.lt_of_succ_lt hn))

/-- The output tile the body computes at point `t` from the accumulator it has just updated. -/
def outAt0 (c : Dev nD) (t : Fin cfg0.N) : Vec F S1024x128 .f32 :=
  k0_pay3 (accAt0 V c t.val t.isLt) (iblk0 V c 2 t) (iblk0 V c 3 t) (iblk0 V c 4 t)

theorem accAt0_first (c : Dev nD) (t : Fin cfg0.N) (h : t.val % 8 = 0) :
    accAt0 V c t.val t.isLt = k0_pay2 (iblk0 V c 0 t) (iblk0 V c 1 t) (k0_pay1 (F := F)) := by
  obtain ⟨n, hn⟩ := t
  cases n with
  | zero => rfl
  | succ n => exact (if_pos h)

theorem accAt0_next (c : Dev nD) (t : Fin cfg0.N) (h : ¬ t.val % 8 = 0) :
    accAt0 V c t.val t.isLt = k0_pay2 (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h
  | succ n => exact (if_neg h)

/-- The scratch operand: a whole scoped buffer of the call's own, passed beside the windows. -/
abbrev scM0 : Memref sig .tc .vmem S1024x256 .f32 := Memref.whole cc0_scratch0

/-- The scoped buffers that are neither a staging buffer of the call nor its scratch, each at anything. -/
abbrev restBut0 (c : Dev nD) : sProp 𝕄 :=
  Pipeline.scopedRestBut (Ix := Unit) (Name := ℕ) (U := UR sig nD τ) (Lvl := ℕ) (Val := Elt F) spec0 c [cc0_scratch0]

/-- The call's invariant before position `n`: before the first point every scoped buffer the call does not stage at
    anything, and the generator register at some state; afterwards the same with the accumulator at what position
    `n - 1` left in it. -/
def Phi0 (c : Dev nD) : (n : ℕ) → n ≤ cfg0.N → sProp 𝕄
  | 0, _ => Pipeline.ΦA spec0 c
  | n + 1, hn => iprop(owns (c : Thread nD τ) scM0 fullShare (accAt0 V c n hn) ∗ restBut0 (F := F) c ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (accAt0 V c n hn) ∗ restBut0 (F := F) c ∗ (∃ r, prngReg c r)) := rfl

theorem Phi0_pos (c : Dev nD) (n : ℕ) (h : n ≤ cfg0.N) (hz : n ≠ 0) :
    Phi0 V c n h = iprop(owns (c : Thread nD τ) scM0 fullShare (accAt0 V c (n - 1) (by omega)) ∗ restBut0 (F := F) c ∗ (∃ r, prngReg c r)) := by
  cases n with
  | zero => exact absurd rfl hz
  | succ n => rfl

/-- Before the first point: the scratch at anything, the other scoped buffers, the generator register. -/
theorem PhiA0_eq (c : Dev nD) :
    (Pipeline.ΦA spec0 c : sProp 𝕄)
      = iprop(iprop((∃ d, owns (c : Thread nD τ) scM0 fullShare d) ∗ restBut0 (F := F) c) ∗ (∃ r, prngReg c r)) := by
  unfold Pipeline.ΦA; rw [scopedRest0_split]; simp only [scM0, owns_whole]; rfl

/-- The proof data of call 0 on core `c`. The arrays are the entry contents; after the body each input's buffer
    holds its block and the output's holds the tile computed at that point (read only where the point stores it);
    the array read through windows 1 and 2 is held half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt0 V c t
  Φ t := Phi0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt0 V c t := by dsimp only [dat0]

/-- Each input's current staging buffer holds its block at every point, fetched there or not: where it is not
    fetched its block index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

end Call0

end Cert.KernelIdeal.Hand

end
-- ==== Proof.BodyK0.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import Idealize.ShloMosaic.Lib.Pipeline.FrameBody
import Idealize.ShloMosaic.Lib.Pipeline.FrameSuffix
import Idealize.ShloMosaic.Lib.Tactic
import proofs.«100139_j56126632624275_1_alg».proof.Proof.LibWholeAccess

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The body of kernel call 0, one grid point at a time

The body runs at a point `(i, k)` of an 8 × 8 grid; `k` is the reduction coordinate. It keeps a running sum in a
scratch buffer: at `k = 0` the sum is first set to zero; at every `k` the product of the adjacency tile with the
feature rows of the step is added to it; at `k = 7` the output tile is computed from the finished sum, the
feature rows of the output tile, the weights and the bias. Every access reads or writes a whole buffer. The three
theorems below give, for the three kinds of point (`k = 0`, `0 < k < 7`, `k = 7`), what each buffer holds after the
body in terms of what it held before, the arithmetic staying behind the payload names. -/

/-- The first guard of the body, as a function of the reduction coordinate alone: it holds exactly at coordinate 0. -/
private theorem guard_first_iff : ∀ j : Fin 8,
    Scalar.cmpi .ne (Scalar.extui (Scalar.cmpi .eq (BitVec.ofNat 32 j.val) 0#32)) 0#32 = 1#1 ↔ j.val = 0 := by decide

/-- The second guard, likewise: it holds exactly at coordinate 7. -/
private theorem guard_last_iff : ∀ j : Fin 8,
    Scalar.cmpi .ne (Scalar.extui (Scalar.cmpi .eq (BitVec.ofNat 32 j.val) 7#32)) 0#32 = 1#1 ↔ j.val = 7 := by decide

/-- The second guard as the program names it, at a grid point. -/
private theorem cond2_iff (i : grid0.Coords) : k0_cond2 i = 1#1 ↔ (i 1).val = 7 := by
  unfold k0_cond2; exact guard_last_iff (i 1)

/-- A store through the whole-shape rectangle at zero offsets, made LAST, leaves its payload, whatever was stored before it. -/
private theorem read_writes_cons_whole_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb]

/-- The same for a matrix, the same for a matrix, the two zero offsets written out. -/
private theorem read_writes_cons_whole2 {Val : EltTy → Type} [∀ e, Nonempty (Val e)] {sg : RefSig} {κ : Kind} {sp : Space} {e : EltTy} {n m : ℕ}
    (v : View sg κ sp ⟨2, ![n, m]⟩ e) (f : v.ty.Contents Val)
    (inb : ∀ a, (![0, 0] : Fin 2 → ℕ) a + (⟨2, ![n, m]⟩ : Shape).size a ≤ (⟨2, ![n, m]⟩ : Shape).size a)
    (w : (⟨2, ![n, m]⟩ : Shape).Idx → Val e) (L : List (View.Piece Val ⟨2, ![n, m]⟩ e)) :
    v.read Val (v.writes Val f ((⟨Rect.unit (s := ⟨2, ![n, m]⟩) ![0, 0] (⟨2, ![n, m]⟩ : Shape).size inb, w⟩ : View.Piece Val ⟨2, ![n, m]⟩ e) :: L)) = w :=
  read_writes_cons_whole_unit v f View.zeros2 inb w L

/-- A load through that rectangle of what ONE store through it left reads the stored payload. -/
private theorem readCov_whole2 {Val : EltTy → Type} [∀ e, Nonempty (Val e)] {sg : RefSig} {κ : Kind} {sp : Space} {e : EltTy} {n m : ℕ}
    (v : View sg κ sp ⟨2, ![n, m]⟩ e)
    (inb : ∀ a, (![0, 0] : Fin 2 → ℕ) a + (⟨2, ![n, m]⟩ : Shape).size a ≤ (⟨2, ![n, m]⟩ : Shape).size a)
    (w : (⟨2, ![n, m]⟩ : Shape).Idx → Val e) :
    v.readCov [(⟨Rect.unit (s := ⟨2, ![n, m]⟩) ![0, 0] (⟨2, ![n, m]⟩ : Shape).size inb, w⟩ : View.Piece Val ⟨2, ![n, m]⟩ e)]
      (Rect.unit (s := ⟨2, ![n, m]⟩) ![0, 0] (⟨2, ![n, m]⟩ : Shape).size inb).toLoadRect = w :=
  View.readCov_unit_zero v View.zeros2 inb w

set_option maxHeartbeats 1000000 in
/-- At reduction coordinate 0. Before: the adjacency tile's buffer holds `a`, the step's feature rows' buffer `xk`, the
    running sum's buffer anything. After: the first two are unchanged and the running sum holds the accumulate payload
    of `a`, `xk` and the zero payload — the sum was zeroed, read back, and the step's product added. The other
    buffers are not touched. -/
theorem run0_first (c : Dev nD) (E : Set ℕ) (i : grid0.Coords) (hk : (i 1).val = 0)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x256 .f32) (harg8 : arg8.IsWhole)
    (a : Vec F S1024x1024 .f32) (xk : Vec F S1024x256 .f32) (K : PUnit → sProp 𝕄) :
    iprop(owns (c : Thread nD τ) arg2 fullShare a ∗ owns (c : Thread nD τ) arg3 fullShare xk ∗ (∃ d, owns (c : Thread nD τ) arg8 fullShare d)
        ∗ (iprop(owns (c : Thread nD τ) arg2 fullShare a ∗ owns (c : Thread nD τ) arg3 fullShare xk
            ∗ owns (c : Thread nD τ) arg8 fullShare (k0_pay2 a xk (k0_pay1 (F := F)))) -∗ K ⟨⟩))
      ⊢ wp frame (wpE (defs₀ (F := F)) Variants.none c none) E
          (cc0_kernel i arg2 harg2 arg3 harg3 arg4 harg4 arg5 harg5 arg6 harg6 arg7 harg7 arg8 harg8) K := by
  have hc1 : Scalar.cmpi .ne (Scalar.extui (Scalar.cmpi .eq (BitVec.ofNat 32 (i 1).val) 0#32)) 0#32 = 1#1 :=
    (guard_first_iff (i 1)).2 hk
  have hc2 : ¬ (k0_cond2 i = 1#1) := fun h => by have h7 := (cond2_iff i).1 h; omega
  simp only [cc0_kernel_eq_skeleton]; unfold cc0_kernel_skel
  unfold owns
  iintro ⟨⟨%f2, %hf2, H2⟩, ⟨%f3, %hf3, H3⟩, ⟨%d8, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_run_names
  rw [read_writes_cons_whole2, readCov_whole2, View.readAt_whole2, View.readAt_whole2]

set_option maxHeartbeats 1000000 in
/-- At a reduction coordinate strictly between 0 and 7. Before: the adjacency tile's buffer holds `a`, the step's
    feature rows' buffer `xk`, the running sum's buffer `acc`. After: the first two are unchanged and the running sum
    holds the accumulate payload of `a`, `xk` and `acc`. The other buffers are not touched. -/
theorem run0_mid (c : Dev nD) (E : Set ℕ) (i : grid0.Coords) (hk0 : (i 1).val ≠ 0) (hk7 : (i 1).val ≠ 7)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x256 .f32) (harg8 : arg8.IsWhole)
    (a : Vec F S1024x1024 .f32) (xk : Vec F S1024x256 .f32) (acc : Vec F S1024x256 .f32) (K : PUnit → sProp 𝕄) :
    iprop(owns (c : Thread nD τ) arg2 fullShare a ∗ owns (c : Thread nD τ) arg3 fullShare xk ∗ owns (c : Thread nD τ) arg8 fullShare acc
        ∗ (iprop(owns (c : Thread nD τ) arg2 fullShare a ∗ owns (c : Thread nD τ) arg3 fullShare xk
            ∗ owns (c : Thread nD τ) arg8 fullShare (k0_pay2 a xk acc)) -∗ K ⟨⟩))
      ⊢ wp frame (wpE (defs₀ (F := F)) Variants.none c none) E
          (cc0_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => hk0 ((guard_first_iff (i 1)).1 h)
  have hc2 : ¬ (k0_cond2 i = 1#1) := fun h => hk7 ((cond2_iff i).1 h)
  simp only [cc0_kernel_eq_skeleton]; unfold cc0_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  rw [View.read_writes_whole2, View.readAt_whole2, View.readAt_whole2, View.readAt_whole2]

set_option maxHeartbeats 1000000 in
/-- At reduction coordinate 7. Before: the adjacency tile's buffer holds `a`, the step's feature rows' buffer `xk`, the
    running sum's buffer `acc`, the output tile's feature rows' buffer `xi`, the weights' buffer `w`, the bias's buffer `b`,
    the output tile's buffer anything. After: the inputs are unchanged, the running sum holds the accumulate payload
    `s` of `a`, `xk` and `acc`, and the output tile holds the output payload of `s`, `xi`, `w` and `b`. -/
theorem run0_last (c : Dev nD) (E : Set ℕ) (i : grid0.Coords) (hk : (i 1).val = 7)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x256 .f32) (harg8 : arg8.IsWhole)
    (a : Vec F S1024x1024 .f32) (xk : Vec F S1024x256 .f32) (acc : Vec F S1024x256 .f32)
    (xi : Vec F S1024x256 .f32) (w : Vec F S512x128 .f32) (b : Vec F S1x128 .f32) (K : PUnit → sProp 𝕄) :
    iprop(owns (c : Thread nD τ) arg2 fullShare a ∗ owns (c : Thread nD τ) arg3 fullShare xk ∗ owns (c : Thread nD τ) arg8 fullShare acc
        ∗ owns (c : Thread nD τ) arg4 fullShare xi ∗ owns (c : Thread nD τ) arg5 fullShare w ∗ owns (c : Thread nD τ) arg6 fullShare b
        ∗ (∃ d, owns (c : Thread nD τ) arg7 fullShare d)
        ∗ (iprop(owns (c : Thread nD τ) arg2 fullShare a ∗ owns (c : Thread nD τ) arg3 fullShare xk
            ∗ owns (c : Thread nD τ) arg8 fullShare (k0_pay2 a xk acc)
            ∗ owns (c : Thread nD τ) arg4 fullShare xi ∗ owns (c : Thread nD τ) arg5 fullShare w ∗ owns (c : Thread nD τ) arg6 fullShare b
            ∗ owns (c : Thread nD τ) arg7 fullShare (k0_pay3 (k0_pay2 a xk acc) xi w b)) -∗ K ⟨⟩))
      ⊢ wp frame (wpE (defs₀ (F := F)) Variants.none c none) E
          (cc0_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => by have h0 := (guard_first_iff (i 1)).1 h; omega
  have hc2 : k0_cond2 i = 1#1 := (cond2_iff i).2 hk
  simp only [cc0_kernel_eq_skeleton]; unfold cc0_kernel_skel
  unfold owns
  iintro ⟨⟨%f2, %hf2, H2⟩, ⟨%f3, %hf3, H3⟩, ⟨%f8, %hf8, H8⟩, ⟨%f4, %hf4, H4⟩, ⟨%f5, %hf5, H5⟩, ⟨%f6, %hf6, H6⟩, ⟨%d7, %f7, -, H7⟩, Hk⟩
  subst hf2; subst hf3; subst hf8; subst hf4; subst hf5; subst hf6
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H8]
  · iexists _; isplitr
    swap; · iexact H8
    ipureintro
    sl_unfold_run_names
    rw [View.read_writes_whole2, View.readAt_whole2, View.readAt_whole2, View.readAt_whole2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_whole2, readCov_whole2, View.readAt_whole2, View.readAt_whole2, View.readAt_whole2, View.readAt_whole2,
    View.readAt_whole2, View.readAt_whole2]

end Cert.KernelIdeal.Body

end
-- ==== Proof.KI.Body0.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Dat0
import proofs.«100139_j56126632624275_1_alg».proof.Proof.BodyK0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body

/-! # Call 0: the body at a point keeps the proof data

Three kinds of point, by the reduction step `t % 8`: at step 0 the accumulator is reset and gains the first tile
product; at steps 1–6 it gains one more; at step 7 it gains the last and the output tile is computed from it and
stored. The output window is idle (its buffer untouched, not written back) at every step but 7. -/

section Call0

variable (V : (c : Dev nD) → (b : Ref sig .tc) → Buf (Elt F) ((c : Thread nD τ).loc b))

/-- The reduction step of point `t` is `t % 8`. -/
theorem step0 : ∀ t : Fin cfg0.N, ((grid0.coords t) 1).val = t.val % 8 :=
  (by decide +kernel : ∀ t : Fin grid0.N, ((grid0.coords t) 1).val = t.val % 8)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- The output window is idle away from the last reduction step, live at it. -/
theorem idle0_5 : ∀ t : Fin cfg0.N, ¬ t.val % 8 = 7 → cfg0.idle 5 (grid0.coords t) = true := by decide +kernel
theorem live0_5 : ∀ t : Fin cfg0.N, t.val % 8 = 7 → cfg0.idle 5 (grid0.coords t) = false := by decide +kernel
theorem noFlush0_5 (t : Fin cfg0.N) (h : ¬ t.val % 8 = 7) : (cfg0.win 5).flush t = false := by
  cases hf : (cfg0.win 5).flush t with
  | false => rfl
  | true => exact absurd ((flush0_5 t).mp hf) h

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  have hN : t.val < 64 := lt_of_lt_of_eq t.isLt (show cfg0.N = 64 from N_0)
  have hstep := step0 t
  rw [Phi0_castSucc V c t]
  by_cases h0 : t.val % 8 = 0
  · -- reduction step 0: reset, first tile product
    have h7 : ¬ t.val % 8 = 7 := by omega
    rw [Dat.leavesExact_idle (dat0 V c) 5 t (idle0_5 t h7) (noFlush0_5 t h7)]
    rw [accAt0_first V c t h0]
    by_cases hz : t.val = 0
    · rw [Phi0_zero V c _ _ hz, PhiA0_eq]
      iintro ⟨⟨⟨HS, Hrest⟩, Hg⟩, Ho, ⟨%d0, H0⟩, ⟨%d1, H1⟩, ⟨%d2, H2⟩, ⟨%d3, H3⟩, ⟨%d4, H4⟩, H5⟩
      iapply (run0_first c Set.univ (grid0.coords t) (by rw [hstep]; exact h0) _ _ _ _ _ _ _ _ _ _ _ _ _ _ (iblk0 V c 0 t) (iblk0 V c 1 t) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi0_pos V c _ _ hz]
      iintro ⟨⟨HS, Hrest, Hg⟩, Ho, ⟨%d0, H0⟩, ⟨%d1, H1⟩, ⟨%d2, H2⟩, ⟨%d3, H3⟩, ⟨%d4, H4⟩, H5⟩
      iapply (run0_first c Set.univ (grid0.coords t) (by rw [hstep]; exact h0) _ _ _ _ _ _ _ _ _ _ _ _ _ _ (iblk0 V c 0 t) (iblk0 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [Phi0_pos V c _ _ hz]
    by_cases h7 : t.val % 8 = 7
    · -- reduction step 7: last tile product, then the output tile
      rw [show (dat0 V c).leavesExact 5 t = owns (c : Thread nD τ) (ms0_5 t) fullShare ((dat0 V c).after 5 t) from by
        unfold Dat.leavesExact; rw [live0_5 t h7], after0_5]
      unfold outAt0
      rw [accAt0_next V c t h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run0_last c Set.univ (grid0.coords t) (by rw [hstep]; exact h7) _ _ _ _ _ _ _ _ _ _ _ _ _ _ (iblk0 V c 0 t) (iblk0 V c 1 t)
        (accAt0 V c (t.val - 1) (Nat.lt_of_le_of_lt (Nat.sub_le _ _) t.isLt)) (iblk0 V c 2 t) (iblk0 V c 3 t) (iblk0 V c 4 t) _)
      isplitl [H0]; · iexact H0
      isplitl [H1]; · iexact H1
      isplitl [HS]; · iexact HS
      isplitl [H2]; · iexact H2
      isplitl [H3]; · iexact H3
      isplitl [H4]; · iexact H4
      isplitl [H5]; · iexists _; iexact H5
      iintro ⟨H0, H1, HS, H2, H3, H4, H5⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- reduction steps 1 to 6: one more tile product
      rw [Dat.leavesExact_idle (dat0 V c) 5 t (idle0_5 t h7) (noFlush0_5 t h7)]
      rw [accAt0_next V c t h0]
      iintro ⟨⟨HS, Hrest, Hg⟩, Ho, ⟨%d0, H0⟩, ⟨%d1, H1⟩, ⟨%d2, H2⟩, ⟨%d3, H3⟩, ⟨%d4, H4⟩, H5⟩
      iapply (run0_mid c Set.univ (grid0.coords t) (by rw [hstep]; exact h0) (by rw [hstep]; exact h7) _ _ _ _ _ _ _ _ _ _ _ _ _ _ (iblk0 V c 0 t) (iblk0 V c 1 t)
        (accAt0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Call0

end Cert.KernelIdeal.Hand

end
-- ==== Proof.KI.Seg0.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)
open PCS

/-! # Call 0 among the core's unscoped buffers

The call's six windows stand on FIVE distinct buffers: windows 1 and 2 both read the feature matrix. Entering the call,
that buffer's full share is dealt half to each of the two windows; leaving it, the halves (which still hold the same
contents: inputs are never written) are put back together. The output array comes back at what the write-backs left. -/

section Call0

variable (W : Dev nD → Valuation τ sig (Elt F))

/-- The valuation read at the TensorCore's references. -/
abbrev VW (c : Dev nD) (b : Ref sig .tc) : Buf (Elt F) ((c : Thread nD τ).loc b) := W c b

/-- The buffers behind the call's arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg0) ↦{fullShare} V main_arg0)
          ∗ (((c : Thread nD τ).loc main_arg2) ↦{fullShare} V main_arg2) ∗ (((c : Thread nD τ).loc main_v0) ↦{fullShare} V main_v0)
          ∗ (((c : Thread nD τ).loc main_v1) ↦{fullShare} V main_v1)) := by
  unfold Pipeline.arrBufs
  exact bigSep_eq_bigSepL_of_eq [main_arg1, main_arg0, main_arg2, main_v0, main_v1] (by decide) (by decide) _

/-- The two halves of the full share make it. -/
theorem halves : fullShare ∈ (fullShare.left ·? fullShare.right) :=
  PosShare.mem_left_op_right fullShare

/-- What the call leaves in the core's unscoped buffers: the entry contents, the output array at what the
    write-backs left. -/
def exitW0 (c : Dev nD) : Valuation τ sig (Elt F) :=
  Function.update (W c) main_v1 ((dat0 (VW W) c).arrAt 5 cfg0.N)

theorem entry0 (c : Dev nD) :
    (StableHlo.held (c : Thread nD τ) (Pipeline.ucRefs τ sig) (W c) : sProp 𝕄)
      ⊢ iprop((dat0 (VW W) c).arrays ((dat0 (VW W) c).arrAt · 0)
          ∗ Pipeline.unscopedRest (Ix := Unit) (Name := ℕ) (U := UR sig nD τ) (Lvl := ℕ) spec0 c (VW W c)) := by
  rw [← Pipeline.unscopedBufs_held (Ix := Unit) (Name := ℕ) (U := UR sig nD τ) (Lvl := ℕ) c (W c)]
  rw [Pipeline.unscopedBufs_split₀ cfgs (0 : Fin 4) winFacts₀0.arr_unscoped c]
  refine sep_mono ?_ .rfl
  refine (Entails.of_eq (arrBufs0_eq c (VW W c))).trans ?_
  unfold Dat.arrays; rw [bigSep_W0]
  have e0 : (dat0 (VW W) c).share 0 = fullShare := rfl
  have e1 : (dat0 (VW W) c).share 1 = fullShare.left := rfl
  have e2 : (dat0 (VW W) c).share 2 = fullShare.right := rfl
  have e3 : (dat0 (VW W) c).share 3 = fullShare := rfl
  have e4 : (dat0 (VW W) c).share 4 = fullShare := rfl
  have e5 : (dat0 (VW W) c).share 5 = fullShare := rfl
  rw [e0, e1, e2, e3, e4, e5]
  simp only [View.set_whole]
  iintro ⟨H1, H0, H2, Hv0, Hv1⟩
  ihave Hs := (pointsTo_share halves).1 $$ H0
  icases Hs with ⟨H0l, H0r⟩
  isplitl [H1]; · iexact H1
  isplitl [H0l]; · iexact H0l
  isplitl [H0r]; · iexact H0r
  isplitl [H2]; · iexact H2
  isplitl [Hv0]; · iexact Hv0
  iexact Hv1

/-- The updated valuation agrees with the entry contents off the output array. -/
theorem exitW0_of_ne (c : Dev nD) (b : Ref sig .tc) (h : b ≠ main_v1) : exitW0 W c b = W c b := by
  unfold exitW0
  exact Function.update_of_ne (StableHlo.devRef_ne_of_ne h : (Proc.devRef .tc b : DevRef τ sig) ≠ Proc.devRef .tc main_v1) _ _

/-- and holds the output array at what the write-backs left. -/
theorem exitW0_out (c : Dev nD) : exitW0 W c main_v1 = (dat0 (VW W) c).arrAt 5 cfg0.N := by
  unfold exitW0; exact Function.update_self _ _ _

set_option maxHeartbeats 2000000 in
theorem exit0 (c : Dev nD) :
    iprop((dat0 (VW W) c).arrays ((dat0 (VW W) c).arrAt · cfg0.N)
        ∗ Pipeline.unscopedRest (Ix := Unit) (Name := ℕ) (U := UR sig nD τ) (Lvl := ℕ) spec0 c (VW W c))
      ⊢ (StableHlo.held (c : Thread nD τ) (Pipeline.ucRefs τ sig) (exitW0 W c) : sProp 𝕄) := by
  rw [← Pipeline.unscopedBufs_held (Ix := Unit) (Name := ℕ) (U := UR sig nD τ) (Lvl := ℕ) c (exitW0 W c)]
  rw [Pipeline.unscopedBufs_split₀ cfgs (0 : Fin 4) winFacts₀0.arr_unscoped c]
  refine sep_mono ?_ (Entails.of_eq ?_)
  · refine .trans ?_ (Entails.of_eq (arrBufs0_eq c (VW (exitW0 W) c)).symm)
    unfold Dat.arrays; rw [bigSep_W0]
    have e0 : (dat0 (VW W) c).share 0 = fullShare := rfl
    have e1 : (dat0 (VW W) c).share 1 = fullShare.left := rfl
    have e2 : (dat0 (VW W) c).share 2 = fullShare.right := rfl
    have e3 : (dat0 (VW W) c).share 3 = fullShare := rfl
    have e4 : (dat0 (VW W) c).share 4 = fullShare := rfl
    have e5 : (dat0 (VW W) c).share 5 = fullShare := rfl
    rw [e0, e1, e2, e3, e4, e5]
    simp only [View.set_whole]
    rw [(dat0 (VW W) c).arrAt_in 0 rfl, (dat0 (VW W) c).arrAt_in 1 rfl, (dat0 (VW W) c).arrAt_in 2 rfl,
      (dat0 (VW W) c).arrAt_in 3 rfl, (dat0 (VW W) c).arrAt_in 4 rfl]
    simp only [A_eq0]
    rw [show VW (exitW0 W) c main_arg1 = VW W c main_arg1 from exitW0_of_ne W c main_arg1 (by decide),
      show VW (exitW0 W) c main_arg0 = VW W c main_arg0 from exitW0_of_ne W c main_arg0 (by decide),
      show VW (exitW0 W) c main_arg2 = VW W c main_arg2 from exitW0_of_ne W c main_arg2 (by decide),
      show VW (exitW0 W) c main_v0 = VW W c main_v0 from exitW0_of_ne W c main_v0 (by decide),
      show VW (exitW0 W) c main_v1 = (dat0 (VW W) c).arrAt 5 cfg0.N from exitW0_out W c]
    iintro ⟨H1, H0l, H0r, H2, Hv0, Hv1⟩
    ihave H0 := (pointsTo_share halves).2 $$ [H0l H0r]
    · isplitl [H0l]; · iexact H0l
      iexact H0r
    isplitl [H1]; · iexact H1
    isplitl [H0]; · iexact H0
    isplitl [H2]; · iexact H2
    isplitl [Hv0]; · iexact Hv0
    iexact Hv1
  · unfold Pipeline.unscopedRest
    exact (bigSep_congr fun b hb => by
      have e : exitW0 W c b = W c b := exitW0_of_ne W c b
        (fun e => (Finset.mem_sdiff.mp hb).2 (e ▸ Finset.mem_image.mpr ⟨(5 : Fin 6), Finset.mem_univ _, rfl⟩))
      dsimp only [VW]; rw [e]).symm

end Call0

end Cert.KernelIdeal.Hand

end
-- ==== Proof.KI.Dat1.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1: what each staging buffer and the accumulator hold, point by point

The grid is 8 × 8, point `t` = (row tile `t / 8`, reduction step `t % 8`). The accumulator is reset at reduction
step 0, gains one tile product per step, and the output tile is computed from it at step 7. Everything is stated
over `V`, the contents of the unscoped buffers when the call is entered. -/

section Call1

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: at a reduction step 0 the tile product added to zeros, otherwise
    added to what the position before left. -/
def accAt1 (c : Dev nD) : (n : ℕ) → n < cfg1.N → Vec F S1024x128 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- The output tile the body computes at point `t` from the accumulator it has just updated. -/
def outAt1 (c : Dev nD) (t : Fin cfg1.N) : Vec F S1024x128 .f32 :=
  k1_pay3 (accAt1 V c t.val t.isLt) (iblk1 V c 2 t) (iblk1 V c 3 t) (iblk1 V c 4 t)

theorem accAt1_first (c : Dev nD) (t : Fin cfg1.N) (h : t.val % 8 = 0) :
    accAt1 V c t.val t.isLt = k1_pay2 (iblk1 V c 0 t) (iblk1 V c 1 t) (k1_pay1 (F := F)) := by
  obtain ⟨n, hn⟩ := t
  cases n with
  | zero => rfl
  | succ n => exact (if_pos h)

theorem accAt1_next (c : Dev nD) (t : Fin cfg1.N) (h : ¬ t.val % 8 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact (if_neg h)

/-- The scratch operand: a whole scoped buffer of the call's own, passed beside the windows. -/
abbrev scM1 : Memref sig .tc .vmem S1024x128 .f32 := Memref.whole cc1_scratch0

/-- The scoped buffers that are neither a staging buffer of the call nor its scratch, each at anything. -/
abbrev restBut1 (c : Dev nD) : sProp 𝕄 :=
  Pipeline.scopedRestBut (Ix := Unit) (Name := ℕ) (U := UR sig nD τ) (Lvl := ℕ) (Val := Elt F) spec1 c [cc1_scratch0]

/-- The call's invariant before position `n`: before the first point every scoped buffer the call does not stage at
    anything, and the generator register at some state; afterwards the same with the accumulator at what position
    `n - 1` left in it. -/
def Phi1 (c : Dev nD) : (n : ℕ) → n ≤ cfg1.N → sProp 𝕄
  | 0, _ => Pipeline.ΦA spec1 c
  | n + 1, hn => iprop(owns (c : Thread nD τ) scM1 fullShare (accAt1 V c n hn) ∗ restBut1 (F := F) c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (accAt1 V c n hn) ∗ restBut1 (F := F) c ∗ (∃ r, prngReg c r)) := rfl

theorem Phi1_pos (c : Dev nD) (n : ℕ) (h : n ≤ cfg1.N) (hz : n ≠ 0) :
    Phi1 V c n h = iprop(owns (c : Thread nD τ) scM1 fullShare (accAt1 V c (n - 1) (by omega)) ∗ restBut1 (F := F) c ∗ (∃ r, prngReg c r)) := by
  cases n with
  | zero => exact absurd rfl hz
  | succ n => rfl

/-- Before the first point: the scratch at anything, the other scoped buffers, the generator register. -/
theorem PhiA1_eq (c : Dev nD) :
    (Pipeline.ΦA spec1 c : sProp 𝕄)
      = iprop(iprop((∃ d, owns (c : Thread nD τ) scM1 fullShare d) ∗ restBut1 (F := F) c) ∗ (∃ r, prngReg c r)) := by
  unfold Pipeline.ΦA; rw [scopedRest1_split]; simp only [scM1, owns_whole]; rfl

/-- The proof data of call 1 on core `c`. The arrays are the entry contents; after the body each input's buffer
    holds its block and the output's holds the tile computed at that point (read only where the point stores it);
    the array read through windows 1 and 2 is held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := Phi1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

/-- Each input's current staging buffer holds its block at every point, fetched there or not: where it is not
    fetched its block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

end Call1

end Cert.KernelIdeal.Hand

end
-- ==== Proof.BodyK1.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import Idealize.ShloMosaic.Lib.Pipeline.FrameBody
import Idealize.ShloMosaic.Lib.Pipeline.FrameSuffix
import Idealize.ShloMosaic.Lib.Tactic
import proofs.«100139_j56126632624275_1_alg».proof.Proof.LibWholeAccess

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The body of kernel call 1, one grid point at a time

The body runs at a point `(i, k)` of an 8 × 8 grid; `k` is the reduction coordinate. It keeps a running sum in a
scratch buffer: at `k = 0` the sum is first set to zero; at every `k` the product of the adjacency tile with the
feature rows of the step is added to it; at `k = 7` the output tile is computed from the finished sum, the
feature rows of the output tile, the weights and the bias. Every access reads or writes a whole buffer. The three
theorems below give, for the three kinds of point (`k = 0`, `0 < k < 7`, `k = 7`), what each buffer holds after the
body in terms of what it held before, the arithmetic staying behind the payload names. -/

/-- The first guard of the body, as a function of the reduction coordinate alone: it holds exactly at coordinate 0. -/
private theorem guard_first_iff : ∀ j : Fin 8,
    Scalar.cmpi .ne (Scalar.extui (Scalar.cmpi .eq (BitVec.ofNat 32 j.val) 0#32)) 0#32 = 1#1 ↔ j.val = 0 := by decide

/-- The second guard, likewise: it holds exactly at coordinate 7. -/
private theorem guard_last_iff : ∀ j : Fin 8,
    Scalar.cmpi .ne (Scalar.extui (Scalar.cmpi .eq (BitVec.ofNat 32 j.val) 7#32)) 0#32 = 1#1 ↔ j.val = 7 := by decide

/-- The second guard as the program names it, at a grid point. -/
private theorem cond2_iff (i : grid1.Coords) : k1_cond2 i = 1#1 ↔ (i 1).val = 7 := by
  unfold k1_cond2; exact guard_last_iff (i 1)

/-- A store through the whole-shape rectangle at zero offsets, made LAST, leaves its payload, whatever was stored before it. -/
private theorem read_writes_cons_whole_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb]

/-- The same for a matrix, the same for a matrix, the two zero offsets written out. -/
private theorem read_writes_cons_whole2 {Val : EltTy → Type} [∀ e, Nonempty (Val e)] {sg : RefSig} {κ : Kind} {sp : Space} {e : EltTy} {n m : ℕ}
    (v : View sg κ sp ⟨2, ![n, m]⟩ e) (f : v.ty.Contents Val)
    (inb : ∀ a, (![0, 0] : Fin 2 → ℕ) a + (⟨2, ![n, m]⟩ : Shape).size a ≤ (⟨2, ![n, m]⟩ : Shape).size a)
    (w : (⟨2, ![n, m]⟩ : Shape).Idx → Val e) (L : List (View.Piece Val ⟨2, ![n, m]⟩ e)) :
    v.read Val (v.writes Val f ((⟨Rect.unit (s := ⟨2, ![n, m]⟩) ![0, 0] (⟨2, ![n, m]⟩ : Shape).size inb, w⟩ : View.Piece Val ⟨2, ![n, m]⟩ e) :: L)) = w :=
  read_writes_cons_whole_unit v f View.zeros2 inb w L

/-- A load through that rectangle of what ONE store through it left reads the stored payload. -/
private theorem readCov_whole2 {Val : EltTy → Type} [∀ e, Nonempty (Val e)] {sg : RefSig} {κ : Kind} {sp : Space} {e : EltTy} {n m : ℕ}
    (v : View sg κ sp ⟨2, ![n, m]⟩ e)
    (inb : ∀ a, (![0, 0] : Fin 2 → ℕ) a + (⟨2, ![n, m]⟩ : Shape).size a ≤ (⟨2, ![n, m]⟩ : Shape).size a)
    (w : (⟨2, ![n, m]⟩ : Shape).Idx → Val e) :
    v.readCov [(⟨Rect.unit (s := ⟨2, ![n, m]⟩) ![0, 0] (⟨2, ![n, m]⟩ : Shape).size inb, w⟩ : View.Piece Val ⟨2, ![n, m]⟩ e)]
      (Rect.unit (s := ⟨2, ![n, m]⟩) ![0, 0] (⟨2, ![n, m]⟩ : Shape).size inb).toLoadRect = w :=
  View.readCov_unit_zero v View.zeros2 inb w

set_option maxHeartbeats 1000000 in
/-- At reduction coordinate 0. Before: the adjacency tile's buffer holds `a`, the step's feature rows' buffer `xk`, the
    running sum's buffer anything. After: the first two are unchanged and the running sum holds the accumulate payload
    of `a`, `xk` and the zero payload — the sum was zeroed, read back, and the step's product added. The other
    buffers are not touched. -/
theorem run1_first (c : Dev nD) (E : Set ℕ) (i : grid1.Coords) (hk : (i 1).val = 0)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (K : PUnit → sProp 𝕄) :
    iprop(owns (c : Thread nD τ) arg2 fullShare a ∗ owns (c : Thread nD τ) arg3 fullShare xk ∗ (∃ d, owns (c : Thread nD τ) arg8 fullShare d)
        ∗ (iprop(owns (c : Thread nD τ) arg2 fullShare a ∗ owns (c : Thread nD τ) arg3 fullShare xk
            ∗ owns (c : Thread nD τ) arg8 fullShare (k1_pay2 a xk (k1_pay1 (F := F)))) -∗ K ⟨⟩))
      ⊢ wp frame (wpE (defs₀ (F := F)) Variants.none c none) E
          (cc1_kernel i arg2 harg2 arg3 harg3 arg4 harg4 arg5 harg5 arg6 harg6 arg7 harg7 arg8 harg8) K := by
  have hc1 : Scalar.cmpi .ne (Scalar.extui (Scalar.cmpi .eq (BitVec.ofNat 32 (i 1).val) 0#32)) 0#32 = 1#1 :=
    (guard_first_iff (i 1)).2 hk
  have hc2 : ¬ (k1_cond2 i = 1#1) := fun h => by have h7 := (cond2_iff i).1 h; omega
  simp only [cc1_kernel_eq_skeleton]; unfold cc1_kernel_skel
  unfold owns
  iintro ⟨⟨%f2, %hf2, H2⟩, ⟨%f3, %hf3, H3⟩, ⟨%d8, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_run_names
  rw [read_writes_cons_whole2, readCov_whole2, View.readAt_whole2, View.readAt_whole2]

set_option maxHeartbeats 1000000 in
/-- At a reduction coordinate strictly between 0 and 7. Before: the adjacency tile's buffer holds `a`, the step's
    feature rows' buffer `xk`, the running sum's buffer `acc`. After: the first two are unchanged and the running sum
    holds the accumulate payload of `a`, `xk` and `acc`. The other buffers are not touched. -/
theorem run1_mid (c : Dev nD) (E : Set ℕ) (i : grid1.Coords) (hk0 : (i 1).val ≠ 0) (hk7 : (i 1).val ≠ 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (acc : Vec F S1024x128 .f32) (K : PUnit → sProp 𝕄) :
    iprop(owns (c : Thread nD τ) arg2 fullShare a ∗ owns (c : Thread nD τ) arg3 fullShare xk ∗ owns (c : Thread nD τ) arg8 fullShare acc
        ∗ (iprop(owns (c : Thread nD τ) arg2 fullShare a ∗ owns (c : Thread nD τ) arg3 fullShare xk
            ∗ owns (c : Thread nD τ) arg8 fullShare (k1_pay2 a xk acc)) -∗ K ⟨⟩))
      ⊢ wp frame (wpE (defs₀ (F := F)) Variants.none c none) E
          (cc1_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => hk0 ((guard_first_iff (i 1)).1 h)
  have hc2 : ¬ (k1_cond2 i = 1#1) := fun h => hk7 ((cond2_iff i).1 h)
  simp only [cc1_kernel_eq_skeleton]; unfold cc1_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  rw [View.read_writes_whole2, View.readAt_whole2, View.readAt_whole2, View.readAt_whole2]

set_option maxHeartbeats 1000000 in
/-- At reduction coordinate 7. Before: the adjacency tile's buffer holds `a`, the step's feature rows' buffer `xk`, the
    running sum's buffer `acc`, the output tile's feature rows' buffer `xi`, the weights' buffer `w`, the bias's buffer `b`,
    the output tile's buffer anything. After: the inputs are unchanged, the running sum holds the accumulate payload
    `s` of `a`, `xk` and `acc`, and the output tile holds the output payload of `s`, `xi`, `w` and `b`. -/
theorem run1_last (c : Dev nD) (E : Set ℕ) (i : grid1.Coords) (hk : (i 1).val = 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (acc : Vec F S1024x128 .f32)
    (xi : Vec F S1024x128 .f32) (w : Vec F S256x128 .f32) (b : Vec F S1x128 .f32) (K : PUnit → sProp 𝕄) :
    iprop(owns (c : Thread nD τ) arg2 fullShare a ∗ owns (c : Thread nD τ) arg3 fullShare xk ∗ owns (c : Thread nD τ) arg8 fullShare acc
        ∗ owns (c : Thread nD τ) arg4 fullShare xi ∗ owns (c : Thread nD τ) arg5 fullShare w ∗ owns (c : Thread nD τ) arg6 fullShare b
        ∗ (∃ d, owns (c : Thread nD τ) arg7 fullShare d)
        ∗ (iprop(owns (c : Thread nD τ) arg2 fullShare a ∗ owns (c : Thread nD τ) arg3 fullShare xk
            ∗ owns (c : Thread nD τ) arg8 fullShare (k1_pay2 a xk acc)
            ∗ owns (c : Thread nD τ) arg4 fullShare xi ∗ owns (c : Thread nD τ) arg5 fullShare w ∗ owns (c : Thread nD τ) arg6 fullShare b
            ∗ owns (c : Thread nD τ) arg7 fullShare (k1_pay3 (k1_pay2 a xk acc) xi w b)) -∗ K ⟨⟩))
      ⊢ wp frame (wpE (defs₀ (F := F)) Variants.none c none) E
          (cc1_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => by have h0 := (guard_first_iff (i 1)).1 h; omega
  have hc2 : k1_cond2 i = 1#1 := (cond2_iff i).2 hk
  simp only [cc1_kernel_eq_skeleton]; unfold cc1_kernel_skel
  unfold owns
  iintro ⟨⟨%f2, %hf2, H2⟩, ⟨%f3, %hf3, H3⟩, ⟨%f8, %hf8, H8⟩, ⟨%f4, %hf4, H4⟩, ⟨%f5, %hf5, H5⟩, ⟨%f6, %hf6, H6⟩, ⟨%d7, %f7, -, H7⟩, Hk⟩
  subst hf2; subst hf3; subst hf8; subst hf4; subst hf5; subst hf6
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H8]
  · iexists _; isplitr
    swap; · iexact H8
    ipureintro
    sl_unfold_run_names
    rw [View.read_writes_whole2, View.readAt_whole2, View.readAt_whole2, View.readAt_whole2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_whole2, readCov_whole2, View.readAt_whole2, View.readAt_whole2, View.readAt_whole2, View.readAt_whole2,
    View.readAt_whole2, View.readAt_whole2]

end Cert.KernelIdeal.Body

end
-- ==== Proof.KI.Body1.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Dat1
import proofs.«100139_j56126632624275_1_alg».proof.Proof.BodyK1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body

/-! # Call 1: the body at a point keeps the proof data

Three kinds of point, by the reduction step `t % 8`: at step 0 the accumulator is reset and gains the first tile
product; at steps 1–6 it gains one more; at step 7 it gains the last and the output tile is computed from it and
stored. The output window is idle (its buffer untouched, not written back) at every step but 7. -/

section Call1

variable (V : (c : Dev nD) → (b : Ref sig .tc) → Buf (Elt F) ((c : Thread nD τ).loc b))

/-- The reduction step of point `t` is `t % 8`. -/
theorem step1 : ∀ t : Fin cfg1.N, ((grid1.coords t) 1).val = t.val % 8 :=
  (by decide +kernel : ∀ t : Fin grid1.N, ((grid1.coords t) 1).val = t.val % 8)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- The output window is idle away from the last reduction step, live at it. -/
theorem idle1_5 : ∀ t : Fin cfg1.N, ¬ t.val % 8 = 7 → cfg1.idle 5 (grid1.coords t) = true := by decide +kernel
theorem live1_5 : ∀ t : Fin cfg1.N, t.val % 8 = 7 → cfg1.idle 5 (grid1.coords t) = false := by decide +kernel
theorem noFlush1_5 (t : Fin cfg1.N) (h : ¬ t.val % 8 = 7) : (cfg1.win 5).flush t = false := by
  cases hf : (cfg1.win 5).flush t with
  | false => rfl
  | true => exact absurd ((flush1_5 t).mp hf) h

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  have hN : t.val < 64 := lt_of_lt_of_eq t.isLt (show cfg1.N = 64 from N_1)
  have hstep := step1 t
  rw [Phi1_castSucc V c t]
  by_cases h0 : t.val % 8 = 0
  · -- reduction step 0: reset, first tile product
    have h7 : ¬ t.val % 8 = 7 := by omega
    rw [Dat.leavesExact_idle (dat1 V c) 5 t (idle1_5 t h7) (noFlush1_5 t h7)]
    rw [accAt1_first V c t h0]
    by_cases hz : t.val = 0
    · rw [Phi1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, H5⟩
      iapply (run1_first c Set.univ (grid1.coords t) (by rw [hstep]; exact h0) _ _ _ _ _ _ _ _ _ _ _ _ _ _ (iblk1 V c 0 t) (iblk1 V c 1 t) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi1_pos V c _ _ hz]
      iintro ⟨⟨HS, Hrest, Hg⟩, Ho, ⟨%d0, H0⟩, ⟨%d1, H1⟩, ⟨%d2, H2⟩, ⟨%d3, H3⟩, ⟨%d4, H4⟩, H5⟩
      iapply (run1_first c Set.univ (grid1.coords t) (by rw [hstep]; exact h0) _ _ _ _ _ _ _ _ _ _ _ _ _ _ (iblk1 V c 0 t) (iblk1 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [Phi1_pos V c _ _ hz]
    by_cases h7 : t.val % 8 = 7
    · -- reduction step 7: last tile product, then the output tile
      rw [show (dat1 V c).leavesExact 5 t = owns (c : Thread nD τ) (ms1_5 t) fullShare ((dat1 V c).after 5 t) from by
        unfold Dat.leavesExact; rw [live1_5 t h7], after1_5]
      unfold outAt1
      rw [accAt1_next V c t h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run1_last c Set.univ (grid1.coords t) (by rw [hstep]; exact h7) _ _ _ _ _ _ _ _ _ _ _ _ _ _ (iblk1 V c 0 t) (iblk1 V c 1 t)
        (accAt1 V c (t.val - 1) (Nat.lt_of_le_of_lt (Nat.sub_le _ _) t.isLt)) (iblk1 V c 2 t) (iblk1 V c 3 t) (iblk1 V c 4 t) _)
      isplitl [H0]; · iexact H0
      isplitl [H1]; · iexact H1
      isplitl [HS]; · iexact HS
      isplitl [H2]; · iexact H2
      isplitl [H3]; · iexact H3
      isplitl [H4]; · iexact H4
      isplitl [H5]; · iexists _; iexact H5
      iintro ⟨H0, H1, HS, H2, H3, H4, H5⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- reduction steps 1 to 6: one more tile product
      rw [Dat.leavesExact_idle (dat1 V c) 5 t (idle1_5 t h7) (noFlush1_5 t h7)]
      rw [accAt1_next V c t h0]
      iintro ⟨⟨HS, Hrest, Hg⟩, Ho, ⟨%d0, H0⟩, ⟨%d1, H1⟩, ⟨%d2, H2⟩, ⟨%d3, H3⟩, ⟨%d4, H4⟩, H5⟩
      iapply (run1_mid c Set.univ (grid1.coords t) (by rw [hstep]; exact h0) (by rw [hstep]; exact h7) _ _ _ _ _ _ _ _ _ _ _ _ _ _ (iblk1 V c 0 t) (iblk1 V c 1 t)
        (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Call1

end Cert.KernelIdeal.Hand

end
-- ==== Proof.KI.Seg1.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Dat1
import proofs.«100139_j56126632624275_1_alg».proof.Proof.KI.Seg0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)
open PCS

/-! # Call 1 among the core's unscoped buffers

The call's six windows stand on FIVE distinct buffers: windows 1 and 2 both read the feature matrix. Entering the call,
that buffer's full share is dealt half to each of the two windows; leaving it, the halves (which still hold the same
contents: inputs are never written) are put back together. The output array comes back at what the write-backs left. -/

section Call1

variable (W : Dev nD → Valuation τ sig (Elt F))

/-- The buffers behind the call's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v1) ↦{fullShare} V main_v1)
          ∗ (((c : Thread nD τ).loc main_arg4) ↦{fullShare} V main_arg4) ∗ (((c : Thread nD τ).loc main_v2) ↦{fullShare} V main_v2)
          ∗ (((c : Thread nD τ).loc main_v3) ↦{fullShare} V main_v3)) := by
  unfold Pipeline.arrBufs
  exact bigSep_eq_bigSepL_of_eq [main_arg1, main_v1, main_arg4, main_v2, main_v3] (by decide) (by decide) _

/-- What the call leaves in the core's unscoped buffers: the entry contents, the output array at what the
    write-backs left. -/
def exitW1 (c : Dev nD) : Valuation τ sig (Elt F) :=
  Function.update (W c) main_v3 ((dat1 (VW W) c).arrAt 5 cfg1.N)

theorem entry1 (c : Dev nD) :
    (StableHlo.held (c : Thread nD τ) (Pipeline.ucRefs τ sig) (W c) : sProp 𝕄)
      ⊢ iprop((dat1 (VW W) c).arrays ((dat1 (VW W) c).arrAt · 0)
          ∗ Pipeline.unscopedRest (Ix := Unit) (Name := ℕ) (U := UR sig nD τ) (Lvl := ℕ) spec1 c (VW W c)) := by
  rw [← Pipeline.unscopedBufs_held (Ix := Unit) (Name := ℕ) (U := UR sig nD τ) (Lvl := ℕ) c (W c)]
  rw [Pipeline.unscopedBufs_split₀ cfgs (1 : Fin 4) winFacts₀1.arr_unscoped c]
  refine sep_mono ?_ .rfl
  refine (Entails.of_eq (arrBufs1_eq c (VW W c))).trans ?_
  unfold Dat.arrays; rw [bigSep_W1]
  have e0 : (dat1 (VW W) c).share 0 = fullShare := rfl
  have e1 : (dat1 (VW W) c).share 1 = fullShare.left := rfl
  have e2 : (dat1 (VW W) c).share 2 = fullShare.right := rfl
  have e3 : (dat1 (VW W) c).share 3 = fullShare := rfl
  have e4 : (dat1 (VW W) c).share 4 = fullShare := rfl
  have e5 : (dat1 (VW W) c).share 5 = fullShare := rfl
  rw [e0, e1, e2, e3, e4, e5]
  simp only [View.set_whole]
  iintro ⟨H1, H0, H2, Hv0, Hv1⟩
  ihave Hs := (pointsTo_share halves).1 $$ H0
  icases Hs with ⟨H0l, H0r⟩
  isplitl [H1]; · iexact H1
  isplitl [H0l]; · iexact H0l
  isplitl [H0r]; · iexact H0r
  isplitl [H2]; · iexact H2
  isplitl [Hv0]; · iexact Hv0
  iexact Hv1

/-- The updated valuation agrees with the entry contents off the output array. -/
theorem exitW1_of_ne (c : Dev nD) (b : Ref sig .tc) (h : b ≠ main_v3) : exitW1 W c b = W c b := by
  unfold exitW1
  exact Function.update_of_ne (StableHlo.devRef_ne_of_ne h : (Proc.devRef .tc b : DevRef τ sig) ≠ Proc.devRef .tc main_v3) _ _

/-- and holds the output array at what the write-backs left. -/
theorem exitW1_out (c : Dev nD) : exitW1 W c main_v3 = (dat1 (VW W) c).arrAt 5 cfg1.N := by
  unfold exitW1; exact Function.update_self _ _ _

set_option maxHeartbeats 2000000 in
theorem exit1 (c : Dev nD) :
    iprop((dat1 (VW W) c).arrays ((dat1 (VW W) c).arrAt · cfg1.N)
        ∗ Pipeline.unscopedRest (Ix := Unit) (Name := ℕ) (U := UR sig nD τ) (Lvl := ℕ) spec1 c (VW W c))
      ⊢ (StableHlo.held (c : Thread nD τ) (Pipeline.ucRefs τ sig) (exitW1 W c) : sProp 𝕄) := by
  rw [← Pipeline.unscopedBufs_held (Ix := Unit) (Name := ℕ) (U := UR sig nD τ) (Lvl := ℕ) c (exitW1 W c)]
  rw [Pipeline.unscopedBufs_split₀ cfgs (1 : Fin 4) winFacts₀1.arr_unscoped c]
  refine sep_mono ?_ (Entails.of_eq ?_)
  · refine .trans ?_ (Entails.of_eq (arrBufs1_eq c (VW (exitW1 W) c)).symm)
    unfold Dat.arrays; rw [bigSep_W1]
    have e0 : (dat1 (VW W) c).share 0 = fullShare := rfl
    have e1 : (dat1 (VW W) c).share 1 = fullShare.left := rfl
    have e2 : (dat1 (VW W) c).share 2 = fullShare.right := rfl
    have e3 : (dat1 (VW W) c).share 3 = fullShare := rfl
    have e4 : (dat1 (VW W) c).share 4 = fullShare := rfl
    have e5 : (dat1 (VW W) c).share 5 = fullShare := rfl
    rw [e0, e1, e2, e3, e4, e5]
    simp only [View.set_whole]
    rw [(dat1 (VW W) c).arrAt_in 0 rfl, (dat1 (VW W) c).arrAt_in 1 rfl, (dat1 (VW W) c).arrAt_in 2 rfl,
      (dat1 (VW W) c).arrAt_in 3 rfl, (dat1 (VW W) c).arrAt_in 4 rfl]
    simp only [A_eq1]
    rw [show VW (exitW1 W) c main_arg1 = VW W c main_arg1 from exitW1_of_ne W c main_arg1 (by decide),
      show VW (exitW1 W) c main_v1 = VW W c main_v1 from exitW1_of_ne W c main_v1 (by decide),
      show VW (exitW1 W) c main_arg4 = VW W c main_arg4 from exitW1_of_ne W c main_arg4 (by decide),
      show VW (exitW1 W) c main_v2 = VW W c main_v2 from exitW1_of_ne W c main_v2 (by decide),
      show VW (exitW1 W) c main_v3 = (dat1 (VW W) c).arrAt 5 cfg1.N from exitW1_out W c]
    iintro ⟨H1, H0l, H0r, H2, Hv0, Hv1⟩
    ihave H0 := (pointsTo_share halves).2 $$ [H0l H0r]
    · isplitl [H0l]; · iexact H0l
      iexact H0r
    isplitl [H1]; · iexact H1
    isplitl [H0]; · iexact H0
    isplitl [H2]; · iexact H2
    isplitl [Hv0]; · iexact Hv0
    iexact Hv1
  · unfold Pipeline.unscopedRest
    exact (bigSep_congr fun b hb => by
      have e : exitW1 W c b = W c b := exitW1_of_ne W c b
        (fun e => (Finset.mem_sdiff.mp hb).2 (e ▸ Finset.mem_image.mpr ⟨(5 : Fin 6), Finset.mem_univ _, rfl⟩))
      dsimp only [VW]; rw [e]).symm

end Call1

end Cert.KernelIdeal.Hand

end
-- ==== Proof.KI.Dat2.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2: what each staging buffer and the accumulator hold, point by point

The grid is 8 × 8, point `t` = (row tile `t / 8`, reduction step `t % 8`). The accumulator is reset at reduction
step 0, gains one tile product per step, and the output tile is computed from it at step 7. Everything is stated
over `V`, the contents of the unscoped buffers when the call is entered. -/

section Call2

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at position `n`: at a reduction step 0 the tile product added to zeros, otherwise
    added to what the position before left. -/
def accAt2 (c : Dev nD) : (n : ℕ) → n < cfg2.N → Vec F S1024x128 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (accAt2 c n (Nat.lt_of_succ_lt hn))

/-- The output tile the body computes at point `t` from the accumulator it has just updated. -/
def outAt2 (c : Dev nD) (t : Fin cfg2.N) : Vec F S1024x128 .f32 :=
  k2_pay3 (accAt2 V c t.val t.isLt) (iblk2 V c 2 t) (iblk2 V c 3 t) (iblk2 V c 4 t)

theorem accAt2_first (c : Dev nD) (t : Fin cfg2.N) (h : t.val % 8 = 0) :
    accAt2 V c t.val t.isLt = k2_pay2 (iblk2 V c 0 t) (iblk2 V c 1 t) (k2_pay1 (F := F)) := by
  obtain ⟨n, hn⟩ := t
  cases n with
  | zero => rfl
  | succ n => exact (if_pos h)

theorem accAt2_next (c : Dev nD) (t : Fin cfg2.N) (h : ¬ t.val % 8 = 0) :
    accAt2 V c t.val t.isLt = k2_pay2 (iblk2 V c 0 t) (iblk2 V c 1 t)
      (accAt2 V c (t.val - 1) (Nat.lt_of_le_of_lt (Nat.sub_le _ _) t.isLt)) := by
  obtain ⟨n, hn⟩ := t
  cases n with
  | zero => exact absurd (Nat.zero_mod _) h
  | succ n => exact (if_neg h)

/-- The scratch operand: a whole scoped buffer of the call's own, passed beside the windows. -/
abbrev scM2 : Memref sig .tc .vmem S1024x128 .f32 := Memref.whole cc2_scratch0

/-- The scoped buffers that are neither a staging buffer of the call nor its scratch, each at anything. -/
abbrev restBut2 (c : Dev nD) : sProp 𝕄 :=
  Pipeline.scopedRestBut (Ix := Unit) (Name := ℕ) (U := UR sig nD τ) (Lvl := ℕ) (Val := Elt F) spec2 c [cc2_scratch0]

/-- The call's invariant before position `n`: before the first point every scoped buffer the call does not stage at
    anything, and the generator register at some state; afterwards the same with the accumulator at what position
    `n - 1` left in it. -/
def Phi2 (c : Dev nD) : (n : ℕ) → n ≤ cfg2.N → sProp 𝕄
  | 0, _ => Pipeline.ΦA spec2 c
  | n + 1, hn => iprop(owns (c : Thread nD τ) scM2 fullShare (accAt2 V c n hn) ∗ restBut2 (F := F) c ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) scM2 fullShare (accAt2 V c n hn) ∗ restBut2 (F := F) c ∗ (∃ r, prngReg c r)) := rfl

theorem Phi2_pos (c : Dev nD) (n : ℕ) (h : n ≤ cfg2.N) (hz : n ≠ 0) :
    Phi2 V c n h = iprop(owns (c : Thread nD τ) scM2 fullShare (accAt2 V c (n - 1) (by omega)) ∗ restBut2 (F := F) c ∗ (∃ r, prngReg c r)) := by
  cases n with
  | zero => exact absurd rfl hz
  | succ n => rfl

/-- Before the first point: the scratch at anything, the other scoped buffers, the generator register. -/
theorem PhiA2_eq (c : Dev nD) :
    (Pipeline.ΦA spec2 c : sProp 𝕄)
      = iprop(iprop((∃ d, owns (c : Thread nD τ) scM2 fullShare d) ∗ restBut2 (F := F) c) ∗ (∃ r, prngReg c r)) := by
  unfold Pipeline.ΦA; rw [scopedRest2_split]; simp only [scM2, owns_whole]; rfl

/-- The proof data of call 2 on core `c`. The arrays are the entry contents; after the body each input's buffer
    holds its block and the output's holds the tile computed at that point (read only where the point stores it);
    the array read through windows 1 and 2 is held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := Phi2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outAt2 V c t := by dsimp only [dat2]

/-- Each input's current staging buffer holds its block at every point, fetched there or not: where it is not
    fetched its block index has not moved since the point before. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

end Call2

end Cert.KernelIdeal.Hand

end
-- ==== Proof.BodyK2.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import Idealize.ShloMosaic.Lib.Pipeline.FrameBody
import Idealize.ShloMosaic.Lib.Pipeline.FrameSuffix
import Idealize.ShloMosaic.Lib.Tactic
import proofs.«100139_j56126632624275_1_alg».proof.Proof.LibWholeAccess

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The body of kernel call 2, one grid point at a time

The body runs at a point `(i, k)` of an 8 × 8 grid; `k` is the reduction coordinate. It keeps a running sum in a
scratch buffer: at `k = 0` the sum is first set to zero; at every `k` the product of the adjacency tile with the
feature rows of the step is added to it; at `k = 7` the output tile is computed from the finished sum, the
feature rows of the output tile, the weights and the bias. Every access reads or writes a whole buffer. The three
theorems below give, for the three kinds of point (`k = 0`, `0 < k < 7`, `k = 7`), what each buffer holds after the
body in terms of what it held before, the arithmetic staying behind the payload names. -/

/-- The first guard of the body, as a function of the reduction coordinate alone: it holds exactly at coordinate 0. -/
private theorem guard_first_iff : ∀ j : Fin 8,
    Scalar.cmpi .ne (Scalar.extui (Scalar.cmpi .eq (BitVec.ofNat 32 j.val) 0#32)) 0#32 = 1#1 ↔ j.val = 0 := by decide

/-- The second guard, likewise: it holds exactly at coordinate 7. -/
private theorem guard_last_iff : ∀ j : Fin 8,
    Scalar.cmpi .ne (Scalar.extui (Scalar.cmpi .eq (BitVec.ofNat 32 j.val) 7#32)) 0#32 = 1#1 ↔ j.val = 7 := by decide

/-- The second guard as the program names it, at a grid point. -/
private theorem cond2_iff (i : grid2.Coords) : k2_cond2 i = 1#1 ↔ (i 1).val = 7 := by
  unfold k2_cond2; exact guard_last_iff (i 1)

/-- A store through the whole-shape rectangle at zero offsets, made LAST, leaves its payload, whatever was stored before it. -/
private theorem read_writes_cons_whole_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb]

/-- The same for a matrix, the same for a matrix, the two zero offsets written out. -/
private theorem read_writes_cons_whole2 {Val : EltTy → Type} [∀ e, Nonempty (Val e)] {sg : RefSig} {κ : Kind} {sp : Space} {e : EltTy} {n m : ℕ}
    (v : View sg κ sp ⟨2, ![n, m]⟩ e) (f : v.ty.Contents Val)
    (inb : ∀ a, (![0, 0] : Fin 2 → ℕ) a + (⟨2, ![n, m]⟩ : Shape).size a ≤ (⟨2, ![n, m]⟩ : Shape).size a)
    (w : (⟨2, ![n, m]⟩ : Shape).Idx → Val e) (L : List (View.Piece Val ⟨2, ![n, m]⟩ e)) :
    v.read Val (v.writes Val f ((⟨Rect.unit (s := ⟨2, ![n, m]⟩) ![0, 0] (⟨2, ![n, m]⟩ : Shape).size inb, w⟩ : View.Piece Val ⟨2, ![n, m]⟩ e) :: L)) = w :=
  read_writes_cons_whole_unit v f View.zeros2 inb w L

/-- A load through that rectangle of what ONE store through it left reads the stored payload. -/
private theorem readCov_whole2 {Val : EltTy → Type} [∀ e, Nonempty (Val e)] {sg : RefSig} {κ : Kind} {sp : Space} {e : EltTy} {n m : ℕ}
    (v : View sg κ sp ⟨2, ![n, m]⟩ e)
    (inb : ∀ a, (![0, 0] : Fin 2 → ℕ) a + (⟨2, ![n, m]⟩ : Shape).size a ≤ (⟨2, ![n, m]⟩ : Shape).size a)
    (w : (⟨2, ![n, m]⟩ : Shape).Idx → Val e) :
    v.readCov [(⟨Rect.unit (s := ⟨2, ![n, m]⟩) ![0, 0] (⟨2, ![n, m]⟩ : Shape).size inb, w⟩ : View.Piece Val ⟨2, ![n, m]⟩ e)]
      (Rect.unit (s := ⟨2, ![n, m]⟩) ![0, 0] (⟨2, ![n, m]⟩ : Shape).size inb).toLoadRect = w :=
  View.readCov_unit_zero v View.zeros2 inb w

set_option maxHeartbeats 1000000 in
/-- At reduction coordinate 0. Before: the adjacency tile's buffer holds `a`, the step's feature rows' buffer `xk`, the
    running sum's buffer anything. After: the first two are unchanged and the running sum holds the accumulate payload
    of `a`, `xk` and the zero payload — the sum was zeroed, read back, and the step's product added. The other
    buffers are not touched. -/
theorem run2_first (c : Dev nD) (E : Set ℕ) (i : grid2.Coords) (hk : (i 1).val = 0)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (K : PUnit → sProp 𝕄) :
    iprop(owns (c : Thread nD τ) arg2 fullShare a ∗ owns (c : Thread nD τ) arg3 fullShare xk ∗ (∃ d, owns (c : Thread nD τ) arg8 fullShare d)
        ∗ (iprop(owns (c : Thread nD τ) arg2 fullShare a ∗ owns (c : Thread nD τ) arg3 fullShare xk
            ∗ owns (c : Thread nD τ) arg8 fullShare (k2_pay2 a xk (k2_pay1 (F := F)))) -∗ K ⟨⟩))
      ⊢ wp frame (wpE (defs₀ (F := F)) Variants.none c none) E
          (cc2_kernel i arg2 harg2 arg3 harg3 arg4 harg4 arg5 harg5 arg6 harg6 arg7 harg7 arg8 harg8) K := by
  have hc1 : Scalar.cmpi .ne (Scalar.extui (Scalar.cmpi .eq (BitVec.ofNat 32 (i 1).val) 0#32)) 0#32 = 1#1 :=
    (guard_first_iff (i 1)).2 hk
  have hc2 : ¬ (k2_cond2 i = 1#1) := fun h => by have h7 := (cond2_iff i).1 h; omega
  simp only [cc2_kernel_eq_skeleton]; unfold cc2_kernel_skel
  unfold owns
  iintro ⟨⟨%f2, %hf2, H2⟩, ⟨%f3, %hf3, H3⟩, ⟨%d8, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_run_names
  rw [read_writes_cons_whole2, readCov_whole2, View.readAt_whole2, View.readAt_whole2]

set_option maxHeartbeats 1000000 in
/-- At a reduction coordinate strictly between 0 and 7. Before: the adjacency tile's buffer holds `a`, the step's
    feature rows' buffer `xk`, the running sum's buffer `acc`. After: the first two are unchanged and the running sum
    holds the accumulate payload of `a`, `xk` and `acc`. The other buffers are not touched. -/
theorem run2_mid (c : Dev nD) (E : Set ℕ) (i : grid2.Coords) (hk0 : (i 1).val ≠ 0) (hk7 : (i 1).val ≠ 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (acc : Vec F S1024x128 .f32) (K : PUnit → sProp 𝕄) :
    iprop(owns (c : Thread nD τ) arg2 fullShare a ∗ owns (c : Thread nD τ) arg3 fullShare xk ∗ owns (c : Thread nD τ) arg8 fullShare acc
        ∗ (iprop(owns (c : Thread nD τ) arg2 fullShare a ∗ owns (c : Thread nD τ) arg3 fullShare xk
            ∗ owns (c : Thread nD τ) arg8 fullShare (k2_pay2 a xk acc)) -∗ K ⟨⟩))
      ⊢ wp frame (wpE (defs₀ (F := F)) Variants.none c none) E
          (cc2_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => hk0 ((guard_first_iff (i 1)).1 h)
  have hc2 : ¬ (k2_cond2 i = 1#1) := fun h => hk7 ((cond2_iff i).1 h)
  simp only [cc2_kernel_eq_skeleton]; unfold cc2_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  rw [View.read_writes_whole2, View.readAt_whole2, View.readAt_whole2, View.readAt_whole2]

set_option maxHeartbeats 1000000 in
/-- At reduction coordinate 7. Before: the adjacency tile's buffer holds `a`, the step's feature rows' buffer `xk`, the
    running sum's buffer `acc`, the output tile's feature rows' buffer `xi`, the weights' buffer `w`, the bias's buffer `b`,
    the output tile's buffer anything. After: the inputs are unchanged, the running sum holds the accumulate payload
    `s` of `a`, `xk` and `acc`, and the output tile holds the output payload of `s`, `xi`, `w` and `b`. -/
theorem run2_last (c : Dev nD) (E : Set ℕ) (i : grid2.Coords) (hk : (i 1).val = 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (a : Vec F S1024x1024 .f32) (xk : Vec F S1024x128 .f32) (acc : Vec F S1024x128 .f32)
    (xi : Vec F S1024x128 .f32) (w : Vec F S256x128 .f32) (b : Vec F S1x128 .f32) (K : PUnit → sProp 𝕄) :
    iprop(owns (c : Thread nD τ) arg2 fullShare a ∗ owns (c : Thread nD τ) arg3 fullShare xk ∗ owns (c : Thread nD τ) arg8 fullShare acc
        ∗ owns (c : Thread nD τ) arg4 fullShare xi ∗ owns (c : Thread nD τ) arg5 fullShare w ∗ owns (c : Thread nD τ) arg6 fullShare b
        ∗ (∃ d, owns (c : Thread nD τ) arg7 fullShare d)
        ∗ (iprop(owns (c : Thread nD τ) arg2 fullShare a ∗ owns (c : Thread nD τ) arg3 fullShare xk
            ∗ owns (c : Thread nD τ) arg8 fullShare (k2_pay2 a xk acc)
            ∗ owns (c : Thread nD τ) arg4 fullShare xi ∗ owns (c : Thread nD τ) arg5 fullShare w ∗ owns (c : Thread nD τ) arg6 fullShare b
            ∗ owns (c : Thread nD τ) arg7 fullShare (k2_pay3 (k2_pay2 a xk acc) xi w b)) -∗ K ⟨⟩))
      ⊢ wp frame (wpE (defs₀ (F := F)) Variants.none c none) E
          (cc2_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => by have h0 := (guard_first_iff (i 1)).1 h; omega
  have hc2 : k2_cond2 i = 1#1 := (cond2_iff i).2 hk
  simp only [cc2_kernel_eq_skeleton]; unfold cc2_kernel_skel
  unfold owns
  iintro ⟨⟨%f2, %hf2, H2⟩, ⟨%f3, %hf3, H3⟩, ⟨%f8, %hf8, H8⟩, ⟨%f4, %hf4, H4⟩, ⟨%f5, %hf5, H5⟩, ⟨%f6, %hf6, H6⟩, ⟨%d7, %f7, -, H7⟩, Hk⟩
  subst hf2; subst hf3; subst hf8; subst hf4; subst hf5; subst hf6
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H8]
  · iexists _; isplitr
    swap; · iexact H8
    ipureintro
    sl_unfold_run_names
    rw [View.read_writes_whole2, View.readAt_whole2, View.readAt_whole2, View.readAt_whole2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_whole2, readCov_whole2, View.readAt_whole2, View.readAt_whole2, View.readAt_whole2, View.readAt_whole2,
    View.readAt_whole2, View.readAt_whole2]

end Cert.KernelIdeal.Body

end
-- ==== Proof.KI.Body2.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Dat2
import proofs.«100139_j56126632624275_1_alg».proof.Proof.BodyK2
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body

/-! # Call 2: the body at a point keeps the proof data

Three kinds of point, by the reduction step `t % 8`: at step 0 the accumulator is reset and gains the first tile
product; at steps 1–6 it gains one more; at step 7 it gains the last and the output tile is computed from it and
stored. The output window is idle (its buffer untouched, not written back) at every step but 7. -/

section Call2

variable (V : (c : Dev nD) → (b : Ref sig .tc) → Buf (Elt F) ((c : Thread nD τ).loc b))

/-- The reduction step of point `t` is `t % 8`. -/
theorem step2 : ∀ t : Fin cfg2.N, ((grid2.coords t) 1).val = t.val % 8 :=
  (by decide +kernel : ∀ t : Fin grid2.N, ((grid2.coords t) 1).val = t.val % 8)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
/-- The output window is idle away from the last reduction step, live at it. -/
theorem idle2_5 : ∀ t : Fin cfg2.N, ¬ t.val % 8 = 7 → cfg2.idle 5 (grid2.coords t) = true := by decide +kernel
theorem live2_5 : ∀ t : Fin cfg2.N, t.val % 8 = 7 → cfg2.idle 5 (grid2.coords t) = false := by decide +kernel
theorem noFlush2_5 (t : Fin cfg2.N) (h : ¬ t.val % 8 = 7) : (cfg2.win 5).flush t = false := by
  cases hf : (cfg2.win 5).flush t with
  | false => rfl
  | true => exact absurd ((flush2_5 t).mp hf) h

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x128 .f32 := win2_5.stage (cfg2.slots t 5)
abbrev hs2_5 (t : Fin cfg2.N) : (ms2_5 t).IsWhole := hstage2_5 ((cfg2.slots t 5).cast nbuf2_5)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  rw [show (dat2 V c).leavesExact 4 t = owns (c : Thread nD τ) (ms2_4 t) fullShare ((dat2 V c).after 4 t) from by
    unfold Dat.leavesExact; rw [live2_4 t], after2_4]
  have hN : t.val < 64 := lt_of_lt_of_eq t.isLt (show cfg2.N = 64 from N_2)
  have hstep := step2 t
  rw [Phi2_castSucc V c t]
  by_cases h0 : t.val % 8 = 0
  · -- reduction step 0: reset, first tile product
    have h7 : ¬ t.val % 8 = 7 := by omega
    rw [Dat.leavesExact_idle (dat2 V c) 5 t (idle2_5 t h7) (noFlush2_5 t h7)]
    rw [accAt2_first V c t h0]
    by_cases hz : t.val = 0
    · rw [Phi2_zero V c _ _ hz, PhiA2_eq]
      iintro ⟨⟨⟨HS, Hrest⟩, Hg⟩, Ho, ⟨%d0, H0⟩, ⟨%d1, H1⟩, ⟨%d2, H2⟩, ⟨%d3, H3⟩, ⟨%d4, H4⟩, H5⟩
      iapply (run2_first c Set.univ (grid2.coords t) (by rw [hstep]; exact h0) _ _ _ _ _ _ _ _ _ _ _ _ _ _ (iblk2 V c 0 t) (iblk2 V c 1 t) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi2_pos V c _ _ hz]
      iintro ⟨⟨HS, Hrest, Hg⟩, Ho, ⟨%d0, H0⟩, ⟨%d1, H1⟩, ⟨%d2, H2⟩, ⟨%d3, H3⟩, ⟨%d4, H4⟩, H5⟩
      iapply (run2_first c Set.univ (grid2.coords t) (by rw [hstep]; exact h0) _ _ _ _ _ _ _ _ _ _ _ _ _ _ (iblk2 V c 0 t) (iblk2 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [Phi2_pos V c _ _ hz]
    by_cases h7 : t.val % 8 = 7
    · -- reduction step 7: last tile product, then the output tile
      rw [show (dat2 V c).leavesExact 5 t = owns (c : Thread nD τ) (ms2_5 t) fullShare ((dat2 V c).after 5 t) from by
        unfold Dat.leavesExact; rw [live2_5 t h7], after2_5]
      unfold outAt2
      rw [accAt2_next V c t h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run2_last c Set.univ (grid2.coords t) (by rw [hstep]; exact h7) _ _ _ _ _ _ _ _ _ _ _ _ _ _ (iblk2 V c 0 t) (iblk2 V c 1 t)
        (accAt2 V c (t.val - 1) (Nat.lt_of_le_of_lt (Nat.sub_le _ _) t.isLt)) (iblk2 V c 2 t) (iblk2 V c 3 t) (iblk2 V c 4 t) _)
      isplitl [H0]; · iexact H0
      isplitl [H1]; · iexact H1
      isplitl [HS]; · iexact HS
      isplitl [H2]; · iexact H2
      isplitl [H3]; · iexact H3
      isplitl [H4]; · iexact H4
      isplitl [H5]; · iexists _; iexact H5
      iintro ⟨H0, H1, HS, H2, H3, H4, H5⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- reduction steps 1 to 6: one more tile product
      rw [Dat.leavesExact_idle (dat2 V c) 5 t (idle2_5 t h7) (noFlush2_5 t h7)]
      rw [accAt2_next V c t h0]
      iintro ⟨⟨HS, Hrest, Hg⟩, Ho, ⟨%d0, H0⟩, ⟨%d1, H1⟩, ⟨%d2, H2⟩, ⟨%d3, H3⟩, ⟨%d4, H4⟩, H5⟩
      iapply (run2_mid c Set.univ (grid2.coords t) (by rw [hstep]; exact h0) (by rw [hstep]; exact h7) _ _ _ _ _ _ _ _ _ _ _ _ _ _ (iblk2 V c 0 t) (iblk2 V c 1 t)
        (accAt2 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Call2

end Cert.KernelIdeal.Hand

end
-- ==== Proof.KI.Seg2.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Dat2
import proofs.«100139_j56126632624275_1_alg».proof.Proof.KI.Seg0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)
open PCS

/-! # Call 2 among the core's unscoped buffers

The call's six windows stand on FIVE distinct buffers: windows 1 and 2 both read the feature matrix. Entering the call,
that buffer's full share is dealt half to each of the two windows; leaving it, the halves (which still hold the same
contents: inputs are never written) are put back together. The output array comes back at what the write-backs left. -/

section Call2

variable (W : Dev nD → Valuation τ sig (Elt F))

/-- The buffers behind the call's arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v3) ↦{fullShare} V main_v3)
          ∗ (((c : Thread nD τ).loc main_arg6) ↦{fullShare} V main_arg6) ∗ (((c : Thread nD τ).loc main_v4) ↦{fullShare} V main_v4)
          ∗ (((c : Thread nD τ).loc main_v5) ↦{fullShare} V main_v5)) := by
  unfold Pipeline.arrBufs
  exact bigSep_eq_bigSepL_of_eq [main_arg1, main_v3, main_arg6, main_v4, main_v5] (by decide) (by decide) _

/-- What the call leaves in the core's unscoped buffers: the entry contents, the output array at what the
    write-backs left. -/
def exitW2 (c : Dev nD) : Valuation τ sig (Elt F) :=
  Function.update (W c) main_v5 ((dat2 (VW W) c).arrAt 5 cfg2.N)

theorem entry2 (c : Dev nD) :
    (StableHlo.held (c : Thread nD τ) (Pipeline.ucRefs τ sig) (W c) : sProp 𝕄)
      ⊢ iprop((dat2 (VW W) c).arrays ((dat2 (VW W) c).arrAt · 0)
          ∗ Pipeline.unscopedRest (Ix := Unit) (Name := ℕ) (U := UR sig nD τ) (Lvl := ℕ) spec2 c (VW W c)) := by
  rw [← Pipeline.unscopedBufs_held (Ix := Unit) (Name := ℕ) (U := UR sig nD τ) (Lvl := ℕ) c (W c)]
  rw [Pipeline.unscopedBufs_split₀ cfgs (2 : Fin 4) winFacts₀2.arr_unscoped c]
  refine sep_mono ?_ .rfl
  refine (Entails.of_eq (arrBufs2_eq c (VW W c))).trans ?_
  unfold Dat.arrays; rw [bigSep_W2]
  have e0 : (dat2 (VW W) c).share 0 = fullShare := rfl
  have e1 : (dat2 (VW W) c).share 1 = fullShare.left := rfl
  have e2 : (dat2 (VW W) c).share 2 = fullShare.right := rfl
  have e3 : (dat2 (VW W) c).share 3 = fullShare := rfl
  have e4 : (dat2 (VW W) c).share 4 = fullShare := rfl
  have e5 : (dat2 (VW W) c).share 5 = fullShare := rfl
  rw [e0, e1, e2, e3, e4, e5]
  simp only [View.set_whole]
  iintro ⟨H1, H0, H2, Hv0, Hv1⟩
  ihave Hs := (pointsTo_share halves).1 $$ H0
  icases Hs with ⟨H0l, H0r⟩
  isplitl [H1]; · iexact H1
  isplitl [H0l]; · iexact H0l
  isplitl [H0r]; · iexact H0r
  isplitl [H2]; · iexact H2
  isplitl [Hv0]; · iexact Hv0
  iexact Hv1

/-- The updated valuation agrees with the entry contents off the output array. -/
theorem exitW2_of_ne (c : Dev nD) (b : Ref sig .tc) (h : b ≠ main_v5) : exitW2 W c b = W c b := by
  unfold exitW2
  exact Function.update_of_ne (StableHlo.devRef_ne_of_ne h : (Proc.devRef .tc b : DevRef τ sig) ≠ Proc.devRef .tc main_v5) _ _

/-- and holds the output array at what the write-backs left. -/
theorem exitW2_out (c : Dev nD) : exitW2 W c main_v5 = (dat2 (VW W) c).arrAt 5 cfg2.N := by
  unfold exitW2; exact Function.update_self _ _ _

set_option maxHeartbeats 2000000 in
theorem exit2 (c : Dev nD) :
    iprop((dat2 (VW W) c).arrays ((dat2 (VW W) c).arrAt · cfg2.N)
        ∗ Pipeline.unscopedRest (Ix := Unit) (Name := ℕ) (U := UR sig nD τ) (Lvl := ℕ) spec2 c (VW W c))
      ⊢ (StableHlo.held (c : Thread nD τ) (Pipeline.ucRefs τ sig) (exitW2 W c) : sProp 𝕄) := by
  rw [← Pipeline.unscopedBufs_held (Ix := Unit) (Name := ℕ) (U := UR sig nD τ) (Lvl := ℕ) c (exitW2 W c)]
  rw [Pipeline.unscopedBufs_split₀ cfgs (2 : Fin 4) winFacts₀2.arr_unscoped c]
  refine sep_mono ?_ (Entails.of_eq ?_)
  · refine .trans ?_ (Entails.of_eq (arrBufs2_eq c (VW (exitW2 W) c)).symm)
    unfold Dat.arrays; rw [bigSep_W2]
    have e0 : (dat2 (VW W) c).share 0 = fullShare := rfl
    have e1 : (dat2 (VW W) c).share 1 = fullShare.left := rfl
    have e2 : (dat2 (VW W) c).share 2 = fullShare.right := rfl
    have e3 : (dat2 (VW W) c).share 3 = fullShare := rfl
    have e4 : (dat2 (VW W) c).share 4 = fullShare := rfl
    have e5 : (dat2 (VW W) c).share 5 = fullShare := rfl
    rw [e0, e1, e2, e3, e4, e5]
    simp only [View.set_whole]
    rw [(dat2 (VW W) c).arrAt_in 0 rfl, (dat2 (VW W) c).arrAt_in 1 rfl, (dat2 (VW W) c).arrAt_in 2 rfl,
      (dat2 (VW W) c).arrAt_in 3 rfl, (dat2 (VW W) c).arrAt_in 4 rfl]
    simp only [A_eq2]
    rw [show VW (exitW2 W) c main_arg1 = VW W c main_arg1 from exitW2_of_ne W c main_arg1 (by decide),
      show VW (exitW2 W) c main_v3 = VW W c main_v3 from exitW2_of_ne W c main_v3 (by decide),
      show VW (exitW2 W) c main_arg6 = VW W c main_arg6 from exitW2_of_ne W c main_arg6 (by decide),
      show VW (exitW2 W) c main_v4 = VW W c main_v4 from exitW2_of_ne W c main_v4 (by decide),
      show VW (exitW2 W) c main_v5 = (dat2 (VW W) c).arrAt 5 cfg2.N from exitW2_out W c]
    iintro ⟨H1, H0l, H0r, H2, Hv0, Hv1⟩
    ihave H0 := (pointsTo_share halves).2 $$ [H0l H0r]
    · isplitl [H0l]; · iexact H0l
      iexact H0r
    isplitl [H1]; · iexact H1
    isplitl [H0]; · iexact H0
    isplitl [H2]; · iexact H2
    isplitl [Hv0]; · iexact Hv0
    iexact Hv1
  · unfold Pipeline.unscopedRest
    exact (bigSep_congr fun b hb => by
      have e : exitW2 W c b = W c b := exitW2_of_ne W c b
        (fun e => (Finset.mem_sdiff.mp hb).2 (e ▸ Finset.mem_image.mpr ⟨(5 : Fin 6), Finset.mem_univ _, rfl⟩))
      dsimp only [VW]; rw [e]).symm

end Call2

end Cert.KernelIdeal.Hand

end
-- ==== Proof.KI.Dat3.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3: what each staging buffer and the accumulator hold, point by point

The grid is 8 × 8, point `t` = (row tile `t / 8`, reduction step `t % 8`). The accumulator is reset at reduction
step 0, gains one tile product per step, and the output tile is computed from it at step 7. Everything is stated
over `V`, the contents of the unscoped buffers when the call is entered. -/

section Call3

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after the body at position `n`: at a reduction step 0 the tile product added to zeros, otherwise
    added to what the position before left. -/
def accAt3 (c : Dev nD) : (n : ℕ) → n < cfg3.N → Vec F S1024x128 .f32
  | 0, hn => k3_pay2 (iblk3 V c 0 ⟨0, hn⟩) (iblk3 V c 1 ⟨0, hn⟩) (k3_pay1 (F := F))
  | n + 1, hn =>
    if (n + 1) % 8 = 0 then k3_pay2 (iblk3 V c 0 ⟨n + 1, hn⟩) (iblk3 V c 1 ⟨n + 1, hn⟩) (k3_pay1 (F := F))
    else k3_pay2 (iblk3 V c 0 ⟨n + 1, hn⟩) (iblk3 V c 1 ⟨n + 1, hn⟩) (accAt3 c n (Nat.lt_of_succ_lt hn))

/-- The output tile the body computes at point `t` from the accumulator it has just updated. -/
def outAt3 (c : Dev nD) (t : Fin cfg3.N) : Vec F S1024x64 .f32 :=
  k3_pay3 (accAt3 V c t.val t.isLt) (iblk3 V c 2 t) (iblk3 V c 3 t) (iblk3 V c 4 t)

theorem accAt3_first (c : Dev nD) (t : Fin cfg3.N) (h : t.val % 8 = 0) :
    accAt3 V c t.val t.isLt = k3_pay2 (iblk3 V c 0 t) (iblk3 V c 1 t) (k3_pay1 (F := F)) := by
  obtain ⟨n, hn⟩ := t
  cases n with
  | zero => rfl
  | succ n => exact (if_pos h)

theorem accAt3_next (c : Dev nD) (t : Fin cfg3.N) (h : ¬ t.val % 8 = 0) :
    accAt3 V c t.val t.isLt = k3_pay2 (iblk3 V c 0 t) (iblk3 V c 1 t)
      (accAt3 V c (t.val - 1) (Nat.lt_of_le_of_lt (Nat.sub_le _ _) t.isLt)) := by
  obtain ⟨n, hn⟩ := t
  cases n with
  | zero => exact absurd (Nat.zero_mod _) h
  | succ n => exact (if_neg h)

/-- The scratch operand: a whole scoped buffer of the call's own, passed beside the windows. -/
abbrev scM3 : Memref sig .tc .vmem S1024x128 .f32 := Memref.whole cc3_scratch0

/-- The scoped buffers that are neither a staging buffer of the call nor its scratch, each at anything. -/
abbrev restBut3 (c : Dev nD) : sProp 𝕄 :=
  Pipeline.scopedRestBut (Ix := Unit) (Name := ℕ) (U := UR sig nD τ) (Lvl := ℕ) (Val := Elt F) spec3 c [cc3_scratch0]

/-- The call's invariant before position `n`: before the first point every scoped buffer the call does not stage at
    anything, and the generator register at some state; afterwards the same with the accumulator at what position
    `n - 1` left in it. -/
def Phi3 (c : Dev nD) : (n : ℕ) → n ≤ cfg3.N → sProp 𝕄
  | 0, _ => Pipeline.ΦA spec3 c
  | n + 1, hn => iprop(owns (c : Thread nD τ) scM3 fullShare (accAt3 V c n hn) ∗ restBut3 (F := F) c ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(owns (c : Thread nD τ) scM3 fullShare (accAt3 V c n hn) ∗ restBut3 (F := F) c ∗ (∃ r, prngReg c r)) := rfl

theorem Phi3_pos (c : Dev nD) (n : ℕ) (h : n ≤ cfg3.N) (hz : n ≠ 0) :
    Phi3 V c n h = iprop(owns (c : Thread nD τ) scM3 fullShare (accAt3 V c (n - 1) (by omega)) ∗ restBut3 (F := F) c ∗ (∃ r, prngReg c r)) := by
  cases n with
  | zero => exact absurd rfl hz
  | succ n => rfl

/-- Before the first point: the scratch at anything, the other scoped buffers, the generator register. -/
theorem PhiA3_eq (c : Dev nD) :
    (Pipeline.ΦA spec3 c : sProp 𝕄)
      = iprop(iprop((∃ d, owns (c : Thread nD τ) scM3 fullShare d) ∗ restBut3 (F := F) c) ∗ (∃ r, prngReg c r)) := by
  unfold Pipeline.ΦA; rw [scopedRest3_split]; simp only [scM3, owns_whole]; rfl

/-- The proof data of call 3 on core `c`. The arrays are the entry contents; after the body each input's buffer
    holds its block and the output's holds the tile computed at that point (read only where the point stores it);
    the array read through windows 1 and 2 is held half and half. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3 V c t
  Φ t := Phi3 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3 V c t := by dsimp only [dat3]

/-- Each input's current staging buffer holds its block at every point, fetched there or not: where it is not
    fetched its block index has not moved since the point before. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

end Call3

end Cert.KernelIdeal.Hand

end
-- ==== Proof.BodyK3.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import Idealize.ShloMosaic.Lib.Pipeline.FrameBody
import Idealize.ShloMosaic.Lib.Pipeline.FrameSuffix
import Idealize.ShloMosaic.Lib.Tactic
import proofs.«100139_j56126632624275_1_alg».proof.Proof.LibWholeAccess

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The body of kernel call 3, one grid point at a time

The body runs at a point `(i, k)` of an 8 × 8 grid; `k` is the reduction coordinate. It keeps a running sum in a
scratch buffer: at `k = 0` the sum is first set to zero; at every `k` the product of the adjacency tile with the
feature rows of the step is added to it; at `k = 7` the output tile is computed from the finished sum, the
feature rows of the output tile, the weights and the bias. Every access reads or writes a whole buffer. The three
theorems below give, for the three kinds of point (`k = 0`, `0 < k < 7`, `k = 7`), what each buffer holds after the
body in terms of what it held before, the arithmetic staying behind the payload names. -/

/-- The first guard of the body, as a function of the reduction coordinate alone: it holds exactly at coordinate 0. -/
private theorem guard_first_iff : ∀ j : Fin 8,
    Scalar.cmpi .ne (Scalar.extui (Scalar.cmpi .eq (BitVec.ofNat 32 j.val) 0#32)) 0#32 = 1#1 ↔ j.val = 0 := by decide

/-- The second guard, likewise: it holds exactly at coordinate 7. -/
private theorem guard_last_iff : ∀ j : Fin 8,
    Scalar.cmpi .ne (Scalar.extui (Scalar.cmpi .eq (BitVec.ofNat 32 j.val) 7#32)) 0#32 = 1#1 ↔ j.val = 7 := by decide

/-- The second guard as the program names it, at a grid point. -/
private theorem cond2_iff (i : grid3.Coords) : k3_cond2 i = 1#1 ↔ (i 1).val = 7 := by
  unfold k3_cond2; exact guard_last_iff (i 1)

/-- A store through the whole-shape rectangle at zero offsets, made LAST, leaves its payload, whatever was stored before it. -/
private theorem read_writes_cons_whole_unit {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons_self, View.mem_set_unit_zero h inb y⟩),
    View.canon_cons_unit_zero h inb]

/-- The same for a matrix, the same for a matrix, the two zero offsets written out. -/
private theorem read_writes_cons_whole2 {Val : EltTy → Type} [∀ e, Nonempty (Val e)] {sg : RefSig} {κ : Kind} {sp : Space} {e : EltTy} {n m : ℕ}
    (v : View sg κ sp ⟨2, ![n, m]⟩ e) (f : v.ty.Contents Val)
    (inb : ∀ a, (![0, 0] : Fin 2 → ℕ) a + (⟨2, ![n, m]⟩ : Shape).size a ≤ (⟨2, ![n, m]⟩ : Shape).size a)
    (w : (⟨2, ![n, m]⟩ : Shape).Idx → Val e) (L : List (View.Piece Val ⟨2, ![n, m]⟩ e)) :
    v.read Val (v.writes Val f ((⟨Rect.unit (s := ⟨2, ![n, m]⟩) ![0, 0] (⟨2, ![n, m]⟩ : Shape).size inb, w⟩ : View.Piece Val ⟨2, ![n, m]⟩ e) :: L)) = w :=
  read_writes_cons_whole_unit v f View.zeros2 inb w L

/-- A load through that rectangle of what ONE store through it left reads the stored payload. -/
private theorem readCov_whole2 {Val : EltTy → Type} [∀ e, Nonempty (Val e)] {sg : RefSig} {κ : Kind} {sp : Space} {e : EltTy} {n m : ℕ}
    (v : View sg κ sp ⟨2, ![n, m]⟩ e)
    (inb : ∀ a, (![0, 0] : Fin 2 → ℕ) a + (⟨2, ![n, m]⟩ : Shape).size a ≤ (⟨2, ![n, m]⟩ : Shape).size a)
    (w : (⟨2, ![n, m]⟩ : Shape).Idx → Val e) :
    v.readCov [(⟨Rect.unit (s := ⟨2, ![n, m]⟩) ![0, 0] (⟨2, ![n, m]⟩ : Shape).size inb, w⟩ : View.Piece Val ⟨2, ![n, m]⟩ e)]
      (Rect.unit (s := ⟨2, ![n, m]⟩) ![0, 0] (⟨2, ![n, m]⟩ : Shape).size inb).toLoadRect = w :=
  View.readCov_unit_zero v View.zeros2 inb w

set_option maxHeartbeats 1000000 in
/-- At reduction coordinate 0. Before: the adjacency tile's buffer holds `a`, the step's feature rows' buffer `xk`, the
    running sum's buffer anything. After: the first two are unchanged and the running sum holds the accumulate payload
    of `a`, `xk` and the zero payload — the sum was zeroed, read back, and the step's product added. The other
    buffers are not touched. -/
theorem run3_first (c : Dev nD) (E : Set ℕ) (i : grid3.Coords) (hk : (i 1).val = 0)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x64 .f32) (harg5 : arg5.IsWhole)
    (arg6 : Memref sig .tc .vmem S1x64 .f32) (harg6 : arg6.IsWhole) (arg7 : Memref sig .tc .vmem S1024x64 .f32) (harg7 : arg7.IsWhole)
    (arg8 : Memref sig .tc .vmem S1024x128 .f32) (harg8 : arg8.IsWhole)
    (a : Vec F S1024x1024 .f32) (xk : Vec F S1024x128 .f32) (K : PUnit → sProp 𝕄) :
    iprop(owns (c : Thread nD τ) arg2 fullShare a ∗ owns (c : Thread nD τ) arg3 fullShare xk ∗ (∃ d, owns (c : Thread nD τ) arg8 fullShare d)
        ∗ (iprop(owns (c : Thread nD τ) arg2 fullShare a ∗ owns (c : Thread nD τ) arg3 fullShare xk
            ∗ owns (c : Thread nD τ) arg8 fullShare (k3_pay2 a xk (k3_pay1 (F := F)))) -∗ K ⟨⟩))
      ⊢ wp frame (wpE (defs₀ (F := F)) Variants.none c none) E
          (cc3_kernel i arg2 harg2 arg3 harg3 arg4 harg4 arg5 harg5 arg6 harg6 arg7 harg7 arg8 harg8) K := by
  have hc1 : Scalar.cmpi .ne (Scalar.extui (Scalar.cmpi .eq (BitVec.ofNat 32 (i 1).val) 0#32)) 0#32 = 1#1 :=
    (guard_first_iff (i 1)).2 hk
  have hc2 : ¬ (k3_cond2 i = 1#1) := fun h => by have h7 := (cond2_iff i).1 h; omega
  simp only [cc3_kernel_eq_skeleton]; unfold cc3_kernel_skel
  unfold owns
  iintro ⟨⟨%f2, %hf2, H2⟩, ⟨%f3, %hf3, H3⟩, ⟨%d8, %f8, -, H8⟩, Hk⟩
  subst hf2; subst hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  sl_unfold_run_names
  rw [read_writes_cons_whole2, readCov_whole2, View.readAt_whole2, View.readAt_whole2]

set_option maxHeartbeats 1000000 in
/-- At a reduction coordinate strictly between 0 and 7. Before: the adjacency tile's buffer holds `a`, the step's
    feature rows' buffer `xk`, the running sum's buffer `acc`. After: the first two are unchanged and the running sum
    holds the accumulate payload of `a`, `xk` and `acc`. The other buffers are not touched. -/
theorem run3_mid (c : Dev nD) (E : Set ℕ) (i : grid3.Coords) (hk0 : (i 1).val ≠ 0) (hk7 : (i 1).val ≠ 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x64 .f32) (harg5 : arg5.IsWhole)
    (arg6 : Memref sig .tc .vmem S1x64 .f32) (harg6 : arg6.IsWhole) (arg7 : Memref sig .tc .vmem S1024x64 .f32) (harg7 : arg7.IsWhole)
    (arg8 : Memref sig .tc .vmem S1024x128 .f32) (harg8 : arg8.IsWhole)
    (a : Vec F S1024x1024 .f32) (xk : Vec F S1024x128 .f32) (acc : Vec F S1024x128 .f32) (K : PUnit → sProp 𝕄) :
    iprop(owns (c : Thread nD τ) arg2 fullShare a ∗ owns (c : Thread nD τ) arg3 fullShare xk ∗ owns (c : Thread nD τ) arg8 fullShare acc
        ∗ (iprop(owns (c : Thread nD τ) arg2 fullShare a ∗ owns (c : Thread nD τ) arg3 fullShare xk
            ∗ owns (c : Thread nD τ) arg8 fullShare (k3_pay2 a xk acc)) -∗ K ⟨⟩))
      ⊢ wp frame (wpE (defs₀ (F := F)) Variants.none c none) E
          (cc3_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => hk0 ((guard_first_iff (i 1)).1 h)
  have hc2 : ¬ (k3_cond2 i = 1#1) := fun h => hk7 ((cond2_iff i).1 h)
  simp only [cc3_kernel_eq_skeleton]; unfold cc3_kernel_skel
  unfold owns
  iintro ⟨⟨%f2, %hf2, H2⟩, ⟨%f3, %hf3, H3⟩, ⟨%f8, %hf8, H8⟩, Hk⟩
  subst hf2; subst hf3; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  iexists _; isplitr
  swap; · iexact H8
  ipureintro
  rw [View.read_writes_whole2, View.readAt_whole2, View.readAt_whole2, View.readAt_whole2]

set_option maxHeartbeats 1000000 in
/-- At reduction coordinate 7. Before: the adjacency tile's buffer holds `a`, the step's feature rows' buffer `xk`, the
    running sum's buffer `acc`, the output tile's feature rows' buffer `xi`, the weights' buffer `w`, the bias's buffer `b`,
    the output tile's buffer anything. After: the inputs are unchanged, the running sum holds the accumulate payload
    `s` of `a`, `xk` and `acc`, and the output tile holds the output payload of `s`, `xi`, `w` and `b`. -/
theorem run3_last (c : Dev nD) (E : Set ℕ) (i : grid3.Coords) (hk : (i 1).val = 7)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S256x64 .f32) (harg5 : arg5.IsWhole)
    (arg6 : Memref sig .tc .vmem S1x64 .f32) (harg6 : arg6.IsWhole) (arg7 : Memref sig .tc .vmem S1024x64 .f32) (harg7 : arg7.IsWhole)
    (arg8 : Memref sig .tc .vmem S1024x128 .f32) (harg8 : arg8.IsWhole)
    (a : Vec F S1024x1024 .f32) (xk : Vec F S1024x128 .f32) (acc : Vec F S1024x128 .f32)
    (xi : Vec F S1024x128 .f32) (w : Vec F S256x64 .f32) (b : Vec F S1x64 .f32) (K : PUnit → sProp 𝕄) :
    iprop(owns (c : Thread nD τ) arg2 fullShare a ∗ owns (c : Thread nD τ) arg3 fullShare xk ∗ owns (c : Thread nD τ) arg8 fullShare acc
        ∗ owns (c : Thread nD τ) arg4 fullShare xi ∗ owns (c : Thread nD τ) arg5 fullShare w ∗ owns (c : Thread nD τ) arg6 fullShare b
        ∗ (∃ d, owns (c : Thread nD τ) arg7 fullShare d)
        ∗ (iprop(owns (c : Thread nD τ) arg2 fullShare a ∗ owns (c : Thread nD τ) arg3 fullShare xk
            ∗ owns (c : Thread nD τ) arg8 fullShare (k3_pay2 a xk acc)
            ∗ owns (c : Thread nD τ) arg4 fullShare xi ∗ owns (c : Thread nD τ) arg5 fullShare w ∗ owns (c : Thread nD τ) arg6 fullShare b
            ∗ owns (c : Thread nD τ) arg7 fullShare (k3_pay3 (k3_pay2 a xk acc) xi w b)) -∗ K ⟨⟩))
      ⊢ wp frame (wpE (defs₀ (F := F)) Variants.none c none) E
          (cc3_kernel i arg2 harg2 arg3 harg3 arg4 harg4 arg5 harg5 arg6 harg6 arg7 harg7 arg8 harg8) K := by
  have hc1 : ¬ (Scalar.cmpi .ne (Scalar.extui (Scalar.cmpi .eq (BitVec.ofNat 32 (i 1).val) 0#32)) 0#32 = 1#1) :=
    fun h => by have h0 := (guard_first_iff (i 1)).1 h; omega
  have hc2 : k3_cond2 i = 1#1 := (cond2_iff i).2 hk
  simp only [cc3_kernel_eq_skeleton]; unfold cc3_kernel_skel
  unfold owns
  iintro ⟨⟨%f2, %hf2, H2⟩, ⟨%f3, %hf3, H3⟩, ⟨%f8, %hf8, H8⟩, ⟨%f4, %hf4, H4⟩, ⟨%f5, %hf5, H5⟩, ⟨%f6, %hf6, H6⟩, ⟨%d7, %f7, -, H7⟩, Hk⟩
  subst hf2; subst hf3; subst hf8; subst hf4; subst hf5; subst hf6
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H8]
  · iexists _; isplitr
    swap; · iexact H8
    ipureintro
    sl_unfold_run_names
    rw [View.read_writes_whole2, View.readAt_whole2, View.readAt_whole2, View.readAt_whole2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_whole2, readCov_whole2, View.readAt_whole2, View.readAt_whole2, View.readAt_whole2, View.readAt_whole2,
    View.readAt_whole2, View.readAt_whole2]

end Cert.KernelIdeal.Body

end
-- ==== Proof.KI.Body3.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Dat3
import proofs.«100139_j56126632624275_1_alg».proof.Proof.BodyK3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body

/-! # Call 3: the body at a point keeps the proof data

Three kinds of point, by the reduction step `t % 8`: at step 0 the accumulator is reset and gains the first tile
product; at steps 1–6 it gains one more; at step 7 it gains the last and the output tile is computed from it and
stored. The output window is idle (its buffer untouched, not written back) at every step but 7. -/

section Call3

variable (V : (c : Dev nD) → (b : Ref sig .tc) → Buf (Elt F) ((c : Thread nD τ).loc b))

/-- The reduction step of point `t` is `t % 8`. -/
theorem step3 : ∀ t : Fin cfg3.N, ((grid3.coords t) 1).val = t.val % 8 :=
  (by decide +kernel : ∀ t : Fin grid3.N, ((grid3.coords t) 1).val = t.val % 8)

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem live3_4 : ∀ t : Fin cfg3.N, cfg3.idle 4 (grid3.coords t) = false := by decide +kernel
/-- The output window is idle away from the last reduction step, live at it. -/
theorem idle3_5 : ∀ t : Fin cfg3.N, ¬ t.val % 8 = 7 → cfg3.idle 5 (grid3.coords t) = true := by decide +kernel
theorem live3_5 : ∀ t : Fin cfg3.N, t.val % 8 = 7 → cfg3.idle 5 (grid3.coords t) = false := by decide +kernel
theorem noFlush3_5 (t : Fin cfg3.N) (h : ¬ t.val % 8 = 7) : (cfg3.win 5).flush t = false := by
  cases hf : (cfg3.win 5).flush t with
  | false => rfl
  | true => exact absurd ((flush3_5 t).mp hf) h

abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x64 .f32 := win3_5.stage (cfg3.slots t 5)
abbrev hs3_5 (t : Fin cfg3.N) : (ms3_5 t).IsWhole := hstage3_5 ((cfg3.slots t 5).cast nbuf3_5)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t ∗ (dat3 V c).leavesExact 5 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  rw [show (dat3 V c).leavesExact 2 t = owns (c : Thread nD τ) (ms3_2 t) fullShare ((dat3 V c).after 2 t) from by
    unfold Dat.leavesExact; rw [live3_2 t], after3_2]
  rw [show (dat3 V c).leavesExact 3 t = owns (c : Thread nD τ) (ms3_3 t) fullShare ((dat3 V c).after 3 t) from by
    unfold Dat.leavesExact; rw [live3_3 t], after3_3]
  rw [show (dat3 V c).leavesExact 4 t = owns (c : Thread nD τ) (ms3_4 t) fullShare ((dat3 V c).after 4 t) from by
    unfold Dat.leavesExact; rw [live3_4 t], after3_4]
  have hN : t.val < 64 := lt_of_lt_of_eq t.isLt (show cfg3.N = 64 from N_3)
  have hstep := step3 t
  rw [Phi3_castSucc V c t]
  by_cases h0 : t.val % 8 = 0
  · -- reduction step 0: reset, first tile product
    have h7 : ¬ t.val % 8 = 7 := by omega
    rw [Dat.leavesExact_idle (dat3 V c) 5 t (idle3_5 t h7) (noFlush3_5 t h7)]
    rw [accAt3_first V c t h0]
    by_cases hz : t.val = 0
    · rw [Phi3_zero V c _ _ hz, PhiA3_eq]
      iintro ⟨⟨⟨HS, Hrest⟩, Hg⟩, Ho, ⟨%d0, H0⟩, ⟨%d1, H1⟩, ⟨%d2, H2⟩, ⟨%d3, H3⟩, ⟨%d4, H4⟩, H5⟩
      iapply (run3_first c Set.univ (grid3.coords t) (by rw [hstep]; exact h0) _ _ _ _ _ _ _ _ _ _ _ _ _ _ (iblk3 V c 0 t) (iblk3 V c 1 t) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi3_pos V c _ _ hz]
      iintro ⟨⟨HS, Hrest, Hg⟩, Ho, ⟨%d0, H0⟩, ⟨%d1, H1⟩, ⟨%d2, H2⟩, ⟨%d3, H3⟩, ⟨%d4, H4⟩, H5⟩
      iapply (run3_first c Set.univ (grid3.coords t) (by rw [hstep]; exact h0) _ _ _ _ _ _ _ _ _ _ _ _ _ _ (iblk3 V c 0 t) (iblk3 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [Phi3_pos V c _ _ hz]
    by_cases h7 : t.val % 8 = 7
    · -- reduction step 7: last tile product, then the output tile
      rw [show (dat3 V c).leavesExact 5 t = owns (c : Thread nD τ) (ms3_5 t) fullShare ((dat3 V c).after 5 t) from by
        unfold Dat.leavesExact; rw [live3_5 t h7], after3_5]
      unfold outAt3
      rw [accAt3_next V c t h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run3_last c Set.univ (grid3.coords t) (by rw [hstep]; exact h7) _ _ _ _ _ _ _ _ _ _ _ _ _ _ (iblk3 V c 0 t) (iblk3 V c 1 t)
        (accAt3 V c (t.val - 1) (Nat.lt_of_le_of_lt (Nat.sub_le _ _) t.isLt)) (iblk3 V c 2 t) (iblk3 V c 3 t) (iblk3 V c 4 t) _)
      isplitl [H0]; · iexact H0
      isplitl [H1]; · iexact H1
      isplitl [HS]; · iexact HS
      isplitl [H2]; · iexact H2
      isplitl [H3]; · iexact H3
      isplitl [H4]; · iexact H4
      isplitl [H5]; · iexists _; iexact H5
      iintro ⟨H0, H1, HS, H2, H3, H4, H5⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · -- reduction steps 1 to 6: one more tile product
      rw [Dat.leavesExact_idle (dat3 V c) 5 t (idle3_5 t h7) (noFlush3_5 t h7)]
      rw [accAt3_next V c t h0]
      iintro ⟨⟨HS, Hrest, Hg⟩, Ho, ⟨%d0, H0⟩, ⟨%d1, H1⟩, ⟨%d2, H2⟩, ⟨%d3, H3⟩, ⟨%d4, H4⟩, H5⟩
      iapply (run3_mid c Set.univ (grid3.coords t) (by rw [hstep]; exact h0) (by rw [hstep]; exact h7) _ _ _ _ _ _ _ _ _ _ _ _ _ _ (iblk3 V c 0 t) (iblk3 V c 1 t)
        (accAt3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Call3

end Cert.KernelIdeal.Hand

end
-- ==== Proof.KI.Seg3.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Dat3
import proofs.«100139_j56126632624275_1_alg».proof.Proof.KI.Seg0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)
open PCS

/-! # Call 3 among the core's unscoped buffers

The call's six windows stand on FIVE distinct buffers: windows 1 and 2 both read the feature matrix. Entering the call,
that buffer's full share is dealt half to each of the two windows; leaving it, the halves (which still hold the same
contents: inputs are never written) are put back together. The output array comes back at what the write-backs left. -/

section Call3

variable (W : Dev nD → Valuation τ sig (Elt F))

/-- The buffers behind the call's arrays, one by one. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_arg1) ↦{fullShare} V main_arg1) ∗ (((c : Thread nD τ).loc main_v5) ↦{fullShare} V main_v5)
          ∗ (((c : Thread nD τ).loc main_arg8) ↦{fullShare} V main_arg8) ∗ (((c : Thread nD τ).loc main_v6) ↦{fullShare} V main_v6)
          ∗ (((c : Thread nD τ).loc main_v7) ↦{fullShare} V main_v7)) := by
  unfold Pipeline.arrBufs
  exact bigSep_eq_bigSepL_of_eq [main_arg1, main_v5, main_arg8, main_v6, main_v7] (by decide) (by decide) _

/-- What the call leaves in the core's unscoped buffers: the entry contents, the output array at what the
    write-backs left. -/
def exitW3 (c : Dev nD) : Valuation τ sig (Elt F) :=
  Function.update (W c) main_v7 ((dat3 (VW W) c).arrAt 5 cfg3.N)

theorem entry3 (c : Dev nD) :
    (StableHlo.held (c : Thread nD τ) (Pipeline.ucRefs τ sig) (W c) : sProp 𝕄)
      ⊢ iprop((dat3 (VW W) c).arrays ((dat3 (VW W) c).arrAt · 0)
          ∗ Pipeline.unscopedRest (Ix := Unit) (Name := ℕ) (U := UR sig nD τ) (Lvl := ℕ) spec3 c (VW W c)) := by
  rw [← Pipeline.unscopedBufs_held (Ix := Unit) (Name := ℕ) (U := UR sig nD τ) (Lvl := ℕ) c (W c)]
  rw [Pipeline.unscopedBufs_split₀ cfgs (3 : Fin 4) winFacts₀3.arr_unscoped c]
  refine sep_mono ?_ .rfl
  refine (Entails.of_eq (arrBufs3_eq c (VW W c))).trans ?_
  unfold Dat.arrays; rw [bigSep_W3]
  have e0 : (dat3 (VW W) c).share 0 = fullShare := rfl
  have e1 : (dat3 (VW W) c).share 1 = fullShare.left := rfl
  have e2 : (dat3 (VW W) c).share 2 = fullShare.right := rfl
  have e3 : (dat3 (VW W) c).share 3 = fullShare := rfl
  have e4 : (dat3 (VW W) c).share 4 = fullShare := rfl
  have e5 : (dat3 (VW W) c).share 5 = fullShare := rfl
  rw [e0, e1, e2, e3, e4, e5]
  simp only [View.set_whole]
  iintro ⟨H1, H0, H2, Hv0, Hv1⟩
  ihave Hs := (pointsTo_share halves).1 $$ H0
  icases Hs with ⟨H0l, H0r⟩
  isplitl [H1]; · iexact H1
  isplitl [H0l]; · iexact H0l
  isplitl [H0r]; · iexact H0r
  isplitl [H2]; · iexact H2
  isplitl [Hv0]; · iexact Hv0
  iexact Hv1

/-- The updated valuation agrees with the entry contents off the output array. -/
theorem exitW3_of_ne (c : Dev nD) (b : Ref sig .tc) (h : b ≠ main_v7) : exitW3 W c b = W c b := by
  unfold exitW3
  exact Function.update_of_ne (StableHlo.devRef_ne_of_ne h : (Proc.devRef .tc b : DevRef τ sig) ≠ Proc.devRef .tc main_v7) _ _

/-- and holds the output array at what the write-backs left. -/
theorem exitW3_out (c : Dev nD) : exitW3 W c main_v7 = (dat3 (VW W) c).arrAt 5 cfg3.N := by
  unfold exitW3; exact Function.update_self _ _ _

set_option maxHeartbeats 2000000 in
theorem exit3 (c : Dev nD) :
    iprop((dat3 (VW W) c).arrays ((dat3 (VW W) c).arrAt · cfg3.N)
        ∗ Pipeline.unscopedRest (Ix := Unit) (Name := ℕ) (U := UR sig nD τ) (Lvl := ℕ) spec3 c (VW W c))
      ⊢ (StableHlo.held (c : Thread nD τ) (Pipeline.ucRefs τ sig) (exitW3 W c) : sProp 𝕄) := by
  rw [← Pipeline.unscopedBufs_held (Ix := Unit) (Name := ℕ) (U := UR sig nD τ) (Lvl := ℕ) c (exitW3 W c)]
  rw [Pipeline.unscopedBufs_split₀ cfgs (3 : Fin 4) winFacts₀3.arr_unscoped c]
  refine sep_mono ?_ (Entails.of_eq ?_)
  · refine .trans ?_ (Entails.of_eq (arrBufs3_eq c (VW (exitW3 W) c)).symm)
    unfold Dat.arrays; rw [bigSep_W3]
    have e0 : (dat3 (VW W) c).share 0 = fullShare := rfl
    have e1 : (dat3 (VW W) c).share 1 = fullShare.left := rfl
    have e2 : (dat3 (VW W) c).share 2 = fullShare.right := rfl
    have e3 : (dat3 (VW W) c).share 3 = fullShare := rfl
    have e4 : (dat3 (VW W) c).share 4 = fullShare := rfl
    have e5 : (dat3 (VW W) c).share 5 = fullShare := rfl
    rw [e0, e1, e2, e3, e4, e5]
    simp only [View.set_whole]
    rw [(dat3 (VW W) c).arrAt_in 0 rfl, (dat3 (VW W) c).arrAt_in 1 rfl, (dat3 (VW W) c).arrAt_in 2 rfl,
      (dat3 (VW W) c).arrAt_in 3 rfl, (dat3 (VW W) c).arrAt_in 4 rfl]
    simp only [A_eq3]
    rw [show VW (exitW3 W) c main_arg1 = VW W c main_arg1 from exitW3_of_ne W c main_arg1 (by decide),
      show VW (exitW3 W) c main_v5 = VW W c main_v5 from exitW3_of_ne W c main_v5 (by decide),
      show VW (exitW3 W) c main_arg8 = VW W c main_arg8 from exitW3_of_ne W c main_arg8 (by decide),
      show VW (exitW3 W) c main_v6 = VW W c main_v6 from exitW3_of_ne W c main_v6 (by decide),
      show VW (exitW3 W) c main_v7 = (dat3 (VW W) c).arrAt 5 cfg3.N from exitW3_out W c]
    iintro ⟨H1, H0l, H0r, H2, Hv0, Hv1⟩
    ihave H0 := (pointsTo_share halves).2 $$ [H0l H0r]
    · isplitl [H0l]; · iexact H0l
      iexact H0r
    isplitl [H1]; · iexact H1
    isplitl [H0]; · iexact H0
    isplitl [H2]; · iexact H2
    isplitl [Hv0]; · iexact Hv0
    iexact Hv1
  · unfold Pipeline.unscopedRest
    exact (bigSep_congr fun b hb => by
      have e : exitW3 W c b = W c b := exitW3_of_ne W c b
        (fun e => (Finset.mem_sdiff.mp hb).2 (e ▸ Finset.mem_image.mpr ⟨(5 : Fin 6), Finset.mem_univ _, rfl⟩))
      dsimp only [VW]; rw [e]).symm

end Call3

end Cert.KernelIdeal.Hand

end
-- ==== Proof.KI.Run.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Body0
import proofs.«100139_j56126632624275_1_alg».proof.Proof.KI.Seg0
import proofs.«100139_j56126632624275_1_alg».proof.Proof.KI.Body1
import proofs.«100139_j56126632624275_1_alg».proof.Proof.KI.Seg1
import proofs.«100139_j56126632624275_1_alg».proof.Proof.KI.Body2
import proofs.«100139_j56126632624275_1_alg».proof.Proof.KI.Seg2
import proofs.«100139_j56126632624275_1_alg».proof.Proof.KI.Body3
import proofs.«100139_j56126632624275_1_alg».proof.Proof.KI.Seg3
import proofs.«100139_j56126632624275_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's eight items from the launch to the return

Four host stretches (each reshapes a bias vector to a row) alternate with the four calls. The contents of the core's
unscoped buffers are followed item by item: a host stretch applies its operations, a call replaces its output array by
what its write-backs leave. At the end every unscoped buffer is read against the last of these. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (call 0's entry). -/
abbrev W1 : Dev nD → Valuation τ sig (Elt F) := fun c => StableHlo.after hostOps0 (W0 m ρ c)
/-- After call 0. -/
def W2 (c : Dev nD) : Valuation τ sig (Elt F) := exitW0 (W1 m ρ) c
abbrev W3 : Dev nD → Valuation τ sig (Elt F) := fun c => StableHlo.after hostOps1 (W2 m ρ c)
/-- After call 1. -/
def W4 (c : Dev nD) : Valuation τ sig (Elt F) := exitW1 (W3 m ρ) c
abbrev W5 : Dev nD → Valuation τ sig (Elt F) := fun c => StableHlo.after hostOps2 (W4 m ρ c)
/-- After call 2. -/
def W6 (c : Dev nD) : Valuation τ sig (Elt F) := exitW2 (W5 m ρ) c
abbrev W7 : Dev nD → Valuation τ sig (Elt F) := fun c => StableHlo.after hostOps3 (W6 m ρ c)
/-- After call 3: the end. -/
def W8 (c : Dev nD) : Valuation τ sig (Elt F) := exitW3 (W7 m ρ) c

/-- Every call's proof data, each at its entry contents, given call by call. -/
def pdats : (p : Fin 4) → (c : Dev nD) → Dat τ (Elt F) Unit ℕ (UR sig nD τ) ℕ (Pipeline.pin (pcfgs (F := F)) adm p) c
  | ⟨0, _⟩ => fun c => dat0 (VW (W1 m ρ)) c
  | ⟨1, _⟩ => fun c => dat1 (VW (W3 m ρ)) c
  | ⟨2, _⟩ => fun c => dat2 (VW (W5 m ρ)) c
  | ⟨3, _⟩ => fun c => dat3 (VW (W7 m ρ)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ Wd, owes (c : Thread nD τ) (0 : CellTallies nD τ sig Unit) Wd)
/-- A host stretch as a segment over the unscoped references from the contents `Wv`, `R` riding along. -/
abbrev hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv R

/-- The last thread state without the `owes`: every unscoped buffer at the last contents, the generator register. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Call 0 over the thread state: entered from every unscoped buffer at `W1`, left at `W2`. Its arrays are split
    out of the unscoped buffers (the array two windows read dealt half and half) and put back at the exit contents; the
    generator register and the scratch go into the call's invariant and come out; nothing owed; no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (VW (W1 m ρ)) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VW (W1 m ρ) c)
  hentry c := by
    rw [Pipeline.ownSems0_none]
    have hsplit := entry0 (W1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Phi0 (VW (W1 m ρ)) c (63 + 1) (le_of_eq (show 63 + 1 = cfg0.N from N_0.symm)) from rfl, Phi0_succ]
    show _ ⊢ iprop((∃ r, prngReg c r) ∗ BI.emp ∗ Pipeline.scopedRest (Ix := Unit) (Name := ℕ) (U := UR sig nD τ) (Lvl := ℕ) (Val := Elt F) spec0 c)
    rw [scopedRest0_split]
    simp only [scM0, owns_whole]
    iintro ⟨HS, Hrest, Hp⟩
    isplitl [Hp]; · iexact Hp
    isplitr; · iempintro
    isplitl [HS]; · iexists _; iexact HS
    iexact Hrest
  hexit c := by
    have hjoin := exit0 (W1 m ρ) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%Wd, -, HO⟩; iexists Wd; iexact HO

set_option backward.isDefEq.respectTransparency.types false in
/-- Call 1 over the thread state: entered from every unscoped buffer at `W3`, left at `W4`. Its arrays are split
    out of the unscoped buffers (the array two windows read dealt half and half) and put back at the exit contents; the
    generator register and the scratch go into the call's invariant and come out; nothing owed; no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (VW (W3 m ρ)) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (VW (W3 m ρ) c)
  hentry c := by
    rw [Pipeline.ownSems0_none]
    have hsplit := entry1 (W3 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Phi1 (VW (W3 m ρ)) c (63 + 1) (le_of_eq (show 63 + 1 = cfg1.N from N_1.symm)) from rfl, Phi1_succ]
    show _ ⊢ iprop((∃ r, prngReg c r) ∗ BI.emp ∗ Pipeline.scopedRest (Ix := Unit) (Name := ℕ) (U := UR sig nD τ) (Lvl := ℕ) (Val := Elt F) spec1 c)
    rw [scopedRest1_split]
    simp only [scM1, owns_whole]
    iintro ⟨HS, Hrest, Hp⟩
    isplitl [Hp]; · iexact Hp
    isplitr; · iempintro
    isplitl [HS]; · iexists _; iexact HS
    iexact Hrest
  hexit c := by
    have hjoin := exit1 (W3 m ρ) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%Wd, -, HO⟩; iexists Wd; iexact HO

set_option backward.isDefEq.respectTransparency.types false in
/-- Call 2 over the thread state: entered from every unscoped buffer at `W5`, left at `W6`. Its arrays are split
    out of the unscoped buffers (the array two windows read dealt half and half) and put back at the exit contents; the
    generator register and the scratch go into the call's invariant and come out; nothing owed; no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (VW (W5 m ρ)) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (VW (W5 m ρ) c)
  hentry c := by
    rw [Pipeline.ownSems0_none]
    have hsplit := entry2 (W5 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Phi2 (VW (W5 m ρ)) c (63 + 1) (le_of_eq (show 63 + 1 = cfg2.N from N_2.symm)) from rfl, Phi2_succ]
    show _ ⊢ iprop((∃ r, prngReg c r) ∗ BI.emp ∗ Pipeline.scopedRest (Ix := Unit) (Name := ℕ) (U := UR sig nD τ) (Lvl := ℕ) (Val := Elt F) spec2 c)
    rw [scopedRest2_split]
    simp only [scM2, owns_whole]
    iintro ⟨HS, Hrest, Hp⟩
    isplitl [Hp]; · iexact Hp
    isplitr; · iempintro
    isplitl [HS]; · iexists _; iexact HS
    iexact Hrest
  hexit c := by
    have hjoin := exit2 (W5 m ρ) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%Wd, -, HO⟩; iexists Wd; iexact HO

set_option backward.isDefEq.respectTransparency.types false in
/-- Call 3 over the thread state: entered from every unscoped buffer at `W7`, left at `W8`. Its arrays are split
    out of the unscoped buffers (the array two windows read dealt half and half) and put back at the exit contents; the
    generator register and the scratch go into the call's invariant and come out; nothing owed; no semaphore of its own. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (VW (W7 m ρ)) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ Wd, owes (c : Thread nD τ) (0 : CellTallies nD τ sig Unit) Wd)
  X c := iprop(∃ r, prngReg c r)
  Y c := iprop(∃ r, prngReg c r)
  Z c := Pipeline.unscopedRest (Ix := Unit) (Name := ℕ) (U := UR sig nD τ) (Lvl := ℕ) spec3 c (VW (W7 m ρ) c)
  hentry c := by
    rw [Pipeline.ownSems0_none]
    have hsplit := entry3 (W7 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Phi3 (VW (W7 m ρ)) c (63 + 1) (le_of_eq (show 63 + 1 = cfg3.N from N_3.symm)) from rfl, Phi3_succ]
    show _ ⊢ iprop((∃ r, prngReg c r) ∗ BI.emp ∗ Pipeline.scopedRest (Ix := Unit) (Name := ℕ) (U := UR sig nD τ) (Lvl := ℕ) (Val := Elt F) spec3 c)
    rw [scopedRest3_split]
    simp only [scM3, owns_whole]
    iintro ⟨HS, Hrest, Hp⟩
    isplitl [Hp]; · iexact Hp
    isplitr; · iempintro
    isplitl [HS]; · iexists _; iexact HS
    iexact Hrest
  hexit c := by
    have hjoin := exit3 (W7 m ρ) c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%Wd, -, HO⟩; iexists Wd; iexact HO

/-- @main's eight items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run (c : Dev nD) : main (F := F) c = Pipeline.Seg.run (segs m ρ) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    final state holds each unscoped buffer at the last contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KI.Frame.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the last contents hold at a buffer no item writes

Each host stretch writes one bias row (`main_v0`, `main_v2`, `main_v4`, `main_v6`) and each call changes only its
output array (`main_v1`, `main_v3`, `main_v5`, `main_v7`); every other unscoped buffer ends as launched. -/

variable (m : (ℓ : Loc nD τ sig) → Buf (Elt F) ℓ) (ρ : Dev nD → PrngReg)

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ≠ main_v1) : W2 m ρ c r = W1 m ρ c r := exitW0_of_ne (W1 m ρ) c r h
theorem W3_of (c : Dev nD) (r : Ref sig .tc) (h : r ∉ hostOps1_W) : W3 m ρ c r = W2 m ρ c r :=
  StableHlo.after_of_writes_sub hostOps1 _ hostOps1_writes h
theorem W4_of (c : Dev nD) (r : Ref sig .tc) (h : r ≠ main_v3) : W4 m ρ c r = W3 m ρ c r := exitW1_of_ne (W3 m ρ) c r h
theorem W5_of (c : Dev nD) (r : Ref sig .tc) (h : r ∉ hostOps2_W) : W5 m ρ c r = W4 m ρ c r :=
  StableHlo.after_of_writes_sub hostOps2 _ hostOps2_writes h
theorem W6_of (c : Dev nD) (r : Ref sig .tc) (h : r ≠ main_v5) : W6 m ρ c r = W5 m ρ c r := exitW2_of_ne (W5 m ρ) c r h
theorem W7_of (c : Dev nD) (r : Ref sig .tc) (h : r ∉ hostOps3_W) : W7 m ρ c r = W6 m ρ c r :=
  StableHlo.after_of_writes_sub hostOps3 _ hostOps3_writes h
theorem W8_of (c : Dev nD) (r : Ref sig .tc) (h : r ≠ main_v7) : W8 m ρ c r = W7 m ρ c r := exitW3_of_ne (W7 m ρ) c r h

/-- `main_arg0` ends as launched. -/
theorem W8_main_arg0 (c : Dev nD) : W8 m ρ c main_arg0 = m ((c : Thread nD τ).loc main_arg0) :=
  (W8_of m ρ c main_arg0 (by decide)).trans <| (W7_of m ρ c main_arg0 (by decide)).trans <| (W6_of m ρ c main_arg0 (by decide)).trans <|
    (W5_of m ρ c main_arg0 (by decide)).trans <| (W4_of m ρ c main_arg0 (by decide)).trans <| (W3_of m ρ c main_arg0 (by decide)).trans <|
    (W2_of m ρ c main_arg0 (by decide)).trans <| (W1_of m ρ c main_arg0 (by decide)).trans rfl
/-- `main_arg1` ends as launched. -/
theorem W8_main_arg1 (c : Dev nD) : W8 m ρ c main_arg1 = m ((c : Thread nD τ).loc main_arg1) :=
  (W8_of m ρ c main_arg1 (by decide)).trans <| (W7_of m ρ c main_arg1 (by decide)).trans <| (W6_of m ρ c main_arg1 (by decide)).trans <|
    (W5_of m ρ c main_arg1 (by decide)).trans <| (W4_of m ρ c main_arg1 (by decide)).trans <| (W3_of m ρ c main_arg1 (by decide)).trans <|
    (W2_of m ρ c main_arg1 (by decide)).trans <| (W1_of m ρ c main_arg1 (by decide)).trans rfl
/-- `main_arg2` ends as launched. -/
theorem W8_main_arg2 (c : Dev nD) : W8 m ρ c main_arg2 = m ((c : Thread nD τ).loc main_arg2) :=
  (W8_of m ρ c main_arg2 (by decide)).trans <| (W7_of m ρ c main_arg2 (by decide)).trans <| (W6_of m ρ c main_arg2 (by decide)).trans <|
    (W5_of m ρ c main_arg2 (by decide)).trans <| (W4_of m ρ c main_arg2 (by decide)).trans <| (W3_of m ρ c main_arg2 (by decide)).trans <|
    (W2_of m ρ c main_arg2 (by decide)).trans <| (W1_of m ρ c main_arg2 (by decide)).trans rfl
/-- `main_arg3` ends as launched. -/
theorem W8_main_arg3 (c : Dev nD) : W8 m ρ c main_arg3 = m ((c : Thread nD τ).loc main_arg3) :=
  (W8_of m ρ c main_arg3 (by decide)).trans <| (W7_of m ρ c main_arg3 (by decide)).trans <| (W6_of m ρ c main_arg3 (by decide)).trans <|
    (W5_of m ρ c main_arg3 (by decide)).trans <| (W4_of m ρ c main_arg3 (by decide)).trans <| (W3_of m ρ c main_arg3 (by decide)).trans <|
    (W2_of m ρ c main_arg3 (by decide)).trans <| (W1_of m ρ c main_arg3 (by decide)).trans rfl
/-- `main_arg4` ends as launched. -/
theorem W8_main_arg4 (c : Dev nD) : W8 m ρ c main_arg4 = m ((c : Thread nD τ).loc main_arg4) :=
  (W8_of m ρ c main_arg4 (by decide)).trans <| (W7_of m ρ c main_arg4 (by decide)).trans <| (W6_of m ρ c main_arg4 (by decide)).trans <|
    (W5_of m ρ c main_arg4 (by decide)).trans <| (W4_of m ρ c main_arg4 (by decide)).trans <| (W3_of m ρ c main_arg4 (by decide)).trans <|
    (W2_of m ρ c main_arg4 (by decide)).trans <| (W1_of m ρ c main_arg4 (by decide)).trans rfl
/-- `main_arg5` ends as launched. -/
theorem W8_main_arg5 (c : Dev nD) : W8 m ρ c main_arg5 = m ((c : Thread nD τ).loc main_arg5) :=
  (W8_of m ρ c main_arg5 (by decide)).trans <| (W7_of m ρ c main_arg5 (by decide)).trans <| (W6_of m ρ c main_arg5 (by decide)).trans <|
    (W5_of m ρ c main_arg5 (by decide)).trans <| (W4_of m ρ c main_arg5 (by decide)).trans <| (W3_of m ρ c main_arg5 (by decide)).trans <|
    (W2_of m ρ c main_arg5 (by decide)).trans <| (W1_of m ρ c main_arg5 (by decide)).trans rfl
/-- `main_arg6` ends as launched. -/
theorem W8_main_arg6 (c : Dev nD) : W8 m ρ c main_arg6 = m ((c : Thread nD τ).loc main_arg6) :=
  (W8_of m ρ c main_arg6 (by decide)).trans <| (W7_of m ρ c main_arg6 (by decide)).trans <| (W6_of m ρ c main_arg6 (by decide)).trans <|
    (W5_of m ρ c main_arg6 (by decide)).trans <| (W4_of m ρ c main_arg6 (by decide)).trans <| (W3_of m ρ c main_arg6 (by decide)).trans <|
    (W2_of m ρ c main_arg6 (by decide)).trans <| (W1_of m ρ c main_arg6 (by decide)).trans rfl
/-- `main_arg7` ends as launched. -/
theorem W8_main_arg7 (c : Dev nD) : W8 m ρ c main_arg7 = m ((c : Thread nD τ).loc main_arg7) :=
  (W8_of m ρ c main_arg7 (by decide)).trans <| (W7_of m ρ c main_arg7 (by decide)).trans <| (W6_of m ρ c main_arg7 (by decide)).trans <|
    (W5_of m ρ c main_arg7 (by decide)).trans <| (W4_of m ρ c main_arg7 (by decide)).trans <| (W3_of m ρ c main_arg7 (by decide)).trans <|
    (W2_of m ρ c main_arg7 (by decide)).trans <| (W1_of m ρ c main_arg7 (by decide)).trans rfl
/-- `main_arg8` ends as launched. -/
theorem W8_main_arg8 (c : Dev nD) : W8 m ρ c main_arg8 = m ((c : Thread nD τ).loc main_arg8) :=
  (W8_of m ρ c main_arg8 (by decide)).trans <| (W7_of m ρ c main_arg8 (by decide)).trans <| (W6_of m ρ c main_arg8 (by decide)).trans <|
    (W5_of m ρ c main_arg8 (by decide)).trans <| (W4_of m ρ c main_arg8 (by decide)).trans <| (W3_of m ρ c main_arg8 (by decide)).trans <|
    (W2_of m ρ c main_arg8 (by decide)).trans <| (W1_of m ρ c main_arg8 (by decide)).trans rfl
/-- `main_arg9` ends as launched. -/
theorem W8_main_arg9 (c : Dev nD) : W8 m ρ c main_arg9 = m ((c : Thread nD τ).loc main_arg9) :=
  (W8_of m ρ c main_arg9 (by decide)).trans <| (W7_of m ρ c main_arg9 (by decide)).trans <| (W6_of m ρ c main_arg9 (by decide)).trans <|
    (W5_of m ρ c main_arg9 (by decide)).trans <| (W4_of m ρ c main_arg9 (by decide)).trans <| (W3_of m ρ c main_arg9 (by decide)).trans <|
    (W2_of m ρ c main_arg9 (by decide)).trans <| (W1_of m ρ c main_arg9 (by decide)).trans rfl

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩)
    (run_all m ρ)

end Cert.KernelIdeal.Hand

end
-- ==== Proof.Spec.lean ====
/-
  The mathematics both programs compute, on the extended reals, index by index.

  One layer takes a matrix of features `h : [n, f]`, a square matrix `adj : [n, n]`, a weight
  `W : [2f, o]` whose first `f` rows meet a row's own features and whose last `f` rows meet the
  features summed over `adj`, and a bias `b : [o]`:

      support (i, c) = ∑ k, adj (i, k) · h (k, c)
      conv (i, j)    = (∑ c, h (i, c) · W (c, j)  +  ∑ c, support (i, c) · W (f + c, j))  +  b j

  The network is three such layers each followed by `max · 0`, and a fourth without it.
  Only sums and products appear, so nothing here needs the entries to be finite.
-/
import Idealize.ShloMosaic.PureOps.Ideal
import Idealize.ShloMosaic.Lib.ValueIdx

noncomputable section

namespace Cert.Sage

open Idealize.ShloMosaic Idealize.ShloMosaic.ValueIdx
open scoped BigOperators

/-- A matrix of extended reals over the literal shape `[a, b]`. -/
abbrev Mat (a b : Nat) : Type := (⟨2, ![a, b]⟩ : Shape).Idx → EReal
/-- A vector of extended reals over the literal shape `[a]`. -/
abbrev Vc (a : Nat) : Type := (⟨1, ![a]⟩ : Shape).Idx → EReal

/-- The product `adj · h`: row `i` of `adj` against column `c` of `h`. -/
def support {n f : Nat} (adj : Mat n n) (h : Mat n f) : Mat n f :=
  fun i => ∑ k : Fin n, adj (ix2 (i 0) k) * h (ix2 k (i 1))

/-- One layer before its activation. The weight has `w = f + f` rows: row `c` meets the node's own
    feature `c`, row `f + c` the aggregated feature `c`. -/
def conv {n f w o : Nat} (hw : f + f = w) (adj : Mat n n) (h : Mat n f) (W : Mat w o) (b : Vc o) : Mat n o :=
  fun i => (∑ c : Fin f, h (ix2 (i 0) c) * W (ix2 (⟨c.val, by omega⟩ : Fin w) (i 1))
      + ∑ c : Fin f, support adj h (ix2 (i 0) c) * W (ix2 (⟨f + c.val, by omega⟩ : Fin w) (i 1)))
    + b (ix1 (i 1))

/-- A layer followed by the rectifier. -/
def convRelu {n f w o : Nat} (hw : f + f = w) (adj : Mat n n) (h : Mat n f) (W : Mat w o) (b : Vc o) : Mat n o :=
  fun i => max (conv hw adj h W b i) 0

/-- The whole network: 256 → 128 → 128 → 128 → 64 features over 8192 nodes. -/
def net (x : Mat 8192 256) (adj : Mat 8192 8192) (W1 : Mat 512 128) (b1 : Vc 128) (W2 : Mat 256 128) (b2 : Vc 128)
    (W3 : Mat 256 128) (b3 : Vc 128) (W4 : Mat 256 64) (b4 : Vc 64) : Mat 8192 64 :=
  conv (f := 128) rfl adj
    (convRelu (f := 128) rfl adj
      (convRelu (f := 128) rfl adj
        (convRelu (f := 256) rfl adj x W1 b1) W2 b2) W3 b3) W4 b4

end Cert.Sage

end
-- ==== Proof.KI.Net.lean ====
/-
  The kernel's last output array is the specification's network of the launch memory.

  The program is four host stretches, each casting a bias vector to one row, alternating with the four
  calls. Each call leaves in its output array the specification's layer of what it found in its input
  arrays; no item writes an argument, and an output array is written by its call alone. Followed from the
  launch memory item by item, the first call's output is the first layer of the arguments, each later
  call's output the next layer of the one before, and the last is the network.
-/
import proofs.«100139_j56126632624275_1_alg».proof.Proof.KI.Run
import proofs.«100139_j56126632624275_1_alg».proof.Proof.Spec
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

/-- A vector cast to one row, read back along that row, is the vector. -/
theorem row_of_cast {a : ℕ} (x : (⟨1, ![a]⟩ : Shape).Idx → EReal) (h : (⟨1, ![a]⟩ : Shape).ShapeCasts ⟨2, ![1, a]⟩) :
    (fun j : (⟨1, ![a]⟩ : Shape).Idx => shapeCast (⟨2, ![1, a]⟩ : Shape) x h (ix2 (0 : Fin 1) (j 0))) = x :=
  funext fun j => (shapeCast_a_1a_apply x h 0 (j 0)).trans (congrArg x (eq_ix1 j).symm)

variable (m : (ℓ : Loc nD τ sig) → Buf (Elt Ideal) ℓ) (ρ : Dev nD → PrngReg)

/-! ## What each item leaves alone -/

theorem W1_keep (c : Dev nD) (r : Ref sig .tc) (h : r ∉ hostOps0_W) : W1 m ρ c r = W0 m ρ c r :=
  StableHlo.after_of_writes_sub hostOps0 _ hostOps0_writes h
theorem W2_keep (c : Dev nD) (r : Ref sig .tc) (h : r ≠ main_v1) : W2 m ρ c r = W1 m ρ c r := exitW0_of_ne (W1 m ρ) c r h
theorem W3_keep (c : Dev nD) (r : Ref sig .tc) (h : r ∉ hostOps1_W) : W3 m ρ c r = W2 m ρ c r :=
  StableHlo.after_of_writes_sub hostOps1 _ hostOps1_writes h
theorem W4_keep (c : Dev nD) (r : Ref sig .tc) (h : r ≠ main_v3) : W4 m ρ c r = W3 m ρ c r := exitW1_of_ne (W3 m ρ) c r h
theorem W5_keep (c : Dev nD) (r : Ref sig .tc) (h : r ∉ hostOps2_W) : W5 m ρ c r = W4 m ρ c r :=
  StableHlo.after_of_writes_sub hostOps2 _ hostOps2_writes h
theorem W6_keep (c : Dev nD) (r : Ref sig .tc) (h : r ≠ main_v5) : W6 m ρ c r = W5 m ρ c r := exitW2_of_ne (W5 m ρ) c r h
theorem W7_keep (c : Dev nD) (r : Ref sig .tc) (h : r ∉ hostOps3_W) : W7 m ρ c r = W6 m ρ c r :=
  StableHlo.after_of_writes_sub hostOps3 _ hostOps3_writes h

/-- A buffer the first two items do not write holds, entering the second call's host stretch, its launch contents. -/
theorem W2_launch (c : Dev nD) (r : Ref sig .tc) (h0 : r ∉ hostOps0_W) (h1 : r ≠ main_v1) : W2 m ρ c r = W0 m ρ c r :=
  (W2_keep m ρ c r h1).trans (W1_keep m ρ c r h0)
theorem W3_launch (c : Dev nD) (r : Ref sig .tc) (h0 : r ∉ hostOps0_W) (h1 : r ≠ main_v1) (h2 : r ∉ hostOps1_W) :
    W3 m ρ c r = W0 m ρ c r := (W3_keep m ρ c r h2).trans (W2_launch m ρ c r h0 h1)
theorem W4_launch (c : Dev nD) (r : Ref sig .tc) (h0 : r ∉ hostOps0_W) (h1 : r ≠ main_v1) (h2 : r ∉ hostOps1_W) (h3 : r ≠ main_v3) :
    W4 m ρ c r = W0 m ρ c r := (W4_keep m ρ c r h3).trans (W3_launch m ρ c r h0 h1 h2)
theorem W5_launch (c : Dev nD) (r : Ref sig .tc) (h0 : r ∉ hostOps0_W) (h1 : r ≠ main_v1) (h2 : r ∉ hostOps1_W) (h3 : r ≠ main_v3)
    (h4 : r ∉ hostOps2_W) : W5 m ρ c r = W0 m ρ c r := (W5_keep m ρ c r h4).trans (W4_launch m ρ c r h0 h1 h2 h3)
theorem W6_launch (c : Dev nD) (r : Ref sig .tc) (h0 : r ∉ hostOps0_W) (h1 : r ≠ main_v1) (h2 : r ∉ hostOps1_W) (h3 : r ≠ main_v3)
    (h4 : r ∉ hostOps2_W) (h5 : r ≠ main_v5) : W6 m ρ c r = W0 m ρ c r :=
  (W6_keep m ρ c r h5).trans (W5_launch m ρ c r h0 h1 h2 h3 h4)
theorem W7_launch (c : Dev nD) (r : Ref sig .tc) (h0 : r ∉ hostOps0_W) (h1 : r ≠ main_v1) (h2 : r ∉ hostOps1_W) (h3 : r ≠ main_v3)
    (h4 : r ∉ hostOps2_W) (h5 : r ≠ main_v5) (h6 : r ∉ hostOps3_W) : W7 m ρ c r = W0 m ρ c r :=
  (W7_keep m ρ c r h6).trans (W6_launch m ρ c r h0 h1 h2 h3 h4 h5)

/-! ## The bias rows the host stretches write -/

theorem W1_row (c : Dev nD) : W1 m ρ c main_v0 = shapeCast S1x128 (W0 m ρ c main_arg3) shapeCasts_S128_S1x128 := by
  show StableHlo.after hostOps0 _ (Proc.devRef .tc main_v0) = _
  simp only [StableHlo.after_cons, StableHlo.after_nil]
  rw [StableHlo.reshape_result]
  rfl
theorem W3_row (c : Dev nD) : W3 m ρ c main_v2 = shapeCast S1x128 (W2 m ρ c main_arg5) shapeCasts_S128_S1x128 := by
  show StableHlo.after hostOps1 _ (Proc.devRef .tc main_v2) = _
  simp only [StableHlo.after_cons, StableHlo.after_nil]
  rw [StableHlo.reshape_result]
  rfl
theorem W5_row (c : Dev nD) : W5 m ρ c main_v4 = shapeCast S1x128 (W4 m ρ c main_arg7) shapeCasts_S128_S1x128 := by
  show StableHlo.after hostOps2 _ (Proc.devRef .tc main_v4) = _
  simp only [StableHlo.after_cons, StableHlo.after_nil]
  rw [StableHlo.reshape_result]
  rfl
theorem W7_row (c : Dev nD) : W7 m ρ c main_v6 = shapeCast S1x64 (W6 m ρ c main_arg9) shapeCasts_S64_S1x64 := by
  show StableHlo.after hostOps3 _ (Proc.devRef .tc main_v6) = _
  simp only [StableHlo.after_cons, StableHlo.after_nil]
  rw [StableHlo.reshape_result]
  rfl

/-! ## The four calls' outputs, layer by layer -/

section Net

variable
  (final0 : ∀ (V : (c : Dev nD) → (b : Ref sig .tc) → Buf (Elt Ideal) ((c : Thread nD τ).loc b)) (c : Dev nD), (dat0 (F := Ideal) V c).arrAt 5 cfg0.N
    = Cert.Sage.convRelu (f := 256) rfl (V c main_arg1) (V c main_arg0) (V c main_arg2) (fun j => V c main_v0 (ix2 (0 : Fin 1) (j 0))))
  (final1 : ∀ (V : (c : Dev nD) → (b : Ref sig .tc) → Buf (Elt Ideal) ((c : Thread nD τ).loc b)) (c : Dev nD), (dat1 (F := Ideal) V c).arrAt 5 cfg1.N
    = Cert.Sage.convRelu (f := 128) rfl (V c main_arg1) (V c main_v1) (V c main_arg4) (fun j => V c main_v2 (ix2 (0 : Fin 1) (j 0))))
  (final2 : ∀ (V : (c : Dev nD) → (b : Ref sig .tc) → Buf (Elt Ideal) ((c : Thread nD τ).loc b)) (c : Dev nD), (dat2 (F := Ideal) V c).arrAt 5 cfg2.N
    = Cert.Sage.convRelu (f := 128) rfl (V c main_arg1) (V c main_v3) (V c main_arg6) (fun j => V c main_v4 (ix2 (0 : Fin 1) (j 0))))
  (final3 : ∀ (V : (c : Dev nD) → (b : Ref sig .tc) → Buf (Elt Ideal) ((c : Thread nD τ).loc b)) (c : Dev nD), (dat3 (F := Ideal) V c).arrAt 5 cfg3.N
    = Cert.Sage.conv (f := 128) rfl (V c main_arg1) (V c main_v5) (V c main_arg8) (fun j => V c main_v6 (ix2 (0 : Fin 1) (j 0))))

include final0 in
/-- The first call's output array is the first layer of the arguments. -/
theorem W2_layer (c : Dev nD) :
    W2 m ρ c main_v1 = Cert.Sage.convRelu (f := 256) rfl (m ((c : Thread nD τ).loc main_arg1)) (m ((c : Thread nD τ).loc main_arg0)) (m ((c : Thread nD τ).loc main_arg2)) (m ((c : Thread nD τ).loc main_arg3)) := by
  refine (exitW0_out (W1 m ρ) c).trans ((final0 (VW (W1 m ρ)) c).trans ?_)
  dsimp only [VW]
  rw [W1_keep m ρ c main_arg1 (by decide), W1_keep m ρ c main_arg0 (by decide), W1_keep m ρ c main_arg2 (by decide),
    W1_row, row_of_cast]

include final0 final1 in
/-- The second call's output array is the second layer of the first. -/
theorem W4_layer (c : Dev nD) :
    W4 m ρ c main_v3 = Cert.Sage.convRelu (f := 128) rfl (m ((c : Thread nD τ).loc main_arg1))
      (Cert.Sage.convRelu (f := 256) rfl (m ((c : Thread nD τ).loc main_arg1)) (m ((c : Thread nD τ).loc main_arg0)) (m ((c : Thread nD τ).loc main_arg2)) (m ((c : Thread nD τ).loc main_arg3)))
      (m ((c : Thread nD τ).loc main_arg4)) (m ((c : Thread nD τ).loc main_arg5)) := by
  refine (exitW1_out (W3 m ρ) c).trans ((final1 (VW (W3 m ρ)) c).trans ?_)
  dsimp only [VW]
  rw [W3_launch m ρ c main_arg1 (by decide) (by decide) (by decide), W3_launch m ρ c main_arg4 (by decide) (by decide) (by decide),
    W3_keep m ρ c main_v1 (by decide), W2_layer m ρ final0 c, W3_row, row_of_cast, W2_launch m ρ c main_arg5 (by decide) (by decide)]

include final0 final1 final2 in
/-- The third call's output array is the third layer of the second. -/
theorem W6_layer (c : Dev nD) :
    W6 m ρ c main_v5 = Cert.Sage.convRelu (f := 128) rfl (m ((c : Thread nD τ).loc main_arg1))
      (Cert.Sage.convRelu (f := 128) rfl (m ((c : Thread nD τ).loc main_arg1)) (Cert.Sage.convRelu (f := 256) rfl (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5)))
      (m ((c : Thread nD τ).loc main_arg6)) (m ((c : Thread nD τ).loc main_arg7)) := by
  refine (exitW2_out (W5 m ρ) c).trans ((final2 (VW (W5 m ρ)) c).trans ?_)
  dsimp only [VW]
  rw [W5_launch m ρ c main_arg1 (by decide) (by decide) (by decide) (by decide) (by decide), W5_launch m ρ c main_arg6 (by decide) (by decide) (by decide) (by decide) (by decide),
    W5_keep m ρ c main_v3 (by decide), W4_layer m ρ final0 final1 c, W5_row, row_of_cast, W4_launch m ρ c main_arg7 (by decide) (by decide) (by decide) (by decide)]

include final0 final1 final2 final3 in
/-- The last call's output array is the specification's network of the launch memory. -/
theorem W8_net (c : Dev nD) :
    W8 m ρ c main_v7 = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (exitW3_out (W7 m ρ) c).trans ((final3 (VW (W7 m ρ)) c).trans ?_)
  dsimp only [VW]
  rw [W7_launch m ρ c main_arg1 (by decide) (by decide) (by decide) (by decide) (by decide) (by decide) (by decide), W7_launch m ρ c main_arg8 (by decide) (by decide) (by decide) (by decide) (by decide) (by decide) (by decide),
    W7_keep m ρ c main_v5 (by decide), W6_layer m ρ final0 final1 final2 c, W7_row, row_of_cast, W6_launch m ρ c main_arg9 (by decide) (by decide) (by decide) (by decide) (by decide) (by decide)]
  rfl

end Net

end Cert.KernelIdeal.Hand

end
-- ==== Proof.KI.Pay.lean ====
/-
  The kernel's stored values read at an index, on the extended reals.

  Each of the kernel's four calls stores three values: a block of zeros; an accumulator plus the product
  of a block of `adj` with a block of features; and the layer's output block — the features times the
  weight's first rows, plus the accumulated product times its last rows, plus the bias along rows, and
  in the first three calls the maximum of that with zero. On the extended reals a change of format is the
  identity, a matrix product into the zero block is the sum over the contracted axis, and a slice of rows
  reads the rows it names; so each stored value, at an index, is the sum the specification writes.
-/
import proofs.«100139_j56126632624275_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## Matrix products, slices of rows and a row broadcast, at an index -/

/-- Dimension numbers that contract the left operand's columns with the right operand's rows, with no batch
    axis, are those of the plain product. -/
theorem eq_plain {M K N : Nat} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = []) :
    D = DotDims.plain M K N := by
  obtain ⟨lc, rc, ln, rn, lb, rb, wf⟩ := D
  dsimp only at hlc hrc hln hrn hlb hrb
  subst hlc hrc hln hrn hlb hrb
  rfl

/-- The plain product `[M, K] × [K, N]` into the zero block, at an index: the sum over the contracted axis. -/
theorem plain_matmul_zero_apply {M K N : Nat} {φ₁ φ₂ : FTy}
    (A : FVec Ideal ⟨2, ![M, K]⟩ φ₁) (B : FVec Ideal ⟨2, ![K, N]⟩ φ₂) (p : Fin M) (q : Fin N) :
    matmul (DotDims.plain M K N) none A B (constant ⟨2, ![M, N]⟩ .f32 0x00000000#32) (ix2 p q)
      = ∑ k : Fin K, A (ix2 p k) * B (ix2 k q) := by
  show FloatOps.matmul (DotDims.plain M K N) none A B (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A slice of `r` rows starting at row `o`, at an index: the matrix at row `o + k`. -/
theorem slice_rows_apply {R r C : Nat} {α : Type} (o : Nat) (x : (⟨2, ![R, C]⟩ : Shape).Idx → α)
    (h : (⟨2, ![R, C]⟩ : Shape).Slices ![o, 0] ⟨2, ![r, C]⟩) (k : Fin r) (j : Fin C) (hk : o + k.val < R) :
    extractStridedSlice (⟨2, ![r, C]⟩ : Shape) ![o, 0] x h (ix2 k j) = x (ix2 ⟨o + k.val, hk⟩ j) :=
  extractStridedSlice_apply _ x h _ _ (fun a => by
    match a with
    | ⟨0, _⟩ => rfl
    | ⟨1, _⟩ => exact (Nat.zero_add _).symm)

/-- A slice of the first `r` rows, at an index: the matrix at row `k`. -/
theorem slice_rows_zero_apply {R r C : Nat} {α : Type} (x : (⟨2, ![R, C]⟩ : Shape).Idx → α)
    (h : (⟨2, ![R, C]⟩ : Shape).Slices ![0, 0] ⟨2, ![r, C]⟩) (k : Fin r) (j : Fin C) (hk : k.val < R) :
    extractStridedSlice (⟨2, ![r, C]⟩ : Shape) ![0, 0] x h (ix2 k j) = x (ix2 ⟨k.val, hk⟩ j) :=
  extractStridedSlice_apply _ x h _ _ (fun a => by
    match a with
    | ⟨0, _⟩ => exact (Nat.zero_add _).symm
    | ⟨1, _⟩ => exact (Nat.zero_add _).symm)

/-- A one-row matrix broadcast down `M` rows, at an index: the row at that column. -/
theorem bcast_row_apply {M C : Nat} {α : Type} (x : (⟨2, ![1, C]⟩ : Shape).Idx → α)
    (h : (⟨2, ![1, C]⟩ : Shape).Broadcasts ⟨2, ![M, C]⟩) (p : Fin M) (j : Fin C) :
    broadcastTo (⟨2, ![M, C]⟩ : Shape) x h (ix2 p j) = x (ix2 (0 : Fin 1) j) :=
  broadcastTo_apply x h _ _ (fun a => by
    match a with
    | ⟨0, _⟩ => exact (if_pos rfl).symm
    | ⟨1, _⟩ =>
      show j.val = if C = 1 then 0 else j.val
      have := j.isLt
      split <;> omega)

/-! ## The first call: 256 features to 128 -/

/-- The block of zeros. -/
theorem pay0_1 (p : Fin 1024) (q : Fin 256) : k0_pay1 (F := Ideal) (ix2 p q) = 0 := by
  unfold k0_pay1
  rw [shapeCast_self]
  exact Ideal.ofBits_zero_f32

/-- The accumulator plus a block of `adj` times a block of features. -/
theorem pay0_2 (a : Vec Ideal S1024x1024 .f32) (xk acc : Vec Ideal S1024x256 .f32) (p : Fin 1024) (q : Fin 256) :
    k0_pay2 (F := Ideal) a xk acc (ix2 p q) = acc (ix2 p q) + ∑ k : Fin 1024, a (ix2 p k) * xk (ix2 k q) := by
  unfold k0_pay2
  rw [shapeCast_self, eq_plain dot_S1024x1024_S1024x256_S1024x256_1_0_0_1_n_n rfl rfl rfl rfl rfl rfl]
  exact congrArg (acc (ix2 p q) + ·) (plain_matmul_zero_apply _ _ p q)

/-- The output block: the features times the weight's first 256 rows, plus the accumulated product times its last
    256 rows, plus the bias along rows, and the maximum of that with zero. -/
theorem pay0_3 (acc xi : Vec Ideal S1024x256 .f32) (w : Vec Ideal S512x128 .f32) (b : Vec Ideal S1x128 .f32)
    (p : Fin 1024) (j : Fin 128) :
    k0_pay3 (F := Ideal) acc xi w b (ix2 p j)
      = max ((∑ c : Fin 256, xi (ix2 p c) * w (ix2 (⟨c.val, by omega⟩ : Fin 512) j)
          + ∑ c : Fin 256, acc (ix2 p c) * w (ix2 (⟨256 + c.val, by omega⟩ : Fin 512) j)) + b (ix2 (0 : Fin 1) j)) 0 := by
  unfold k0_pay3
  rw [shapeCast_self, eq_plain dot_S1024x256_S256x128_S1024x128_1_0_0_1_n_n rfl rfl rfl rfl rfl rfl]
  rw [maximumf_apply, addf_apply, addf_apply, broadcast_apply, plain_matmul_zero_apply, plain_matmul_zero_apply, bcast_row_apply]
  have e0 : ∀ k : Fin 256, truncf (F := Ideal) (φ := .f32) .bf16 (extractStridedSlice S256x128 ![0, 0] w slices_S512x128_o0_0_S256x128) bitsLt_bf16_f32 (ix2 k j)
      = w (ix2 (⟨k.val, by omega⟩ : Fin 512) j) := fun k => slice_rows_zero_apply w slices_S512x128_o0_0_S256x128 k j _
  have e1 : ∀ k : Fin 256, truncf (F := Ideal) (φ := .f32) .bf16 (extractStridedSlice S256x128 ![256, 0] w slices_S512x128_o256_0_S256x128) bitsLt_bf16_f32 (ix2 k j)
      = w (ix2 (⟨256 + k.val, by omega⟩ : Fin 512) j) := fun k => slice_rows_apply 256 w slices_S512x128_o256_0_S256x128 k j _
  simp only [e0, e1, truncf_apply]
  show max _ (Ideal.ofBits .f32 0x00000000#32) = _
  rw [Ideal.ofBits_zero_f32]

/-! ## The second call: 128 features to 128 -/

/-- The block of zeros. -/
theorem pay1_1 (p : Fin 1024) (q : Fin 128) : k1_pay1 (F := Ideal) (ix2 p q) = 0 := by
  unfold k1_pay1
  rw [shapeCast_self]
  exact Ideal.ofBits_zero_f32

/-- The accumulator plus a block of `adj` times a block of features. -/
theorem pay1_2 (a : Vec Ideal S1024x1024 .f32) (xk acc : Vec Ideal S1024x128 .f32) (p : Fin 1024) (q : Fin 128) :
    k1_pay2 (F := Ideal) a xk acc (ix2 p q) = acc (ix2 p q) + ∑ k : Fin 1024, a (ix2 p k) * xk (ix2 k q) := by
  unfold k1_pay2
  rw [shapeCast_self, shapeCast_self, eq_plain dot_S1024x1024_S1024x128_S1024x128_1_0_0_1_n_n rfl rfl rfl rfl rfl rfl]
  exact congrArg (acc (ix2 p q) + ·) (plain_matmul_zero_apply _ _ p q)

/-- The output block: the features times the weight's first 128 rows, plus the accumulated product times its last
    128 rows, plus the bias along rows, and the maximum of that with zero. -/
theorem pay1_3 (acc xi : Vec Ideal S1024x128 .f32) (w : Vec Ideal S256x128 .f32) (b : Vec Ideal S1x128 .f32)
    (p : Fin 1024) (j : Fin 128) :
    k1_pay3 (F := Ideal) acc xi w b (ix2 p j)
      = max ((∑ c : Fin 128, xi (ix2 p c) * w (ix2 (⟨c.val, by omega⟩ : Fin 256) j)
          + ∑ c : Fin 128, acc (ix2 p c) * w (ix2 (⟨128 + c.val, by omega⟩ : Fin 256) j)) + b (ix2 (0 : Fin 1) j)) 0 := by
  unfold k1_pay3
  rw [shapeCast_self, shapeCast_self, eq_plain dot_S1024x128_S128x128_S1024x128_1_0_0_1_n_n rfl rfl rfl rfl rfl rfl]
  rw [maximumf_apply, addf_apply, addf_apply, broadcast_apply, plain_matmul_zero_apply, plain_matmul_zero_apply, bcast_row_apply]
  have e0 : ∀ k : Fin 128, truncf (F := Ideal) (φ := .f32) .bf16 (extractStridedSlice S128x128 ![0, 0] w slices_S256x128_o0_0_S128x128) bitsLt_bf16_f32 (ix2 k j)
      = w (ix2 (⟨k.val, by omega⟩ : Fin 256) j) := fun k => slice_rows_zero_apply w slices_S256x128_o0_0_S128x128 k j _
  have e1 : ∀ k : Fin 128, truncf (F := Ideal) (φ := .f32) .bf16 (extractStridedSlice S128x128 ![128, 0] w slices_S256x128_o128_0_S128x128) bitsLt_bf16_f32 (ix2 k j)
      = w (ix2 (⟨128 + k.val, by omega⟩ : Fin 256) j) := fun k => slice_rows_apply 128 w slices_S256x128_o128_0_S128x128 k j _
  simp only [e0, e1, truncf_apply]
  show max _ (Ideal.ofBits .f32 0x00000000#32) = _
  rw [Ideal.ofBits_zero_f32]

/-! ## The third call: 128 features to 128 -/

/-- The block of zeros. -/
theorem pay2_1 (p : Fin 1024) (q : Fin 128) : k2_pay1 (F := Ideal) (ix2 p q) = 0 := by
  unfold k2_pay1
  rw [shapeCast_self]
  exact Ideal.ofBits_zero_f32

/-- The accumulator plus a block of `adj` times a block of features. -/
theorem pay2_2 (a : Vec Ideal S1024x1024 .f32) (xk acc : Vec Ideal S1024x128 .f32) (p : Fin 1024) (q : Fin 128) :
    k2_pay2 (F := Ideal) a xk acc (ix2 p q) = acc (ix2 p q) + ∑ k : Fin 1024, a (ix2 p k) * xk (ix2 k q) := by
  unfold k2_pay2
  rw [shapeCast_self, shapeCast_self, eq_plain dot_S1024x1024_S1024x128_S1024x128_1_0_0_1_n_n rfl rfl rfl rfl rfl rfl]
  exact congrArg (acc (ix2 p q) + ·) (plain_matmul_zero_apply _ _ p q)

/-- The output block: the features times the weight's first 128 rows, plus the accumulated product times its last
    128 rows, plus the bias along rows, and the maximum of that with zero. -/
theorem pay2_3 (acc xi : Vec Ideal S1024x128 .f32) (w : Vec Ideal S256x128 .f32) (b : Vec Ideal S1x128 .f32)
    (p : Fin 1024) (j : Fin 128) :
    k2_pay3 (F := Ideal) acc xi w b (ix2 p j)
      = max ((∑ c : Fin 128, xi (ix2 p c) * w (ix2 (⟨c.val, by omega⟩ : Fin 256) j)
          + ∑ c : Fin 128, acc (ix2 p c) * w (ix2 (⟨128 + c.val, by omega⟩ : Fin 256) j)) + b (ix2 (0 : Fin 1) j)) 0 := by
  unfold k2_pay3
  rw [shapeCast_self, shapeCast_self, eq_plain dot_S1024x128_S128x128_S1024x128_1_0_0_1_n_n rfl rfl rfl rfl rfl rfl]
  rw [maximumf_apply, addf_apply, addf_apply, broadcast_apply, plain_matmul_zero_apply, plain_matmul_zero_apply, bcast_row_apply]
  have e0 : ∀ k : Fin 128, truncf (F := Ideal) (φ := .f32) .bf16 (extractStridedSlice S128x128 ![0, 0] w slices_S256x128_o0_0_S128x128) bitsLt_bf16_f32 (ix2 k j)
      = w (ix2 (⟨k.val, by omega⟩ : Fin 256) j) := fun k => slice_rows_zero_apply w slices_S256x128_o0_0_S128x128 k j _
  have e1 : ∀ k : Fin 128, truncf (F := Ideal) (φ := .f32) .bf16 (extractStridedSlice S128x128 ![128, 0] w slices_S256x128_o128_0_S128x128) bitsLt_bf16_f32 (ix2 k j)
      = w (ix2 (⟨128 + k.val, by omega⟩ : Fin 256) j) := fun k => slice_rows_apply 128 w slices_S256x128_o128_0_S128x128 k j _
  simp only [e0, e1, truncf_apply]
  show max _ (Ideal.ofBits .f32 0x00000000#32) = _
  rw [Ideal.ofBits_zero_f32]

/-! ## The fourth call: 128 features to 64, with no maximum -/

/-- The block of zeros. -/
theorem pay3_1 (p : Fin 1024) (q : Fin 128) : k3_pay1 (F := Ideal) (ix2 p q) = 0 := by
  unfold k3_pay1
  rw [shapeCast_self]
  exact Ideal.ofBits_zero_f32

/-- The accumulator plus a block of `adj` times a block of features. -/
theorem pay3_2 (a : Vec Ideal S1024x1024 .f32) (xk acc : Vec Ideal S1024x128 .f32) (p : Fin 1024) (q : Fin 128) :
    k3_pay2 (F := Ideal) a xk acc (ix2 p q) = acc (ix2 p q) + ∑ k : Fin 1024, a (ix2 p k) * xk (ix2 k q) := by
  unfold k3_pay2
  rw [shapeCast_self, shapeCast_self, eq_plain dot_S1024x1024_S1024x128_S1024x128_1_0_0_1_n_n rfl rfl rfl rfl rfl rfl]
  exact congrArg (acc (ix2 p q) + ·) (plain_matmul_zero_apply _ _ p q)

/-- The output block: the features times the weight's first 128 rows, plus the accumulated product times its last
    128 rows, plus the bias along rows. -/
theorem pay3_3 (acc xi : Vec Ideal S1024x128 .f32) (w : Vec Ideal S256x64 .f32) (b : Vec Ideal S1x64 .f32)
    (p : Fin 1024) (j : Fin 64) :
    k3_pay3 (F := Ideal) acc xi w b (ix2 p j)
      = (∑ c : Fin 128, xi (ix2 p c) * w (ix2 (⟨c.val, by omega⟩ : Fin 256) j)
          + ∑ c : Fin 128, acc (ix2 p c) * w (ix2 (⟨128 + c.val, by omega⟩ : Fin 256) j)) + b (ix2 (0 : Fin 1) j) := by
  unfold k3_pay3
  rw [shapeCast_self, shapeCast_self, eq_plain dot_S1024x128_S128x64_S1024x64_1_0_0_1_n_n rfl rfl rfl rfl rfl rfl]
  rw [addf_apply, addf_apply, plain_matmul_zero_apply, plain_matmul_zero_apply, bcast_row_apply]
  have e0 : ∀ k : Fin 128, truncf (F := Ideal) (φ := .f32) .bf16 (extractStridedSlice S128x64 ![0, 0] w slices_S256x64_o0_0_S128x64) bitsLt_bf16_f32 (ix2 k j)
      = w (ix2 (⟨k.val, by omega⟩ : Fin 256) j) := fun k => slice_rows_zero_apply w slices_S256x64_o0_0_S128x64 k j _
  have e1 : ∀ k : Fin 128, truncf (F := Ideal) (φ := .f32) .bf16 (extractStridedSlice S128x64 ![128, 0] w slices_S256x64_o128_0_S128x64) bitsLt_bf16_f32 (ix2 k j)
      = w (ix2 (⟨128 + k.val, by omega⟩ : Fin 256) j) := fun k => slice_rows_apply 128 w slices_S256x64_o128_0_S128x64 k j _
  simp only [e0, e1, truncf_apply]

end Cert.KernelIdeal.Hand

end
-- ==== Proof.KI.Val0.lean ====
import proofs.«100139_j56126632624275_1_alg».proof.Proof.KI.Dat0
import proofs.«100139_j56126632624275_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Sage
open scoped BigOperators

/-! # Call 0: the output array in closed form

Over the extended reals. The body's three payloads enter only through what they compute at an index (`Pay0`).
The steps: each window's block is the array at block index × block size + the coordinate inside; the accumulator
after a point of reduction step `k` holds the aggregation sum over the first `1024 (k + 1)` nodes, by induction on
the point; at the last step that is the whole sum, so the output tile is a block of the layer's output; the blocks
written back cover the output array. -/

section Call0

variable (V : (c : Dev nD) → (b : Ref sig .tc) → Buf (Elt Ideal) ((c : Thread nD τ).loc b))

/-- The windows' block indices at point `t = (t / 8, t % 8)`, decided over the 64 points: the adjacency tile is block
    `(t / 8, t % 8)`, the step's feature rows block `(t % 8, 0)`, the output tile's feature rows and the output tile
    block `(t / 8, 0)`, the weights and the bias block `(0, 0)`. -/
theorem idx0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 8 ∧ win0_5.index t (1 : Fin 2) = 0 :=
  (by decide +kernel : ∀ t : Fin grid0.N, _)

/-- The adjacency tile at point `t`, element `x`, is the adjacency matrix at row `1024 (t / 8) + x₀`, column `1024 (t % 8) + x₁`. -/
theorem blk0_0 (c : Dev nD) (t : Fin cfg0.N) (x : S1024x1024.Idx) (k : S8192x8192.Idx)
    (hk0 : (k 0).val = 1024 * (t.val / 8) + (x 0).val) (hk1 : (k 1).val = 1024 * (t.val % 8) + (x 1).val) :
    (iblk0 V c 0 t : Vec Ideal S1024x1024 .f32) x = (V c main_arg1 : S8192x8192.Idx → EReal) k := by
  obtain ⟨e0, e1, -⟩ := idx0 t
  unfold iblk0
  rw [View.read_apply]
  show V c main_arg1 _ = V c main_arg1 _
  congr 1
  funext a
  apply Fin.ext
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-- The step's feature rows at point `t`, element `x`: the feature matrix at row `1024 (t % 8) + x₀`, column `x₁`. -/
theorem blk0_1 (c : Dev nD) (t : Fin cfg0.N) (x : S1024x256.Idx) (k : S8192x256.Idx)
    (hk0 : (k 0).val = 1024 * (t.val % 8) + (x 0).val) (hk1 : (k 1).val = (x 1).val) :
    (iblk0 V c 1 t : Vec Ideal S1024x256 .f32) x = (V c main_arg0 : S8192x256.Idx → EReal) k := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t 0 * 1024 + 1 * (x 0).val = (k 0).val; rw [e0, hk0]; omega
  | ⟨1, _⟩ => show win0_1.index t 1 * 256 + 1 * (x 1).val = (k 1).val; rw [e1, hk1]; omega

/-- The output tile's feature rows at point `t`, element `x`: the feature matrix at row `1024 (t / 8) + x₀`, column `x₁`. -/
theorem blk0_2 (c : Dev nD) (t : Fin cfg0.N) (x : S1024x256.Idx) (k : S8192x256.Idx)
    (hk0 : (k 0).val = 1024 * (t.val / 8) + (x 0).val) (hk1 : (k 1).val = (x 1).val) :
    (iblk0 V c 2 t : Vec Ideal S1024x256 .f32) x = (V c main_arg0 : S8192x256.Idx → EReal) k := by
  obtain ⟨-, -, -, -, e0, e1, -⟩ := idx0 t
  unfold iblk0
  rw [View.read_apply]
  show V c main_arg0 _ = V c main_arg0 _
  congr 1
  funext a
  apply Fin.ext
  match a with
  | ⟨0, _⟩ => show win0_2.index t 0 * 1024 + 1 * (x 0).val = (k 0).val; rw [e0, hk0]; omega
  | ⟨1, _⟩ => show win0_2.index t 1 * 256 + 1 * (x 1).val = (k 1).val; rw [e1, hk1]; omega

/-- The weights' block is the whole weight matrix. -/
theorem blk0_3 (c : Dev nD) (t : Fin cfg0.N) (x : S512x128.Idx) :
    (iblk0 V c 3 t : Vec Ideal S512x128 .f32) x = (V c main_arg2 : S512x128.Idx → EReal) x := by
  obtain ⟨-, -, -, -, -, -, e0, e1, -⟩ := idx0 t
  unfold iblk0
  rw [View.read_apply]
  show V c main_arg2 _ = V c main_arg2 _
  congr 1
  funext a
  apply Fin.ext
  match a with
  | ⟨0, _⟩ => show win0_3.index t 0 * 512 + 1 * (x 0).val = (x 0).val; rw [e0]; omega
  | ⟨1, _⟩ => show win0_3.index t 1 * 128 + 1 * (x 1).val = (x 1).val; rw [e1]; omega

/-- The bias's block is the whole bias row. -/
theorem blk0_4 (c : Dev nD) (t : Fin cfg0.N) (x : S1x128.Idx) :
    (iblk0 V c 4 t : Vec Ideal S1x128 .f32) x = (V c main_v0 : S1x128.Idx → EReal) x := by
  obtain ⟨-, -, -, -, -, -, -, -, e0, e1, -⟩ := idx0 t
  unfold iblk0
  rw [View.read_apply]
  show V c main_v0 _ = V c main_v0 _
  congr 1
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- The arrays as the call finds them, read as matrices of extended reals: the adjacency matrix, the features, the
    weights, and the bias row as a vector. -/
abbrev adj0 (c : Dev nD) : Mat 8192 8192 := V c main_arg1
abbrev feat0 (c : Dev nD) : Mat 8192 256 := V c main_arg0
abbrev wt0 (c : Dev nD) : Mat 512 128 := V c main_arg2
abbrev bias0 (c : Dev nD) : Vc 128 := fun j => V c main_v0 (ix2 (0 : Fin 1) (j 0))

/-- The term of the aggregation sum at row `row`, feature column `q`: adjacency `(row, n)` times feature `(n, q)`
    (zero past the matrix's last column, which no sum below reaches). -/
def term0 (c : Dev nD) (row : Fin 8192) (q : Fin 256) (n : ℕ) : EReal :=
  if h : n < 8192 then adj0 V c (ix2 row ⟨n, h⟩) * feat0 V c (ix2 ⟨n, h⟩ q) else 0

/-- What the three payloads of the body compute at an index, over the extended reals: the zero payload is zero; the
    accumulate payload adds to the accumulator the product of the tile's row with the feature rows' column; the output
    payload is the rectified sum of the row's own features against the upper half of the weights, the accumulated
    features against the lower half, and the bias. -/
structure Pay0 : Prop where
  pay1 : ∀ (p : Fin 1024) (q : Fin 256), (k0_pay1 (F := Ideal)) (ix2 p q) = (0 : EReal)
  pay2 : ∀ (a : Vec Ideal S1024x1024 .f32) (xk acc : Vec Ideal S1024x256 .f32) (p : Fin 1024) (q : Fin 256),
    k0_pay2 a xk acc (ix2 p q) = acc (ix2 p q) + ∑ k : Fin 1024, a (ix2 p k) * xk (ix2 k q)
  pay3 : ∀ (acc xi : Vec Ideal S1024x256 .f32) (w : Vec Ideal S512x128 .f32) (b : Vec Ideal S1x128 .f32) (p : Fin 1024) (j : Fin 128),
    k0_pay3 acc xi w b (ix2 p j) = max ((∑ c : Fin 256, xi (ix2 p c) * w (ix2 (⟨c.val, by omega⟩ : Fin 512) j)
        + ∑ c : Fin 256, acc (ix2 p c) * w (ix2 (⟨256 + c.val, by omega⟩ : Fin 512) j)) + b (ix2 (0 : Fin 1) j)) 0

/-- A tile product at `(p, q)`, the tile being columns `1024 k …` of adjacency row `row` and the rows being feature rows
    `1024 k …`: the 1024 terms of the aggregation sum from node `1024 k` on. -/
theorem tile0_sum (c : Dev nD) (k : ℕ) (hk : k < 8) (p : Fin 1024) (q : Fin 256) (row : Fin 8192)
    (a : Vec Ideal S1024x1024 .f32) (xk : Vec Ideal S1024x256 .f32)
    (ha : ∀ (r : Fin 1024) (h : 1024 * k + r.val < 8192), a (ix2 p r) = adj0 V c (ix2 row ⟨1024 * k + r.val, h⟩))
    (hx : ∀ (r : Fin 1024) (h : 1024 * k + r.val < 8192), xk (ix2 r q) = feat0 V c (ix2 ⟨1024 * k + r.val, h⟩ q)) :
    (∑ r : Fin 1024, a (ix2 p r) * xk (ix2 r q)) = ∑ r ∈ Finset.range 1024, term0 V c row q (1024 * k + r) := by
  rw [← Fin.sum_univ_eq_sum_range (fun r => term0 V c row q (1024 * k + r)) 1024]
  refine Finset.sum_congr rfl fun r _ => ?_
  have hb : 1024 * k + r.val < 8192 := by have := r.isLt; omega
  rw [ha r hb, hx r hb]
  unfold term0
  rw [dif_pos hb]

/-- What the accumulate step at point `t` leaves at `(p, q)`, from what the accumulator held: that plus the 1024 terms of
    the aggregation sum of row `1024 (t / 8) + p` from node `1024 (t % 8)` on. -/
theorem acc0_step (P : Pay0) (c : Dev nD) (t : Fin cfg0.N) (p : Fin 1024) (q : Fin 256) (row : Fin 8192)
    (hrow : row.val = 1024 * (t.val / 8) + p.val) (acc : Vec Ideal S1024x256 .f32) :
    k0_pay2 (iblk0 V c 0 t) (iblk0 V c 1 t) acc (ix2 p q)
      = acc (ix2 p q) + ∑ r ∈ Finset.range 1024, term0 V c row q (1024 * (t.val % 8) + r) :=
  (P.pay2 (iblk0 V c 0 t) (iblk0 V c 1 t) acc p q).trans
    (congrArg (fun s => acc (ix2 p q) + s)
      (tile0_sum V c (t.val % 8) (Nat.mod_lt _ (by decide)) p q row (iblk0 V c 0 t) (iblk0 V c 1 t)
        (fun r h => blk0_0 V c t (ix2 p r) (ix2 row ⟨1024 * (t.val % 8) + r.val, h⟩) hrow rfl)
        (fun r h => blk0_1 V c t (ix2 r q) (ix2 ⟨1024 * (t.val % 8) + r.val, h⟩ q) rfl rfl)))

/-- THE ACCUMULATOR after point `n`, at `(p, q)`: the aggregation sum of row `1024 (n / 8) + p`, column `q`, over the
    first `1024 (n % 8 + 1)` nodes — by induction on the point. -/
theorem acc0_sum (P : Pay0) (c : Dev nD) : ∀ (n : ℕ) (hn : n < cfg0.N) (p : Fin 1024) (q : Fin 256) (row : Fin 8192)
    (hrow : row.val = 1024 * (n / 8) + p.val),
    accAt0 V c n hn (ix2 p q) = ∑ m ∈ Finset.range (1024 * (n % 8 + 1)), term0 V c row q m := by
  intro n
  induction n with
  | zero =>
    intro hn p q row hrow
    refine (congrFun (accAt0_first V c ⟨0, hn⟩ rfl) (ix2 p q)).trans ?_
    refine (acc0_step V P c ⟨0, hn⟩ p q row hrow _).trans ?_
    rw [P.pay1, zero_add]
    show ∑ r ∈ Finset.range 1024, term0 V c row q (1024 * (0 % 8) + r) = ∑ m ∈ Finset.range (1024 * (0 % 8 + 1)), term0 V c row q m
    refine Finset.sum_congr rfl fun r _ => ?_
    rw [Nat.zero_mod, Nat.mul_zero, Nat.zero_add]
  | succ n ih =>
    intro hn p q row hrow
    by_cases h0 : (n + 1) % 8 = 0
    · refine (congrFun (accAt0_first V c ⟨n + 1, hn⟩ h0) (ix2 p q)).trans ?_
      refine (acc0_step V P c ⟨n + 1, hn⟩ p q row hrow _).trans ?_
      rw [P.pay1, zero_add]
      show ∑ r ∈ Finset.range 1024, term0 V c row q (1024 * ((n + 1) % 8) + r) = ∑ m ∈ Finset.range (1024 * ((n + 1) % 8 + 1)), term0 V c row q m
      rw [h0]
      refine Finset.sum_congr rfl fun r _ => ?_
      rw [Nat.mul_zero, Nat.zero_add]
    · refine (congrFun (accAt0_next V c ⟨n + 1, hn⟩ h0) (ix2 p q)).trans ?_
      refine (acc0_step V P c ⟨n + 1, hn⟩ p q row hrow _).trans ?_
      have hrow' : row.val = 1024 * (n / 8) + p.val := by
        have e8 : (n + 1) / 8 = n / 8 := by omega
        rw [hrow]; show 1024 * ((n + 1) / 8) + p.val = _; rw [e8]
      have e : (n + 1) % 8 = n % 8 + 1 := by omega
      show accAt0 V c n _ (ix2 p q) + ∑ r ∈ Finset.range 1024, term0 V c row q (1024 * ((n + 1) % 8) + r)
        = ∑ m ∈ Finset.range (1024 * ((n + 1) % 8 + 1)), term0 V c row q m
      rw [ih (Nat.lt_of_succ_lt hn) p q row hrow', e,
        show 1024 * (n % 8 + 1 + 1) = 1024 * (n % 8 + 1) + 1024 from by omega, Finset.sum_range_add]

/-- THE FINISHED ACCUMULATOR: after a point at the last reduction step it holds, at `(p, q)`, the whole aggregation sum
    of row `1024 (t / 8) + p`: the adjacency row against the feature column. -/
theorem acc0_full (P : Pay0) (c : Dev nD) (t : Fin cfg0.N) (h7 : t.val % 8 = 7) (p : Fin 1024) (q : Fin 256) (row : Fin 8192)
    (hrow : row.val = 1024 * (t.val / 8) + p.val) :
    accAt0 V c t.val t.isLt (ix2 p q) = support (adj0 V c) (feat0 V c) (ix2 row q) := by
  rw [acc0_sum V P c t.val t.isLt p q row hrow, h7]
  show ∑ m ∈ Finset.range 8192, term0 V c row q m = _
  rw [Finset.sum_range]
  unfold support
  refine Finset.sum_congr rfl fun k _ => ?_
  unfold term0
  rw [dif_pos k.isLt]

/-- THE OUTPUT TILE computed at a point of the last reduction step is, at `(p, j)`, the layer at row `1024 (t / 8) + p`,
    column `j`. -/
theorem out0_eq (P : Pay0) (c : Dev nD) (t : Fin cfg0.N) (h7 : t.val % 8 = 7) (p : Fin 1024) (j : Fin 128) (row : Fin 8192)
    (hrow : row.val = 1024 * (t.val / 8) + p.val) :
    outAt0 V c t (ix2 p j) = convRelu (f := 256) rfl (adj0 V c) (feat0 V c) (wt0 V c) (bias0 V c) (ix2 row j) := by
  unfold outAt0
  refine (P.pay3 _ _ _ _ p j).trans ?_
  have e1 : ∀ cc : Fin 256, (iblk0 V c 2 t : Vec Ideal S1024x256 .f32) (ix2 p cc) = feat0 V c (ix2 row cc) :=
    fun cc => blk0_2 V c t (ix2 p cc) (ix2 row cc) hrow rfl
  have e2 : ∀ x : S512x128.Idx, (iblk0 V c 3 t : Vec Ideal S512x128 .f32) x = wt0 V c x := blk0_3 V c t
  have e3 : (iblk0 V c 4 t : Vec Ideal S1x128 .f32) (ix2 (0 : Fin 1) j) = bias0 V c (ix1 j) := blk0_4 V c t (ix2 0 j)
  have e4 : ∀ cc : Fin 256, accAt0 V c t.val t.isLt (ix2 p cc) = support (adj0 V c) (feat0 V c) (ix2 row cc) :=
    fun cc => acc0_full V P c t h7 p cc row hrow
  rw [e3]
  simp only [e1, e2, e4]
  rfl

/-- The layer's output, as the output array's contents. -/
abbrev G0 (c : Dev nD) : Mat 8192 128 := convRelu (f := 256) rfl (adj0 V c) (feat0 V c) (wt0 V c) (bias0 V c)

/-- The output tile of a point of the last reduction step, at a tile index `y`, is the layer at the array index `k` the
    tile index sits at: row `1024 (t / 8) + y₀`, column `y₁`. -/
theorem out0_blk (P : Pay0) (c : Dev nD) (t : Fin cfg0.N) (h7 : t.val % 8 = 7) (y : S1024x128.Idx) (k : S8192x128.Idx)
    (hk0 : (k 0).val = 1024 * (t.val / 8) + (y 0).val) (hk1 : (k 1).val = (y 1).val) :
    outAt0 V c t y = G0 V c k := by
  have hk : k = ix2 (k 0) (y 1) := by
    funext a
    match a with
    | ⟨0, _⟩ => rfl
    | ⟨1, _⟩ => exact Fin.ext hk1
  calc outAt0 V c t y = outAt0 V c t (ix2 (y 0) (y 1)) := congrArg _ (eq_ix2 y)
    _ = G0 V c (ix2 (k 0) (y 1)) := out0_eq V P c t h7 (y 0) (y 1) (k 0) hk0
    _ = G0 V c k := congrArg _ hk.symm

/-- WHAT A POINT WRITES BACK to the output array is its block of the layer's output. -/
theorem flushed0_eq (P : Pay0) (c : Dev nD) (t : Fin cfg0.N) (hf : (cfg0.win 5).flush t = true) :
    (dat0 V c).flushed 5 t = ((cfg0.win 5).blk t).view.read (Elt Ideal) (G0 V c) := by
  have h7 : t.val % 8 = 7 := (flush0_5 t).mp hf
  obtain ⟨-, -, -, -, -, -, -, -, -, -, e0, e1⟩ := idx0 t
  show (cfg0.win 5).cut (grid0.coords t) ((dat0 V c).after 5 t) = _
  rw [after0_5]
  funext y
  rw [View.read_apply]
  show outAt0 V c t y = G0 V c (((cfg0.win 5).blk t).view.emb y)
  refine out0_blk V P c t h7 y _ ?_ ?_
  · show win0_5.index t 0 * 1024 + 1 * (y 0).val = 1024 * (t.val / 8) + (y 0).val
    rw [e0]; omega
  · show win0_5.index t 1 * 128 + 1 * (y 1).val = (y 1).val
    rw [e1]; omega

/-- Every index of the output array is in the block some point writes back: row `r` in that of the last reduction step
    of row tile `r / 1024`. -/
theorem cover0 (i : S8192x128.Idx) :
    ∃ t : Fin cfg0.N, (cfg0.win 5).flush t = true ∧ i ∈ ((cfg0.win 5).blk t).view.set := by
  have hi0 : (i 0).val < 8192 := idx2_lt0 i
  have hi1 : (i 1).val < 128 := idx2_lt1 i
  have hN : cfg0.N = 64 := N_0
  have ht : 8 * ((i 0).val / 1024) + 7 < cfg0.N := by rw [hN]; omega
  refine ⟨⟨8 * ((i 0).val / 1024) + 7, ht⟩, (flush0_5 _).mpr (by show (8 * ((i 0).val / 1024) + 7) % 8 = 7; omega), ?_⟩
  obtain ⟨-, -, -, -, -, -, -, -, -, -, e0, e1⟩ := idx0 ⟨8 * ((i 0).val / 1024) + 7, ht⟩
  have e0' : win0_5.index ⟨8 * ((i 0).val / 1024) + 7, ht⟩ 0 = (i 0).val / 1024 := by
    rw [e0]; show (8 * ((i 0).val / 1024) + 7) / 8 = _; omega
  show i ∈ ((View.whole main_v1).slice (win0_5.rect ⟨8 * ((i 0).val / 1024) + 7, ht⟩)).set
  rw [View.set_slice_whole, Rect.mem_set_unit]
  intro a
  match a with
  | ⟨0, _⟩ =>
    show win0_5.index ⟨8 * ((i 0).val / 1024) + 7, ht⟩ 0 * 1024 ≤ (i 0).val
      ∧ (i 0).val < win0_5.index ⟨8 * ((i 0).val / 1024) + 7, ht⟩ 0 * 1024 + 1024
    rw [e0']; omega
  | ⟨1, _⟩ =>
    show win0_5.index ⟨8 * ((i 0).val / 1024) + 7, ht⟩ 1 * 128 ≤ (i 1).val
      ∧ (i 1).val < win0_5.index ⟨8 * ((i 0).val / 1024) + 7, ht⟩ 1 * 128 + 128
    rw [e1]; omega

/-- THE OUTPUT ARRAY after the call is the layer of the arrays the call found: the adjacency matrix, the features,
    the weights and the bias row. -/
theorem final0 (P : Pay0) (c : Dev nD) :
    (dat0 V c).arrAt 5 cfg0.N
      = convRelu (f := 256) rfl (V c main_arg1) (V c main_arg0) (V c main_arg2) (fun j => V c main_v0 (ix2 (0 : Fin 1) (j 0))) :=
  (dat0 V c).arrAt_eq_of_cover 5 (G0 V c) (fun t hf => flushed0_eq V P c t hf) (fun i => cover0 i)

end Call0

end Cert.KernelIdeal.Hand

end
-- ==== Proof.KI.Val1.lean ====
import proofs.«100139_j56126632624275_1_alg».proof.Proof.KI.Dat1
import proofs.«100139_j56126632624275_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Sage
open scoped BigOperators

/-! # Call 1: the output array in closed form

Over the extended reals. The body's three payloads enter only through what they compute at an index (`Pay1`).
The steps: each window's block is the array at block index × block size + the coordinate inside; the accumulator
after a point of reduction step `k` holds the aggregation sum over the first `1024 (k + 1)` nodes, by induction on
the point; at the last step that is the whole sum, so the output tile is a block of the layer's output; the blocks
written back cover the output array. -/

section Call1

variable (V : (c : Dev nD) → (b : Ref sig .tc) → Buf (Elt Ideal) ((c : Thread nD τ).loc b))

/-- The windows' block indices at point `t = (t / 8, t % 8)`, decided over the 64 points: the adjacency tile is block
    `(t / 8, t % 8)`, the step's feature rows block `(t % 8, 0)`, the output tile's feature rows and the output tile
    block `(t / 8, 0)`, the weights and the bias block `(0, 0)`. -/
theorem idx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0 :=
  (by decide +kernel : ∀ t : Fin grid1.N, _)

/-- The adjacency tile at point `t`, element `x`, is the adjacency matrix at row `1024 (t / 8) + x₀`, column `1024 (t % 8) + x₁`. -/
theorem blk1_0 (c : Dev nD) (t : Fin cfg1.N) (x : S1024x1024.Idx) (k : S8192x8192.Idx)
    (hk0 : (k 0).val = 1024 * (t.val / 8) + (x 0).val) (hk1 : (k 1).val = 1024 * (t.val % 8) + (x 1).val) :
    (iblk1 V c 0 t : Vec Ideal S1024x1024 .f32) x = (V c main_arg1 : S8192x8192.Idx → EReal) k := by
  obtain ⟨e0, e1, -⟩ := idx1 t
  unfold iblk1
  rw [View.read_apply]
  show V c main_arg1 _ = V c main_arg1 _
  congr 1
  funext a
  apply Fin.ext
  match a with
  | ⟨0, _⟩ => show win1_0.index t 0 * 1024 + 1 * (x 0).val = (k 0).val; rw [e0, hk0]; omega
  | ⟨1, _⟩ => show win1_0.index t 1 * 1024 + 1 * (x 1).val = (k 1).val; rw [e1, hk1]; omega

/-- The step's feature rows at point `t`, element `x`: the feature matrix at row `1024 (t % 8) + x₀`, column `x₁`. -/
theorem blk1_1 (c : Dev nD) (t : Fin cfg1.N) (x : S1024x128.Idx) (k : S8192x128.Idx)
    (hk0 : (k 0).val = 1024 * (t.val % 8) + (x 0).val) (hk1 : (k 1).val = (x 1).val) :
    (iblk1 V c 1 t : Vec Ideal S1024x128 .f32) x = (V c main_v1 : S8192x128.Idx → EReal) k := by
  obtain ⟨-, -, e0, e1, -⟩ := idx1 t
  unfold iblk1
  rw [View.read_apply]
  show V c main_v1 _ = V c main_v1 _
  congr 1
  funext a
  apply Fin.ext
  match a with
  | ⟨0, _⟩ => show win1_1.index t 0 * 1024 + 1 * (x 0).val = (k 0).val; rw [e0, hk0]; omega
  | ⟨1, _⟩ => show win1_1.index t 1 * 128 + 1 * (x 1).val = (k 1).val; rw [e1, hk1]; omega

/-- The output tile's feature rows at point `t`, element `x`: the feature matrix at row `1024 (t / 8) + x₀`, column `x₁`. -/
theorem blk1_2 (c : Dev nD) (t : Fin cfg1.N) (x : S1024x128.Idx) (k : S8192x128.Idx)
    (hk0 : (k 0).val = 1024 * (t.val / 8) + (x 0).val) (hk1 : (k 1).val = (x 1).val) :
    (iblk1 V c 2 t : Vec Ideal S1024x128 .f32) x = (V c main_v1 : S8192x128.Idx → EReal) k := by
  obtain ⟨-, -, -, -, e0, e1, -⟩ := idx1 t
  unfold iblk1
  rw [View.read_apply]
  show V c main_v1 _ = V c main_v1 _
  congr 1
  funext a
  apply Fin.ext
  match a with
  | ⟨0, _⟩ => show win1_2.index t 0 * 1024 + 1 * (x 0).val = (k 0).val; rw [e0, hk0]; omega
  | ⟨1, _⟩ => show win1_2.index t 1 * 128 + 1 * (x 1).val = (k 1).val; rw [e1, hk1]; omega

/-- The weights' block is the whole weight matrix. -/
theorem blk1_3 (c : Dev nD) (t : Fin cfg1.N) (x : S256x128.Idx) :
    (iblk1 V c 3 t : Vec Ideal S256x128 .f32) x = (V c main_arg4 : S256x128.Idx → EReal) x := by
  obtain ⟨-, -, -, -, -, -, e0, e1, -⟩ := idx1 t
  unfold iblk1
  rw [View.read_apply]
  show V c main_arg4 _ = V c main_arg4 _
  congr 1
  funext a
  apply Fin.ext
  match a with
  | ⟨0, _⟩ => show win1_3.index t 0 * 256 + 1 * (x 0).val = (x 0).val; rw [e0]; omega
  | ⟨1, _⟩ => show win1_3.index t 1 * 128 + 1 * (x 1).val = (x 1).val; rw [e1]; omega

/-- The bias's block is the whole bias row. -/
theorem blk1_4 (c : Dev nD) (t : Fin cfg1.N) (x : S1x128.Idx) :
    (iblk1 V c 4 t : Vec Ideal S1x128 .f32) x = (V c main_v2 : S1x128.Idx → EReal) x := by
  obtain ⟨-, -, -, -, -, -, -, -, e0, e1, -⟩ := idx1 t
  unfold iblk1
  rw [View.read_apply]
  show V c main_v2 _ = V c main_v2 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- The arrays as the call finds them, read as matrices of extended reals: the adjacency matrix, the features, the
    weights, and the bias row as a vector. -/
abbrev adj1 (c : Dev nD) : Mat 8192 8192 := V c main_arg1
abbrev feat1 (c : Dev nD) : Mat 8192 128 := V c main_v1
abbrev wt1 (c : Dev nD) : Mat 256 128 := V c main_arg4
abbrev bias1 (c : Dev nD) : Vc 128 := fun j => V c main_v2 (ix2 (0 : Fin 1) (j 0))

/-- The term of the aggregation sum at row `row`, feature column `q`: adjacency `(row, n)` times feature `(n, q)`
    (zero past the matrix's last column, which no sum below reaches). -/
def term1 (c : Dev nD) (row : Fin 8192) (q : Fin 128) (n : ℕ) : EReal :=
  if h : n < 8192 then adj1 V c (ix2 row ⟨n, h⟩) * feat1 V c (ix2 ⟨n, h⟩ q) else 0

/-- What the three payloads of the body compute at an index, over the extended reals: the zero payload is zero; the
    accumulate payload adds to the accumulator the product of the tile's row with the feature rows' column; the output
    payload is the rectified sum of the row's own features against the upper half of the weights, the accumulated
    features against the lower half, and the bias. -/
structure Pay1 : Prop where
  pay1 : ∀ (p : Fin 1024) (q : Fin 128), (k1_pay1 (F := Ideal)) (ix2 p q) = (0 : EReal)
  pay2 : ∀ (a : Vec Ideal S1024x1024 .f32) (xk acc : Vec Ideal S1024x128 .f32) (p : Fin 1024) (q : Fin 128),
    k1_pay2 a xk acc (ix2 p q) = acc (ix2 p q) + ∑ k : Fin 1024, a (ix2 p k) * xk (ix2 k q)
  pay3 : ∀ (acc xi : Vec Ideal S1024x128 .f32) (w : Vec Ideal S256x128 .f32) (b : Vec Ideal S1x128 .f32) (p : Fin 1024) (j : Fin 128),
    k1_pay3 acc xi w b (ix2 p j) = max ((∑ c : Fin 128, xi (ix2 p c) * w (ix2 (⟨c.val, by omega⟩ : Fin 256) j)
        + ∑ c : Fin 128, acc (ix2 p c) * w (ix2 (⟨128 + c.val, by omega⟩ : Fin 256) j)) + b (ix2 (0 : Fin 1) j)) 0

/-- A tile product at `(p, q)`, the tile being columns `1024 k …` of adjacency row `row` and the rows being feature rows
    `1024 k …`: the 1024 terms of the aggregation sum from node `1024 k` on. -/
theorem tile1_sum (c : Dev nD) (k : ℕ) (hk : k < 8) (p : Fin 1024) (q : Fin 128) (row : Fin 8192)
    (a : Vec Ideal S1024x1024 .f32) (xk : Vec Ideal S1024x128 .f32)
    (ha : ∀ (r : Fin 1024) (h : 1024 * k + r.val < 8192), a (ix2 p r) = adj1 V c (ix2 row ⟨1024 * k + r.val, h⟩))
    (hx : ∀ (r : Fin 1024) (h : 1024 * k + r.val < 8192), xk (ix2 r q) = feat1 V c (ix2 ⟨1024 * k + r.val, h⟩ q)) :
    (∑ r : Fin 1024, a (ix2 p r) * xk (ix2 r q)) = ∑ r ∈ Finset.range 1024, term1 V c row q (1024 * k + r) := by
  rw [← Fin.sum_univ_eq_sum_range (fun r => term1 V c row q (1024 * k + r)) 1024]
  refine Finset.sum_congr rfl fun r _ => ?_
  have hb : 1024 * k + r.val < 8192 := by have := r.isLt; omega
  rw [ha r hb, hx r hb]
  unfold term1
  rw [dif_pos hb]

/-- What the accumulate step at point `t` leaves at `(p, q)`, from what the accumulator held: that plus the 1024 terms of
    the aggregation sum of row `1024 (t / 8) + p` from node `1024 (t % 8)` on. -/
theorem acc1_step (P : Pay1) (c : Dev nD) (t : Fin cfg1.N) (p : Fin 1024) (q : Fin 128) (row : Fin 8192)
    (hrow : row.val = 1024 * (t.val / 8) + p.val) (acc : Vec Ideal S1024x128 .f32) :
    k1_pay2 (iblk1 V c 0 t) (iblk1 V c 1 t) acc (ix2 p q)
      = acc (ix2 p q) + ∑ r ∈ Finset.range 1024, term1 V c row q (1024 * (t.val % 8) + r) :=
  (P.pay2 (iblk1 V c 0 t) (iblk1 V c 1 t) acc p q).trans
    (congrArg (fun s => acc (ix2 p q) + s)
      (tile1_sum V c (t.val % 8) (Nat.mod_lt _ (by decide)) p q row (iblk1 V c 0 t) (iblk1 V c 1 t)
        (fun r h => blk1_0 V c t (ix2 p r) (ix2 row ⟨1024 * (t.val % 8) + r.val, h⟩) hrow rfl)
        (fun r h => blk1_1 V c t (ix2 r q) (ix2 ⟨1024 * (t.val % 8) + r.val, h⟩ q) rfl rfl)))

/-- THE ACCUMULATOR after point `n`, at `(p, q)`: the aggregation sum of row `1024 (n / 8) + p`, column `q`, over the
    first `1024 (n % 8 + 1)` nodes — by induction on the point. -/
theorem acc1_sum (P : Pay1) (c : Dev nD) : ∀ (n : ℕ) (hn : n < cfg1.N) (p : Fin 1024) (q : Fin 128) (row : Fin 8192)
    (hrow : row.val = 1024 * (n / 8) + p.val),
    accAt1 V c n hn (ix2 p q) = ∑ m ∈ Finset.range (1024 * (n % 8 + 1)), term1 V c row q m := by
  intro n
  induction n with
  | zero =>
    intro hn p q row hrow
    refine (congrFun (accAt1_first V c ⟨0, hn⟩ rfl) (ix2 p q)).trans ?_
    refine (acc1_step V P c ⟨0, hn⟩ p q row hrow _).trans ?_
    rw [P.pay1, zero_add]
    show ∑ r ∈ Finset.range 1024, term1 V c row q (1024 * (0 % 8) + r) = ∑ m ∈ Finset.range (1024 * (0 % 8 + 1)), term1 V c row q m
    refine Finset.sum_congr rfl fun r _ => ?_
    rw [Nat.zero_mod, Nat.mul_zero, Nat.zero_add]
  | succ n ih =>
    intro hn p q row hrow
    by_cases h0 : (n + 1) % 8 = 0
    · refine (congrFun (accAt1_first V c ⟨n + 1, hn⟩ h0) (ix2 p q)).trans ?_
      refine (acc1_step V P c ⟨n + 1, hn⟩ p q row hrow _).trans ?_
      rw [P.pay1, zero_add]
      show ∑ r ∈ Finset.range 1024, term1 V c row q (1024 * ((n + 1) % 8) + r) = ∑ m ∈ Finset.range (1024 * ((n + 1) % 8 + 1)), term1 V c row q m
      rw [h0]
      refine Finset.sum_congr rfl fun r _ => ?_
      rw [Nat.mul_zero, Nat.zero_add]
    · refine (congrFun (accAt1_next V c ⟨n + 1, hn⟩ h0) (ix2 p q)).trans ?_
      refine (acc1_step V P c ⟨n + 1, hn⟩ p q row hrow _).trans ?_
      have hrow' : row.val = 1024 * (n / 8) + p.val := by
        have e8 : (n + 1) / 8 = n / 8 := by omega
        rw [hrow]; show 1024 * ((n + 1) / 8) + p.val = _; rw [e8]
      have e : (n + 1) % 8 = n % 8 + 1 := by omega
      show accAt1 V c n _ (ix2 p q) + ∑ r ∈ Finset.range 1024, term1 V c row q (1024 * ((n + 1) % 8) + r)
        = ∑ m ∈ Finset.range (1024 * ((n + 1) % 8 + 1)), term1 V c row q m
      rw [ih (Nat.lt_of_succ_lt hn) p q row hrow', e,
        show 1024 * (n % 8 + 1 + 1) = 1024 * (n % 8 + 1) + 1024 from by omega, Finset.sum_range_add]

/-- THE FINISHED ACCUMULATOR: after a point at the last reduction step it holds, at `(p, q)`, the whole aggregation sum
    of row `1024 (t / 8) + p`: the adjacency row against the feature column. -/
theorem acc1_full (P : Pay1) (c : Dev nD) (t : Fin cfg1.N) (h7 : t.val % 8 = 7) (p : Fin 1024) (q : Fin 128) (row : Fin 8192)
    (hrow : row.val = 1024 * (t.val / 8) + p.val) :
    accAt1 V c t.val t.isLt (ix2 p q) = support (adj1 V c) (feat1 V c) (ix2 row q) := by
  rw [acc1_sum V P c t.val t.isLt p q row hrow, h7]
  show ∑ m ∈ Finset.range 8192, term1 V c row q m = _
  rw [Finset.sum_range]
  unfold support
  refine Finset.sum_congr rfl fun k _ => ?_
  unfold term1
  rw [dif_pos k.isLt]

/-- THE OUTPUT TILE computed at a point of the last reduction step is, at `(p, j)`, the layer at row `1024 (t / 8) + p`,
    column `j`. -/
theorem out1_eq (P : Pay1) (c : Dev nD) (t : Fin cfg1.N) (h7 : t.val % 8 = 7) (p : Fin 1024) (j : Fin 128) (row : Fin 8192)
    (hrow : row.val = 1024 * (t.val / 8) + p.val) :
    outAt1 V c t (ix2 p j) = convRelu (f := 128) rfl (adj1 V c) (feat1 V c) (wt1 V c) (bias1 V c) (ix2 row j) := by
  unfold outAt1
  refine (P.pay3 _ _ _ _ p j).trans ?_
  have e1 : ∀ cc : Fin 128, (iblk1 V c 2 t : Vec Ideal S1024x128 .f32) (ix2 p cc) = feat1 V c (ix2 row cc) :=
    fun cc => blk1_2 V c t (ix2 p cc) (ix2 row cc) hrow rfl
  have e2 : ∀ x : S256x128.Idx, (iblk1 V c 3 t : Vec Ideal S256x128 .f32) x = wt1 V c x := blk1_3 V c t
  have e3 : (iblk1 V c 4 t : Vec Ideal S1x128 .f32) (ix2 (0 : Fin 1) j) = bias1 V c (ix1 j) := blk1_4 V c t (ix2 0 j)
  have e4 : ∀ cc : Fin 128, accAt1 V c t.val t.isLt (ix2 p cc) = support (adj1 V c) (feat1 V c) (ix2 row cc) :=
    fun cc => acc1_full V P c t h7 p cc row hrow
  rw [e3]
  simp only [e1, e2, e4]
  rfl

/-- The layer's output, as the output array's contents. -/
abbrev G1 (c : Dev nD) : Mat 8192 128 := convRelu (f := 128) rfl (adj1 V c) (feat1 V c) (wt1 V c) (bias1 V c)

/-- The output tile of a point of the last reduction step, at a tile index `y`, is the layer at the array index `k` the
    tile index sits at: row `1024 (t / 8) + y₀`, column `y₁`. -/
theorem out1_blk (P : Pay1) (c : Dev nD) (t : Fin cfg1.N) (h7 : t.val % 8 = 7) (y : S1024x128.Idx) (k : S8192x128.Idx)
    (hk0 : (k 0).val = 1024 * (t.val / 8) + (y 0).val) (hk1 : (k 1).val = (y 1).val) :
    outAt1 V c t y = G1 V c k := by
  have hk : k = ix2 (k 0) (y 1) := by
    funext a
    match a with
    | ⟨0, _⟩ => rfl
    | ⟨1, _⟩ => exact Fin.ext hk1
  calc outAt1 V c t y = outAt1 V c t (ix2 (y 0) (y 1)) := congrArg _ (eq_ix2 y)
    _ = G1 V c (ix2 (k 0) (y 1)) := out1_eq V P c t h7 (y 0) (y 1) (k 0) hk0
    _ = G1 V c k := congrArg _ hk.symm

/-- WHAT A POINT WRITES BACK to the output array is its block of the layer's output. -/
theorem flushed1_eq (P : Pay1) (c : Dev nD) (t : Fin cfg1.N) (hf : (cfg1.win 5).flush t = true) :
    (dat1 V c).flushed 5 t = ((cfg1.win 5).blk t).view.read (Elt Ideal) (G1 V c) := by
  have h7 : t.val % 8 = 7 := (flush1_5 t).mp hf
  obtain ⟨-, -, -, -, -, -, -, -, -, -, e0, e1⟩ := idx1 t
  show (cfg1.win 5).cut (grid1.coords t) ((dat1 V c).after 5 t) = _
  rw [after1_5]
  funext y
  rw [View.read_apply]
  show outAt1 V c t y = G1 V c (((cfg1.win 5).blk t).view.emb y)
  refine out1_blk V P c t h7 y _ ?_ ?_
  · show win1_5.index t 0 * 1024 + 1 * (y 0).val = 1024 * (t.val / 8) + (y 0).val
    rw [e0]; omega
  · show win1_5.index t 1 * 128 + 1 * (y 1).val = (y 1).val
    rw [e1]; omega

/-- Every index of the output array is in the block some point writes back: row `r` in that of the last reduction step
    of row tile `r / 1024`. -/
theorem cover1 (i : S8192x128.Idx) :
    ∃ t : Fin cfg1.N, (cfg1.win 5).flush t = true ∧ i ∈ ((cfg1.win 5).blk t).view.set := by
  have hi0 : (i 0).val < 8192 := idx2_lt0 i
  have hi1 : (i 1).val < 128 := idx2_lt1 i
  have hN : cfg1.N = 64 := N_1
  have ht : 8 * ((i 0).val / 1024) + 7 < cfg1.N := by rw [hN]; omega
  refine ⟨⟨8 * ((i 0).val / 1024) + 7, ht⟩, (flush1_5 _).mpr (by show (8 * ((i 0).val / 1024) + 7) % 8 = 7; omega), ?_⟩
  obtain ⟨-, -, -, -, -, -, -, -, -, -, e0, e1⟩ := idx1 ⟨8 * ((i 0).val / 1024) + 7, ht⟩
  have e0' : win1_5.index ⟨8 * ((i 0).val / 1024) + 7, ht⟩ 0 = (i 0).val / 1024 := by
    rw [e0]; show (8 * ((i 0).val / 1024) + 7) / 8 = _; omega
  show i ∈ ((View.whole main_v3).slice (win1_5.rect ⟨8 * ((i 0).val / 1024) + 7, ht⟩)).set
  rw [View.set_slice_whole, Rect.mem_set_unit]
  intro a
  match a with
  | ⟨0, _⟩ =>
    show win1_5.index ⟨8 * ((i 0).val / 1024) + 7, ht⟩ 0 * 1024 ≤ (i 0).val
      ∧ (i 0).val < win1_5.index ⟨8 * ((i 0).val / 1024) + 7, ht⟩ 0 * 1024 + 1024
    rw [e0']; omega
  | ⟨1, _⟩ =>
    show win1_5.index ⟨8 * ((i 0).val / 1024) + 7, ht⟩ 1 * 128 ≤ (i 1).val
      ∧ (i 1).val < win1_5.index ⟨8 * ((i 0).val / 1024) + 7, ht⟩ 1 * 128 + 128
    rw [e1]; omega

/-- THE OUTPUT ARRAY after the call is the layer of the arrays the call found: the adjacency matrix, the features,
    the weights and the bias row. -/
theorem final1 (P : Pay1) (c : Dev nD) :
    (dat1 V c).arrAt 5 cfg1.N
      = convRelu (f := 128) rfl (V c main_arg1) (V c main_v1) (V c main_arg4) (fun j => V c main_v2 (ix2 (0 : Fin 1) (j 0))) :=
  (dat1 V c).arrAt_eq_of_cover 5 (G1 V c) (fun t hf => flushed1_eq V P c t hf) (fun i => cover1 i)

end Call1

end Cert.KernelIdeal.Hand

end
-- ==== Proof.KI.Val2.lean ====
import proofs.«100139_j56126632624275_1_alg».proof.Proof.KI.Dat2
import proofs.«100139_j56126632624275_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Sage
open scoped BigOperators

/-! # Call 2: the output array in closed form

Over the extended reals. The body's three payloads enter only through what they compute at an index (`Pay2`).
The steps: each window's block is the array at block index × block size + the coordinate inside; the accumulator
after a point of reduction step `k` holds the aggregation sum over the first `1024 (k + 1)` nodes, by induction on
the point; at the last step that is the whole sum, so the output tile is a block of the layer's output; the blocks
written back cover the output array. -/

section Call2

variable (V : (c : Dev nD) → (b : Ref sig .tc) → Buf (Elt Ideal) ((c : Thread nD τ).loc b))

/-- The windows' block indices at point `t = (t / 8, t % 8)`, decided over the 64 points: the adjacency tile is block
    `(t / 8, t % 8)`, the step's feature rows block `(t % 8, 0)`, the output tile's feature rows and the output tile
    block `(t / 8, 0)`, the weights and the bias block `(0, 0)`. -/
theorem idx2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 8 ∧ win2_5.index t (1 : Fin 2) = 0 :=
  (by decide +kernel : ∀ t : Fin grid2.N, _)

/-- The adjacency tile at point `t`, element `x`, is the adjacency matrix at row `1024 (t / 8) + x₀`, column `1024 (t % 8) + x₁`. -/
theorem blk2_0 (c : Dev nD) (t : Fin cfg2.N) (x : S1024x1024.Idx) (k : S8192x8192.Idx)
    (hk0 : (k 0).val = 1024 * (t.val / 8) + (x 0).val) (hk1 : (k 1).val = 1024 * (t.val % 8) + (x 1).val) :
    (iblk2 V c 0 t : Vec Ideal S1024x1024 .f32) x = (V c main_arg1 : S8192x8192.Idx → EReal) k := by
  obtain ⟨e0, e1, -⟩ := idx2 t
  unfold iblk2
  rw [View.read_apply]
  show V c main_arg1 _ = V c main_arg1 _
  congr 1
  funext a
  apply Fin.ext
  match a with
  | ⟨0, _⟩ => show win2_0.index t 0 * 1024 + 1 * (x 0).val = (k 0).val; rw [e0, hk0]; omega
  | ⟨1, _⟩ => show win2_0.index t 1 * 1024 + 1 * (x 1).val = (k 1).val; rw [e1, hk1]; omega

/-- The step's feature rows at point `t`, element `x`: the feature matrix at row `1024 (t % 8) + x₀`, column `x₁`. -/
theorem blk2_1 (c : Dev nD) (t : Fin cfg2.N) (x : S1024x128.Idx) (k : S8192x128.Idx)
    (hk0 : (k 0).val = 1024 * (t.val % 8) + (x 0).val) (hk1 : (k 1).val = (x 1).val) :
    (iblk2 V c 1 t : Vec Ideal S1024x128 .f32) x = (V c main_v3 : S8192x128.Idx → EReal) k := by
  obtain ⟨-, -, e0, e1, -⟩ := idx2 t
  unfold iblk2
  rw [View.read_apply]
  show V c main_v3 _ = V c main_v3 _
  congr 1
  funext a
  apply Fin.ext
  match a with
  | ⟨0, _⟩ => show win2_1.index t 0 * 1024 + 1 * (x 0).val = (k 0).val; rw [e0, hk0]; omega
  | ⟨1, _⟩ => show win2_1.index t 1 * 128 + 1 * (x 1).val = (k 1).val; rw [e1, hk1]; omega

/-- The output tile's feature rows at point `t`, element `x`: the feature matrix at row `1024 (t / 8) + x₀`, column `x₁`. -/
theorem blk2_2 (c : Dev nD) (t : Fin cfg2.N) (x : S1024x128.Idx) (k : S8192x128.Idx)
    (hk0 : (k 0).val = 1024 * (t.val / 8) + (x 0).val) (hk1 : (k 1).val = (x 1).val) :
    (iblk2 V c 2 t : Vec Ideal S1024x128 .f32) x = (V c main_v3 : S8192x128.Idx → EReal) k := by
  obtain ⟨-, -, -, -, e0, e1, -⟩ := idx2 t
  unfold iblk2
  rw [View.read_apply]
  show V c main_v3 _ = V c main_v3 _
  congr 1
  funext a
  apply Fin.ext
  match a with
  | ⟨0, _⟩ => show win2_2.index t 0 * 1024 + 1 * (x 0).val = (k 0).val; rw [e0, hk0]; omega
  | ⟨1, _⟩ => show win2_2.index t 1 * 128 + 1 * (x 1).val = (k 1).val; rw [e1, hk1]; omega

/-- The weights' block is the whole weight matrix. -/
theorem blk2_3 (c : Dev nD) (t : Fin cfg2.N) (x : S256x128.Idx) :
    (iblk2 V c 3 t : Vec Ideal S256x128 .f32) x = (V c main_arg6 : S256x128.Idx → EReal) x := by
  obtain ⟨-, -, -, -, -, -, e0, e1, -⟩ := idx2 t
  unfold iblk2
  rw [View.read_apply]
  show V c main_arg6 _ = V c main_arg6 _
  congr 1
  funext a
  apply Fin.ext
  match a with
  | ⟨0, _⟩ => show win2_3.index t 0 * 256 + 1 * (x 0).val = (x 0).val; rw [e0]; omega
  | ⟨1, _⟩ => show win2_3.index t 1 * 128 + 1 * (x 1).val = (x 1).val; rw [e1]; omega

/-- The bias's block is the whole bias row. -/
theorem blk2_4 (c : Dev nD) (t : Fin cfg2.N) (x : S1x128.Idx) :
    (iblk2 V c 4 t : Vec Ideal S1x128 .f32) x = (V c main_v4 : S1x128.Idx → EReal) x := by
  obtain ⟨-, -, -, -, -, -, -, -, e0, e1, -⟩ := idx2 t
  unfold iblk2
  rw [View.read_apply]
  show V c main_v4 _ = V c main_v4 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- The arrays as the call finds them, read as matrices of extended reals: the adjacency matrix, the features, the
    weights, and the bias row as a vector. -/
abbrev adj2 (c : Dev nD) : Mat 8192 8192 := V c main_arg1
abbrev feat2 (c : Dev nD) : Mat 8192 128 := V c main_v3
abbrev wt2 (c : Dev nD) : Mat 256 128 := V c main_arg6
abbrev bias2 (c : Dev nD) : Vc 128 := fun j => V c main_v4 (ix2 (0 : Fin 1) (j 0))

/-- The term of the aggregation sum at row `row`, feature column `q`: adjacency `(row, n)` times feature `(n, q)`
    (zero past the matrix's last column, which no sum below reaches). -/
def term2 (c : Dev nD) (row : Fin 8192) (q : Fin 128) (n : ℕ) : EReal :=
  if h : n < 8192 then adj2 V c (ix2 row ⟨n, h⟩) * feat2 V c (ix2 ⟨n, h⟩ q) else 0

/-- What the three payloads of the body compute at an index, over the extended reals: the zero payload is zero; the
    accumulate payload adds to the accumulator the product of the tile's row with the feature rows' column; the output
    payload is the rectified sum of the row's own features against the upper half of the weights, the accumulated
    features against the lower half, and the bias. -/
structure Pay2 : Prop where
  pay1 : ∀ (p : Fin 1024) (q : Fin 128), (k2_pay1 (F := Ideal)) (ix2 p q) = (0 : EReal)
  pay2 : ∀ (a : Vec Ideal S1024x1024 .f32) (xk acc : Vec Ideal S1024x128 .f32) (p : Fin 1024) (q : Fin 128),
    k2_pay2 a xk acc (ix2 p q) = acc (ix2 p q) + ∑ k : Fin 1024, a (ix2 p k) * xk (ix2 k q)
  pay3 : ∀ (acc xi : Vec Ideal S1024x128 .f32) (w : Vec Ideal S256x128 .f32) (b : Vec Ideal S1x128 .f32) (p : Fin 1024) (j : Fin 128),
    k2_pay3 acc xi w b (ix2 p j) = max ((∑ c : Fin 128, xi (ix2 p c) * w (ix2 (⟨c.val, by omega⟩ : Fin 256) j)
        + ∑ c : Fin 128, acc (ix2 p c) * w (ix2 (⟨128 + c.val, by omega⟩ : Fin 256) j)) + b (ix2 (0 : Fin 1) j)) 0

/-- A tile product at `(p, q)`, the tile being columns `1024 k …` of adjacency row `row` and the rows being feature rows
    `1024 k …`: the 1024 terms of the aggregation sum from node `1024 k` on. -/
theorem tile2_sum (c : Dev nD) (k : ℕ) (hk : k < 8) (p : Fin 1024) (q : Fin 128) (row : Fin 8192)
    (a : Vec Ideal S1024x1024 .f32) (xk : Vec Ideal S1024x128 .f32)
    (ha : ∀ (r : Fin 1024) (h : 1024 * k + r.val < 8192), a (ix2 p r) = adj2 V c (ix2 row ⟨1024 * k + r.val, h⟩))
    (hx : ∀ (r : Fin 1024) (h : 1024 * k + r.val < 8192), xk (ix2 r q) = feat2 V c (ix2 ⟨1024 * k + r.val, h⟩ q)) :
    (∑ r : Fin 1024, a (ix2 p r) * xk (ix2 r q)) = ∑ r ∈ Finset.range 1024, term2 V c row q (1024 * k + r) := by
  rw [← Fin.sum_univ_eq_sum_range (fun r => term2 V c row q (1024 * k + r)) 1024]
  refine Finset.sum_congr rfl fun r _ => ?_
  have hb : 1024 * k + r.val < 8192 := by have := r.isLt; omega
  rw [ha r hb, hx r hb]
  unfold term2
  rw [dif_pos hb]

/-- What the accumulate step at point `t` leaves at `(p, q)`, from what the accumulator held: that plus the 1024 terms of
    the aggregation sum of row `1024 (t / 8) + p` from node `1024 (t % 8)` on. -/
theorem acc2_step (P : Pay2) (c : Dev nD) (t : Fin cfg2.N) (p : Fin 1024) (q : Fin 128) (row : Fin 8192)
    (hrow : row.val = 1024 * (t.val / 8) + p.val) (acc : Vec Ideal S1024x128 .f32) :
    k2_pay2 (iblk2 V c 0 t) (iblk2 V c 1 t) acc (ix2 p q)
      = acc (ix2 p q) + ∑ r ∈ Finset.range 1024, term2 V c row q (1024 * (t.val % 8) + r) :=
  (P.pay2 (iblk2 V c 0 t) (iblk2 V c 1 t) acc p q).trans
    (congrArg (fun s => acc (ix2 p q) + s)
      (tile2_sum V c (t.val % 8) (Nat.mod_lt _ (by decide)) p q row (iblk2 V c 0 t) (iblk2 V c 1 t)
        (fun r h => blk2_0 V c t (ix2 p r) (ix2 row ⟨1024 * (t.val % 8) + r.val, h⟩) hrow rfl)
        (fun r h => blk2_1 V c t (ix2 r q) (ix2 ⟨1024 * (t.val % 8) + r.val, h⟩ q) rfl rfl)))

/-- THE ACCUMULATOR after point `n`, at `(p, q)`: the aggregation sum of row `1024 (n / 8) + p`, column `q`, over the
    first `1024 (n % 8 + 1)` nodes — by induction on the point. -/
theorem acc2_sum (P : Pay2) (c : Dev nD) : ∀ (n : ℕ) (hn : n < cfg2.N) (p : Fin 1024) (q : Fin 128) (row : Fin 8192)
    (hrow : row.val = 1024 * (n / 8) + p.val),
    accAt2 V c n hn (ix2 p q) = ∑ m ∈ Finset.range (1024 * (n % 8 + 1)), term2 V c row q m := by
  intro n
  induction n with
  | zero =>
    intro hn p q row hrow
    refine (congrFun (accAt2_first V c ⟨0, hn⟩ rfl) (ix2 p q)).trans ?_
    refine (acc2_step V P c ⟨0, hn⟩ p q row hrow _).trans ?_
    rw [P.pay1, zero_add]
    show ∑ r ∈ Finset.range 1024, term2 V c row q (1024 * (0 % 8) + r) = ∑ m ∈ Finset.range (1024 * (0 % 8 + 1)), term2 V c row q m
    refine Finset.sum_congr rfl fun r _ => ?_
    rw [Nat.zero_mod, Nat.mul_zero, Nat.zero_add]
  | succ n ih =>
    intro hn p q row hrow
    by_cases h0 : (n + 1) % 8 = 0
    · refine (congrFun (accAt2_first V c ⟨n + 1, hn⟩ h0) (ix2 p q)).trans ?_
      refine (acc2_step V P c ⟨n + 1, hn⟩ p q row hrow _).trans ?_
      rw [P.pay1, zero_add]
      show ∑ r ∈ Finset.range 1024, term2 V c row q (1024 * ((n + 1) % 8) + r) = ∑ m ∈ Finset.range (1024 * ((n + 1) % 8 + 1)), term2 V c row q m
      rw [h0]
      refine Finset.sum_congr rfl fun r _ => ?_
      rw [Nat.mul_zero, Nat.zero_add]
    · refine (congrFun (accAt2_next V c ⟨n + 1, hn⟩ h0) (ix2 p q)).trans ?_
      refine (acc2_step V P c ⟨n + 1, hn⟩ p q row hrow _).trans ?_
      have hrow' : row.val = 1024 * (n / 8) + p.val := by
        have e8 : (n + 1) / 8 = n / 8 := by omega
        rw [hrow]; show 1024 * ((n + 1) / 8) + p.val = _; rw [e8]
      have e : (n + 1) % 8 = n % 8 + 1 := by omega
      show accAt2 V c n _ (ix2 p q) + ∑ r ∈ Finset.range 1024, term2 V c row q (1024 * ((n + 1) % 8) + r)
        = ∑ m ∈ Finset.range (1024 * ((n + 1) % 8 + 1)), term2 V c row q m
      rw [ih (Nat.lt_of_succ_lt hn) p q row hrow', e,
        show 1024 * (n % 8 + 1 + 1) = 1024 * (n % 8 + 1) + 1024 from by omega, Finset.sum_range_add]

/-- THE FINISHED ACCUMULATOR: after a point at the last reduction step it holds, at `(p, q)`, the whole aggregation sum
    of row `1024 (t / 8) + p`: the adjacency row against the feature column. -/
theorem acc2_full (P : Pay2) (c : Dev nD) (t : Fin cfg2.N) (h7 : t.val % 8 = 7) (p : Fin 1024) (q : Fin 128) (row : Fin 8192)
    (hrow : row.val = 1024 * (t.val / 8) + p.val) :
    accAt2 V c t.val t.isLt (ix2 p q) = support (adj2 V c) (feat2 V c) (ix2 row q) := by
  rw [acc2_sum V P c t.val t.isLt p q row hrow, h7]
  show ∑ m ∈ Finset.range 8192, term2 V c row q m = _
  rw [Finset.sum_range]
  unfold support
  refine Finset.sum_congr rfl fun k _ => ?_
  unfold term2
  rw [dif_pos k.isLt]

/-- THE OUTPUT TILE computed at a point of the last reduction step is, at `(p, j)`, the layer at row `1024 (t / 8) + p`,
    column `j`. -/
theorem out2_eq (P : Pay2) (c : Dev nD) (t : Fin cfg2.N) (h7 : t.val % 8 = 7) (p : Fin 1024) (j : Fin 128) (row : Fin 8192)
    (hrow : row.val = 1024 * (t.val / 8) + p.val) :
    outAt2 V c t (ix2 p j) = convRelu (f := 128) rfl (adj2 V c) (feat2 V c) (wt2 V c) (bias2 V c) (ix2 row j) := by
  unfold outAt2
  refine (P.pay3 _ _ _ _ p j).trans ?_
  have e1 : ∀ cc : Fin 128, (iblk2 V c 2 t : Vec Ideal S1024x128 .f32) (ix2 p cc) = feat2 V c (ix2 row cc) :=
    fun cc => blk2_2 V c t (ix2 p cc) (ix2 row cc) hrow rfl
  have e2 : ∀ x : S256x128.Idx, (iblk2 V c 3 t : Vec Ideal S256x128 .f32) x = wt2 V c x := blk2_3 V c t
  have e3 : (iblk2 V c 4 t : Vec Ideal S1x128 .f32) (ix2 (0 : Fin 1) j) = bias2 V c (ix1 j) := blk2_4 V c t (ix2 0 j)
  have e4 : ∀ cc : Fin 128, accAt2 V c t.val t.isLt (ix2 p cc) = support (adj2 V c) (feat2 V c) (ix2 row cc) :=
    fun cc => acc2_full V P c t h7 p cc row hrow
  rw [e3]
  simp only [e1, e2, e4]
  rfl

/-- The layer's output, as the output array's contents. -/
abbrev G2 (c : Dev nD) : Mat 8192 128 := convRelu (f := 128) rfl (adj2 V c) (feat2 V c) (wt2 V c) (bias2 V c)

/-- The output tile of a point of the last reduction step, at a tile index `y`, is the layer at the array index `k` the
    tile index sits at: row `1024 (t / 8) + y₀`, column `y₁`. -/
theorem out2_blk (P : Pay2) (c : Dev nD) (t : Fin cfg2.N) (h7 : t.val % 8 = 7) (y : S1024x128.Idx) (k : S8192x128.Idx)
    (hk0 : (k 0).val = 1024 * (t.val / 8) + (y 0).val) (hk1 : (k 1).val = (y 1).val) :
    outAt2 V c t y = G2 V c k := by
  have hk : k = ix2 (k 0) (y 1) := by
    funext a
    match a with
    | ⟨0, _⟩ => rfl
    | ⟨1, _⟩ => exact Fin.ext hk1
  calc outAt2 V c t y = outAt2 V c t (ix2 (y 0) (y 1)) := congrArg _ (eq_ix2 y)
    _ = G2 V c (ix2 (k 0) (y 1)) := out2_eq V P c t h7 (y 0) (y 1) (k 0) hk0
    _ = G2 V c k := congrArg _ hk.symm

/-- WHAT A POINT WRITES BACK to the output array is its block of the layer's output. -/
theorem flushed2_eq (P : Pay2) (c : Dev nD) (t : Fin cfg2.N) (hf : (cfg2.win 5).flush t = true) :
    (dat2 V c).flushed 5 t = ((cfg2.win 5).blk t).view.read (Elt Ideal) (G2 V c) := by
  have h7 : t.val % 8 = 7 := (flush2_5 t).mp hf
  obtain ⟨-, -, -, -, -, -, -, -, -, -, e0, e1⟩ := idx2 t
  show (cfg2.win 5).cut (grid2.coords t) ((dat2 V c).after 5 t) = _
  rw [after2_5]
  funext y
  rw [View.read_apply]
  show outAt2 V c t y = G2 V c (((cfg2.win 5).blk t).view.emb y)
  refine out2_blk V P c t h7 y _ ?_ ?_
  · show win2_5.index t 0 * 1024 + 1 * (y 0).val = 1024 * (t.val / 8) + (y 0).val
    rw [e0]; omega
  · show win2_5.index t 1 * 128 + 1 * (y 1).val = (y 1).val
    rw [e1]; omega

/-- Every index of the output array is in the block some point writes back: row `r` in that of the last reduction step
    of row tile `r / 1024`. -/
theorem cover2 (i : S8192x128.Idx) :
    ∃ t : Fin cfg2.N, (cfg2.win 5).flush t = true ∧ i ∈ ((cfg2.win 5).blk t).view.set := by
  have hi0 : (i 0).val < 8192 := idx2_lt0 i
  have hi1 : (i 1).val < 128 := idx2_lt1 i
  have hN : cfg2.N = 64 := N_2
  have ht : 8 * ((i 0).val / 1024) + 7 < cfg2.N := by rw [hN]; omega
  refine ⟨⟨8 * ((i 0).val / 1024) + 7, ht⟩, (flush2_5 _).mpr (by show (8 * ((i 0).val / 1024) + 7) % 8 = 7; omega), ?_⟩
  obtain ⟨-, -, -, -, -, -, -, -, -, -, e0, e1⟩ := idx2 ⟨8 * ((i 0).val / 1024) + 7, ht⟩
  have e0' : win2_5.index ⟨8 * ((i 0).val / 1024) + 7, ht⟩ 0 = (i 0).val / 1024 := by
    rw [e0]; show (8 * ((i 0).val / 1024) + 7) / 8 = _; omega
  show i ∈ ((View.whole main_v5).slice (win2_5.rect ⟨8 * ((i 0).val / 1024) + 7, ht⟩)).set
  rw [View.set_slice_whole, Rect.mem_set_unit]
  intro a
  match a with
  | ⟨0, _⟩ =>
    show win2_5.index ⟨8 * ((i 0).val / 1024) + 7, ht⟩ 0 * 1024 ≤ (i 0).val
      ∧ (i 0).val < win2_5.index ⟨8 * ((i 0).val / 1024) + 7, ht⟩ 0 * 1024 + 1024
    rw [e0']; omega
  | ⟨1, _⟩ =>
    show win2_5.index ⟨8 * ((i 0).val / 1024) + 7, ht⟩ 1 * 128 ≤ (i 1).val
      ∧ (i 1).val < win2_5.index ⟨8 * ((i 0).val / 1024) + 7, ht⟩ 1 * 128 + 128
    rw [e1]; omega

/-- THE OUTPUT ARRAY after the call is the layer of the arrays the call found: the adjacency matrix, the features,
    the weights and the bias row. -/
theorem final2 (P : Pay2) (c : Dev nD) :
    (dat2 V c).arrAt 5 cfg2.N
      = convRelu (f := 128) rfl (V c main_arg1) (V c main_v3) (V c main_arg6) (fun j => V c main_v4 (ix2 (0 : Fin 1) (j 0))) :=
  (dat2 V c).arrAt_eq_of_cover 5 (G2 V c) (fun t hf => flushed2_eq V P c t hf) (fun i => cover2 i)

end Call2

end Cert.KernelIdeal.Hand

end
-- ==== Proof.KI.Val3.lean ====
import proofs.«100139_j56126632624275_1_alg».proof.Proof.KI.Dat3
import proofs.«100139_j56126632624275_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Sage
open scoped BigOperators

/-! # Call 3: the output array in closed form

Over the extended reals. The body's three payloads enter only through what they compute at an index (`Pay3`).
The steps: each window's block is the array at block index × block size + the coordinate inside; the accumulator
after a point of reduction step `k` holds the aggregation sum over the first `1024 (k + 1)` nodes, by induction on
the point; at the last step that is the whole sum, so the output tile is a block of the layer's output; the blocks
written back cover the output array. -/

section Call3

variable (V : (c : Dev nD) → (b : Ref sig .tc) → Buf (Elt Ideal) ((c : Thread nD τ).loc b))

/-- The windows' block indices at point `t = (t / 8, t % 8)`, decided over the 64 points: the adjacency tile is block
    `(t / 8, t % 8)`, the step's feature rows block `(t % 8, 0)`, the output tile's feature rows and the output tile
    block `(t / 8, 0)`, the weights and the bias block `(0, 0)`. -/
theorem idx3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val / 8 ∧ win3_5.index t (1 : Fin 2) = 0 :=
  (by decide +kernel : ∀ t : Fin grid3.N, _)

/-- The adjacency tile at point `t`, element `x`, is the adjacency matrix at row `1024 (t / 8) + x₀`, column `1024 (t % 8) + x₁`. -/
theorem blk3_0 (c : Dev nD) (t : Fin cfg3.N) (x : S1024x1024.Idx) (k : S8192x8192.Idx)
    (hk0 : (k 0).val = 1024 * (t.val / 8) + (x 0).val) (hk1 : (k 1).val = 1024 * (t.val % 8) + (x 1).val) :
    (iblk3 V c 0 t : Vec Ideal S1024x1024 .f32) x = (V c main_arg1 : S8192x8192.Idx → EReal) k := by
  obtain ⟨e0, e1, -⟩ := idx3 t
  unfold iblk3
  rw [View.read_apply]
  show V c main_arg1 _ = V c main_arg1 _
  congr 1
  funext a
  apply Fin.ext
  match a with
  | ⟨0, _⟩ => show win3_0.index t 0 * 1024 + 1 * (x 0).val = (k 0).val; rw [e0, hk0]; omega
  | ⟨1, _⟩ => show win3_0.index t 1 * 1024 + 1 * (x 1).val = (k 1).val; rw [e1, hk1]; omega

/-- The step's feature rows at point `t`, element `x`: the feature matrix at row `1024 (t % 8) + x₀`, column `x₁`. -/
theorem blk3_1 (c : Dev nD) (t : Fin cfg3.N) (x : S1024x128.Idx) (k : S8192x128.Idx)
    (hk0 : (k 0).val = 1024 * (t.val % 8) + (x 0).val) (hk1 : (k 1).val = (x 1).val) :
    (iblk3 V c 1 t : Vec Ideal S1024x128 .f32) x = (V c main_v5 : S8192x128.Idx → EReal) k := by
  obtain ⟨-, -, e0, e1, -⟩ := idx3 t
  unfold iblk3
  rw [View.read_apply]
  show V c main_v5 _ = V c main_v5 _
  congr 1
  funext a
  apply Fin.ext
  match a with
  | ⟨0, _⟩ => show win3_1.index t 0 * 1024 + 1 * (x 0).val = (k 0).val; rw [e0, hk0]; omega
  | ⟨1, _⟩ => show win3_1.index t 1 * 128 + 1 * (x 1).val = (k 1).val; rw [e1, hk1]; omega

/-- The output tile's feature rows at point `t`, element `x`: the feature matrix at row `1024 (t / 8) + x₀`, column `x₁`. -/
theorem blk3_2 (c : Dev nD) (t : Fin cfg3.N) (x : S1024x128.Idx) (k : S8192x128.Idx)
    (hk0 : (k 0).val = 1024 * (t.val / 8) + (x 0).val) (hk1 : (k 1).val = (x 1).val) :
    (iblk3 V c 2 t : Vec Ideal S1024x128 .f32) x = (V c main_v5 : S8192x128.Idx → EReal) k := by
  obtain ⟨-, -, -, -, e0, e1, -⟩ := idx3 t
  unfold iblk3
  rw [View.read_apply]
  show V c main_v5 _ = V c main_v5 _
  congr 1
  funext a
  apply Fin.ext
  match a with
  | ⟨0, _⟩ => show win3_2.index t 0 * 1024 + 1 * (x 0).val = (k 0).val; rw [e0, hk0]; omega
  | ⟨1, _⟩ => show win3_2.index t 1 * 128 + 1 * (x 1).val = (k 1).val; rw [e1, hk1]; omega

/-- The weights' block is the whole weight matrix. -/
theorem blk3_3 (c : Dev nD) (t : Fin cfg3.N) (x : S256x64.Idx) :
    (iblk3 V c 3 t : Vec Ideal S256x64 .f32) x = (V c main_arg8 : S256x64.Idx → EReal) x := by
  obtain ⟨-, -, -, -, -, -, e0, e1, -⟩ := idx3 t
  unfold iblk3
  rw [View.read_apply]
  show V c main_arg8 _ = V c main_arg8 _
  congr 1
  funext a
  apply Fin.ext
  match a with
  | ⟨0, _⟩ => show win3_3.index t 0 * 256 + 1 * (x 0).val = (x 0).val; rw [e0]; omega
  | ⟨1, _⟩ => show win3_3.index t 1 * 64 + 1 * (x 1).val = (x 1).val; rw [e1]; omega

/-- The bias's block is the whole bias row. -/
theorem blk3_4 (c : Dev nD) (t : Fin cfg3.N) (x : S1x64.Idx) :
    (iblk3 V c 4 t : Vec Ideal S1x64 .f32) x = (V c main_v6 : S1x64.Idx → EReal) x := by
  obtain ⟨-, -, -, -, -, -, -, -, e0, e1, -⟩ := idx3 t
  unfold iblk3
  rw [View.read_apply]
  show V c main_v6 _ = V c main_v6 _
  congr 1
  funext a
  apply Fin.ext
  match a with
  | ⟨0, _⟩ => show win3_4.index t 0 * 1 + 1 * (x 0).val = (x 0).val; rw [e0]; omega
  | ⟨1, _⟩ => show win3_4.index t 1 * 64 + 1 * (x 1).val = (x 1).val; rw [e1]; omega

/-- The arrays as the call finds them, read as matrices of extended reals: the adjacency matrix, the features, the
    weights, and the bias row as a vector. -/
abbrev adj3 (c : Dev nD) : Mat 8192 8192 := V c main_arg1
abbrev feat3 (c : Dev nD) : Mat 8192 128 := V c main_v5
abbrev wt3 (c : Dev nD) : Mat 256 64 := V c main_arg8
abbrev bias3 (c : Dev nD) : Vc 64 := fun j => V c main_v6 (ix2 (0 : Fin 1) (j 0))

/-- The term of the aggregation sum at row `row`, feature column `q`: adjacency `(row, n)` times feature `(n, q)`
    (zero past the matrix's last column, which no sum below reaches). -/
def term3 (c : Dev nD) (row : Fin 8192) (q : Fin 128) (n : ℕ) : EReal :=
  if h : n < 8192 then adj3 V c (ix2 row ⟨n, h⟩) * feat3 V c (ix2 ⟨n, h⟩ q) else 0

/-- What the three payloads of the body compute at an index, over the extended reals: the zero payload is zero; the
    accumulate payload adds to the accumulator the product of the tile's row with the feature rows' column; the output
    payload is the sum of the row's own features against the upper half of the weights, the accumulated
    features against the lower half, and the bias. -/
structure Pay3 : Prop where
  pay1 : ∀ (p : Fin 1024) (q : Fin 128), (k3_pay1 (F := Ideal)) (ix2 p q) = (0 : EReal)
  pay2 : ∀ (a : Vec Ideal S1024x1024 .f32) (xk acc : Vec Ideal S1024x128 .f32) (p : Fin 1024) (q : Fin 128),
    k3_pay2 a xk acc (ix2 p q) = acc (ix2 p q) + ∑ k : Fin 1024, a (ix2 p k) * xk (ix2 k q)
  pay3 : ∀ (acc xi : Vec Ideal S1024x128 .f32) (w : Vec Ideal S256x64 .f32) (b : Vec Ideal S1x64 .f32) (p : Fin 1024) (j : Fin 64),
    k3_pay3 acc xi w b (ix2 p j) = (∑ c : Fin 128, xi (ix2 p c) * w (ix2 (⟨c.val, by omega⟩ : Fin 256) j)
        + ∑ c : Fin 128, acc (ix2 p c) * w (ix2 (⟨128 + c.val, by omega⟩ : Fin 256) j)) + b (ix2 (0 : Fin 1) j)

/-- A tile product at `(p, q)`, the tile being columns `1024 k …` of adjacency row `row` and the rows being feature rows
    `1024 k …`: the 1024 terms of the aggregation sum from node `1024 k` on. -/
theorem tile3_sum (c : Dev nD) (k : ℕ) (hk : k < 8) (p : Fin 1024) (q : Fin 128) (row : Fin 8192)
    (a : Vec Ideal S1024x1024 .f32) (xk : Vec Ideal S1024x128 .f32)
    (ha : ∀ (r : Fin 1024) (h : 1024 * k + r.val < 8192), a (ix2 p r) = adj3 V c (ix2 row ⟨1024 * k + r.val, h⟩))
    (hx : ∀ (r : Fin 1024) (h : 1024 * k + r.val < 8192), xk (ix2 r q) = feat3 V c (ix2 ⟨1024 * k + r.val, h⟩ q)) :
    (∑ r : Fin 1024, a (ix2 p r) * xk (ix2 r q)) = ∑ r ∈ Finset.range 1024, term3 V c row q (1024 * k + r) := by
  rw [← Fin.sum_univ_eq_sum_range (fun r => term3 V c row q (1024 * k + r)) 1024]
  refine Finset.sum_congr rfl fun r _ => ?_
  have hb : 1024 * k + r.val < 8192 := by have := r.isLt; omega
  rw [ha r hb, hx r hb]
  unfold term3
  rw [dif_pos hb]

/-- What the accumulate step at point `t` leaves at `(p, q)`, from what the accumulator held: that plus the 1024 terms of
    the aggregation sum of row `1024 (t / 8) + p` from node `1024 (t % 8)` on. -/
theorem acc3_step (P : Pay3) (c : Dev nD) (t : Fin cfg3.N) (p : Fin 1024) (q : Fin 128) (row : Fin 8192)
    (hrow : row.val = 1024 * (t.val / 8) + p.val) (acc : Vec Ideal S1024x128 .f32) :
    k3_pay2 (iblk3 V c 0 t) (iblk3 V c 1 t) acc (ix2 p q)
      = acc (ix2 p q) + ∑ r ∈ Finset.range 1024, term3 V c row q (1024 * (t.val % 8) + r) :=
  (P.pay2 (iblk3 V c 0 t) (iblk3 V c 1 t) acc p q).trans
    (congrArg (fun s => acc (ix2 p q) + s)
      (tile3_sum V c (t.val % 8) (Nat.mod_lt _ (by decide)) p q row (iblk3 V c 0 t) (iblk3 V c 1 t)
        (fun r h => blk3_0 V c t (ix2 p r) (ix2 row ⟨1024 * (t.val % 8) + r.val, h⟩) hrow rfl)
        (fun r h => blk3_1 V c t (ix2 r q) (ix2 ⟨1024 * (t.val % 8) + r.val, h⟩ q) rfl rfl)))

/-- THE ACCUMULATOR after point `n`, at `(p, q)`: the aggregation sum of row `1024 (n / 8) + p`, column `q`, over the
    first `1024 (n % 8 + 1)` nodes — by induction on the point. -/
theorem acc3_sum (P : Pay3) (c : Dev nD) : ∀ (n : ℕ) (hn : n < cfg3.N) (p : Fin 1024) (q : Fin 128) (row : Fin 8192)
    (hrow : row.val = 1024 * (n / 8) + p.val),
    accAt3 V c n hn (ix2 p q) = ∑ m ∈ Finset.range (1024 * (n % 8 + 1)), term3 V c row q m := by
  intro n
  induction n with
  | zero =>
    intro hn p q row hrow
    refine (congrFun (accAt3_first V c ⟨0, hn⟩ rfl) (ix2 p q)).trans ?_
    refine (acc3_step V P c ⟨0, hn⟩ p q row hrow _).trans ?_
    rw [P.pay1, zero_add]
    show ∑ r ∈ Finset.range 1024, term3 V c row q (1024 * (0 % 8) + r) = ∑ m ∈ Finset.range (1024 * (0 % 8 + 1)), term3 V c row q m
    refine Finset.sum_congr rfl fun r _ => ?_
    rw [Nat.zero_mod, Nat.mul_zero, Nat.zero_add]
  | succ n ih =>
    intro hn p q row hrow
    by_cases h0 : (n + 1) % 8 = 0
    · refine (congrFun (accAt3_first V c ⟨n + 1, hn⟩ h0) (ix2 p q)).trans ?_
      refine (acc3_step V P c ⟨n + 1, hn⟩ p q row hrow _).trans ?_
      rw [P.pay1, zero_add]
      show ∑ r ∈ Finset.range 1024, term3 V c row q (1024 * ((n + 1) % 8) + r) = ∑ m ∈ Finset.range (1024 * ((n + 1) % 8 + 1)), term3 V c row q m
      rw [h0]
      refine Finset.sum_congr rfl fun r _ => ?_
      rw [Nat.mul_zero, Nat.zero_add]
    · refine (congrFun (accAt3_next V c ⟨n + 1, hn⟩ h0) (ix2 p q)).trans ?_
      refine (acc3_step V P c ⟨n + 1, hn⟩ p q row hrow _).trans ?_
      have hrow' : row.val = 1024 * (n / 8) + p.val := by
        have e8 : (n + 1) / 8 = n / 8 := by omega
        rw [hrow]; show 1024 * ((n + 1) / 8) + p.val = _; rw [e8]
      have e : (n + 1) % 8 = n % 8 + 1 := by omega
      show accAt3 V c n _ (ix2 p q) + ∑ r ∈ Finset.range 1024, term3 V c row q (1024 * ((n + 1) % 8) + r)
        = ∑ m ∈ Finset.range (1024 * ((n + 1) % 8 + 1)), term3 V c row q m
      rw [ih (Nat.lt_of_succ_lt hn) p q row hrow', e,
        show 1024 * (n % 8 + 1 + 1) = 1024 * (n % 8 + 1) + 1024 from by omega, Finset.sum_range_add]

/-- THE FINISHED ACCUMULATOR: after a point at the last reduction step it holds, at `(p, q)`, the whole aggregation sum
    of row `1024 (t / 8) + p`: the adjacency row against the feature column. -/
theorem acc3_full (P : Pay3) (c : Dev nD) (t : Fin cfg3.N) (h7 : t.val % 8 = 7) (p : Fin 1024) (q : Fin 128) (row : Fin 8192)
    (hrow : row.val = 1024 * (t.val / 8) + p.val) :
    accAt3 V c t.val t.isLt (ix2 p q) = support (adj3 V c) (feat3 V c) (ix2 row q) := by
  rw [acc3_sum V P c t.val t.isLt p q row hrow, h7]
  show ∑ m ∈ Finset.range 8192, term3 V c row q m = _
  rw [Finset.sum_range]
  unfold support
  refine Finset.sum_congr rfl fun k _ => ?_
  unfold term3
  rw [dif_pos k.isLt]

/-- THE OUTPUT TILE computed at a point of the last reduction step is, at `(p, j)`, the layer at row `1024 (t / 8) + p`,
    column `j`. -/
theorem out3_eq (P : Pay3) (c : Dev nD) (t : Fin cfg3.N) (h7 : t.val % 8 = 7) (p : Fin 1024) (j : Fin 64) (row : Fin 8192)
    (hrow : row.val = 1024 * (t.val / 8) + p.val) :
    outAt3 V c t (ix2 p j) = conv (f := 128) rfl (adj3 V c) (feat3 V c) (wt3 V c) (bias3 V c) (ix2 row j) := by
  unfold outAt3
  refine (P.pay3 _ _ _ _ p j).trans ?_
  have e1 : ∀ cc : Fin 128, (iblk3 V c 2 t : Vec Ideal S1024x128 .f32) (ix2 p cc) = feat3 V c (ix2 row cc) :=
    fun cc => blk3_2 V c t (ix2 p cc) (ix2 row cc) hrow rfl
  have e2 : ∀ x : S256x64.Idx, (iblk3 V c 3 t : Vec Ideal S256x64 .f32) x = wt3 V c x := blk3_3 V c t
  have e3 : (iblk3 V c 4 t : Vec Ideal S1x64 .f32) (ix2 (0 : Fin 1) j) = bias3 V c (ix1 j) := blk3_4 V c t (ix2 0 j)
  have e4 : ∀ cc : Fin 128, accAt3 V c t.val t.isLt (ix2 p cc) = support (adj3 V c) (feat3 V c) (ix2 row cc) :=
    fun cc => acc3_full V P c t h7 p cc row hrow
  rw [e3]
  simp only [e1, e2, e4]
  rfl

/-- The layer's output, as the output array's contents. -/
abbrev G3 (c : Dev nD) : Mat 8192 64 := conv (f := 128) rfl (adj3 V c) (feat3 V c) (wt3 V c) (bias3 V c)

/-- The output tile of a point of the last reduction step, at a tile index `y`, is the layer at the array index `k` the
    tile index sits at: row `1024 (t / 8) + y₀`, column `y₁`. -/
theorem out3_blk (P : Pay3) (c : Dev nD) (t : Fin cfg3.N) (h7 : t.val % 8 = 7) (y : S1024x64.Idx) (k : S8192x64.Idx)
    (hk0 : (k 0).val = 1024 * (t.val / 8) + (y 0).val) (hk1 : (k 1).val = (y 1).val) :
    outAt3 V c t y = G3 V c k := by
  have hk : k = ix2 (k 0) (y 1) := by
    funext a
    match a with
    | ⟨0, _⟩ => rfl
    | ⟨1, _⟩ => exact Fin.ext hk1
  calc outAt3 V c t y = outAt3 V c t (ix2 (y 0) (y 1)) := congrArg _ (eq_ix2 y)
    _ = G3 V c (ix2 (k 0) (y 1)) := out3_eq V P c t h7 (y 0) (y 1) (k 0) hk0
    _ = G3 V c k := congrArg _ hk.symm

/-- WHAT A POINT WRITES BACK to the output array is its block of the layer's output. -/
theorem flushed3_eq (P : Pay3) (c : Dev nD) (t : Fin cfg3.N) (hf : (cfg3.win 5).flush t = true) :
    (dat3 V c).flushed 5 t = ((cfg3.win 5).blk t).view.read (Elt Ideal) (G3 V c) := by
  have h7 : t.val % 8 = 7 := (flush3_5 t).mp hf
  obtain ⟨-, -, -, -, -, -, -, -, -, -, e0, e1⟩ := idx3 t
  show (cfg3.win 5).cut (grid3.coords t) ((dat3 V c).after 5 t) = _
  rw [after3_5]
  funext y
  rw [View.read_apply]
  show outAt3 V c t y = G3 V c (((cfg3.win 5).blk t).view.emb y)
  refine out3_blk V P c t h7 y _ ?_ ?_
  · show win3_5.index t 0 * 1024 + 1 * (y 0).val = 1024 * (t.val / 8) + (y 0).val
    rw [e0]; omega
  · show win3_5.index t 1 * 64 + 1 * (y 1).val = (y 1).val
    rw [e1]; omega

/-- Every index of the output array is in the block some point writes back: row `r` in that of the last reduction step
    of row tile `r / 1024`. -/
theorem cover3 (i : S8192x64.Idx) :
    ∃ t : Fin cfg3.N, (cfg3.win 5).flush t = true ∧ i ∈ ((cfg3.win 5).blk t).view.set := by
  have hi0 : (i 0).val < 8192 := idx2_lt0 i
  have hi1 : (i 1).val < 64 := idx2_lt1 i
  have hN : cfg3.N = 64 := N_3
  have ht : 8 * ((i 0).val / 1024) + 7 < cfg3.N := by rw [hN]; omega
  refine ⟨⟨8 * ((i 0).val / 1024) + 7, ht⟩, (flush3_5 _).mpr (by show (8 * ((i 0).val / 1024) + 7) % 8 = 7; omega), ?_⟩
  obtain ⟨-, -, -, -, -, -, -, -, -, -, e0, e1⟩ := idx3 ⟨8 * ((i 0).val / 1024) + 7, ht⟩
  have e0' : win3_5.index ⟨8 * ((i 0).val / 1024) + 7, ht⟩ 0 = (i 0).val / 1024 := by
    rw [e0]; show (8 * ((i 0).val / 1024) + 7) / 8 = _; omega
  show i ∈ ((View.whole main_v7).slice (win3_5.rect ⟨8 * ((i 0).val / 1024) + 7, ht⟩)).set
  rw [View.set_slice_whole, Rect.mem_set_unit]
  intro a
  match a with
  | ⟨0, _⟩ =>
    show win3_5.index ⟨8 * ((i 0).val / 1024) + 7, ht⟩ 0 * 1024 ≤ (i 0).val
      ∧ (i 0).val < win3_5.index ⟨8 * ((i 0).val / 1024) + 7, ht⟩ 0 * 1024 + 1024
    rw [e0']; omega
  | ⟨1, _⟩ =>
    show win3_5.index ⟨8 * ((i 0).val / 1024) + 7, ht⟩ 1 * 64 ≤ (i 1).val
      ∧ (i 1).val < win3_5.index ⟨8 * ((i 0).val / 1024) + 7, ht⟩ 1 * 64 + 64
    rw [e1]; omega

/-- THE OUTPUT ARRAY after the call is the layer of the arrays the call found: the adjacency matrix, the features,
    the weights and the bias row. -/
theorem final3 (P : Pay3) (c : Dev nD) :
    (dat3 V c).arrAt 5 cfg3.N
      = conv (f := 128) rfl (V c main_arg1) (V c main_v5) (V c main_arg8) (fun j => V c main_v6 (ix2 (0 : Fin 1) (j 0))) :=
  (dat3 V c).arrAt_eq_of_cover 5 (G3 V c) (fun t hf => flushed3_eq V P c t hf) (fun i => cover3 i)

end Call3

end Cert.KernelIdeal.Hand

end
-- ==== Proof.KI.Value.lean ====
import proofs.«100139_j56126632624275_1_alg».proof.Proof.Gen.KernelIdeal.Launch
import proofs.«100139_j56126632624275_1_alg».proof.Proof.Gen.KernelIdeal.Skeleton
import proofs.«100139_j56126632624275_1_alg».proof.Proof.Gen.KernelIdeal.Points
import proofs.«100139_j56126632624275_1_alg».proof.Proof.KI.Frame
import proofs.«100139_j56126632624275_1_alg».proof.Proof.KI.Net
import proofs.«100139_j56126632624275_1_alg».proof.Proof.KI.Pay
import proofs.«100139_j56126632624275_1_alg».proof.Proof.KI.Val0
import proofs.«100139_j56126632624275_1_alg».proof.Proof.KI.Val1
import proofs.«100139_j56126632624275_1_alg».proof.Proof.KI.Val2
import proofs.«100139_j56126632624275_1_alg».proof.Proof.KI.Val3
import proofs.«100139_j56126632624275_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The idealized kernel's run, with its result named

At the ideal instance the last call's output array is the four-layer network of the launch contents; the arguments end
as launched. -/

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v7)
        = Cert.Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v7 (by decide))).trans (W8_net m ρ (fun V c => final0 V ⟨pay0_1, pay0_2, pay0_3⟩ c) (fun V c => final1 V ⟨pay1_1, pay1_2, pay1_3⟩ c)
        (fun V c => final2 V ⟨pay2_1, pay2_2, pay2_3⟩ c) (fun V c => final3 V ⟨pay3_1, pay3_2, pay3_3⟩ c) c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩)
    (run_all m ρ)

end Cert.KernelIdeal.Hand

end
-- ==== Proof.RefLemmas.lean ====
/-
  Three facts about sums and joined matrices, and the layer of the specification read from them.

  A layer of the network multiplies a joined matrix `[h | adj · h]` by a weight with `f + f` rows.
  At an index that product is one sum over `f + f` terms; its first `f` terms read `h`, its last `f`
  terms read `adj · h`, and splitting the sum there gives the two sums of the specification's layer.
  Only the commutative monoid structure of the extended reals is used.
-/
import Idealize.ShloMosaic.Lib.Pipeline.Value
import proofs.«100139_j56126632624275_1_alg».proof.Proof.Spec

noncomputable section

namespace Cert.Sage.Ref

open Idealize.ShloMosaic Idealize.ShloMosaic.ValueIdx
open scoped BigOperators

/-- A sum of `f + f` terms is the sum of its first `f` terms plus the sum of its last `f` terms. -/
theorem sum_split {M : Type} [AddCommMonoid M] {f w : Nat} (hw : f + f = w) (g : Fin w → M) :
    ∑ k : Fin w, g k = ∑ c : Fin f, g ⟨c.val, by omega⟩ + ∑ c : Fin f, g ⟨f + c.val, by omega⟩ := by
  subst hw
  rw [Fin.sum_univ_add]
  rfl

/-- Two matrices joined along the feature axis, read at a column of the first. -/
theorem cat_left {a f w : Nat} (A B : Mat a f)
    (hc : Shape.Concatenates [(⟨2, ![a, f]⟩ : Shape), ⟨2, ![a, f]⟩] ⟨2, ![a, w]⟩ 1)
    (p : Fin a) (c : Fin f) (hcw : c.val < w) :
    concatenate (⟨2, ![a, w]⟩ : Shape) 1 [⟨⟨2, ![a, f]⟩, A⟩, ⟨⟨2, ![a, f]⟩, B⟩] hc (ix2 p ⟨c.val, hcw⟩) = A (ix2 p c) :=
  concatenate_pair_apply_left 1 A B hc _ rfl (ix2 p c) (fun b => by
    match b with
    | ⟨0, _⟩ => rfl
    | ⟨1, _⟩ => rfl)

/-- Two matrices joined along the feature axis, read at a column past the first: the second matrix, at the
    column less the first's width. -/
theorem cat_right {a f w : Nat} (A B : Mat a f)
    (hc : Shape.Concatenates [(⟨2, ![a, f]⟩ : Shape), ⟨2, ![a, f]⟩] ⟨2, ![a, w]⟩ 1)
    (p : Fin a) (c : Fin f) (hcw : f + c.val < w) :
    concatenate (⟨2, ![a, w]⟩ : Shape) 1 [⟨⟨2, ![a, f]⟩, A⟩, ⟨⟨2, ![a, f]⟩, B⟩] hc (ix2 p ⟨f + c.val, hcw⟩) = B (ix2 p c) :=
  concatenate_pair_apply_right 1 A B hc _ rfl rfl (ix2 p c) (fun b hb => by
    match b, hb with
    | ⟨0, _⟩, _ => rfl
    | ⟨1, _⟩, hb => exact absurd rfl hb) (by show c.val + f = f + c.val; omega)

/-- The specification's layer at an index, from a matrix `cat` with `f + f` columns whose first `f` columns are
    those of `h` and whose last `f` are those of `adj · h`: its product with the weight, plus the bias. -/
theorem conv_of_reads {n f w o : Nat} (hw : f + f = w) (adj : Mat n n) (h : Mat n f) (W : Mat w o) (b : Vc o)
    (cat : Mat n w)
    (hl : ∀ (p : Fin n) (c : Fin f) (hc : c.val < w), cat (ix2 p ⟨c.val, hc⟩) = h (ix2 p c))
    (hr : ∀ (p : Fin n) (c : Fin f) (hc : f + c.val < w), cat (ix2 p ⟨f + c.val, hc⟩) = support adj h (ix2 p c))
    (p : Fin n) (q : Fin o) :
    (∑ k : Fin w, cat (ix2 p k) * W (ix2 k q)) + b (ix1 q) = conv hw adj h W b (ix2 p q) := by
  rw [sum_split hw]
  simp only [hl, hr]
  rfl

/-- The joined matrix `[h | adj · h]` has the two reads `conv_of_reads` asks for. -/
theorem conv_of_cat {n f w o : Nat} (hw : f + f = w) (adj : Mat n n) (h : Mat n f) (W : Mat w o) (b : Vc o)
    (hc : Shape.Concatenates [(⟨2, ![n, f]⟩ : Shape), ⟨2, ![n, f]⟩] ⟨2, ![n, w]⟩ 1)
    (p : Fin n) (q : Fin o) :
    (∑ k : Fin w, concatenate (⟨2, ![n, w]⟩ : Shape) 1 [⟨⟨2, ![n, f]⟩, h⟩, ⟨⟨2, ![n, f]⟩, support adj h⟩] hc (ix2 p k) * W (ix2 k q))
      + b (ix1 q) = conv hw adj h W b (ix2 p q) :=
  conv_of_reads hw adj h W b _ (fun p c hcw => cat_left h (support adj h) hc p c hcw)
    (fun p c hcw => cat_right h (support adj h) hc p c hcw) p q

end Cert.Sage.Ref

end
-- ==== Proof.RefNet.lean ====
/-
  The reference program computes the network of the specification.

  Each of its four layers is a matrix product with `adj`, a concatenation along the feature axis, a
  matrix product with the weight, the bias added along rows, and (layers one to three) a maximum
  with zero. Each layer's stages, read at an index, are the specification's layer of the previous
  layer's value; composing the four gives the network.
-/
import proofs.«100139_j56126632624275_1_alg».proof.Proof.ReadP
import proofs.«100139_j56126632624275_1_alg».proof.Proof.RefLemmas

noncomputable section

namespace Cert.Sage.Ref

open Cert.ReferenceIdeal Cert.ReferenceIdeal.Gen Cert.ReferenceIdeal.ReadP
open Idealize.ShloMosaic Idealize.ShloMosaic.ValueIdx Idealize.ShloMosaic.TcCoe Idealize.SL.Sem Idealize.ShloMosaic.StableHlo
open scoped BigOperators

/-! ## The first layer: 256 features to 128 -/

/-- The product with `adj` is the specification's `support`. -/
theorem v0_eq (x : Mat 8192 256) (adj : Mat 8192 8192) :
    val_main_v0 (F := Ideal) x adj = support adj x := by
  funext i
  obtain ⟨p, c, rfl⟩ : ∃ (p : Fin 8192) (c : Fin 256), i = ix2 p c := ⟨i 0, i 1, eq_ix2 i⟩
  rw [val_main_v0_apply]
  have el : ∀ k : Fin 8192, lidx_main_v0 (ix2 p c) k = ix2 p k := fun k => funext fun a => by
    match a with
    | ⟨0, _⟩ => rfl
    | ⟨1, _⟩ => rfl
  have er : ∀ k : Fin 8192, ridx_main_v0 (ix2 p c) k = ix2 k c := fun k => funext fun a => by
    match a with
    | ⟨0, _⟩ => rfl
    | ⟨1, _⟩ => rfl
  simp only [el, er]
  rfl

/-- The first layer's stages are the specification's layer of the input, followed by the maximum with zero. -/
theorem layer1 (x : Mat 8192 256) (adj : Mat 8192 8192) (W : Mat 512 128) (b : Vc 128) :
    val_main_v6 (F := Ideal) x adj W b = convRelu (f := 256) rfl adj x W b := by
  funext i
  obtain ⟨p, q, rfl⟩ : ∃ (p : Fin 8192) (q : Fin 128), i = ix2 p q := ⟨i 0, i 1, eq_ix2 i⟩
  rw [val_main_v6_apply, val_main_v5_apply, val_main_v2_apply, val_main_v4_apply, val_main_v3_apply,
    val_main_call0_v0_apply, val_main_call0_cst_apply]
  unfold val_main_v1
  rw [v0_eq]
  have el : ∀ k : Fin 512, lidx_main_v2 (ix2 p q) k = ix2 p k := fun k => funext fun a => by
    match a with
    | ⟨0, _⟩ => rfl
    | ⟨1, _⟩ => rfl
  have er : ∀ k : Fin 512, ridx_main_v2 (ix2 p q) k = ix2 k q := fun k => funext fun a => by
    match a with
    | ⟨0, _⟩ => rfl
    | ⟨1, _⟩ => rfl
  have eb : idx_main_v3 (idx_main_v4 (ix2 p q)) = ix1 q := funext fun a => by
    match a with
    | ⟨0, _⟩ => rfl
  simp only [el, er, eb]
  rw [Ideal.maximumf_def, Ideal.addf_def, Ideal.ofBits_def, Ideal.ofBits_zero_f32]
  exact congrArg (fun t => max t 0)
    (conv_of_cat (f := 256) (w := 512) rfl adj x W b concatenates_S8192x256_S8192x256_S8192x512_d1 p q)

/-! ## The second layer: 128 features to 128 -/

/-- The product of `adj` with the previous layer's value is the specification's `support` of it. -/
theorem v7_eq (x0 : Mat 8192 256) (x1 : Mat 8192 8192) (x2 : Mat 512 128) (x3 : Vc 128) :
    val_main_v7 (F := Ideal) x0 x1 x2 x3 = support x1 (val_main_v6 (F := Ideal) x0 x1 x2 x3) := by
  funext i
  obtain ⟨p, c, rfl⟩ : ∃ (p : Fin 8192) (c : Fin 128), i = ix2 p c := ⟨i 0, i 1, eq_ix2 i⟩
  rw [val_main_v7_apply]
  generalize val_main_v6 (F := Ideal) x0 x1 x2 x3 = h
  have el : ∀ k : Fin 8192, lidx_main_v7 (ix2 p c) k = ix2 p k := fun k => funext fun a => by
    match a with
    | ⟨0, _⟩ => rfl
    | ⟨1, _⟩ => rfl
  have er : ∀ k : Fin 8192, ridx_main_v7 (ix2 p c) k = ix2 k c := fun k => funext fun a => by
    match a with
    | ⟨0, _⟩ => rfl
    | ⟨1, _⟩ => rfl
  simp only [el, er]
  rfl

/-- The layer's stages are the specification's layer of the previous layer's value, followed by the maximum with zero. -/
theorem layer2 (x0 : Mat 8192 256) (x1 : Mat 8192 8192) (x2 : Mat 512 128) (x3 : Vc 128) (W : Mat 256 128) (b : Vc 128) :
    val_main_v13 (F := Ideal) x0 x1 x2 x3 W b
      = convRelu (f := 128) rfl x1 (val_main_v6 (F := Ideal) x0 x1 x2 x3) W b := by
  funext i
  obtain ⟨p, q, rfl⟩ : ∃ (p : Fin 8192) (q : Fin 128), i = ix2 p q := ⟨i 0, i 1, eq_ix2 i⟩
  rw [val_main_v13_apply, val_main_v12_apply, val_main_v9_apply, val_main_v11_apply, val_main_v10_apply,
    val_main_call1_v0_apply, val_main_call1_cst_apply]
  unfold val_main_v8
  rw [v7_eq]
  generalize val_main_v6 (F := Ideal) x0 x1 x2 x3 = h
  have el : ∀ k : Fin 256, lidx_main_v9 (ix2 p q) k = ix2 p k := fun k => funext fun a => by
    match a with
    | ⟨0, _⟩ => rfl
    | ⟨1, _⟩ => rfl
  have er : ∀ k : Fin 256, ridx_main_v9 (ix2 p q) k = ix2 k q := fun k => funext fun a => by
    match a with
    | ⟨0, _⟩ => rfl
    | ⟨1, _⟩ => rfl
  have eb : idx_main_v10 (idx_main_v11 (ix2 p q)) = ix1 q := funext fun a => by
    match a with
    | ⟨0, _⟩ => rfl
  simp only [el, er, eb]
  rw [Ideal.maximumf_def, Ideal.addf_def, Ideal.ofBits_def, Ideal.ofBits_zero_f32]
  exact congrArg (fun t => max t 0)
    (conv_of_cat (f := 128) (w := 256) rfl x1 h W b concatenates_S8192x128_S8192x128_S8192x256_d1 p q)

/-! ## The third layer: 128 features to 128 -/

/-- The product of `adj` with the previous layer's value is the specification's `support` of it. -/
theorem v14_eq (x0 : Mat 8192 256) (x1 : Mat 8192 8192) (x2 : Mat 512 128) (x3 : Vc 128) (x4 : Mat 256 128) (x5 : Vc 128) :
    val_main_v14 (F := Ideal) x0 x1 x2 x3 x4 x5 = support x1 (val_main_v13 (F := Ideal) x0 x1 x2 x3 x4 x5) := by
  funext i
  obtain ⟨p, c, rfl⟩ : ∃ (p : Fin 8192) (c : Fin 128), i = ix2 p c := ⟨i 0, i 1, eq_ix2 i⟩
  rw [val_main_v14_apply]
  generalize val_main_v13 (F := Ideal) x0 x1 x2 x3 x4 x5 = h
  have el : ∀ k : Fin 8192, lidx_main_v14 (ix2 p c) k = ix2 p k := fun k => funext fun a => by
    match a with
    | ⟨0, _⟩ => rfl
    | ⟨1, _⟩ => rfl
  have er : ∀ k : Fin 8192, ridx_main_v14 (ix2 p c) k = ix2 k c := fun k => funext fun a => by
    match a with
    | ⟨0, _⟩ => rfl
    | ⟨1, _⟩ => rfl
  simp only [el, er]
  rfl

/-- The layer's stages are the specification's layer of the previous layer's value, followed by the maximum with zero. -/
theorem layer3 (x0 : Mat 8192 256) (x1 : Mat 8192 8192) (x2 : Mat 512 128) (x3 : Vc 128) (x4 : Mat 256 128) (x5 : Vc 128) (W : Mat 256 128) (b : Vc 128) :
    val_main_v20 (F := Ideal) x0 x1 x2 x3 x4 x5 W b
      = convRelu (f := 128) rfl x1 (val_main_v13 (F := Ideal) x0 x1 x2 x3 x4 x5) W b := by
  funext i
  obtain ⟨p, q, rfl⟩ : ∃ (p : Fin 8192) (q : Fin 128), i = ix2 p q := ⟨i 0, i 1, eq_ix2 i⟩
  rw [val_main_v20_apply, val_main_v19_apply, val_main_v16_apply, val_main_v18_apply, val_main_v17_apply,
    val_main_call2_v0_apply, val_main_call2_cst_apply]
  unfold val_main_v15
  rw [v14_eq]
  generalize val_main_v13 (F := Ideal) x0 x1 x2 x3 x4 x5 = h
  have el : ∀ k : Fin 256, lidx_main_v16 (ix2 p q) k = ix2 p k := fun k => funext fun a => by
    match a with
    | ⟨0, _⟩ => rfl
    | ⟨1, _⟩ => rfl
  have er : ∀ k : Fin 256, ridx_main_v16 (ix2 p q) k = ix2 k q := fun k => funext fun a => by
    match a with
    | ⟨0, _⟩ => rfl
    | ⟨1, _⟩ => rfl
  have eb : idx_main_v17 (idx_main_v18 (ix2 p q)) = ix1 q := funext fun a => by
    match a with
    | ⟨0, _⟩ => rfl
  simp only [el, er, eb]
  rw [Ideal.maximumf_def, Ideal.addf_def, Ideal.ofBits_def, Ideal.ofBits_zero_f32]
  exact congrArg (fun t => max t 0)
    (conv_of_cat (f := 128) (w := 256) rfl x1 h W b concatenates_S8192x128_S8192x128_S8192x256_d1 p q)

/-! ## The fourth layer: 128 features to 64, with no maximum -/

/-- The product of `adj` with the previous layer's value is the specification's `support` of it. -/
theorem v21_eq (x0 : Mat 8192 256) (x1 : Mat 8192 8192) (x2 : Mat 512 128) (x3 : Vc 128) (x4 : Mat 256 128) (x5 : Vc 128) (x6 : Mat 256 128) (x7 : Vc 128) :
    val_main_v21 (F := Ideal) x0 x1 x2 x3 x4 x5 x6 x7 = support x1 (val_main_v20 (F := Ideal) x0 x1 x2 x3 x4 x5 x6 x7) := by
  funext i
  obtain ⟨p, c, rfl⟩ : ∃ (p : Fin 8192) (c : Fin 128), i = ix2 p c := ⟨i 0, i 1, eq_ix2 i⟩
  rw [val_main_v21_apply]
  generalize val_main_v20 (F := Ideal) x0 x1 x2 x3 x4 x5 x6 x7 = h
  have el : ∀ k : Fin 8192, lidx_main_v21 (ix2 p c) k = ix2 p k := fun k => funext fun a => by
    match a with
    | ⟨0, _⟩ => rfl
    | ⟨1, _⟩ => rfl
  have er : ∀ k : Fin 8192, ridx_main_v21 (ix2 p c) k = ix2 k c := fun k => funext fun a => by
    match a with
    | ⟨0, _⟩ => rfl
    | ⟨1, _⟩ => rfl
  simp only [el, er]
  rfl

/-- The layer's stages are the specification's layer of the previous layer's value. -/
theorem layer4 (x0 : Mat 8192 256) (x1 : Mat 8192 8192) (x2 : Mat 512 128) (x3 : Vc 128) (x4 : Mat 256 128) (x5 : Vc 128) (x6 : Mat 256 128) (x7 : Vc 128) (W : Mat 256 64) (b : Vc 64) :
    val_main_v26 (F := Ideal) x0 x1 x2 x3 x4 x5 x6 x7 W b
      = conv (f := 128) rfl x1 (val_main_v20 (F := Ideal) x0 x1 x2 x3 x4 x5 x6 x7) W b := by
  funext i
  obtain ⟨p, q, rfl⟩ : ∃ (p : Fin 8192) (q : Fin 64), i = ix2 p q := ⟨i 0, i 1, eq_ix2 i⟩
  rw [val_main_v26_apply, val_main_v23_apply, val_main_v25_apply, val_main_v24_apply]
  unfold val_main_v22
  rw [v21_eq]
  generalize val_main_v20 (F := Ideal) x0 x1 x2 x3 x4 x5 x6 x7 = h
  have el : ∀ k : Fin 256, lidx_main_v23 (ix2 p q) k = ix2 p k := fun k => funext fun a => by
    match a with
    | ⟨0, _⟩ => rfl
    | ⟨1, _⟩ => rfl
  have er : ∀ k : Fin 256, ridx_main_v23 (ix2 p q) k = ix2 k q := fun k => funext fun a => by
    match a with
    | ⟨0, _⟩ => rfl
    | ⟨1, _⟩ => rfl
  have eb : idx_main_v24 (idx_main_v25 (ix2 p q)) = ix1 q := funext fun a => by
    match a with
    | ⟨0, _⟩ => rfl
  simp only [el, er, eb]
  rw [Ideal.addf_def]
  exact conv_of_cat (f := 128) (w := 256) rfl x1 h W b concatenates_S8192x128_S8192x128_S8192x256_d1 p q

/-! ## The four layers composed -/

/-- The last stage, as a function of the program's ten arguments, is the specification's network. -/
theorem net_eq (x0 : Mat 8192 256) (x1 : Mat 8192 8192) (x2 : Mat 512 128) (x3 : Vc 128) (x4 : Mat 256 128) (x5 : Vc 128)
    (x6 : Mat 256 128) (x7 : Vc 128) (x8 : Mat 256 64) (x9 : Vc 64) :
    val_main_v26 (F := Ideal) x0 x1 x2 x3 x4 x5 x6 x7 x8 x9 = net x0 x1 x2 x3 x4 x5 x6 x7 x8 x9 := by
  rw [layer4, layer3, layer2, layer1]
  rfl

end Cert.Sage.Ref

end
-- ==== Proof.RefRun.lean ====
/-
  The reference program's run ends with the specification's network of its arguments.

  The program is a line of 33 operations, nine for each of the first three layers and six for the last.
  What a buffer holds after the whole line is read one layer at a time: after a layer's operations its
  result buffer holds the layer's stage of what the layer's input buffers held before them, and every
  buffer the layer does not write holds what it held. A layer's output is read twice by the next layer,
  so the program's result is never written out as one term of the arguments; it is the last stage, and
  the last stage is the network.
-/
import proofs.«100139_j56126632624275_1_alg».proof.Proof.RunP
import proofs.«100139_j56126632624275_1_alg».proof.Proof.RefNet

noncomputable section

namespace Cert.Sage.Ref

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- What the buffers hold after two lines of operations, one run after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The four layers' operations -/

/-- The first layer's operations, in program order. -/
abbrev ops1 : List (HloOp τ sig (Elt F)) :=
  [ binary main_arg1 main_arg0 main_v0 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_arg0 main_v0 main_v1 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)),
    binary main_v1 main_arg2 main_v2 ((fun l r => Host.dotGeneral dot_S8192x512_S512x128_S8192x128_1_0_0_1_n_n none l r) : (⟨S8192x512, .f32⟩ : BufTy).Contents (Elt F) → (⟨S512x128, .f32⟩ : BufTy).Contents (Elt F) → (⟨S8192x128, .f32⟩ : BufTy).Contents (Elt F)),
    unary main_arg3 main_v3 (broadcastInDim S1x128 ![1] bcast_S128_S1x128_1 : (⟨S128, .f32⟩ : BufTy).Contents (Elt F) → (⟨S1x128, .f32⟩ : BufTy).Contents (Elt F)),
    unary main_v3 main_v4 (broadcastInDim S8192x128 ![0, 1] bcast_S1x128_S8192x128_0_1 : (⟨S1x128, .f32⟩ : BufTy).Contents (Elt F) → (⟨S8192x128, .f32⟩ : BufTy).Contents (Elt F)),
    binary main_v2 main_v4 main_v5 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x128, .f32⟩) main_call0_v0) (broadcastInDim S8192x128 ![] bcast_S_S8192x128),
    TRef.binary (TRef.of (T := ⟨S8192x128, .f32⟩) main_v5) (TRef.of (T := ⟨S8192x128, .f32⟩) main_call0_v0) (TRef.of (T := ⟨S8192x128, .f32⟩) main_v6) maximumf ]
/-- The references the first layer's operations write. -/
abbrev ops1_W : List (Ref sig .tc) := [main_v0, main_v1, main_v2, main_v3, main_v4, main_v5, main_call0_cst, main_call0_v0, main_v6]
theorem ops1_writes : (ops1 : List (HloOp τ sig (Elt F))).Forall fun op => op.writes ⊆ (ops1_W.map (Proc.devRef (τ := τ) .tc)).toFinset := by
  simp only [List.Forall, StableHlo.nullary_writes, StableHlo.unary_writes, StableHlo.binary_writes, Finset.singleton_subset_iff, List.mem_toFinset]
  and_intros <;> exact List.mem_map_of_mem (by decide)
/-- A reference the first layer's operations do not write holds after them what it held before. -/
theorem after_ops1_keep {r : Ref sig .tc} (h : r ∉ ops1_W) (V : Valuation τ sig (Elt F)) :
    after (ops1 : List (HloOp τ sig (Elt F))) V (Proc.devRef .tc r) = V (Proc.devRef .tc r) :=
  StableHlo.after_of_writes_sub ops1 _ ops1_writes h

/-- The second layer's operations, in program order. -/
abbrev ops2 : List (HloOp τ sig (Elt F)) :=
  [ binary main_arg1 main_v6 main_v7 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v6 main_v7 main_v8 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    binary main_v8 main_arg4 main_v9 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg5 main_v10 (broadcastInDim S1x128 ![1] bcast_S128_S1x128_1 : (⟨S128, .f32⟩ : BufTy).Contents (Elt F) → (⟨S1x128, .f32⟩ : BufTy).Contents (Elt F)),
    unary main_v10 main_v11 (broadcastInDim S8192x128 ![0, 1] bcast_S1x128_S8192x128_0_1 : (⟨S1x128, .f32⟩ : BufTy).Contents (Elt F) → (⟨S8192x128, .f32⟩ : BufTy).Contents (Elt F)),
    binary main_v9 main_v11 main_v12 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x128, .f32⟩) main_call1_v0) (broadcastInDim S8192x128 ![] bcast_S_S8192x128),
    TRef.binary (TRef.of (T := ⟨S8192x128, .f32⟩) main_v12) (TRef.of (T := ⟨S8192x128, .f32⟩) main_call1_v0) (TRef.of (T := ⟨S8192x128, .f32⟩) main_v13) maximumf ]
/-- The references the second layer's operations write. -/
abbrev ops2_W : List (Ref sig .tc) := [main_v7, main_v8, main_v9, main_v10, main_v11, main_v12, main_call1_cst, main_call1_v0, main_v13]
theorem ops2_writes : (ops2 : List (HloOp τ sig (Elt F))).Forall fun op => op.writes ⊆ (ops2_W.map (Proc.devRef (τ := τ) .tc)).toFinset := by
  simp only [List.Forall, StableHlo.nullary_writes, StableHlo.unary_writes, StableHlo.binary_writes, Finset.singleton_subset_iff, List.mem_toFinset]
  and_intros <;> exact List.mem_map_of_mem (by decide)
/-- A reference the second layer's operations do not write holds after them what it held before. -/
theorem after_ops2_keep {r : Ref sig .tc} (h : r ∉ ops2_W) (V : Valuation τ sig (Elt F)) :
    after (ops2 : List (HloOp τ sig (Elt F))) V (Proc.devRef .tc r) = V (Proc.devRef .tc r) :=
  StableHlo.after_of_writes_sub ops2 _ ops2_writes h

/-- The third layer's operations, in program order. -/
abbrev ops3 : List (HloOp τ sig (Elt F)) :=
  [ binary main_arg1 main_v13 main_v14 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v13 main_v14 main_v15 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    binary main_v15 main_arg6 main_v16 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg7 main_v17 (broadcastInDim S1x128 ![1] bcast_S128_S1x128_1 : (⟨S128, .f32⟩ : BufTy).Contents (Elt F) → (⟨S1x128, .f32⟩ : BufTy).Contents (Elt F)),
    unary main_v17 main_v18 (broadcastInDim S8192x128 ![0, 1] bcast_S1x128_S8192x128_0_1 : (⟨S1x128, .f32⟩ : BufTy).Contents (Elt F) → (⟨S8192x128, .f32⟩ : BufTy).Contents (Elt F)),
    binary main_v16 main_v18 main_v19 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x128, .f32⟩) main_call2_v0) (broadcastInDim S8192x128 ![] bcast_S_S8192x128),
    TRef.binary (TRef.of (T := ⟨S8192x128, .f32⟩) main_v19) (TRef.of (T := ⟨S8192x128, .f32⟩) main_call2_v0) (TRef.of (T := ⟨S8192x128, .f32⟩) main_v20) maximumf ]
/-- The references the third layer's operations write. -/
abbrev ops3_W : List (Ref sig .tc) := [main_v14, main_v15, main_v16, main_v17, main_v18, main_v19, main_call2_cst, main_call2_v0, main_v20]
theorem ops3_writes : (ops3 : List (HloOp τ sig (Elt F))).Forall fun op => op.writes ⊆ (ops3_W.map (Proc.devRef (τ := τ) .tc)).toFinset := by
  simp only [List.Forall, StableHlo.nullary_writes, StableHlo.unary_writes, StableHlo.binary_writes, Finset.singleton_subset_iff, List.mem_toFinset]
  and_intros <;> exact List.mem_map_of_mem (by decide)
/-- A reference the third layer's operations do not write holds after them what it held before. -/
theorem after_ops3_keep {r : Ref sig .tc} (h : r ∉ ops3_W) (V : Valuation τ sig (Elt F)) :
    after (ops3 : List (HloOp τ sig (Elt F))) V (Proc.devRef .tc r) = V (Proc.devRef .tc r) :=
  StableHlo.after_of_writes_sub ops3 _ ops3_writes h

/-- The fourth layer's operations, in program order. -/
abbrev ops4 : List (HloOp τ sig (Elt F)) :=
  [ binary main_arg1 main_v20 main_v21 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v20 main_v21 main_v22 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    binary main_v22 main_arg8 main_v23 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    unary main_arg9 main_v24 (broadcastInDim S1x64 ![1] bcast_S64_S1x64_1 : (⟨S64, .f32⟩ : BufTy).Contents (Elt F) → (⟨S1x64, .f32⟩ : BufTy).Contents (Elt F)),
    unary main_v24 main_v25 (broadcastInDim S8192x64 ![0, 1] bcast_S1x64_S8192x64_0_1 : (⟨S1x64, .f32⟩ : BufTy).Contents (Elt F) → (⟨S8192x64, .f32⟩ : BufTy).Contents (Elt F)),
    binary main_v23 main_v25 main_v26 (addf : (⟨S8192x64, .f32⟩ : BufTy).Contents (Elt F) → (⟨S8192x64, .f32⟩ : BufTy).Contents (Elt F) → (⟨S8192x64, .f32⟩ : BufTy).Contents (Elt F)) ]

/-- The program's operations are the four layers' operations in order. -/
theorem ops_eq : (ValueP.ops : List (HloOp τ sig (Elt F))) = ops1 ++ (ops2 ++ (ops3 ++ ops4)) := rfl

/-! ## Each layer's result buffer after its operations

  The first layer reads the arguments. Each later layer reads the previous layer's result buffer, which by
  then holds a stage of the arguments `x0`, …: the layer's result buffer then holds the next stage of them. -/

theorem after_ops1 (V : Valuation τ sig (Elt F)) :
    after (ops1 : List (HloOp τ sig (Elt F))) V (Proc.devRef .tc main_v6)
      = val_main_v6 (F := F) (V (Proc.devRef .tc main_arg0)) (V (Proc.devRef .tc main_arg1)) (V (Proc.devRef .tc main_arg2)) (V (Proc.devRef .tc main_arg3)) := by
  after_results_simp <;> rfl

theorem after_ops2 (V : Valuation τ sig (Elt F)) (x0 : (⟨S8192x256, .f32⟩ : BufTy).Contents (Elt F)) (x1 : (⟨S8192x8192, .f32⟩ : BufTy).Contents (Elt F)) (x2 : (⟨S512x128, .f32⟩ : BufTy).Contents (Elt F)) (x3 : (⟨S128, .f32⟩ : BufTy).Contents (Elt F))
    (hp : V (Proc.devRef .tc main_v6) = val_main_v6 (F := F) x0 x1 x2 x3) (ha : V (Proc.devRef .tc main_arg1) = x1) :
    after (ops2 : List (HloOp τ sig (Elt F))) V (Proc.devRef .tc main_v13)
      = val_main_v13 (F := F) x0 x1 x2 x3 (V (Proc.devRef .tc main_arg4)) (V (Proc.devRef .tc main_arg5)) := by
  after_results
  rw [hp, ha]
  rfl

theorem after_ops3 (V : Valuation τ sig (Elt F)) (x0 : (⟨S8192x256, .f32⟩ : BufTy).Contents (Elt F)) (x1 : (⟨S8192x8192, .f32⟩ : BufTy).Contents (Elt F)) (x2 : (⟨S512x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F))
    (hp : V (Proc.devRef .tc main_v13) = val_main_v13 (F := F) x0 x1 x2 x3 x4 x5) (ha : V (Proc.devRef .tc main_arg1) = x1) :
    after (ops3 : List (HloOp τ sig (Elt F))) V (Proc.devRef .tc main_v20)
      = val_main_v20 (F := F) x0 x1 x2 x3 x4 x5 (V (Proc.devRef .tc main_arg6)) (V (Proc.devRef .tc main_arg7)) := by
  after_results
  rw [hp, ha]
  rfl

theorem after_ops4 (V : Valuation τ sig (Elt F)) (x0 : (⟨S8192x256, .f32⟩ : BufTy).Contents (Elt F)) (x1 : (⟨S8192x8192, .f32⟩ : BufTy).Contents (Elt F)) (x2 : (⟨S512x128, .f32⟩ : BufTy).Contents (Elt F)) (x3 : (⟨S128, .f32⟩ : BufTy).Contents (Elt F)) (x4 : (⟨S256x128, .f32⟩ : BufTy).Contents (Elt F)) (x5 : (⟨S128, .f32⟩ : BufTy).Contents (Elt F)) (x6 : (⟨S256x128, .f32⟩ : BufTy).Contents (Elt F)) (x7 : (⟨S128, .f32⟩ : BufTy).Contents (Elt F))
    (hp : V (Proc.devRef .tc main_v20) = val_main_v20 (F := F) x0 x1 x2 x3 x4 x5 x6 x7) (ha : V (Proc.devRef .tc main_arg1) = x1) :
    after (ops4 : List (HloOp τ sig (Elt F))) V (Proc.devRef .tc main_v26)
      = val_main_v26 (F := F) x0 x1 x2 x3 x4 x5 x6 x7 (V (Proc.devRef .tc main_arg8)) (V (Proc.devRef .tc main_arg9)) := by
  after_results
  rw [hp, ha]
  rfl

/-! ## The whole line -/

/-- After the program's operations the result buffer holds the last stage of what the argument buffers held. -/
theorem after_ops (V : Valuation τ sig (Elt F)) :
    after (ValueP.ops : List (HloOp τ sig (Elt F))) V (Proc.devRef .tc main_v26) = val_main_v26 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_eq, after_append, after_append, after_append]
  -- after the first layer
  have h1 := after_ops1 V
  have a1 := after_ops1_keep (r := main_arg1) (by decide) V
  -- after the second
  have h2 := after_ops2 (after ops1 V) _ _ _ _ h1 a1
  rw [after_ops1_keep (r := main_arg4) (by decide) V, after_ops1_keep (r := main_arg5) (by decide) V] at h2
  have a2 := (after_ops2_keep (r := main_arg1) (by decide) (after ops1 V)).trans a1
  -- after the third
  have h3 := after_ops3 (after ops2 (after ops1 V)) _ _ _ _ _ _ h2 a2
  rw [after_ops2_keep (r := main_arg6) (by decide) (after ops1 V), after_ops2_keep (r := main_arg7) (by decide) (after ops1 V),
    after_ops1_keep (r := main_arg6) (by decide) V, after_ops1_keep (r := main_arg7) (by decide) V] at h3
  have a3 := (after_ops3_keep (r := main_arg1) (by decide) (after ops2 (after ops1 V))).trans a2
  -- after the fourth
  have h4 := after_ops4 (after ops3 (after ops2 (after ops1 V))) _ _ _ _ _ _ _ _ h3 a3
  rw [after_ops3_keep (r := main_arg8) (by decide) (after ops2 (after ops1 V)), after_ops3_keep (r := main_arg9) (by decide) (after ops2 (after ops1 V)),
    after_ops2_keep (r := main_arg8) (by decide) (after ops1 V), after_ops2_keep (r := main_arg9) (by decide) (after ops1 V),
    after_ops1_keep (r := main_arg8) (by decide) V, after_ops1_keep (r := main_arg9) (by decide) V] at h4
  exact h4

/-! ## The run -/

/-- From any memory with zero counters, every weakly fair execution of the reference program terminates with the
    result buffer at the specification's network of the ten arguments' launch contents, and the arguments unchanged. -/
theorem run_net (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        r.2.mem ((c.tc : Thread Cert.ReferenceIdeal.nD Cert.ReferenceIdeal.τ).loc Cert.ReferenceIdeal.main_v26)
          = Cert.Sage.net (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7))
              (m' ((c.tc : Thread Cert.ReferenceIdeal.nD Cert.ReferenceIdeal.τ).loc Cert.ReferenceIdeal.main_arg8))
              (m' ((c.tc : Thread Cert.ReferenceIdeal.nD Cert.ReferenceIdeal.τ).loc Cert.ReferenceIdeal.main_arg9))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) :=
  (θ_run (Cert.ReferenceIdeal.defs (F := Ideal)) _ _).mono (fun _ h c =>
    ⟨(h c).1.trans ((after_ops (F := Ideal) (launchContents m' c)).trans (net_eq _ _ _ _ _ _ _ _ _ _)), (h c).2⟩)
    (ValueP.run (F := Ideal) m' g')

end Cert.Sage.Ref

end
-- ==== Proof.lean ====
/-
  The certificate of a four-layer graph network: a tiled kernel against its plain matrix form.

  Each layer computes, for a feature matrix `h`, a square matrix `adj`, a weight `W` of `2f` rows and a bias `b`,
      out (i, j) = (∑ c, h (i, c) · W (c, j)  +  ∑ c, (adj · h) (i, c) · W (f + c, j))  +  b j,
  followed on the first three layers by `max · 0`. The kernel tiles `adj · h` in 8 × 8 tiles of 1024 × 1024, summing the
  eight tile products of a row of tiles into a scratch accumulator and computing the output tile at the eighth; the
  reference concatenates `h` with `adj · h` and multiplies by the whole weight. On the extended reals the two are one
  function: a sum over eight blocks of 1024 is the sum over 8192, and a sum over `2f` concatenated entries is the sum of
  its two halves. The sums are only regrouped and re-indexed, never multiplied through, and both sides apply the same
  `max · 0`; every conjunct's proof below discards the precondition, so the inputs' finiteness is never used.

  The three frames: each kernel program's run goes call by call (its proof data carry the accumulator between grid points;
  the feature matrix, which two windows of a call read, is held half by each), and the reference's run is its host
  operations in order. The idealization rewrote nothing, so nothing is owed for it.
-/
import proofs.«100139_j56126632624275_1_alg».proof.Defs
import proofs.«100139_j56126632624275_1_alg».proof.Proof.Gen.Kernel
import proofs.«100139_j56126632624275_1_alg».proof.Proof.Gen.KernelIdeal
import proofs.«100139_j56126632624275_1_alg».proof.Proof.Gen.ReferenceIdeal
import proofs.«100139_j56126632624275_1_alg».proof.Proof.Gen.Pre_finite_inputs
import proofs.«100139_j56126632624275_1_alg».proof.Proof.KB.Frame
import proofs.«100139_j56126632624275_1_alg».proof.Proof.KI.Value
import proofs.«100139_j56126632624275_1_alg».proof.Proof.RefRun
import Idealize.ShloMosaic.Adequacy
import Idealize.ShloMosaic.Init

noncomputable section

namespace Cert.Proof

open Idealize.ShloMosaic Idealize.ShloMosaic.TcCoe Idealize.SL.Sem

theorem frame_p : @Cert.frame_Kernel Cert.Kernel.Gen.facts Cert.Pre_finite_inputs.Gen.facts :=
  fun m ρ _ => Cert.Kernel.Hand.frame (F := Bits) m ρ

theorem frame_pi : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.Sage.Ref.run_net m ρ)

/-- Both idealized programs end with the network of the arguments' launch contents as their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run_value m ρ, ?_⟩
  refine (θ_run Cert.ReferenceIdeal.defs _ _).mono (fun _ h c => ⟨(h c).1.trans ?_, (h c).2⟩) (Cert.Sage.Ref.run_net m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
